-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v376)) (v1 : (c : Dev Cert.KernelIdeal.nD) → Buf (Elt Ideal) ((c.tc : Thread Cert.KernelIdeal.nD Cert.KernelIdeal.τ).loc Cert.KernelIdeal.main_v377)) (v2 : (c : Dev Cert.KernelIdeal.nD) → Buf (Elt Ideal) ((c.tc : Thread Cert.KernelIdeal.nD Cert.KernelIdeal.τ).loc Cert.KernelIdeal.main_v378)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v376) = v0 c
          ∧ r.2.mem ((c.tc : Thread Cert.KernelIdeal.nD Cert.KernelIdeal.τ).loc Cert.KernelIdeal.main_v377) = v1 c
          ∧ r.2.mem ((c.tc : Thread Cert.KernelIdeal.nD Cert.KernelIdeal.τ).loc Cert.KernelIdeal.main_v378) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v259) = v1 c
          ∧ r.2.mem ((c.tc : Thread Cert.ReferenceIdeal.nD Cert.ReferenceIdeal.τ).loc Cert.ReferenceIdeal.main_v389) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000x6 : Shape := ⟨2, ![50000, 6]⟩
abbrev S100000 : Shape := ⟨1, ![100000]⟩
abbrev S256x256 : Shape := ⟨2, ![256, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S100000x256 .f32) (main_arg1 : IVec S50000x6 32) (main_arg2 : IVec S100000 32) (main_arg3 : IVec S100000 32) (main_arg4 : FVec F S256x256 .f32) (main_arg5 : FVec F S256x256 .f32) (main_arg6 : FVec F S256x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg4
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg5
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S100000x256 : Shape := ⟨2, ![100000, 256]⟩
abbrev S50000x6 : Shape := ⟨2, ![50000, 6]⟩
abbrev S100000 : Shape := ⟨1, ![100000]⟩
abbrev S256x256 : Shape := ⟨2, ![256, 256]⟩
abbrev S100000x768 : Shape := ⟨2, ![100000, 768]⟩
abbrev S50000x1 : Shape := ⟨2, ![50000, 1]⟩
abbrev S50000 : Shape := ⟨1, ![50000]⟩
abbrev S_ : Shape := ⟨0, ![]⟩
abbrev S50000x768 : Shape := ⟨2, ![50000, 768]⟩
abbrev S100000x1 : Shape := ⟨2, ![100000, 1]⟩
abbrev S1000x768 : Shape := ⟨2, ![1000, 768]⟩
abbrev S1000x256 : Shape := ⟨2, ![1000, 256]⟩

abbrev nBuf : Space → Nat
  | .hbm => 466
  | .vmem => 45
  | .smem => 0
  | _ => 0

abbrev hbmTy0_0 (i : Nat) : BufTy := match i % 128 with
  | 0 => ⟨S100000x256, .f32⟩
  | 1 => ⟨S50000x6, .i32⟩
  | 2 => ⟨S100000, .i32⟩
  | 3 => ⟨S100000, .i32⟩
  | 4 => ⟨S256x256, .f32⟩
  | 5 => ⟨S256x256, .f32⟩
  | 6 => ⟨S256x256, .f32⟩
  | 7 => ⟨S100000x768, .f32⟩
  | 8 => ⟨S50000x1, .i32⟩
  | 9 => ⟨S50000, .i32⟩
  | 10 => ⟨S_, .i32⟩
  | 11 => ⟨S50000, .i32⟩
  | 12 => ⟨S50000, .i1⟩
  | 13 => ⟨S_, .i32⟩
  | 14 => ⟨S50000, .i32⟩
  | 15 => ⟨S50000, .i32⟩
  | 16 => ⟨S50000, .i32⟩
  | 17 => ⟨S50000x1, .i32⟩
  | 18 => ⟨S50000x768, .f32⟩
  | 19 => ⟨S50000x1, .i32⟩
  | 20 => ⟨S50000, .i32⟩
  | 21 => ⟨S_, .i32⟩
  | 22 => ⟨S50000, .i32⟩
  | 23 => ⟨S50000, .i1⟩
  | 24 => ⟨S_, .i32⟩
  | 25 => ⟨S50000, .i32⟩
  | 26 => ⟨S50000, .i32⟩
  | 27 => ⟨S50000, .i32⟩
  | 28 => ⟨S50000x1, .i32⟩
  | 29 => ⟨S50000x768, .f32⟩
  | 30 => ⟨S50000x768, .f32⟩
  | 31 => ⟨S50000x1, .i32⟩
  | 32 => ⟨S50000, .i32⟩
  | 33 => ⟨S_, .i32⟩
  | 34 => ⟨S50000, .i32⟩
  | 35 => ⟨S50000, .i1⟩
  | 36 => ⟨S_, .i32⟩
  | 37 => ⟨S50000, .i32⟩
  | 38 => ⟨S50000, .i32⟩
  | 39 => ⟨S50000, .i32⟩
  | 40 => ⟨S50000x1, .i32⟩
  | 41 => ⟨S50000x768, .f32⟩
  | 42 => ⟨S50000x768, .f32⟩
  | 43 => ⟨S50000x1, .i32⟩
  | 44 => ⟨S50000, .i32⟩
  | 45 => ⟨S_, .i32⟩
  | 46 => ⟨S50000, .i32⟩
  | 47 => ⟨S50000, .i1⟩
  | 48 => ⟨S_, .i32⟩
  | 49 => ⟨S50000, .i32⟩
  | 50 => ⟨S50000, .i32⟩
  | 51 => ⟨S50000, .i32⟩
  | 52 => ⟨S50000x1, .i32⟩
  | 53 => ⟨S50000x768, .f32⟩
  | 54 => ⟨S50000x768, .f32⟩
  | 55 => ⟨S50000x1, .i32⟩
  | 56 => ⟨S50000, .i32⟩
  | 57 => ⟨S_, .i32⟩
  | 58 => ⟨S50000, .i32⟩
  | 59 => ⟨S50000, .i1⟩
  | 60 => ⟨S_, .i32⟩
  | 61 => ⟨S50000, .i32⟩
  | 62 => ⟨S50000, .i32⟩
  | 63 => ⟨S50000, .i32⟩
  | 64 => ⟨S50000x1, .i32⟩
  | 65 => ⟨S50000x768, .f32⟩
  | 66 => ⟨S50000x768, .f32⟩
  | 67 => ⟨S50000x1, .i32⟩
  | 68 => ⟨S50000, .i32⟩
  | 69 => ⟨S_, .i32⟩
  | 70 => ⟨S50000, .i32⟩
  | 71 => ⟨S50000, .i1⟩
  | 72 => ⟨S_, .i32⟩
  | 73 => ⟨S50000, .i32⟩
  | 74 => ⟨S50000, .i32⟩
  | 75 => ⟨S50000, .i32⟩
  | 76 => ⟨S50000x1, .i32⟩
  | 77 => ⟨S50000x768, .f32⟩
  | 78 => ⟨S50000x768, .f32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x768, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x768, .f32⟩
  | 97 => ⟨S100000x768, .f32⟩
  | 98 => ⟨S100000x768, .f32⟩
  | 99 => ⟨S50000x1, .i32⟩
  | 100 => ⟨S50000, .i32⟩
  | 101 => ⟨S_, .i32⟩
  | 102 => ⟨S50000, .i32⟩
  | 103 => ⟨S50000, .i1⟩
  | 104 => ⟨S_, .i32⟩
  | 105 => ⟨S50000, .i32⟩
  | 106 => ⟨S50000, .i32⟩
  | 107 => ⟨S50000, .i32⟩
  | 108 => ⟨S50000x1, .i32⟩
  | 109 => ⟨S50000x768, .f32⟩
  | 110 => ⟨S50000x1, .i32⟩
  | 111 => ⟨S50000, .i32⟩
  | 112 => ⟨S_, .i32⟩
  | 113 => ⟨S50000, .i32⟩
  | 114 => ⟨S50000, .i1⟩
  | 115 => ⟨S_, .i32⟩
  | 116 => ⟨S50000, .i32⟩
  | 117 => ⟨S50000, .i32⟩
  | 118 => ⟨S50000, .i32⟩
  | 119 => ⟨S50000x1, .i32⟩
  | 120 => ⟨S50000x768, .f32⟩
  | 121 => ⟨S50000x768, .f32⟩
  | 122 => ⟨S50000x1, .i32⟩
  | 123 => ⟨S50000, .i32⟩
  | 124 => ⟨S_, .i32⟩
  | 125 => ⟨S50000, .i32⟩
  | 126 => ⟨S50000, .i1⟩
  | 127 => ⟨S_, .i32⟩
  | _ => ⟨S100000x256, .f32⟩

abbrev hbmTy0_1 (i : Nat) : BufTy := match i % 128 with
  | 0 => ⟨S50000, .i32⟩
  | 1 => ⟨S50000, .i32⟩
  | 2 => ⟨S50000, .i32⟩
  | 3 => ⟨S50000x1, .i32⟩
  | 4 => ⟨S50000x768, .f32⟩
  | 5 => ⟨S50000x768, .f32⟩
  | 6 => ⟨S50000x1, .i32⟩
  | 7 => ⟨S50000, .i32⟩
  | 8 => ⟨S_, .i32⟩
  | 9 => ⟨S50000, .i32⟩
  | 10 => ⟨S50000, .i1⟩
  | 11 => ⟨S_, .i32⟩
  | 12 => ⟨S50000, .i32⟩
  | 13 => ⟨S50000, .i32⟩
  | 14 => ⟨S50000, .i32⟩
  | 15 => ⟨S50000x1, .i32⟩
  | 16 => ⟨S50000x768, .f32⟩
  | 17 => ⟨S50000x768, .f32⟩
  | 18 => ⟨S50000x1, .i32⟩
  | 19 => ⟨S50000, .i32⟩
  | 20 => ⟨S_, .i32⟩
  | 21 => ⟨S50000, .i32⟩
  | 22 => ⟨S50000, .i1⟩
  | 23 => ⟨S_, .i32⟩
  | 24 => ⟨S50000, .i32⟩
  | 25 => ⟨S50000, .i32⟩
  | 26 => ⟨S50000, .i32⟩
  | 27 => ⟨S50000x1, .i32⟩
  | 28 => ⟨S50000x768, .f32⟩
  | 29 => ⟨S50000x768, .f32⟩
  | 30 => ⟨S50000x1, .i32⟩
  | 31 => ⟨S50000, .i32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x768, .f32⟩
  | 41 => ⟨S50000x768, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x768, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x768, .f32⟩
  | 60 => ⟨S100000x768, .f32⟩
  | 61 => ⟨S100000x768, .f32⟩
  | 62 => ⟨S50000x1, .i32⟩
  | 63 => ⟨S50000, .i32⟩
  | 64 => ⟨S_, .i32⟩
  | 65 => ⟨S50000, .i32⟩
  | 66 => ⟨S50000, .i1⟩
  | 67 => ⟨S_, .i32⟩
  | 68 => ⟨S50000, .i32⟩
  | 69 => ⟨S50000, .i32⟩
  | 70 => ⟨S50000, .i32⟩
  | 71 => ⟨S50000x1, .i32⟩
  | 72 => ⟨S50000x768, .f32⟩
  | 73 => ⟨S50000x1, .i32⟩
  | 74 => ⟨S50000, .i32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S50000x768, .f32⟩
  | 84 => ⟨S50000x768, .f32⟩
  | 85 => ⟨S50000x1, .i32⟩
  | 86 => ⟨S50000, .i32⟩
  | 87 => ⟨S_, .i32⟩
  | 88 => ⟨S50000, .i32⟩
  | 89 => ⟨S50000, .i1⟩
  | 90 => ⟨S_, .i32⟩
  | 91 => ⟨S50000, .i32⟩
  | 92 => ⟨S50000, .i32⟩
  | 93 => ⟨S50000, .i32⟩
  | 94 => ⟨S50000x1, .i32⟩
  | 95 => ⟨S50000x768, .f32⟩
  | 96 => ⟨S50000x768, .f32⟩
  | 97 => ⟨S50000x1, .i32⟩
  | 98 => ⟨S50000, .i32⟩
  | 99 => ⟨S_, .i32⟩
  | 100 => ⟨S50000, .i32⟩
  | 101 => ⟨S50000, .i1⟩
  | 102 => ⟨S_, .i32⟩
  | 103 => ⟨S50000, .i32⟩
  | 104 => ⟨S50000, .i32⟩
  | 105 => ⟨S50000, .i32⟩
  | 106 => ⟨S50000x1, .i32⟩
  | 107 => ⟨S50000x768, .f32⟩
  | 108 => ⟨S50000x768, .f32⟩
  | 109 => ⟨S50000x1, .i32⟩
  | 110 => ⟨S50000, .i32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x768, .f32⟩
  | 120 => ⟨S50000x768, .f32⟩
  | 121 => ⟨S50000x1, .i32⟩
  | 122 => ⟨S50000, .i32⟩
  | 123 => ⟨S_, .i32⟩
  | 124 => ⟨S50000, .i32⟩
  | 125 => ⟨S50000, .i1⟩
  | 126 => ⟨S_, .i32⟩
  | 127 => ⟨S50000, .i32⟩
  | _ => ⟨S100000x256, .f32⟩

abbrev hbmTy0_2 (i : Nat) : BufTy := match i % 128 with
  | 0 => ⟨S50000, .i32⟩
  | 1 => ⟨S50000, .i32⟩
  | 2 => ⟨S50000x1, .i32⟩
  | 3 => ⟨S50000x768, .f32⟩
  | 4 => ⟨S50000x768, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x768, .f32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S100000x768, .f32⟩
  | 23 => ⟨S100000x768, .f32⟩
  | 24 => ⟨S100000x768, .f32⟩
  | 25 => ⟨S50000x1, .i32⟩
  | 26 => ⟨S50000, .i32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000x768, .f32⟩
  | 36 => ⟨S50000x1, .i32⟩
  | 37 => ⟨S50000, .i32⟩
  | 38 => ⟨S_, .i32⟩
  | 39 => ⟨S50000, .i32⟩
  | 40 => ⟨S50000, .i1⟩
  | 41 => ⟨S_, .i32⟩
  | 42 => ⟨S50000, .i32⟩
  | 43 => ⟨S50000, .i32⟩
  | 44 => ⟨S50000, .i32⟩
  | 45 => ⟨S50000x1, .i32⟩
  | 46 => ⟨S50000x768, .f32⟩
  | 47 => ⟨S50000x768, .f32⟩
  | 48 => ⟨S50000x1, .i32⟩
  | 49 => ⟨S50000, .i32⟩
  | 50 => ⟨S_, .i32⟩
  | 51 => ⟨S50000, .i32⟩
  | 52 => ⟨S50000, .i1⟩
  | 53 => ⟨S_, .i32⟩
  | 54 => ⟨S50000, .i32⟩
  | 55 => ⟨S50000, .i32⟩
  | 56 => ⟨S50000, .i32⟩
  | 57 => ⟨S50000x1, .i32⟩
  | 58 => ⟨S50000x768, .f32⟩
  | 59 => ⟨S50000x768, .f32⟩
  | 60 => ⟨S50000x1, .i32⟩
  | 61 => ⟨S50000, .i32⟩
  | 62 => ⟨S_, .i32⟩
  | 63 => ⟨S50000, .i32⟩
  | 64 => ⟨S50000, .i1⟩
  | 65 => ⟨S_, .i32⟩
  | 66 => ⟨S50000, .i32⟩
  | 67 => ⟨S50000, .i32⟩
  | 68 => ⟨S50000, .i32⟩
  | 69 => ⟨S50000x1, .i32⟩
  | 70 => ⟨S50000x768, .f32⟩
  | 71 => ⟨S50000x768, .f32⟩
  | 72 => ⟨S50000x1, .i32⟩
  | 73 => ⟨S50000, .i32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S50000x768, .f32⟩
  | 83 => ⟨S50000x768, .f32⟩
  | 84 => ⟨S50000x1, .i32⟩
  | 85 => ⟨S50000, .i32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S50000x768, .f32⟩
  | 95 => ⟨S50000x768, .f32⟩
  | 96 => ⟨S_, .i32⟩
  | 97 => ⟨S100000, .i32⟩
  | 98 => ⟨S100000, .i1⟩
  | 99 => ⟨S_, .i32⟩
  | 100 => ⟨S100000, .i32⟩
  | 101 => ⟨S100000, .i32⟩
  | 102 => ⟨S100000, .i32⟩
  | 103 => ⟨S100000x1, .i32⟩
  | 104 => ⟨S100000x768, .f32⟩
  | 105 => ⟨S_, .i32⟩
  | 106 => ⟨S100000, .i32⟩
  | 107 => ⟨S100000, .i1⟩
  | 108 => ⟨S_, .i32⟩
  | 109 => ⟨S100000, .i32⟩
  | 110 => ⟨S100000, .i32⟩
  | 111 => ⟨S100000, .i32⟩
  | 112 => ⟨S100000x1, .i32⟩
  | 113 => ⟨S100000x768, .f32⟩
  | 114 => ⟨S100000x768, .f32⟩
  | 115 => ⟨S100000x768, .f32⟩
  | 116 => ⟨S50000x1, .i32⟩
  | 117 => ⟨S50000, .i32⟩
  | 118 => ⟨S_, .i32⟩
  | 119 => ⟨S50000, .i32⟩
  | 120 => ⟨S50000, .i1⟩
  | 121 => ⟨S_, .i32⟩
  | 122 => ⟨S50000, .i32⟩
  | 123 => ⟨S50000, .i32⟩
  | 124 => ⟨S50000, .i32⟩
  | 125 => ⟨S50000x1, .i32⟩
  | 126 => ⟨S50000x768, .f32⟩
  | 127 => ⟨S50000x1, .i32⟩
  | _ => ⟨S100000x256, .f32⟩

abbrev hbmTy0_3 (i : Nat) : BufTy := match i % 128 with
  | 0 => ⟨S50000, .i32⟩
  | 1 => ⟨S_, .i32⟩
  | 2 => ⟨S50000, .i32⟩
  | 3 => ⟨S50000, .i1⟩
  | 4 => ⟨S_, .i32⟩
  | 5 => ⟨S50000, .i32⟩
  | 6 => ⟨S50000, .i32⟩
  | 7 => ⟨S50000, .i32⟩
  | 8 => ⟨S50000x1, .i32⟩
  | 9 => ⟨S50000x768, .f32⟩
  | 10 => ⟨S50000x768, .f32⟩
  | 11 => ⟨S50000x1, .i32⟩
  | 12 => ⟨S50000, .i32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x768, .f32⟩
  | 22 => ⟨S50000x768, .f32⟩
  | 23 => ⟨S50000x1, .i32⟩
  | 24 => ⟨S50000, .i32⟩
  | 25 => ⟨S_, .i32⟩
  | 26 => ⟨S50000, .i32⟩
  | 27 => ⟨S50000, .i1⟩
  | 28 => ⟨S_, .i32⟩
  | 29 => ⟨S50000, .i32⟩
  | 30 => ⟨S50000, .i32⟩
  | 31 => ⟨S50000, .i32⟩
  | 32 => ⟨S50000x1, .i32⟩
  | 33 => ⟨S50000x768, .f32⟩
  | 34 => ⟨S50000x768, .f32⟩
  | 35 => ⟨S50000x1, .i32⟩
  | 36 => ⟨S50000, .i32⟩
  | 37 => ⟨S_, .i32⟩
  | 38 => ⟨S50000, .i32⟩
  | 39 => ⟨S50000, .i1⟩
  | 40 => ⟨S_, .i32⟩
  | 41 => ⟨S50000, .i32⟩
  | 42 => ⟨S50000, .i32⟩
  | 43 => ⟨S50000, .i32⟩
  | 44 => ⟨S50000x1, .i32⟩
  | 45 => ⟨S50000x768, .f32⟩
  | 46 => ⟨S50000x768, .f32⟩
  | 47 => ⟨S50000x1, .i32⟩
  | 48 => ⟨S50000, .i32⟩
  | 49 => ⟨S_, .i32⟩
  | 50 => ⟨S50000, .i32⟩
  | 51 => ⟨S50000, .i1⟩
  | 52 => ⟨S_, .i32⟩
  | 53 => ⟨S50000, .i32⟩
  | 54 => ⟨S50000, .i32⟩
  | 55 => ⟨S50000, .i32⟩
  | 56 => ⟨S50000x1, .i32⟩
  | 57 => ⟨S50000x768, .f32⟩
  | 58 => ⟨S50000x768, .f32⟩
  | 59 => ⟨S_, .i32⟩
  | 60 => ⟨S100000, .i32⟩
  | 61 => ⟨S100000, .i1⟩
  | 62 => ⟨S_, .i32⟩
  | 63 => ⟨S100000, .i32⟩
  | 64 => ⟨S100000, .i32⟩
  | 65 => ⟨S100000, .i32⟩
  | 66 => ⟨S100000x1, .i32⟩
  | 67 => ⟨S100000x768, .f32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000x768, .f32⟩
  | 77 => ⟨S100000x768, .f32⟩
  | 78 => ⟨S100000x768, .f32⟩
  | 79 => ⟨S100000x256, .f32⟩
  | 80 => ⟨S100000x256, .f32⟩
  | 81 => ⟨S100000x256, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | _ => ⟨S100000x256, .f32⟩

abbrev bufTy : (tb : Table) → Fin (tcTables nBuf tb) → BufTy
  | .hbm, ⟨i, _⟩ => hbmTy i
  | .local _ .vmem, ⟨0, _⟩ => ⟨S1000x768, .f32⟩
  | .local _ .vmem, ⟨1, _⟩ => ⟨S1000x768, .f32⟩
  | .local _ .vmem, ⟨2, _⟩ => ⟨S1000x768, .f32⟩
  | .local _ .vmem, ⟨3, _⟩ => ⟨S1000x768, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S1000x768, .f32⟩
  | .local _ .vmem, ⟨8, _⟩ => ⟨S1000x768, .f32⟩
  | .local _ .vmem, ⟨9, _⟩ => ⟨S1000x768, .f32⟩
  | .local _ .vmem, ⟨10, _⟩ => ⟨S1000x768, .f32⟩
  | .local _ .vmem, ⟨11, _⟩ => ⟨S1000x768, .f32⟩
  | .local _ .vmem, ⟨12, _⟩ => ⟨S1000x768, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S1000x768, .f32⟩
  | .local _ .vmem, ⟨17, _⟩ => ⟨S1000x768, .f32⟩
  | .local _ .vmem, ⟨18, _⟩ => ⟨S1000x768, .f32⟩
  | .local _ .vmem, ⟨19, _⟩ => ⟨S1000x768, .f32⟩
  | .local _ .vmem, ⟨20, _⟩ => ⟨S1000x768, .f32⟩
  | .local _ .vmem, ⟨21, _⟩ => ⟨S1000x768, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S1000x768, .f32⟩
  | .local _ .vmem, ⟨26, _⟩ => ⟨S1000x768, .f32⟩
  | .local _ .vmem, ⟨27, _⟩ => ⟨S1000x768, .f32⟩
  | .local _ .vmem, ⟨28, _⟩ => ⟨S1000x768, .f32⟩
  | .local _ .vmem, ⟨29, _⟩ => ⟨S1000x768, .f32⟩
  | .local _ .vmem, ⟨30, _⟩ => ⟨S1000x768, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S1000x768, .f32⟩
  | .local _ .vmem, ⟨35, _⟩ => ⟨S1000x768, .f32⟩
  | .local _ .vmem, ⟨36, _⟩ => ⟨S1000x768, .f32⟩
  | .local _ .vmem, ⟨37, _⟩ => ⟨S1000x768, .f32⟩
  | .local _ .vmem, ⟨38, _⟩ => ⟨S1000x768, .f32⟩
  | .local _ .vmem, ⟨39, _⟩ => ⟨S1000x768, .f32⟩
  | .local _ .vmem, ⟨40, _⟩ => ⟨S256x256, .f32⟩
  | .local _ .vmem, ⟨41, _⟩ => ⟨S256x256, .f32⟩
  | .local _ .vmem, ⟨42, _⟩ => ⟨S256x256, .f32⟩
  | .local _ .vmem, ⟨43, _⟩ => ⟨S1000x768, .f32⟩
  | .local _ .vmem, ⟨44, _⟩ => ⟨S1000x768, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_7 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_9 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_11 : Ref sig .tc := ⟨.hbm, 79, rfl⟩
abbrev main_v60 : Ref sig .tc := ⟨.hbm, 80, rfl⟩
abbrev main_v61 : Ref sig .tc := ⟨.hbm, 81, rfl⟩
abbrev main_c_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_13 : Ref sig .tc := ⟨.hbm, 88, rfl⟩
abbrev main_v67 : Ref sig .tc := ⟨.hbm, 89, rfl⟩
abbrev main_v68 : Ref sig .tc := ⟨.hbm, 90, rfl⟩
abbrev main_c_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_15 : Ref sig .tc := ⟨.hbm, 101, rfl⟩
abbrev main_v78 : Ref sig .tc := ⟨.hbm, 102, rfl⟩
abbrev main_v79 : Ref sig .tc := ⟨.hbm, 103, rfl⟩
abbrev main_c_16 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_c_17 : Ref sig .tc := ⟨.hbm, 112, rfl⟩
abbrev main_v87 : Ref sig .tc := ⟨.hbm, 113, rfl⟩
abbrev main_v88 : Ref sig .tc := ⟨.hbm, 114, rfl⟩
abbrev main_c_18 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_c_19 : Ref sig .tc := ⟨.hbm, 124, rfl⟩
abbrev main_v97 : Ref sig .tc := ⟨.hbm, 125, rfl⟩
abbrev main_v98 : Ref sig .tc := ⟨.hbm, 126, rfl⟩
abbrev main_c_20 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_c_21 : Ref sig .tc := ⟨.hbm, 136, rfl⟩
abbrev main_v107 : Ref sig .tc := ⟨.hbm, 137, rfl⟩
abbrev main_v108 : Ref sig .tc := ⟨.hbm, 138, rfl⟩
abbrev main_c_22 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_c_23 : Ref sig .tc := ⟨.hbm, 148, rfl⟩
abbrev main_v117 : Ref sig .tc := ⟨.hbm, 149, rfl⟩
abbrev main_v118 : Ref sig .tc := ⟨.hbm, 150, rfl⟩
abbrev main_c_24 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_25 : Ref sig .tc := ⟨.hbm, 160, rfl⟩
abbrev main_v127 : Ref sig .tc := ⟨.hbm, 161, rfl⟩
abbrev main_v128 : Ref sig .tc := ⟨.hbm, 162, rfl⟩
abbrev main_c_26 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_c_27 : Ref sig .tc := ⟨.hbm, 170, rfl⟩
abbrev main_v135 : Ref sig .tc := ⟨.hbm, 171, rfl⟩
abbrev main_v136 : Ref sig .tc := ⟨.hbm, 172, rfl⟩
abbrev main_c_28 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_c_29 : Ref sig .tc := ⟨.hbm, 179, rfl⟩
abbrev main_v142 : Ref sig .tc := ⟨.hbm, 180, rfl⟩
abbrev main_v143 : Ref sig .tc := ⟨.hbm, 181, rfl⟩
abbrev main_c_30 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_c_31 : Ref sig .tc := ⟨.hbm, 192, rfl⟩
abbrev main_v153 : Ref sig .tc := ⟨.hbm, 193, rfl⟩
abbrev main_v154 : Ref sig .tc := ⟨.hbm, 194, rfl⟩
abbrev main_c_32 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c_33 : Ref sig .tc := ⟨.hbm, 203, rfl⟩
abbrev main_v162 : Ref sig .tc := ⟨.hbm, 204, rfl⟩
abbrev main_v163 : Ref sig .tc := ⟨.hbm, 205, rfl⟩
abbrev main_c_34 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_c_35 : Ref sig .tc := ⟨.hbm, 215, rfl⟩
abbrev main_v172 : Ref sig .tc := ⟨.hbm, 216, rfl⟩
abbrev main_v173 : Ref sig .tc := ⟨.hbm, 217, rfl⟩
abbrev main_c_36 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_c_37 : Ref sig .tc := ⟨.hbm, 227, rfl⟩
abbrev main_v182 : Ref sig .tc := ⟨.hbm, 228, rfl⟩
abbrev main_v183 : Ref sig .tc := ⟨.hbm, 229, rfl⟩
abbrev main_c_38 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_c_39 : Ref sig .tc := ⟨.hbm, 239, rfl⟩
abbrev main_v192 : Ref sig .tc := ⟨.hbm, 240, rfl⟩
abbrev main_v193 : Ref sig .tc := ⟨.hbm, 241, rfl⟩
abbrev main_c_40 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_c_41 : Ref sig .tc := ⟨.hbm, 251, rfl⟩
abbrev main_v202 : Ref sig .tc := ⟨.hbm, 252, rfl⟩
abbrev main_v203 : Ref sig .tc := ⟨.hbm, 253, rfl⟩
abbrev main_c_42 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_c_43 : Ref sig .tc := ⟨.hbm, 261, rfl⟩
abbrev main_v210 : Ref sig .tc := ⟨.hbm, 262, rfl⟩
abbrev main_v211 : Ref sig .tc := ⟨.hbm, 263, rfl⟩
abbrev main_c_44 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_c_45 : Ref sig .tc := ⟨.hbm, 270, rfl⟩
abbrev main_v217 : Ref sig .tc := ⟨.hbm, 271, rfl⟩
abbrev main_v218 : Ref sig .tc := ⟨.hbm, 272, rfl⟩
abbrev main_c_46 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_c_47 : Ref sig .tc := ⟨.hbm, 283, rfl⟩
abbrev main_v228 : Ref sig .tc := ⟨.hbm, 284, rfl⟩
abbrev main_v229 : Ref sig .tc := ⟨.hbm, 285, rfl⟩
abbrev main_c_48 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_c_49 : Ref sig .tc := ⟨.hbm, 294, rfl⟩
abbrev main_v237 : Ref sig .tc := ⟨.hbm, 295, rfl⟩
abbrev main_v238 : Ref sig .tc := ⟨.hbm, 296, rfl⟩
abbrev main_c_50 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_c_51 : Ref sig .tc := ⟨.hbm, 306, rfl⟩
abbrev main_v247 : Ref sig .tc := ⟨.hbm, 307, rfl⟩
abbrev main_v248 : Ref sig .tc := ⟨.hbm, 308, rfl⟩
abbrev main_c_52 : Ref sig .tc := ⟨.hbm, 309, rfl⟩
abbrev main_v249 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_c_53 : Ref sig .tc := ⟨.hbm, 318, rfl⟩
abbrev main_v257 : Ref sig .tc := ⟨.hbm, 319, rfl⟩
abbrev main_v258 : Ref sig .tc := ⟨.hbm, 320, rfl⟩
abbrev main_c_54 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_c_55 : Ref sig .tc := ⟨.hbm, 330, rfl⟩
abbrev main_v267 : Ref sig .tc := ⟨.hbm, 331, rfl⟩
abbrev main_v268 : Ref sig .tc := ⟨.hbm, 332, rfl⟩
abbrev main_c_56 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_v275 : Ref sig .tc := ⟨.hbm, 340, rfl⟩
abbrev main_v276 : Ref sig .tc := ⟨.hbm, 341, rfl⟩
abbrev main_c_57 : Ref sig .tc := ⟨.hbm, 342, rfl⟩
abbrev main_v277 : Ref sig .tc := ⟨.hbm, 343, rfl⟩
abbrev main_v278 : Ref sig .tc := ⟨.hbm, 344, rfl⟩
abbrev main_c_58 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_c_59 : Ref sig .tc := ⟨.hbm, 352, rfl⟩
abbrev main_v285 : Ref sig .tc := ⟨.hbm, 353, rfl⟩
abbrev main_v286 : Ref sig .tc := ⟨.hbm, 354, rfl⟩
abbrev main_c_60 : Ref sig .tc := ⟨.hbm, 355, rfl⟩
abbrev main_v287 : Ref sig .tc := ⟨.hbm, 356, rfl⟩
abbrev main_v288 : Ref sig .tc := ⟨.hbm, 357, rfl⟩
abbrev main_v289 : Ref sig .tc := ⟨.hbm, 358, rfl⟩
abbrev main_v290 : Ref sig .tc := ⟨.hbm, 359, rfl⟩
abbrev main_v291 : Ref sig .tc := ⟨.hbm, 360, rfl⟩
abbrev main_c_61 : Ref sig .tc := ⟨.hbm, 361, rfl⟩
abbrev main_v292 : Ref sig .tc := ⟨.hbm, 362, rfl⟩
abbrev main_v293 : Ref sig .tc := ⟨.hbm, 363, rfl⟩
abbrev main_c_62 : Ref sig .tc := ⟨.hbm, 364, rfl⟩
abbrev main_v294 : Ref sig .tc := ⟨.hbm, 365, rfl⟩
abbrev main_v295 : Ref sig .tc := ⟨.hbm, 366, rfl⟩
abbrev main_v296 : Ref sig .tc := ⟨.hbm, 367, rfl⟩
abbrev main_v297 : Ref sig .tc := ⟨.hbm, 368, rfl⟩
abbrev main_v298 : Ref sig .tc := ⟨.hbm, 369, rfl⟩
abbrev main_v299 : Ref sig .tc := ⟨.hbm, 370, rfl⟩
abbrev main_v300 : Ref sig .tc := ⟨.hbm, 371, rfl⟩
abbrev main_v301 : Ref sig .tc := ⟨.hbm, 372, rfl⟩
abbrev main_v302 : Ref sig .tc := ⟨.hbm, 373, rfl⟩
abbrev main_c_63 : Ref sig .tc := ⟨.hbm, 374, rfl⟩
abbrev main_v303 : Ref sig .tc := ⟨.hbm, 375, rfl⟩
abbrev main_v304 : Ref sig .tc := ⟨.hbm, 376, rfl⟩
abbrev main_c_64 : Ref sig .tc := ⟨.hbm, 377, rfl⟩
abbrev main_v305 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩
abbrev main_v310 : Ref sig .tc := ⟨.hbm, 383, rfl⟩
abbrev main_v311 : Ref sig .tc := ⟨.hbm, 384, rfl⟩
abbrev main_c_65 : Ref sig .tc := ⟨.hbm, 385, rfl⟩
abbrev main_v312 : Ref sig .tc := ⟨.hbm, 386, rfl⟩
abbrev main_v313 : Ref sig .tc := ⟨.hbm, 387, rfl⟩
abbrev main_c_66 : Ref sig .tc := ⟨.hbm, 388, rfl⟩
abbrev main_v314 : Ref sig .tc := ⟨.hbm, 389, rfl⟩
abbrev main_v315 : Ref sig .tc := ⟨.hbm, 390, rfl⟩
abbrev main_v316 : Ref sig .tc := ⟨.hbm, 391, rfl⟩
abbrev main_v317 : Ref sig .tc := ⟨.hbm, 392, rfl⟩
abbrev main_v318 : Ref sig .tc := ⟨.hbm, 393, rfl⟩
abbrev main_v319 : Ref sig .tc := ⟨.hbm, 394, rfl⟩
abbrev main_v320 : Ref sig .tc := ⟨.hbm, 395, rfl⟩
abbrev main_v321 : Ref sig .tc := ⟨.hbm, 396, rfl⟩
abbrev main_c_67 : Ref sig .tc := ⟨.hbm, 397, rfl⟩
abbrev main_v322 : Ref sig .tc := ⟨.hbm, 398, rfl⟩
abbrev main_v323 : Ref sig .tc := ⟨.hbm, 399, rfl⟩
abbrev main_c_68 : Ref sig .tc := ⟨.hbm, 400, rfl⟩
abbrev main_v324 : Ref sig .tc := ⟨.hbm, 401, rfl⟩
abbrev main_v325 : Ref sig .tc := ⟨.hbm, 402, rfl⟩
abbrev main_v326 : Ref sig .tc := ⟨.hbm, 403, rfl⟩
abbrev main_v327 : Ref sig .tc := ⟨.hbm, 404, rfl⟩
abbrev main_v328 : Ref sig .tc := ⟨.hbm, 405, rfl⟩
abbrev main_v329 : Ref sig .tc := ⟨.hbm, 406, rfl⟩
abbrev main_v330 : Ref sig .tc := ⟨.hbm, 407, rfl⟩
abbrev main_v331 : Ref sig .tc := ⟨.hbm, 408, rfl⟩
abbrev main_c_69 : Ref sig .tc := ⟨.hbm, 409, rfl⟩
abbrev main_v332 : Ref sig .tc := ⟨.hbm, 410, rfl⟩
abbrev main_v333 : Ref sig .tc := ⟨.hbm, 411, rfl⟩
abbrev main_c_70 : Ref sig .tc := ⟨.hbm, 412, rfl⟩
abbrev main_v334 : Ref sig .tc := ⟨.hbm, 413, rfl⟩
abbrev main_v335 : Ref sig .tc := ⟨.hbm, 414, rfl⟩
abbrev main_v336 : Ref sig .tc := ⟨.hbm, 415, rfl⟩
abbrev main_v337 : Ref sig .tc := ⟨.hbm, 416, rfl⟩
abbrev main_v338 : Ref sig .tc := ⟨.hbm, 417, rfl⟩
abbrev main_v339 : Ref sig .tc := ⟨.hbm, 418, rfl⟩
abbrev main_v340 : Ref sig .tc := ⟨.hbm, 419, rfl⟩
abbrev main_v341 : Ref sig .tc := ⟨.hbm, 420, rfl⟩
abbrev main_c_71 : Ref sig .tc := ⟨.hbm, 421, rfl⟩
abbrev main_v342 : Ref sig .tc := ⟨.hbm, 422, rfl⟩
abbrev main_v343 : Ref sig .tc := ⟨.hbm, 423, rfl⟩
abbrev main_c_72 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_v348 : Ref sig .tc := ⟨.hbm, 429, rfl⟩
abbrev main_v349 : Ref sig .tc := ⟨.hbm, 430, rfl⟩
abbrev main_v350 : Ref sig .tc := ⟨.hbm, 431, rfl⟩
abbrev main_v351 : Ref sig .tc := ⟨.hbm, 432, rfl⟩
abbrev main_c_73 : Ref sig .tc := ⟨.hbm, 433, rfl⟩
abbrev main_v352 : Ref sig .tc := ⟨.hbm, 434, rfl⟩
abbrev main_v353 : Ref sig .tc := ⟨.hbm, 435, rfl⟩
abbrev main_c_74 : Ref sig .tc := ⟨.hbm, 436, rfl⟩
abbrev main_v354 : Ref sig .tc := ⟨.hbm, 437, rfl⟩
abbrev main_v355 : Ref sig .tc := ⟨.hbm, 438, rfl⟩
abbrev main_v356 : Ref sig .tc := ⟨.hbm, 439, rfl⟩
abbrev main_v357 : Ref sig .tc := ⟨.hbm, 440, rfl⟩
abbrev main_v358 : Ref sig .tc := ⟨.hbm, 441, rfl⟩
abbrev main_v359 : Ref sig .tc := ⟨.hbm, 442, rfl⟩
abbrev main_c_75 : Ref sig .tc := ⟨.hbm, 443, rfl⟩
abbrev main_v360 : Ref sig .tc := ⟨.hbm, 444, rfl⟩
abbrev main_v361 : Ref sig .tc := ⟨.hbm, 445, rfl⟩
abbrev main_c_76 : Ref sig .tc := ⟨.hbm, 446, rfl⟩
abbrev main_v362 : Ref sig .tc := ⟨.hbm, 447, rfl⟩
abbrev main_v363 : Ref sig .tc := ⟨.hbm, 448, rfl⟩
abbrev main_v364 : Ref sig .tc := ⟨.hbm, 449, rfl⟩
abbrev main_v365 : Ref sig .tc := ⟨.hbm, 450, rfl⟩
abbrev main_v366 : Ref sig .tc := ⟨.hbm, 451, rfl⟩
abbrev main_c_77 : Ref sig .tc := ⟨.hbm, 452, rfl⟩
abbrev main_v367 : Ref sig .tc := ⟨.hbm, 453, rfl⟩
abbrev main_v368 : Ref sig .tc := ⟨.hbm, 454, rfl⟩
abbrev main_c_78 : Ref sig .tc := ⟨.hbm, 455, rfl⟩
abbrev main_v369 : Ref sig .tc := ⟨.hbm, 456, rfl⟩
abbrev main_v370 : Ref sig .tc := ⟨.hbm, 457, rfl⟩
abbrev main_v371 : Ref sig .tc := ⟨.hbm, 458, rfl⟩
abbrev main_v372 : Ref sig .tc := ⟨.hbm, 459, rfl⟩
abbrev main_v373 : Ref sig .tc := ⟨.hbm, 460, rfl⟩
abbrev main_v374 : Ref sig .tc := ⟨.hbm, 461, rfl⟩
abbrev main_v375 : Ref sig .tc := ⟨.hbm, 462, rfl⟩
abbrev main_v376 : Ref sig .tc := ⟨.hbm, 463, rfl⟩
abbrev main_v377 : Ref sig .tc := ⟨.hbm, 464, rfl⟩
abbrev main_v378 : Ref sig .tc := ⟨.hbm, 465, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1000x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1000x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1000x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1000x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1000x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S1000x768 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  concatenates_S100000x256_S100000x256_S100000x256_S100000x768_d1 : Shape.Concatenates [S100000x256, S100000x256, S100000x256] S100000x768 1
  slices_S50000x6_S50000x1_0_0 : S50000x6.Slices ![0, 0] S50000x1
  shapeCasts_S50000x1_S50000 : S50000x1.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S50000x6_S50000x1_0_1 : S50000x6.Slices ![0, 1] S50000x1
  slices_S50000x6_S50000x1_0_2 : S50000x6.Slices ![0, 2] S50000x1
  slices_S50000x6_S50000x1_0_3 : S50000x6.Slices ![0, 3] S50000x1
  slices_S50000x6_S50000x1_0_4 : S50000x6.Slices ![0, 4] S50000x1
  slices_S50000x6_S50000x1_0_5 : S50000x6.Slices ![0, 5] S50000x1
  bcast_S_S100000 : S_.BroadcastsInDim S100000 (![] : Fin 0 → Fin S100000.rank)
  bcast_S100000_S100000x1_0 : S100000.BroadcastsInDim S100000x1 (![0] : Fin 1 → Fin S100000x1.rank)
  inb_S1000x768_S1000x768_0_0 : ∀ a, (![0, 0] : Fin 2 → Nat) a + S1000x768.size a ≤ S1000x768.size a
  h_S1000x768 : 0 < S1000x768.numel
  shapeCasts_S1000x768_S1000x768 : S1000x768.ShapeCasts S1000x768
  slices_S1000x768_o0_0_S1000x256 : S1000x768.Slices ![0, 0] S1000x256
  bitsLt_bf16_f32 : FTy.bits .bf16 < FTy.bits .f32
  slices_S1000x768_o0_256_S1000x256 : S1000x768.Slices ![0, 256] S1000x256
  slices_S1000x768_o0_512_S1000x256 : S1000x768.Slices ![0, 512] S1000x256
  inb_S256x256_S256x256_0_0 : ∀ a, (![0, 0] : Fin 2 → Nat) a + S256x256.size a ≤ S256x256.size a
  h_S256x256 : 0 < S256x256.numel
  inb_S1000x768_S1000x256_0_0 : ∀ a, (![0, 0] : Fin 2 → Nat) a + S1000x256.size a ≤ S1000x768.size a
  h_S1000x256 : 0 < S1000x256.numel
  inb_S1000x768_S1000x256_0_256 : ∀ a, (![0, 256] : Fin 2 → Nat) a + S1000x256.size a ≤ S1000x768.size a
  inb_S1000x768_S1000x256_0_512 : ∀ a, (![0, 512] : Fin 2 → Nat) a + S1000x256.size a ≤ S1000x768.size a
  slices_S100000x768_S100000x256_0_0 : S100000x768.Slices ![0, 0] S100000x256
  slices_S100000x768_S100000x256_0_256 : S100000x768.Slices ![0, 256] S100000x256
  slices_S100000x768_S100000x256_0_512 : S100000x768.Slices ![0, 512] S100000x256
  gather_S100000x768_S50000x1_S50000x768_1_0_n_n_0_1_1768_wf : GatherDims.WF S100000x768 S50000x1 S50000x768 [1] [0] [] [0] [] 1 ![1, 768]
  gather_S50000x768_S100000x1_S100000x768_1_0_n_n_0_1_1768_wf : GatherDims.WF S50000x768 S100000x1 S100000x768 [1] [0] [] [0] [] 1 ![1, 768]
  gather_S100000x768_S100000x1_S100000x768_1_0_n_n_0_1_1768_wf : GatherDims.WF S100000x768 S100000x1 S100000x768 [1] [0] [] [0] [] 1 ![1, 768]
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x768.size a ≤ S100000x768.size a
  hwx0_0 : ∀ i : grid0.Coords, EltTy.bits .f32 = 32 ∨ (Rect.block (s := S100000x768) S1000x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S100000x768.size a
  hwx0_1 : ∀ i : grid0.Coords, EltTy.bits .f32 = 32 ∨ (Rect.block (s := S100000x768) S1000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1000x768.size a ≤ S100000x768.size a
  hwx0_5 : ∀ i : grid0.Coords, EltTy.bits .f32 = 32 ∨ (Rect.block (s := S100000x768) S1000x768.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x768.size a ≤ S100000x768.size a
  hwx1_0 : ∀ i : grid1.Coords, EltTy.bits .f32 = 32 ∨ (Rect.block (s := S100000x768) S1000x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x768.size a ≤ S100000x768.size a
  hwx1_1 : ∀ i : grid1.Coords, EltTy.bits .f32 = 32 ∨ (Rect.block (s := S100000x768) S1000x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x768.size a ≤ S100000x768.size a
  hwx1_5 : ∀ i : grid1.Coords, EltTy.bits .f32 = 32 ∨ (Rect.block (s := S100000x768) S1000x768.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x768.size a ≤ S100000x768.size a
  hwx2_0 : ∀ i : grid2.Coords, EltTy.bits .f32 = 32 ∨ (Rect.block (s := S100000x768) S1000x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1000x768.size a ≤ S100000x768.size a
  hwx2_1 : ∀ i : grid2.Coords, EltTy.bits .f32 = 32 ∨ (Rect.block (s := S100000x768) S1000x768.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1000x768.size a ≤ S100000x768.size a
  hwx2_5 : ∀ i : grid2.Coords, EltTy.bits .f32 = 32 ∨ (Rect.block (s := S100000x768) S1000x768.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x768.size a ≤ S100000x768.size a
  hwx3_0 : ∀ i : grid3.Coords, EltTy.bits .f32 = 32 ∨ (Rect.block (s := S100000x768) S1000x768.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1000x768.size a ≤ S100000x768.size a
  hwx3_1 : ∀ i : grid3.Coords, EltTy.bits .f32 = 32 ∨ (Rect.block (s := S100000x768) S1000x768.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x256.size a ≤ S256x256.size a
  hwx3_4 : ∀ i : grid3.Coords, EltTy.bits .f32 = 32 ∨ (Rect.block (s := S256x256) S256x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1000x768.size a ≤ S100000x768.size a
  hwx3_5 : ∀ i : grid3.Coords, EltTy.bits .f32 = 32 ∨ (Rect.block (s := S100000x768) S1000x768.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x768.size a ≤ S100000x768.size a
  hwx4_0 : ∀ i : grid4.Coords, EltTy.bits .f32 = 32 ∨ (Rect.block (s := S100000x768) S1000x768.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1000x768.size a ≤ S100000x768.size a
  hwx4_1 : ∀ i : grid4.Coords, EltTy.bits .f32 = 32 ∨ (Rect.block (s := S100000x768) S1000x768.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x256.size a ≤ S256x256.size a
  hwx4_2 : ∀ i : grid4.Coords, EltTy.bits .f32 = 32 ∨ (Rect.block (s := S256x256) S256x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x256.size a ≤ S256x256.size a
  hwx4_4 : ∀ i : grid4.Coords, EltTy.bits .f32 = 32 ∨ (Rect.block (s := S256x256) S256x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1000x768.size a ≤ S100000x768.size a
  hwx4_5 : ∀ i : grid4.Coords, EltTy.bits .f32 = 32 ∨ (Rect.block (s := S100000x768) S1000x768.size (cc4_transform_5 i) (hinb4_5 i)).WholeWords (EltTy.packing .f32)

variable [Facts₀]

def gather_S100000x768_S50000x1_S50000x768_1_0_n_n_0_1_1768 : GatherDims S100000x768 S50000x1 S50000x768 where
  offsetDims := [1]
  collapsedSliceDims := [0]
  operandBatchingDims := []
  startIndicesBatchingDims := []
  startIndexMap := [0]
  indexVectorDim := 1
  sliceSizes := ![1, 768]
  wf := gather_S100000x768_S50000x1_S50000x768_1_0_n_n_0_1_1768_wf
def gather_S50000x768_S100000x1_S100000x768_1_0_n_n_0_1_1768 : GatherDims S50000x768 S100000x1 S100000x768 where
  offsetDims := [1]
  collapsedSliceDims := [0]
  operandBatchingDims := []
  startIndicesBatchingDims := []
  startIndexMap := [0]
  indexVectorDim := 1
  sliceSizes := ![1, 768]
  wf := gather_S50000x768_S100000x1_S100000x768_1_0_n_n_0_1_1768_wf
def gather_S100000x768_S100000x1_S100000x768_1_0_n_n_0_1_1768 : GatherDims S100000x768 S100000x1 S100000x768 where
  offsetDims := [1]
  collapsedSliceDims := [0]
  operandBatchingDims := []
  startIndicesBatchingDims := []
  startIndexMap := [0]
  indexVectorDim := 1
  sliceSizes := ![1, 768]
  wf := gather_S100000x768_S100000x1_S100000x768_1_0_n_n_0_1_1768_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v74) S1000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v75) S1000x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v149) S1000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1000x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v150) S1000x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v224) S1000x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1000x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v225) S1000x768.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v299) S1000x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1000x768.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S256x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v300) S1000x768.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v374) S1000x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v0) S1000x768.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S256x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg6) S256x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v375) S1000x768.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x256 : Shape := ⟨2, ![100000, 256]⟩
abbrev S50000x6 : Shape := ⟨2, ![50000, 6]⟩
abbrev S100000 : Shape := ⟨1, ![100000]⟩
abbrev S256x256 : Shape := ⟨2, ![256, 256]⟩
abbrev S_ : Shape := ⟨0, ![]⟩
abbrev S50000x6x1 : Shape := ⟨3, ![50000, 6, 1]⟩
abbrev S50000x6x256 : Shape := ⟨3, ![50000, 6, 256]⟩
abbrev S50000x256 : Shape := ⟨2, ![50000, 256]⟩
abbrev S100000x1 : Shape := ⟨2, ![100000, 1]⟩

abbrev nBuf : Space → Nat
  | .hbm => 532
  | .vmem => 0
  | .smem => 0
  | _ => 0

abbrev hbmTy0_0 (i : Nat) : BufTy := match i % 128 with
  | 0 => ⟨S100000x256, .f32⟩
  | 1 => ⟨S50000x6, .i32⟩
  | 2 => ⟨S100000, .i32⟩
  | 3 => ⟨S100000, .i32⟩
  | 4 => ⟨S256x256, .f32⟩
  | 5 => ⟨S256x256, .f32⟩
  | 6 => ⟨S256x256, .f32⟩
  | 7 => ⟨S_, .i32⟩
  | 8 => ⟨S50000x6, .i32⟩
  | 9 => ⟨S50000x6, .i1⟩
  | 10 => ⟨S_, .i32⟩
  | 11 => ⟨S50000x6, .i32⟩
  | 12 => ⟨S50000x6, .i32⟩
  | 13 => ⟨S50000x6, .i32⟩
  | 14 => ⟨S50000x6x1, .i32⟩
  | 15 => ⟨S50000x6x256, .f32⟩
  | 16 => ⟨S_, .f32⟩
  | 17 => ⟨S50000x256, .f32⟩
  | 18 => ⟨S_, .i32⟩
  | 19 => ⟨S100000, .i32⟩
  | 20 => ⟨S100000, .i1⟩
  | 21 => ⟨S_, .i32⟩
  | 22 => ⟨S100000, .i32⟩
  | 23 => ⟨S100000, .i32⟩
  | 24 => ⟨S100000, .i32⟩
  | 25 => ⟨S100000x1, .i32⟩
  | 26 => ⟨S100000x256, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x256, .f32⟩
  | 36 => ⟨S100000x256, .f32⟩
  | 37 => ⟨S100000x256, .f32⟩
  | 38 => ⟨S100000x256, .f32⟩
  | 39 => ⟨S_, .f32⟩
  | 40 => ⟨S100000x256, .f32⟩
  | 41 => ⟨S100000x256, .f32⟩
  | 42 => ⟨S_, .i32⟩
  | 43 => ⟨S50000x6, .i32⟩
  | 44 => ⟨S50000x6, .i1⟩
  | 45 => ⟨S_, .i32⟩
  | 46 => ⟨S50000x6, .i32⟩
  | 47 => ⟨S50000x6, .i32⟩
  | 48 => ⟨S50000x6, .i32⟩
  | 49 => ⟨S50000x6x1, .i32⟩
  | 50 => ⟨S50000x6x256, .f32⟩
  | 51 => ⟨S_, .f32⟩
  | 52 => ⟨S50000x256, .f32⟩
  | 53 => ⟨S_, .i32⟩
  | 54 => ⟨S100000, .i32⟩
  | 55 => ⟨S100000, .i1⟩
  | 56 => ⟨S_, .i32⟩
  | 57 => ⟨S100000, .i32⟩
  | 58 => ⟨S100000, .i32⟩
  | 59 => ⟨S100000, .i32⟩
  | 60 => ⟨S100000x1, .i32⟩
  | 61 => ⟨S100000x256, .f32⟩
  | 62 => ⟨S_, .i32⟩
  | 63 => ⟨S100000, .i32⟩
  | 64 => ⟨S100000, .i1⟩
  | 65 => ⟨S_, .i32⟩
  | 66 => ⟨S100000, .i32⟩
  | 67 => ⟨S100000, .i32⟩
  | 68 => ⟨S100000, .i32⟩
  | 69 => ⟨S100000x1, .i32⟩
  | 70 => ⟨S100000x256, .f32⟩
  | 71 => ⟨S100000x256, .f32⟩
  | 72 => ⟨S100000x256, .f32⟩
  | 73 => ⟨S100000x256, .f32⟩
  | 74 => ⟨S_, .f32⟩
  | 75 => ⟨S100000x256, .f32⟩
  | 76 => ⟨S100000x256, .f32⟩
  | 77 => ⟨S_, .i32⟩
  | 78 => ⟨S50000x6, .i32⟩
  | 79 => ⟨S50000x6, .i1⟩
  | 80 => ⟨S_, .i32⟩
  | 81 => ⟨S50000x6, .i32⟩
  | 82 => ⟨S50000x6, .i32⟩
  | 83 => ⟨S50000x6, .i32⟩
  | 84 => ⟨S50000x6x1, .i32⟩
  | 85 => ⟨S50000x6x256, .f32⟩
  | 86 => ⟨S_, .f32⟩
  | 87 => ⟨S50000x256, .f32⟩
  | 88 => ⟨S_, .i32⟩
  | 89 => ⟨S100000, .i32⟩
  | 90 => ⟨S100000, .i1⟩
  | 91 => ⟨S_, .i32⟩
  | 92 => ⟨S100000, .i32⟩
  | 93 => ⟨S100000, .i32⟩
  | 94 => ⟨S100000, .i32⟩
  | 95 => ⟨S100000x1, .i32⟩
  | 96 => ⟨S100000x256, .f32⟩
  | 97 => ⟨S_, .i32⟩
  | 98 => ⟨S100000, .i32⟩
  | 99 => ⟨S100000, .i1⟩
  | 100 => ⟨S_, .i32⟩
  | 101 => ⟨S100000, .i32⟩
  | 102 => ⟨S100000, .i32⟩
  | 103 => ⟨S100000, .i32⟩
  | 104 => ⟨S100000x1, .i32⟩
  | 105 => ⟨S100000x256, .f32⟩
  | 106 => ⟨S100000x256, .f32⟩
  | 107 => ⟨S100000x256, .f32⟩
  | 108 => ⟨S100000x256, .f32⟩
  | 109 => ⟨S_, .f32⟩
  | 110 => ⟨S100000x256, .f32⟩
  | 111 => ⟨S100000x256, .f32⟩
  | 112 => ⟨S_, .i32⟩
  | 113 => ⟨S50000x6, .i32⟩
  | 114 => ⟨S50000x6, .i1⟩
  | 115 => ⟨S_, .i32⟩
  | 116 => ⟨S50000x6, .i32⟩
  | 117 => ⟨S50000x6, .i32⟩
  | 118 => ⟨S50000x6, .i32⟩
  | 119 => ⟨S50000x6x1, .i32⟩
  | 120 => ⟨S50000x6x256, .f32⟩
  | 121 => ⟨S_, .f32⟩
  | 122 => ⟨S50000x256, .f32⟩
  | 123 => ⟨S_, .i32⟩
  | 124 => ⟨S100000, .i32⟩
  | 125 => ⟨S100000, .i1⟩
  | 126 => ⟨S_, .i32⟩
  | 127 => ⟨S100000, .i32⟩
  | _ => ⟨S100000x256, .f32⟩

abbrev hbmTy0_1 (i : Nat) : BufTy := match i % 128 with
  | 0 => ⟨S100000, .i32⟩
  | 1 => ⟨S100000, .i32⟩
  | 2 => ⟨S100000x1, .i32⟩
  | 3 => ⟨S100000x256, .f32⟩
  | 4 => ⟨S_, .i32⟩
  | 5 => ⟨S100000, .i32⟩
  | 6 => ⟨S100000, .i1⟩
  | 7 => ⟨S_, .i32⟩
  | 8 => ⟨S100000, .i32⟩
  | 9 => ⟨S100000, .i32⟩
  | 10 => ⟨S100000, .i32⟩
  | 11 => ⟨S100000x1, .i32⟩
  | 12 => ⟨S100000x256, .f32⟩
  | 13 => ⟨S100000x256, .f32⟩
  | 14 => ⟨S100000x256, .f32⟩
  | 15 => ⟨S100000x256, .f32⟩
  | 16 => ⟨S_, .f32⟩
  | 17 => ⟨S100000x256, .f32⟩
  | 18 => ⟨S100000x256, .f32⟩
  | 19 => ⟨S_, .i32⟩
  | 20 => ⟨S50000x6, .i32⟩
  | 21 => ⟨S50000x6, .i1⟩
  | 22 => ⟨S_, .i32⟩
  | 23 => ⟨S50000x6, .i32⟩
  | 24 => ⟨S50000x6, .i32⟩
  | 25 => ⟨S50000x6, .i32⟩
  | 26 => ⟨S50000x6x1, .i32⟩
  | 27 => ⟨S50000x6x256, .f32⟩
  | 28 => ⟨S_, .f32⟩
  | 29 => ⟨S50000x256, .f32⟩
  | 30 => ⟨S_, .i32⟩
  | 31 => ⟨S100000, .i32⟩
  | 32 => ⟨S100000, .i1⟩
  | 33 => ⟨S_, .i32⟩
  | 34 => ⟨S100000, .i32⟩
  | 35 => ⟨S100000, .i32⟩
  | 36 => ⟨S100000, .i32⟩
  | 37 => ⟨S100000x1, .i32⟩
  | 38 => ⟨S100000x256, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x256, .f32⟩
  | 48 => ⟨S100000x256, .f32⟩
  | 49 => ⟨S100000x256, .f32⟩
  | 50 => ⟨S100000x256, .f32⟩
  | 51 => ⟨S_, .f32⟩
  | 52 => ⟨S100000x256, .f32⟩
  | 53 => ⟨S100000x256, .f32⟩
  | 54 => ⟨S_, .i32⟩
  | 55 => ⟨S50000x6, .i32⟩
  | 56 => ⟨S50000x6, .i1⟩
  | 57 => ⟨S_, .i32⟩
  | 58 => ⟨S50000x6, .i32⟩
  | 59 => ⟨S50000x6, .i32⟩
  | 60 => ⟨S50000x6, .i32⟩
  | 61 => ⟨S50000x6x1, .i32⟩
  | 62 => ⟨S50000x6x256, .f32⟩
  | 63 => ⟨S_, .f32⟩
  | 64 => ⟨S50000x256, .f32⟩
  | 65 => ⟨S_, .i32⟩
  | 66 => ⟨S100000, .i32⟩
  | 67 => ⟨S100000, .i1⟩
  | 68 => ⟨S_, .i32⟩
  | 69 => ⟨S100000, .i32⟩
  | 70 => ⟨S100000, .i32⟩
  | 71 => ⟨S100000, .i32⟩
  | 72 => ⟨S100000x1, .i32⟩
  | 73 => ⟨S100000x256, .f32⟩
  | 74 => ⟨S_, .i32⟩
  | 75 => ⟨S100000, .i32⟩
  | 76 => ⟨S100000, .i1⟩
  | 77 => ⟨S_, .i32⟩
  | 78 => ⟨S100000, .i32⟩
  | 79 => ⟨S100000, .i32⟩
  | 80 => ⟨S100000, .i32⟩
  | 81 => ⟨S100000x1, .i32⟩
  | 82 => ⟨S100000x256, .f32⟩
  | 83 => ⟨S100000x256, .f32⟩
  | 84 => ⟨S100000x256, .f32⟩
  | 85 => ⟨S100000x256, .f32⟩
  | 86 => ⟨S_, .f32⟩
  | 87 => ⟨S100000x256, .f32⟩
  | 88 => ⟨S100000x256, .f32⟩
  | 89 => ⟨S_, .i32⟩
  | 90 => ⟨S50000x6, .i32⟩
  | 91 => ⟨S50000x6, .i1⟩
  | 92 => ⟨S_, .i32⟩
  | 93 => ⟨S50000x6, .i32⟩
  | 94 => ⟨S50000x6, .i32⟩
  | 95 => ⟨S50000x6, .i32⟩
  | 96 => ⟨S50000x6x1, .i32⟩
  | 97 => ⟨S50000x6x256, .f32⟩
  | 98 => ⟨S_, .f32⟩
  | 99 => ⟨S50000x256, .f32⟩
  | 100 => ⟨S_, .i32⟩
  | 101 => ⟨S100000, .i32⟩
  | 102 => ⟨S100000, .i1⟩
  | 103 => ⟨S_, .i32⟩
  | 104 => ⟨S100000, .i32⟩
  | 105 => ⟨S100000, .i32⟩
  | 106 => ⟨S100000, .i32⟩
  | 107 => ⟨S100000x1, .i32⟩
  | 108 => ⟨S100000x256, .f32⟩
  | 109 => ⟨S_, .i32⟩
  | 110 => ⟨S100000, .i32⟩
  | 111 => ⟨S100000, .i1⟩
  | 112 => ⟨S_, .i32⟩
  | 113 => ⟨S100000, .i32⟩
  | 114 => ⟨S100000, .i32⟩
  | 115 => ⟨S100000, .i32⟩
  | 116 => ⟨S100000x1, .i32⟩
  | 117 => ⟨S100000x256, .f32⟩
  | 118 => ⟨S100000x256, .f32⟩
  | 119 => ⟨S100000x256, .f32⟩
  | 120 => ⟨S100000x256, .f32⟩
  | 121 => ⟨S_, .f32⟩
  | 122 => ⟨S100000x256, .f32⟩
  | 123 => ⟨S100000x256, .f32⟩
  | 124 => ⟨S_, .i32⟩
  | 125 => ⟨S50000x6, .i32⟩
  | 126 => ⟨S50000x6, .i1⟩
  | 127 => ⟨S_, .i32⟩
  | _ => ⟨S100000x256, .f32⟩

abbrev hbmTy0_2 (i : Nat) : BufTy := match i % 128 with
  | 0 => ⟨S50000x6, .i32⟩
  | 1 => ⟨S50000x6, .i32⟩
  | 2 => ⟨S50000x6, .i32⟩
  | 3 => ⟨S50000x6x1, .i32⟩
  | 4 => ⟨S50000x6x256, .f32⟩
  | 5 => ⟨S_, .f32⟩
  | 6 => ⟨S50000x256, .f32⟩
  | 7 => ⟨S_, .i32⟩
  | 8 => ⟨S100000, .i32⟩
  | 9 => ⟨S100000, .i1⟩
  | 10 => ⟨S_, .i32⟩
  | 11 => ⟨S100000, .i32⟩
  | 12 => ⟨S100000, .i32⟩
  | 13 => ⟨S100000, .i32⟩
  | 14 => ⟨S100000x1, .i32⟩
  | 15 => ⟨S100000x256, .f32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x256, .f32⟩
  | 25 => ⟨S100000x256, .f32⟩
  | 26 => ⟨S100000x256, .f32⟩
  | 27 => ⟨S100000x256, .f32⟩
  | 28 => ⟨S_, .f32⟩
  | 29 => ⟨S100000x256, .f32⟩
  | 30 => ⟨S100000x256, .f32⟩
  | 31 => ⟨S_, .i32⟩
  | 32 => ⟨S50000x6, .i32⟩
  | 33 => ⟨S50000x6, .i1⟩
  | 34 => ⟨S_, .i32⟩
  | 35 => ⟨S50000x6, .i32⟩
  | 36 => ⟨S50000x6, .i32⟩
  | 37 => ⟨S50000x6, .i32⟩
  | 38 => ⟨S50000x6x1, .i32⟩
  | 39 => ⟨S50000x6x256, .f32⟩
  | 40 => ⟨S_, .f32⟩
  | 41 => ⟨S50000x256, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000x256, .f32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x256, .f32⟩
  | 60 => ⟨S100000x256, .f32⟩
  | 61 => ⟨S100000x256, .f32⟩
  | 62 => ⟨S100000x256, .f32⟩
  | 63 => ⟨S_, .f32⟩
  | 64 => ⟨S100000x256, .f32⟩
  | 65 => ⟨S100000x256, .f32⟩
  | 66 => ⟨S_, .i32⟩
  | 67 => ⟨S50000x6, .i32⟩
  | 68 => ⟨S50000x6, .i1⟩
  | 69 => ⟨S_, .i32⟩
  | 70 => ⟨S50000x6, .i32⟩
  | 71 => ⟨S50000x6, .i32⟩
  | 72 => ⟨S50000x6, .i32⟩
  | 73 => ⟨S50000x6x1, .i32⟩
  | 74 => ⟨S50000x6x256, .f32⟩
  | 75 => ⟨S_, .f32⟩
  | 76 => ⟨S50000x256, .f32⟩
  | 77 => ⟨S_, .i32⟩
  | 78 => ⟨S100000, .i32⟩
  | 79 => ⟨S100000, .i1⟩
  | 80 => ⟨S_, .i32⟩
  | 81 => ⟨S100000, .i32⟩
  | 82 => ⟨S100000, .i32⟩
  | 83 => ⟨S100000, .i32⟩
  | 84 => ⟨S100000x1, .i32⟩
  | 85 => ⟨S100000x256, .f32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x256, .f32⟩
  | 95 => ⟨S100000x256, .f32⟩
  | 96 => ⟨S100000x256, .f32⟩
  | 97 => ⟨S100000x256, .f32⟩
  | 98 => ⟨S_, .f32⟩
  | 99 => ⟨S100000x256, .f32⟩
  | 100 => ⟨S100000x256, .f32⟩
  | 101 => ⟨S_, .i32⟩
  | 102 => ⟨S50000x6, .i32⟩
  | 103 => ⟨S50000x6, .i1⟩
  | 104 => ⟨S_, .i32⟩
  | 105 => ⟨S50000x6, .i32⟩
  | 106 => ⟨S50000x6, .i32⟩
  | 107 => ⟨S50000x6, .i32⟩
  | 108 => ⟨S50000x6x1, .i32⟩
  | 109 => ⟨S50000x6x256, .f32⟩
  | 110 => ⟨S_, .f32⟩
  | 111 => ⟨S50000x256, .f32⟩
  | 112 => ⟨S_, .i32⟩
  | 113 => ⟨S100000, .i32⟩
  | 114 => ⟨S100000, .i1⟩
  | 115 => ⟨S_, .i32⟩
  | 116 => ⟨S100000, .i32⟩
  | 117 => ⟨S100000, .i32⟩
  | 118 => ⟨S100000, .i32⟩
  | 119 => ⟨S100000x1, .i32⟩
  | 120 => ⟨S100000x256, .f32⟩
  | 121 => ⟨S_, .i32⟩
  | 122 => ⟨S100000, .i32⟩
  | 123 => ⟨S100000, .i1⟩
  | 124 => ⟨S_, .i32⟩
  | 125 => ⟨S100000, .i32⟩
  | 126 => ⟨S100000, .i32⟩
  | 127 => ⟨S100000, .i32⟩
  | _ => ⟨S100000x256, .f32⟩

abbrev hbmTy0_3 (i : Nat) : BufTy := match i % 128 with
  | 0 => ⟨S100000x1, .i32⟩
  | 1 => ⟨S100000x256, .f32⟩
  | 2 => ⟨S100000x256, .f32⟩
  | 3 => ⟨S100000x256, .f32⟩
  | 4 => ⟨S100000x256, .f32⟩
  | 5 => ⟨S_, .f32⟩
  | 6 => ⟨S100000x256, .f32⟩
  | 7 => ⟨S100000x256, .f32⟩
  | 8 => ⟨S_, .i32⟩
  | 9 => ⟨S50000x6, .i32⟩
  | 10 => ⟨S50000x6, .i1⟩
  | 11 => ⟨S_, .i32⟩
  | 12 => ⟨S50000x6, .i32⟩
  | 13 => ⟨S50000x6, .i32⟩
  | 14 => ⟨S50000x6, .i32⟩
  | 15 => ⟨S50000x6x1, .i32⟩
  | 16 => ⟨S50000x6x256, .f32⟩
  | 17 => ⟨S_, .f32⟩
  | 18 => ⟨S50000x256, .f32⟩
  | 19 => ⟨S_, .i32⟩
  | 20 => ⟨S100000, .i32⟩
  | 21 => ⟨S100000, .i1⟩
  | 22 => ⟨S_, .i32⟩
  | 23 => ⟨S100000, .i32⟩
  | 24 => ⟨S100000, .i32⟩
  | 25 => ⟨S100000, .i32⟩
  | 26 => ⟨S100000x1, .i32⟩
  | 27 => ⟨S100000x256, .f32⟩
  | 28 => ⟨S_, .i32⟩
  | 29 => ⟨S100000, .i32⟩
  | 30 => ⟨S100000, .i1⟩
  | 31 => ⟨S_, .i32⟩
  | 32 => ⟨S100000, .i32⟩
  | 33 => ⟨S100000, .i32⟩
  | 34 => ⟨S100000, .i32⟩
  | 35 => ⟨S100000x1, .i32⟩
  | 36 => ⟨S100000x256, .f32⟩
  | 37 => ⟨S100000x256, .f32⟩
  | 38 => ⟨S100000x256, .f32⟩
  | 39 => ⟨S100000x256, .f32⟩
  | 40 => ⟨S_, .f32⟩
  | 41 => ⟨S100000x256, .f32⟩
  | 42 => ⟨S100000x256, .f32⟩
  | 43 => ⟨S_, .i32⟩
  | 44 => ⟨S50000x6, .i32⟩
  | 45 => ⟨S50000x6, .i1⟩
  | 46 => ⟨S_, .i32⟩
  | 47 => ⟨S50000x6, .i32⟩
  | 48 => ⟨S50000x6, .i32⟩
  | 49 => ⟨S50000x6, .i32⟩
  | 50 => ⟨S50000x6x1, .i32⟩
  | 51 => ⟨S50000x6x256, .f32⟩
  | 52 => ⟨S_, .f32⟩
  | 53 => ⟨S50000x256, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x256, .f32⟩
  | 63 => ⟨S_, .i32⟩
  | 64 => ⟨S100000, .i32⟩
  | 65 => ⟨S100000, .i1⟩
  | 66 => ⟨S_, .i32⟩
  | 67 => ⟨S100000, .i32⟩
  | 68 => ⟨S100000, .i32⟩
  | 69 => ⟨S100000, .i32⟩
  | 70 => ⟨S100000x1, .i32⟩
  | 71 => ⟨S100000x256, .f32⟩
  | 72 => ⟨S100000x256, .f32⟩
  | 73 => ⟨S100000x256, .f32⟩
  | 74 => ⟨S100000x256, .f32⟩
  | 75 => ⟨S_, .f32⟩
  | 76 => ⟨S100000x256, .f32⟩
  | 77 => ⟨S100000x256, .f32⟩
  | 78 => ⟨S_, .i32⟩
  | 79 => ⟨S50000x6, .i32⟩
  | 80 => ⟨S50000x6, .i1⟩
  | 81 => ⟨S_, .i32⟩
  | 82 => ⟨S50000x6, .i32⟩
  | 83 => ⟨S50000x6, .i32⟩
  | 84 => ⟨S50000x6, .i32⟩
  | 85 => ⟨S50000x6x1, .i32⟩
  | 86 => ⟨S50000x6x256, .f32⟩
  | 87 => ⟨S_, .f32⟩
  | 88 => ⟨S50000x256, .f32⟩
  | 89 => ⟨S_, .i32⟩
  | 90 => ⟨S100000, .i32⟩
  | 91 => ⟨S100000, .i1⟩
  | 92 => ⟨S_, .i32⟩
  | 93 => ⟨S100000, .i32⟩
  | 94 => ⟨S100000, .i32⟩
  | 95 => ⟨S100000, .i32⟩
  | 96 => ⟨S100000x1, .i32⟩
  | 97 => ⟨S100000x256, .f32⟩
  | 98 => ⟨S_, .i32⟩
  | 99 => ⟨S100000, .i32⟩
  | 100 => ⟨S100000, .i1⟩
  | 101 => ⟨S_, .i32⟩
  | 102 => ⟨S100000, .i32⟩
  | 103 => ⟨S100000, .i32⟩
  | 104 => ⟨S100000, .i32⟩
  | 105 => ⟨S100000x1, .i32⟩
  | 106 => ⟨S100000x256, .f32⟩
  | 107 => ⟨S100000x256, .f32⟩
  | 108 => ⟨S100000x256, .f32⟩
  | 109 => ⟨S100000x256, .f32⟩
  | 110 => ⟨S_, .f32⟩
  | 111 => ⟨S100000x256, .f32⟩
  | 112 => ⟨S100000x256, .f32⟩
  | 113 => ⟨S_, .i32⟩
  | 114 => ⟨S50000x6, .i32⟩
  | 115 => ⟨S50000x6, .i1⟩
  | 116 => ⟨S_, .i32⟩
  | 117 => ⟨S50000x6, .i32⟩
  | 118 => ⟨S50000x6, .i32⟩
  | 119 => ⟨S50000x6, .i32⟩
  | 120 => ⟨S50000x6x1, .i32⟩
  | 121 => ⟨S50000x6x256, .f32⟩
  | 122 => ⟨S_, .f32⟩
  | 123 => ⟨S50000x256, .f32⟩
  | 124 => ⟨S_, .i32⟩
  | 125 => ⟨S100000, .i32⟩
  | 126 => ⟨S100000, .i1⟩
  | 127 => ⟨S_, .i32⟩
  | _ => ⟨S100000x256, .f32⟩

abbrev hbmTy0_4 (i : Nat) : BufTy := match i % 128 with
  | 0 => ⟨S100000, .i32⟩
  | 1 => ⟨S100000, .i32⟩
  | 2 => ⟨S100000, .i32⟩
  | 3 => ⟨S100000x1, .i32⟩
  | 4 => ⟨S100000x256, .f32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x256, .f32⟩
  | 14 => ⟨S100000x256, .f32⟩
  | 15 => ⟨S100000x256, .f32⟩
  | 16 => ⟨S100000x256, .f32⟩
  | 17 => ⟨S_, .f32⟩
  | 18 => ⟨S100000x256, .f32⟩
  | 19 => ⟨S100000x256, .f32⟩
  | _ => ⟨S100000x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_c_9 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_c_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_14 : Ref sig .tc := ⟨.hbm, 86, rfl⟩
abbrev main_v59 : Ref sig .tc := ⟨.hbm, 87, rfl⟩
abbrev main_c_15 : Ref sig .tc := ⟨.hbm, 88, rfl⟩
abbrev main_v60 : Ref sig .tc := ⟨.hbm, 89, rfl⟩
abbrev main_v61 : Ref sig .tc := ⟨.hbm, 90, rfl⟩
abbrev main_c_16 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_17 : Ref sig .tc := ⟨.hbm, 97, rfl⟩
abbrev main_v67 : Ref sig .tc := ⟨.hbm, 98, rfl⟩
abbrev main_v68 : Ref sig .tc := ⟨.hbm, 99, rfl⟩
abbrev main_c_18 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call2_cst : Ref sig .tc := ⟨.hbm, 109, rfl⟩
abbrev main_call2_v0 : Ref sig .tc := ⟨.hbm, 110, rfl⟩
abbrev main_v77 : Ref sig .tc := ⟨.hbm, 111, rfl⟩
abbrev main_c_19 : Ref sig .tc := ⟨.hbm, 112, rfl⟩
abbrev main_v78 : Ref sig .tc := ⟨.hbm, 113, rfl⟩
abbrev main_v79 : Ref sig .tc := ⟨.hbm, 114, rfl⟩
abbrev main_c_20 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_21 : Ref sig .tc := ⟨.hbm, 121, rfl⟩
abbrev main_v85 : Ref sig .tc := ⟨.hbm, 122, rfl⟩
abbrev main_c_22 : Ref sig .tc := ⟨.hbm, 123, rfl⟩
abbrev main_v86 : Ref sig .tc := ⟨.hbm, 124, rfl⟩
abbrev main_v87 : Ref sig .tc := ⟨.hbm, 125, rfl⟩
abbrev main_c_23 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_24 : Ref sig .tc := ⟨.hbm, 132, rfl⟩
abbrev main_v93 : Ref sig .tc := ⟨.hbm, 133, rfl⟩
abbrev main_v94 : Ref sig .tc := ⟨.hbm, 134, rfl⟩
abbrev main_c_25 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_call3_cst : Ref sig .tc := ⟨.hbm, 144, rfl⟩
abbrev main_call3_v0 : Ref sig .tc := ⟨.hbm, 145, rfl⟩
abbrev main_v103 : Ref sig .tc := ⟨.hbm, 146, rfl⟩
abbrev main_c_26 : Ref sig .tc := ⟨.hbm, 147, rfl⟩
abbrev main_v104 : Ref sig .tc := ⟨.hbm, 148, rfl⟩
abbrev main_v105 : Ref sig .tc := ⟨.hbm, 149, rfl⟩
abbrev main_c_27 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_28 : Ref sig .tc := ⟨.hbm, 156, rfl⟩
abbrev main_v111 : Ref sig .tc := ⟨.hbm, 157, rfl⟩
abbrev main_c_29 : Ref sig .tc := ⟨.hbm, 158, rfl⟩
abbrev main_v112 : Ref sig .tc := ⟨.hbm, 159, rfl⟩
abbrev main_v113 : Ref sig .tc := ⟨.hbm, 160, rfl⟩
abbrev main_c_30 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_c_31 : Ref sig .tc := ⟨.hbm, 167, rfl⟩
abbrev main_v119 : Ref sig .tc := ⟨.hbm, 168, rfl⟩
abbrev main_v120 : Ref sig .tc := ⟨.hbm, 169, rfl⟩
abbrev main_c_32 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_call4_cst : Ref sig .tc := ⟨.hbm, 179, rfl⟩
abbrev main_call4_v0 : Ref sig .tc := ⟨.hbm, 180, rfl⟩
abbrev main_v129 : Ref sig .tc := ⟨.hbm, 181, rfl⟩
abbrev main_c_33 : Ref sig .tc := ⟨.hbm, 182, rfl⟩
abbrev main_v130 : Ref sig .tc := ⟨.hbm, 183, rfl⟩
abbrev main_v131 : Ref sig .tc := ⟨.hbm, 184, rfl⟩
abbrev main_c_34 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_35 : Ref sig .tc := ⟨.hbm, 191, rfl⟩
abbrev main_v137 : Ref sig .tc := ⟨.hbm, 192, rfl⟩
abbrev main_c_36 : Ref sig .tc := ⟨.hbm, 193, rfl⟩
abbrev main_v138 : Ref sig .tc := ⟨.hbm, 194, rfl⟩
abbrev main_v139 : Ref sig .tc := ⟨.hbm, 195, rfl⟩
abbrev main_c_37 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_38 : Ref sig .tc := ⟨.hbm, 202, rfl⟩
abbrev main_v145 : Ref sig .tc := ⟨.hbm, 203, rfl⟩
abbrev main_v146 : Ref sig .tc := ⟨.hbm, 204, rfl⟩
abbrev main_c_39 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_call5_cst : Ref sig .tc := ⟨.hbm, 214, rfl⟩
abbrev main_call5_v0 : Ref sig .tc := ⟨.hbm, 215, rfl⟩
abbrev main_v155 : Ref sig .tc := ⟨.hbm, 216, rfl⟩
abbrev main_c_40 : Ref sig .tc := ⟨.hbm, 217, rfl⟩
abbrev main_v156 : Ref sig .tc := ⟨.hbm, 218, rfl⟩
abbrev main_v157 : Ref sig .tc := ⟨.hbm, 219, rfl⟩
abbrev main_c_41 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_cst_42 : Ref sig .tc := ⟨.hbm, 226, rfl⟩
abbrev main_v163 : Ref sig .tc := ⟨.hbm, 227, rfl⟩
abbrev main_c_43 : Ref sig .tc := ⟨.hbm, 228, rfl⟩
abbrev main_v164 : Ref sig .tc := ⟨.hbm, 229, rfl⟩
abbrev main_v165 : Ref sig .tc := ⟨.hbm, 230, rfl⟩
abbrev main_c_44 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_c_45 : Ref sig .tc := ⟨.hbm, 237, rfl⟩
abbrev main_v171 : Ref sig .tc := ⟨.hbm, 238, rfl⟩
abbrev main_v172 : Ref sig .tc := ⟨.hbm, 239, rfl⟩
abbrev main_c_46 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_call6_cst : Ref sig .tc := ⟨.hbm, 249, rfl⟩
abbrev main_call6_v0 : Ref sig .tc := ⟨.hbm, 250, rfl⟩
abbrev main_v181 : Ref sig .tc := ⟨.hbm, 251, rfl⟩
abbrev main_c_47 : Ref sig .tc := ⟨.hbm, 252, rfl⟩
abbrev main_v182 : Ref sig .tc := ⟨.hbm, 253, rfl⟩
abbrev main_v183 : Ref sig .tc := ⟨.hbm, 254, rfl⟩
abbrev main_c_48 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_cst_49 : Ref sig .tc := ⟨.hbm, 261, rfl⟩
abbrev main_v189 : Ref sig .tc := ⟨.hbm, 262, rfl⟩
abbrev main_c_50 : Ref sig .tc := ⟨.hbm, 263, rfl⟩
abbrev main_v190 : Ref sig .tc := ⟨.hbm, 264, rfl⟩
abbrev main_v191 : Ref sig .tc := ⟨.hbm, 265, rfl⟩
abbrev main_c_51 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_c_52 : Ref sig .tc := ⟨.hbm, 272, rfl⟩
abbrev main_v197 : Ref sig .tc := ⟨.hbm, 273, rfl⟩
abbrev main_v198 : Ref sig .tc := ⟨.hbm, 274, rfl⟩
abbrev main_c_53 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_call7_cst : Ref sig .tc := ⟨.hbm, 284, rfl⟩
abbrev main_call7_v0 : Ref sig .tc := ⟨.hbm, 285, rfl⟩
abbrev main_v207 : Ref sig .tc := ⟨.hbm, 286, rfl⟩
abbrev main_c_54 : Ref sig .tc := ⟨.hbm, 287, rfl⟩
abbrev main_v208 : Ref sig .tc := ⟨.hbm, 288, rfl⟩
abbrev main_v209 : Ref sig .tc := ⟨.hbm, 289, rfl⟩
abbrev main_c_55 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_cst_56 : Ref sig .tc := ⟨.hbm, 296, rfl⟩
abbrev main_v215 : Ref sig .tc := ⟨.hbm, 297, rfl⟩
abbrev main_c_57 : Ref sig .tc := ⟨.hbm, 298, rfl⟩
abbrev main_v216 : Ref sig .tc := ⟨.hbm, 299, rfl⟩
abbrev main_v217 : Ref sig .tc := ⟨.hbm, 300, rfl⟩
abbrev main_c_58 : Ref sig .tc := ⟨.hbm, 301, rfl⟩
abbrev main_v218 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_c_59 : Ref sig .tc := ⟨.hbm, 307, rfl⟩
abbrev main_v223 : Ref sig .tc := ⟨.hbm, 308, rfl⟩
abbrev main_v224 : Ref sig .tc := ⟨.hbm, 309, rfl⟩
abbrev main_c_60 : Ref sig .tc := ⟨.hbm, 310, rfl⟩
abbrev main_v225 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_call8_cst : Ref sig .tc := ⟨.hbm, 319, rfl⟩
abbrev main_call8_v0 : Ref sig .tc := ⟨.hbm, 320, rfl⟩
abbrev main_v233 : Ref sig .tc := ⟨.hbm, 321, rfl⟩
abbrev main_c_61 : Ref sig .tc := ⟨.hbm, 322, rfl⟩
abbrev main_v234 : Ref sig .tc := ⟨.hbm, 323, rfl⟩
abbrev main_v235 : Ref sig .tc := ⟨.hbm, 324, rfl⟩
abbrev main_c_62 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_cst_63 : Ref sig .tc := ⟨.hbm, 331, rfl⟩
abbrev main_v241 : Ref sig .tc := ⟨.hbm, 332, rfl⟩
abbrev main_c_64 : Ref sig .tc := ⟨.hbm, 333, rfl⟩
abbrev main_v242 : Ref sig .tc := ⟨.hbm, 334, rfl⟩
abbrev main_v243 : Ref sig .tc := ⟨.hbm, 335, rfl⟩
abbrev main_c_65 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩
abbrev main_v248 : Ref sig .tc := ⟨.hbm, 341, rfl⟩
abbrev main_c_66 : Ref sig .tc := ⟨.hbm, 342, rfl⟩
abbrev main_v249 : Ref sig .tc := ⟨.hbm, 343, rfl⟩
abbrev main_v250 : Ref sig .tc := ⟨.hbm, 344, rfl⟩
abbrev main_c_67 : Ref sig .tc := ⟨.hbm, 345, rfl⟩
abbrev main_v251 : Ref sig .tc := ⟨.hbm, 346, rfl⟩
abbrev main_v252 : Ref sig .tc := ⟨.hbm, 347, rfl⟩
abbrev main_v253 : Ref sig .tc := ⟨.hbm, 348, rfl⟩
abbrev main_v254 : Ref sig .tc := ⟨.hbm, 349, rfl⟩
abbrev main_v255 : Ref sig .tc := ⟨.hbm, 350, rfl⟩
abbrev main_v256 : Ref sig .tc := ⟨.hbm, 351, rfl⟩
abbrev main_v257 : Ref sig .tc := ⟨.hbm, 352, rfl⟩
abbrev main_v258 : Ref sig .tc := ⟨.hbm, 353, rfl⟩
abbrev main_call9_cst : Ref sig .tc := ⟨.hbm, 354, rfl⟩
abbrev main_call9_v0 : Ref sig .tc := ⟨.hbm, 355, rfl⟩
abbrev main_v259 : Ref sig .tc := ⟨.hbm, 356, rfl⟩
abbrev main_c_68 : Ref sig .tc := ⟨.hbm, 357, rfl⟩
abbrev main_v260 : Ref sig .tc := ⟨.hbm, 358, rfl⟩
abbrev main_v261 : Ref sig .tc := ⟨.hbm, 359, rfl⟩
abbrev main_c_69 : Ref sig .tc := ⟨.hbm, 360, rfl⟩
abbrev main_v262 : Ref sig .tc := ⟨.hbm, 361, rfl⟩
abbrev main_v263 : Ref sig .tc := ⟨.hbm, 362, rfl⟩
abbrev main_v264 : Ref sig .tc := ⟨.hbm, 363, rfl⟩
abbrev main_v265 : Ref sig .tc := ⟨.hbm, 364, rfl⟩
abbrev main_v266 : Ref sig .tc := ⟨.hbm, 365, rfl⟩
abbrev main_cst_70 : Ref sig .tc := ⟨.hbm, 366, rfl⟩
abbrev main_v267 : Ref sig .tc := ⟨.hbm, 367, rfl⟩
abbrev main_c_71 : Ref sig .tc := ⟨.hbm, 368, rfl⟩
abbrev main_v268 : Ref sig .tc := ⟨.hbm, 369, rfl⟩
abbrev main_v269 : Ref sig .tc := ⟨.hbm, 370, rfl⟩
abbrev main_c_72 : Ref sig .tc := ⟨.hbm, 371, rfl⟩
abbrev main_v270 : Ref sig .tc := ⟨.hbm, 372, rfl⟩
abbrev main_v271 : Ref sig .tc := ⟨.hbm, 373, rfl⟩
abbrev main_v272 : Ref sig .tc := ⟨.hbm, 374, rfl⟩
abbrev main_v273 : Ref sig .tc := ⟨.hbm, 375, rfl⟩
abbrev main_v274 : Ref sig .tc := ⟨.hbm, 376, rfl⟩
abbrev main_c_73 : Ref sig .tc := ⟨.hbm, 377, rfl⟩
abbrev main_v275 : Ref sig .tc := ⟨.hbm, 378, rfl⟩
abbrev main_v276 : Ref sig .tc := ⟨.hbm, 379, rfl⟩
abbrev main_c_74 : Ref sig .tc := ⟨.hbm, 380, rfl⟩
abbrev main_v277 : Ref sig .tc := ⟨.hbm, 381, rfl⟩
abbrev main_v278 : Ref sig .tc := ⟨.hbm, 382, rfl⟩
abbrev main_v279 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_call10_cst : Ref sig .tc := ⟨.hbm, 389, rfl⟩
abbrev main_call10_v0 : Ref sig .tc := ⟨.hbm, 390, rfl⟩
abbrev main_v285 : Ref sig .tc := ⟨.hbm, 391, rfl⟩
abbrev main_c_75 : Ref sig .tc := ⟨.hbm, 392, rfl⟩
abbrev main_v286 : Ref sig .tc := ⟨.hbm, 393, rfl⟩
abbrev main_v287 : Ref sig .tc := ⟨.hbm, 394, rfl⟩
abbrev main_c_76 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_cst_77 : Ref sig .tc := ⟨.hbm, 401, rfl⟩
abbrev main_v293 : Ref sig .tc := ⟨.hbm, 402, rfl⟩
abbrev main_c_78 : Ref sig .tc := ⟨.hbm, 403, rfl⟩
abbrev main_v294 : Ref sig .tc := ⟨.hbm, 404, rfl⟩
abbrev main_v295 : Ref sig .tc := ⟨.hbm, 405, rfl⟩
abbrev main_c_79 : Ref sig .tc := ⟨.hbm, 406, rfl⟩
abbrev main_v296 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_v300 : Ref sig .tc := ⟨.hbm, 411, rfl⟩
abbrev main_c_80 : Ref sig .tc := ⟨.hbm, 412, rfl⟩
abbrev main_v301 : Ref sig .tc := ⟨.hbm, 413, rfl⟩
abbrev main_v302 : Ref sig .tc := ⟨.hbm, 414, rfl⟩
abbrev main_c_81 : Ref sig .tc := ⟨.hbm, 415, rfl⟩
abbrev main_v303 : Ref sig .tc := ⟨.hbm, 416, rfl⟩
abbrev main_v304 : Ref sig .tc := ⟨.hbm, 417, rfl⟩
abbrev main_v305 : Ref sig .tc := ⟨.hbm, 418, rfl⟩
abbrev main_v306 : Ref sig .tc := ⟨.hbm, 419, rfl⟩
abbrev main_v307 : Ref sig .tc := ⟨.hbm, 420, rfl⟩
abbrev main_v308 : Ref sig .tc := ⟨.hbm, 421, rfl⟩
abbrev main_v309 : Ref sig .tc := ⟨.hbm, 422, rfl⟩
abbrev main_v310 : Ref sig .tc := ⟨.hbm, 423, rfl⟩
abbrev main_call11_cst : Ref sig .tc := ⟨.hbm, 424, rfl⟩
abbrev main_call11_v0 : Ref sig .tc := ⟨.hbm, 425, rfl⟩
abbrev main_v311 : Ref sig .tc := ⟨.hbm, 426, rfl⟩
abbrev main_c_82 : Ref sig .tc := ⟨.hbm, 427, rfl⟩
abbrev main_v312 : Ref sig .tc := ⟨.hbm, 428, rfl⟩
abbrev main_v313 : Ref sig .tc := ⟨.hbm, 429, rfl⟩
abbrev main_c_83 : Ref sig .tc := ⟨.hbm, 430, rfl⟩
abbrev main_v314 : Ref sig .tc := ⟨.hbm, 431, rfl⟩
abbrev main_v315 : Ref sig .tc := ⟨.hbm, 432, rfl⟩
abbrev main_v316 : Ref sig .tc := ⟨.hbm, 433, rfl⟩
abbrev main_v317 : Ref sig .tc := ⟨.hbm, 434, rfl⟩
abbrev main_v318 : Ref sig .tc := ⟨.hbm, 435, rfl⟩
abbrev main_cst_84 : Ref sig .tc := ⟨.hbm, 436, rfl⟩
abbrev main_v319 : Ref sig .tc := ⟨.hbm, 437, rfl⟩
abbrev main_c_85 : Ref sig .tc := ⟨.hbm, 438, rfl⟩
abbrev main_v320 : Ref sig .tc := ⟨.hbm, 439, rfl⟩
abbrev main_v321 : Ref sig .tc := ⟨.hbm, 440, rfl⟩
abbrev main_c_86 : Ref sig .tc := ⟨.hbm, 441, rfl⟩
abbrev main_v322 : Ref sig .tc := ⟨.hbm, 442, rfl⟩
abbrev main_v323 : Ref sig .tc := ⟨.hbm, 443, rfl⟩
abbrev main_v324 : Ref sig .tc := ⟨.hbm, 444, rfl⟩
abbrev main_v325 : Ref sig .tc := ⟨.hbm, 445, rfl⟩
abbrev main_v326 : Ref sig .tc := ⟨.hbm, 446, rfl⟩
abbrev main_c_87 : Ref sig .tc := ⟨.hbm, 447, rfl⟩
abbrev main_v327 : Ref sig .tc := ⟨.hbm, 448, rfl⟩
abbrev main_v328 : Ref sig .tc := ⟨.hbm, 449, rfl⟩
abbrev main_c_88 : Ref sig .tc := ⟨.hbm, 450, rfl⟩
abbrev main_v329 : Ref sig .tc := ⟨.hbm, 451, rfl⟩
abbrev main_v330 : Ref sig .tc := ⟨.hbm, 452, rfl⟩
abbrev main_v331 : Ref sig .tc := ⟨.hbm, 453, rfl⟩
abbrev main_v332 : Ref sig .tc := ⟨.hbm, 454, rfl⟩
abbrev main_v333 : Ref sig .tc := ⟨.hbm, 455, rfl⟩
abbrev main_v334 : Ref sig .tc := ⟨.hbm, 456, rfl⟩
abbrev main_v335 : Ref sig .tc := ⟨.hbm, 457, rfl⟩
abbrev main_v336 : Ref sig .tc := ⟨.hbm, 458, rfl⟩
abbrev main_call12_cst : Ref sig .tc := ⟨.hbm, 459, rfl⟩
abbrev main_call12_v0 : Ref sig .tc := ⟨.hbm, 460, rfl⟩
abbrev main_v337 : Ref sig .tc := ⟨.hbm, 461, rfl⟩
abbrev main_c_89 : Ref sig .tc := ⟨.hbm, 462, rfl⟩
abbrev main_v338 : Ref sig .tc := ⟨.hbm, 463, rfl⟩
abbrev main_v339 : Ref sig .tc := ⟨.hbm, 464, rfl⟩
abbrev main_c_90 : Ref sig .tc := ⟨.hbm, 465, rfl⟩
abbrev main_v340 : Ref sig .tc := ⟨.hbm, 466, rfl⟩
abbrev main_v341 : Ref sig .tc := ⟨.hbm, 467, rfl⟩
abbrev main_v342 : Ref sig .tc := ⟨.hbm, 468, rfl⟩
abbrev main_v343 : Ref sig .tc := ⟨.hbm, 469, rfl⟩
abbrev main_v344 : Ref sig .tc := ⟨.hbm, 470, rfl⟩
abbrev main_cst_91 : Ref sig .tc := ⟨.hbm, 471, rfl⟩
abbrev main_v345 : Ref sig .tc := ⟨.hbm, 472, rfl⟩
abbrev main_c_92 : Ref sig .tc := ⟨.hbm, 473, rfl⟩
abbrev main_v346 : Ref sig .tc := ⟨.hbm, 474, rfl⟩
abbrev main_v347 : Ref sig .tc := ⟨.hbm, 475, rfl⟩
abbrev main_c_93 : Ref sig .tc := ⟨.hbm, 476, rfl⟩
abbrev main_v348 : Ref sig .tc := ⟨.hbm, 477, rfl⟩
abbrev main_v349 : Ref sig .tc := ⟨.hbm, 478, rfl⟩
abbrev main_v350 : Ref sig .tc := ⟨.hbm, 479, rfl⟩
abbrev main_v351 : Ref sig .tc := ⟨.hbm, 480, rfl⟩
abbrev main_v352 : Ref sig .tc := ⟨.hbm, 481, rfl⟩
abbrev main_c_94 : Ref sig .tc := ⟨.hbm, 482, rfl⟩
abbrev main_v353 : Ref sig .tc := ⟨.hbm, 483, rfl⟩
abbrev main_v354 : Ref sig .tc := ⟨.hbm, 484, rfl⟩
abbrev main_c_95 : Ref sig .tc := ⟨.hbm, 485, rfl⟩
abbrev main_v355 : Ref sig .tc := ⟨.hbm, 486, rfl⟩
abbrev main_v356 : Ref sig .tc := ⟨.hbm, 487, rfl⟩
abbrev main_v357 : Ref sig .tc := ⟨.hbm, 488, rfl⟩
abbrev main_v358 : Ref sig .tc := ⟨.hbm, 489, rfl⟩
abbrev main_v359 : Ref sig .tc := ⟨.hbm, 490, rfl⟩
abbrev main_v360 : Ref sig .tc := ⟨.hbm, 491, rfl⟩
abbrev main_v361 : Ref sig .tc := ⟨.hbm, 492, rfl⟩
abbrev main_v362 : Ref sig .tc := ⟨.hbm, 493, rfl⟩
abbrev main_call13_cst : Ref sig .tc := ⟨.hbm, 494, rfl⟩
abbrev main_call13_v0 : Ref sig .tc := ⟨.hbm, 495, rfl⟩
abbrev main_v363 : Ref sig .tc := ⟨.hbm, 496, rfl⟩
abbrev main_c_96 : Ref sig .tc := ⟨.hbm, 497, rfl⟩
abbrev main_v364 : Ref sig .tc := ⟨.hbm, 498, rfl⟩
abbrev main_v365 : Ref sig .tc := ⟨.hbm, 499, rfl⟩
abbrev main_c_97 : Ref sig .tc := ⟨.hbm, 500, rfl⟩
abbrev main_v366 : Ref sig .tc := ⟨.hbm, 501, rfl⟩
abbrev main_v367 : Ref sig .tc := ⟨.hbm, 502, rfl⟩
abbrev main_v368 : Ref sig .tc := ⟨.hbm, 503, rfl⟩
abbrev main_v369 : Ref sig .tc := ⟨.hbm, 504, rfl⟩
abbrev main_v370 : Ref sig .tc := ⟨.hbm, 505, rfl⟩
abbrev main_cst_98 : Ref sig .tc := ⟨.hbm, 506, rfl⟩
abbrev main_v371 : Ref sig .tc := ⟨.hbm, 507, rfl⟩
abbrev main_c_99 : Ref sig .tc := ⟨.hbm, 508, rfl⟩
abbrev main_v372 : Ref sig .tc := ⟨.hbm, 509, rfl⟩
abbrev main_v373 : Ref sig .tc := ⟨.hbm, 510, rfl⟩
abbrev main_c_100 : Ref sig .tc := ⟨.hbm, 511, rfl⟩
abbrev main_v374 : Ref sig .tc := ⟨.hbm, 512, rfl⟩
abbrev main_v375 : Ref sig .tc := ⟨.hbm, 513, rfl⟩
abbrev main_v376 : Ref sig .tc := ⟨.hbm, 514, rfl⟩
abbrev main_v377 : Ref sig .tc := ⟨.hbm, 515, rfl⟩
abbrev main_v378 : Ref sig .tc := ⟨.hbm, 516, rfl⟩
abbrev main_c_101 : Ref sig .tc := ⟨.hbm, 517, rfl⟩
abbrev main_v379 : Ref sig .tc := ⟨.hbm, 518, rfl⟩
abbrev main_v380 : Ref sig .tc := ⟨.hbm, 519, rfl⟩
abbrev main_c_102 : Ref sig .tc := ⟨.hbm, 520, rfl⟩
abbrev main_v381 : Ref sig .tc := ⟨.hbm, 521, rfl⟩
abbrev main_v382 : Ref sig .tc := ⟨.hbm, 522, rfl⟩
abbrev main_v383 : Ref sig .tc := ⟨.hbm, 523, rfl⟩
abbrev main_v384 : Ref sig .tc := ⟨.hbm, 524, rfl⟩
abbrev main_v385 : Ref sig .tc := ⟨.hbm, 525, rfl⟩
abbrev main_v386 : Ref sig .tc := ⟨.hbm, 526, rfl⟩
abbrev main_v387 : Ref sig .tc := ⟨.hbm, 527, rfl⟩
abbrev main_v388 : Ref sig .tc := ⟨.hbm, 528, rfl⟩
abbrev main_call14_cst : Ref sig .tc := ⟨.hbm, 529, rfl⟩
abbrev main_call14_v0 : Ref sig .tc := ⟨.hbm, 530, rfl⟩
abbrev main_v389 : Ref sig .tc := ⟨.hbm, 531, rfl⟩

abbrev nD : Nat := 1
abbrev τ : Topo := Topo.v7x

variable {F : FTy → Type} [FloatOps F]

class Facts₀ : Prop where
  bcast_S_S50000x6 : S_.BroadcastsInDim S50000x6 (![] : Fin 0 → Fin S50000x6.rank)
  bcast_S50000x6_S50000x6x1_0_1 : S50000x6.BroadcastsInDim S50000x6x1 (![0, 1] : Fin 2 → Fin S50000x6x1.rank)
  reducesTo_S50000x6x256_S50000x256_d1 : S50000x6x256.ReducesTo [1] S50000x256
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S_S100000x256 : S_.BroadcastsInDim S100000x256 (![] : Fin 0 → Fin S100000x256.rank)
  gather_S100000x256_S50000x6x1_S50000x6x256_2_0_n_n_0_2_1256_wf : GatherDims.WF S100000x256 S50000x6x1 S50000x6x256 [2] [0] [] [0] [] 2 ![1, 256]
  gather_S50000x256_S100000x1_S100000x256_1_0_n_n_0_1_1256_wf : GatherDims.WF S50000x256 S100000x1 S100000x256 [1] [0] [] [0] [] 1 ![1, 256]
  gather_S100000x256_S100000x1_S100000x256_1_0_n_n_0_1_1256_wf : GatherDims.WF S100000x256 S100000x1 S100000x256 [1] [0] [] [0] [] 1 ![1, 256]
  dot_S100000x256_S256x256_S100000x256_1_0_0_1_n_n_wf : DotDims.WF S100000x256 S256x256 S100000x256 [1] [0] [0] [1] [] []

variable [Facts₀]

def gather_S100000x256_S50000x6x1_S50000x6x256_2_0_n_n_0_2_1256 : GatherDims S100000x256 S50000x6x1 S50000x6x256 where
  offsetDims := [2]
  collapsedSliceDims := [0]
  operandBatchingDims := []
  startIndicesBatchingDims := []
  startIndexMap := [0]
  indexVectorDim := 2
  sliceSizes := ![1, 256]
  wf := gather_S100000x256_S50000x6x1_S50000x6x256_2_0_n_n_0_2_1256_wf
def gather_S50000x256_S100000x1_S100000x256_1_0_n_n_0_1_1256 : GatherDims S50000x256 S100000x1 S100000x256 where
  offsetDims := [1]
  collapsedSliceDims := [0]
  operandBatchingDims := []
  startIndicesBatchingDims := []
  startIndexMap := [0]
  indexVectorDim := 1
  sliceSizes := ![1, 256]
  wf := gather_S50000x256_S100000x1_S100000x256_1_0_n_n_0_1_1256_wf
def gather_S100000x256_S100000x1_S100000x256_1_0_n_n_0_1_1256 : GatherDims S100000x256 S100000x1 S100000x256 where
  offsetDims := [1]
  collapsedSliceDims := [0]
  operandBatchingDims := []
  startIndicesBatchingDims := []
  startIndexMap := [0]
  indexVectorDim := 1
  sliceSizes := ![1, 256]
  wf := gather_S100000x256_S100000x1_S100000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.K.Writes.lean ====
/- What each stretch of host operations of @main writes: the list of its result buffers, that every operation writes
   inside that list, and that no operation allocates a buffer. A buffer outside the list keeps its contents across the
   stretch; this is how the argument arrays are followed from the launch to the return. -/
import proofs.«177690_j24824910971087_2_alg».proof.Proof.Gen.Kernel.Launch

set_option maxRecDepth 16384

noncomputable section

namespace Cert.Kernel.Hand

open Cert.Kernel Cert.Kernel.Gen
open Idealize.ShloMosaic Idealize.ShloMosaic.TcCoe

variable {F : FTy → Type} [FloatOps F]

/-- An operation whose only written buffer is the reference y writes inside any list that holds y. -/
theorem writes_sub_of_mem {W : List (Ref sig .tc)} (y : Ref sig .tc) (op : HloOp τ sig (Elt F))
    (h : op.writes = {Proc.devRef .tc y}) (hy : y ∈ W) :
    op.writes ⊆ (W.map (Proc.devRef (τ := τ) .tc)).toFinset := by
  rw [h]
  intro b hb
  rw [Finset.mem_singleton] at hb
  subst hb
  exact List.mem_toFinset.mpr (List.mem_map.mpr ⟨y, hy, rfl⟩)

/-- The result buffers of stretch 0, in program order. -/
def writes0 : List (Ref sig .tc) :=
  [main_v0, main_v1, main_v2, main_c, main_v3, main_v4, main_c_0, main_v5, main_v6, main_v7, main_v8, main_v9, main_v10, main_v11, main_c_1, main_v12, main_v13, main_c_2, main_v14, main_v15, main_v16, main_v17, main_v18, main_v19, main_v20, main_v21, main_c_3, main_v22, main_v23, main_c_4, main_v24, main_v25, main_v26, main_v27, main_v28, main_v29, main_v30, main_v31, main_c_5, main_v32, main_v33, main_c_6, main_v34, main_v35, main_v36, main_v37, main_v38, main_v39, main_v40, main_v41, main_c_7, main_v42, main_v43, main_c_8, main_v44, main_v45, main_v46, main_v47, main_v48, main_v49, main_v50, main_v51, main_c_9, main_v52, main_v53, main_c_10, main_v54, main_v55, main_v56, main_v57, main_v58, main_v59, main_c_11, main_v60, main_v61, main_c_12, main_v62, main_v63, main_v64, main_v65, main_v66, main_c_13, main_v67, main_v68, main_c_14, main_v69, main_v70, main_v71, main_v72, main_v73, main_v74]

set_option maxHeartbeats 4000000 in
/-- Every operation of stretch 0 writes its own result buffer only, which the list holds. -/
theorem hostOps0_writes : (hostOps0 : List (HloOp τ sig (Elt F))).Forall fun op =>
    op.writes ⊆ (writes0.map (Proc.devRef (τ := τ) .tc)).toFinset :=
  ⟨writes_sub_of_mem main_v0 _ rfl (by decide),
   writes_sub_of_mem main_v1 _ rfl (by decide),
   writes_sub_of_mem main_v2 _ rfl (by decide),
   writes_sub_of_mem main_c _ rfl (by decide),
   writes_sub_of_mem main_v3 _ rfl (by decide),
   writes_sub_of_mem main_v4 _ rfl (by decide),
   writes_sub_of_mem main_c_0 _ rfl (by decide),
   writes_sub_of_mem main_v5 _ rfl (by decide),
   writes_sub_of_mem main_v6 _ rfl (by decide),
   writes_sub_of_mem main_v7 _ rfl (by decide),
   writes_sub_of_mem main_v8 _ rfl (by decide),
   writes_sub_of_mem main_v9 _ rfl (by decide),
   writes_sub_of_mem main_v10 _ rfl (by decide),
   writes_sub_of_mem main_v11 _ rfl (by decide),
   writes_sub_of_mem main_c_1 _ rfl (by decide),
   writes_sub_of_mem main_v12 _ rfl (by decide),
   writes_sub_of_mem main_v13 _ rfl (by decide),
   writes_sub_of_mem main_c_2 _ rfl (by decide),
   writes_sub_of_mem main_v14 _ rfl (by decide),
   writes_sub_of_mem main_v15 _ rfl (by decide),
   writes_sub_of_mem main_v16 _ rfl (by decide),
   writes_sub_of_mem main_v17 _ rfl (by decide),
   writes_sub_of_mem main_v18 _ rfl (by decide),
   writes_sub_of_mem main_v19 _ rfl (by decide),
   writes_sub_of_mem main_v20 _ rfl (by decide),
   writes_sub_of_mem main_v21 _ rfl (by decide),
   writes_sub_of_mem main_c_3 _ rfl (by decide),
   writes_sub_of_mem main_v22 _ rfl (by decide),
   writes_sub_of_mem main_v23 _ rfl (by decide),
   writes_sub_of_mem main_c_4 _ rfl (by decide),
   writes_sub_of_mem main_v24 _ rfl (by decide),
   writes_sub_of_mem main_v25 _ rfl (by decide),
   writes_sub_of_mem main_v26 _ rfl (by decide),
   writes_sub_of_mem main_v27 _ rfl (by decide),
   writes_sub_of_mem main_v28 _ rfl (by decide),
   writes_sub_of_mem main_v29 _ rfl (by decide),
   writes_sub_of_mem main_v30 _ rfl (by decide),
   writes_sub_of_mem main_v31 _ rfl (by decide),
   writes_sub_of_mem main_c_5 _ rfl (by decide),
   writes_sub_of_mem main_v32 _ rfl (by decide),
   writes_sub_of_mem main_v33 _ rfl (by decide),
   writes_sub_of_mem main_c_6 _ rfl (by decide),
   writes_sub_of_mem main_v34 _ rfl (by decide),
   writes_sub_of_mem main_v35 _ rfl (by decide),
   writes_sub_of_mem main_v36 _ rfl (by decide),
   writes_sub_of_mem main_v37 _ rfl (by decide),
   writes_sub_of_mem main_v38 _ rfl (by decide),
   writes_sub_of_mem main_v39 _ rfl (by decide),
   writes_sub_of_mem main_v40 _ rfl (by decide),
   writes_sub_of_mem main_v41 _ rfl (by decide),
   writes_sub_of_mem main_c_7 _ rfl (by decide),
   writes_sub_of_mem main_v42 _ rfl (by decide),
   writes_sub_of_mem main_v43 _ rfl (by decide),
   writes_sub_of_mem main_c_8 _ rfl (by decide),
   writes_sub_of_mem main_v44 _ rfl (by decide),
   writes_sub_of_mem main_v45 _ rfl (by decide),
   writes_sub_of_mem main_v46 _ rfl (by decide),
   writes_sub_of_mem main_v47 _ rfl (by decide),
   writes_sub_of_mem main_v48 _ rfl (by decide),
   writes_sub_of_mem main_v49 _ rfl (by decide),
   writes_sub_of_mem main_v50 _ rfl (by decide),
   writes_sub_of_mem main_v51 _ rfl (by decide),
   writes_sub_of_mem main_c_9 _ rfl (by decide),
   writes_sub_of_mem main_v52 _ rfl (by decide),
   writes_sub_of_mem main_v53 _ rfl (by decide),
   writes_sub_of_mem main_c_10 _ rfl (by decide),
   writes_sub_of_mem main_v54 _ rfl (by decide),
   writes_sub_of_mem main_v55 _ rfl (by decide),
   writes_sub_of_mem main_v56 _ rfl (by decide),
   writes_sub_of_mem main_v57 _ rfl (by decide),
   writes_sub_of_mem main_v58 _ rfl (by decide),
   writes_sub_of_mem main_v59 _ rfl (by decide),
   writes_sub_of_mem main_c_11 _ rfl (by decide),
   writes_sub_of_mem main_v60 _ rfl (by decide),
   writes_sub_of_mem main_v61 _ rfl (by decide),
   writes_sub_of_mem main_c_12 _ rfl (by decide),
   writes_sub_of_mem main_v62 _ rfl (by decide),
   writes_sub_of_mem main_v63 _ rfl (by decide),
   writes_sub_of_mem main_v64 _ rfl (by decide),
   writes_sub_of_mem main_v65 _ rfl (by decide),
   writes_sub_of_mem main_v66 _ rfl (by decide),
   writes_sub_of_mem main_c_13 _ rfl (by decide),
   writes_sub_of_mem main_v67 _ rfl (by decide),
   writes_sub_of_mem main_v68 _ rfl (by decide),
   writes_sub_of_mem main_c_14 _ rfl (by decide),
   writes_sub_of_mem main_v69 _ rfl (by decide),
   writes_sub_of_mem main_v70 _ rfl (by decide),
   writes_sub_of_mem main_v71 _ rfl (by decide),
   writes_sub_of_mem main_v72 _ rfl (by decide),
   writes_sub_of_mem main_v73 _ rfl (by decide),
   writes_sub_of_mem main_v74 _ rfl (by decide)⟩

set_option maxHeartbeats 4000000 in
/-- No operation of stretch 0 allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 1, in program order. -/
def writes1 : List (Ref sig .tc) :=
  [main_v76, main_v77, main_c_15, main_v78, main_v79, main_c_16, main_v80, main_v81, main_v82, main_v83, main_v84, main_v85, main_v86, main_c_17, main_v87, main_v88, main_c_18, main_v89, main_v90, main_v91, main_v92, main_v93, main_v94, main_v95, main_v96, main_c_19, main_v97, main_v98, main_c_20, main_v99, main_v100, main_v101, main_v102, main_v103, main_v104, main_v105, main_v106, main_c_21, main_v107, main_v108, main_c_22, main_v109, main_v110, main_v111, main_v112, main_v113, main_v114, main_v115, main_v116, main_c_23, main_v117, main_v118, main_c_24, main_v119, main_v120, main_v121, main_v122, main_v123, main_v124, main_v125, main_v126, main_c_25, main_v127, main_v128, main_c_26, main_v129, main_v130, main_v131, main_v132, main_v133, main_v134, main_c_27, main_v135, main_v136, main_c_28, main_v137, main_v138, main_v139, main_v140, main_v141, main_c_29, main_v142, main_v143, main_c_30, main_v144, main_v145, main_v146, main_v147, main_v148, main_v149]

set_option maxHeartbeats 4000000 in
/-- Every operation of stretch 1 writes its own result buffer only, which the list holds. -/
theorem hostOps1_writes : (hostOps1 : List (HloOp τ sig (Elt F))).Forall fun op =>
    op.writes ⊆ (writes1.map (Proc.devRef (τ := τ) .tc)).toFinset :=
  ⟨writes_sub_of_mem main_v76 _ rfl (by decide),
   writes_sub_of_mem main_v77 _ rfl (by decide),
   writes_sub_of_mem main_c_15 _ rfl (by decide),
   writes_sub_of_mem main_v78 _ rfl (by decide),
   writes_sub_of_mem main_v79 _ rfl (by decide),
   writes_sub_of_mem main_c_16 _ rfl (by decide),
   writes_sub_of_mem main_v80 _ rfl (by decide),
   writes_sub_of_mem main_v81 _ rfl (by decide),
   writes_sub_of_mem main_v82 _ rfl (by decide),
   writes_sub_of_mem main_v83 _ rfl (by decide),
   writes_sub_of_mem main_v84 _ rfl (by decide),
   writes_sub_of_mem main_v85 _ rfl (by decide),
   writes_sub_of_mem main_v86 _ rfl (by decide),
   writes_sub_of_mem main_c_17 _ rfl (by decide),
   writes_sub_of_mem main_v87 _ rfl (by decide),
   writes_sub_of_mem main_v88 _ rfl (by decide),
   writes_sub_of_mem main_c_18 _ rfl (by decide),
   writes_sub_of_mem main_v89 _ rfl (by decide),
   writes_sub_of_mem main_v90 _ rfl (by decide),
   writes_sub_of_mem main_v91 _ rfl (by decide),
   writes_sub_of_mem main_v92 _ rfl (by decide),
   writes_sub_of_mem main_v93 _ rfl (by decide),
   writes_sub_of_mem main_v94 _ rfl (by decide),
   writes_sub_of_mem main_v95 _ rfl (by decide),
   writes_sub_of_mem main_v96 _ rfl (by decide),
   writes_sub_of_mem main_c_19 _ rfl (by decide),
   writes_sub_of_mem main_v97 _ rfl (by decide),
   writes_sub_of_mem main_v98 _ rfl (by decide),
   writes_sub_of_mem main_c_20 _ rfl (by decide),
   writes_sub_of_mem main_v99 _ rfl (by decide),
   writes_sub_of_mem main_v100 _ rfl (by decide),
   writes_sub_of_mem main_v101 _ rfl (by decide),
   writes_sub_of_mem main_v102 _ rfl (by decide),
   writes_sub_of_mem main_v103 _ rfl (by decide),
   writes_sub_of_mem main_v104 _ rfl (by decide),
   writes_sub_of_mem main_v105 _ rfl (by decide),
   writes_sub_of_mem main_v106 _ rfl (by decide),
   writes_sub_of_mem main_c_21 _ rfl (by decide),
   writes_sub_of_mem main_v107 _ rfl (by decide),
   writes_sub_of_mem main_v108 _ rfl (by decide),
   writes_sub_of_mem main_c_22 _ rfl (by decide),
   writes_sub_of_mem main_v109 _ rfl (by decide),
   writes_sub_of_mem main_v110 _ rfl (by decide),
   writes_sub_of_mem main_v111 _ rfl (by decide),
   writes_sub_of_mem main_v112 _ rfl (by decide),
   writes_sub_of_mem main_v113 _ rfl (by decide),
   writes_sub_of_mem main_v114 _ rfl (by decide),
   writes_sub_of_mem main_v115 _ rfl (by decide),
   writes_sub_of_mem main_v116 _ rfl (by decide),
   writes_sub_of_mem main_c_23 _ rfl (by decide),
   writes_sub_of_mem main_v117 _ rfl (by decide),
   writes_sub_of_mem main_v118 _ rfl (by decide),
   writes_sub_of_mem main_c_24 _ rfl (by decide),
   writes_sub_of_mem main_v119 _ rfl (by decide),
   writes_sub_of_mem main_v120 _ rfl (by decide),
   writes_sub_of_mem main_v121 _ rfl (by decide),
   writes_sub_of_mem main_v122 _ rfl (by decide),
   writes_sub_of_mem main_v123 _ rfl (by decide),
   writes_sub_of_mem main_v124 _ rfl (by decide),
   writes_sub_of_mem main_v125 _ rfl (by decide),
   writes_sub_of_mem main_v126 _ rfl (by decide),
   writes_sub_of_mem main_c_25 _ rfl (by decide),
   writes_sub_of_mem main_v127 _ rfl (by decide),
   writes_sub_of_mem main_v128 _ rfl (by decide),
   writes_sub_of_mem main_c_26 _ rfl (by decide),
   writes_sub_of_mem main_v129 _ rfl (by decide),
   writes_sub_of_mem main_v130 _ rfl (by decide),
   writes_sub_of_mem main_v131 _ rfl (by decide),
   writes_sub_of_mem main_v132 _ rfl (by decide),
   writes_sub_of_mem main_v133 _ rfl (by decide),
   writes_sub_of_mem main_v134 _ rfl (by decide),
   writes_sub_of_mem main_c_27 _ rfl (by decide),
   writes_sub_of_mem main_v135 _ rfl (by decide),
   writes_sub_of_mem main_v136 _ rfl (by decide),
   writes_sub_of_mem main_c_28 _ rfl (by decide),
   writes_sub_of_mem main_v137 _ rfl (by decide),
   writes_sub_of_mem main_v138 _ rfl (by decide),
   writes_sub_of_mem main_v139 _ rfl (by decide),
   writes_sub_of_mem main_v140 _ rfl (by decide),
   writes_sub_of_mem main_v141 _ rfl (by decide),
   writes_sub_of_mem main_c_29 _ rfl (by decide),
   writes_sub_of_mem main_v142 _ rfl (by decide),
   writes_sub_of_mem main_v143 _ rfl (by decide),
   writes_sub_of_mem main_c_30 _ rfl (by decide),
   writes_sub_of_mem main_v144 _ rfl (by decide),
   writes_sub_of_mem main_v145 _ rfl (by decide),
   writes_sub_of_mem main_v146 _ rfl (by decide),
   writes_sub_of_mem main_v147 _ rfl (by decide),
   writes_sub_of_mem main_v148 _ rfl (by decide),
   writes_sub_of_mem main_v149 _ rfl (by decide)⟩

set_option maxHeartbeats 4000000 in
/-- No operation of stretch 1 allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 2, in program order. -/
def writes2 : List (Ref sig .tc) :=
  [main_v151, main_v152, main_c_31, main_v153, main_v154, main_c_32, main_v155, main_v156, main_v157, main_v158, main_v159, main_v160, main_v161, main_c_33, main_v162, main_v163, main_c_34, main_v164, main_v165, main_v166, main_v167, main_v168, main_v169, main_v170, main_v171, main_c_35, main_v172, main_v173, main_c_36, main_v174, main_v175, main_v176, main_v177, main_v178, main_v179, main_v180, main_v181, main_c_37, main_v182, main_v183, main_c_38, main_v184, main_v185, main_v186, main_v187, main_v188, main_v189, main_v190, main_v191, main_c_39, main_v192, main_v193, main_c_40, main_v194, main_v195, main_v196, main_v197, main_v198, main_v199, main_v200, main_v201, main_c_41, main_v202, main_v203, main_c_42, main_v204, main_v205, main_v206, main_v207, main_v208, main_v209, main_c_43, main_v210, main_v211, main_c_44, main_v212, main_v213, main_v214, main_v215, main_v216, main_c_45, main_v217, main_v218, main_c_46, main_v219, main_v220, main_v221, main_v222, main_v223, main_v224]

set_option maxHeartbeats 4000000 in
/-- Every operation of stretch 2 writes its own result buffer only, which the list holds. -/
theorem hostOps2_writes : (hostOps2 : List (HloOp τ sig (Elt F))).Forall fun op =>
    op.writes ⊆ (writes2.map (Proc.devRef (τ := τ) .tc)).toFinset :=
  ⟨writes_sub_of_mem main_v151 _ rfl (by decide),
   writes_sub_of_mem main_v152 _ rfl (by decide),
   writes_sub_of_mem main_c_31 _ rfl (by decide),
   writes_sub_of_mem main_v153 _ rfl (by decide),
   writes_sub_of_mem main_v154 _ rfl (by decide),
   writes_sub_of_mem main_c_32 _ rfl (by decide),
   writes_sub_of_mem main_v155 _ rfl (by decide),
   writes_sub_of_mem main_v156 _ rfl (by decide),
   writes_sub_of_mem main_v157 _ rfl (by decide),
   writes_sub_of_mem main_v158 _ rfl (by decide),
   writes_sub_of_mem main_v159 _ rfl (by decide),
   writes_sub_of_mem main_v160 _ rfl (by decide),
   writes_sub_of_mem main_v161 _ rfl (by decide),
   writes_sub_of_mem main_c_33 _ rfl (by decide),
   writes_sub_of_mem main_v162 _ rfl (by decide),
   writes_sub_of_mem main_v163 _ rfl (by decide),
   writes_sub_of_mem main_c_34 _ rfl (by decide),
   writes_sub_of_mem main_v164 _ rfl (by decide),
   writes_sub_of_mem main_v165 _ rfl (by decide),
   writes_sub_of_mem main_v166 _ rfl (by decide),
   writes_sub_of_mem main_v167 _ rfl (by decide),
   writes_sub_of_mem main_v168 _ rfl (by decide),
   writes_sub_of_mem main_v169 _ rfl (by decide),
   writes_sub_of_mem main_v170 _ rfl (by decide),
   writes_sub_of_mem main_v171 _ rfl (by decide),
   writes_sub_of_mem main_c_35 _ rfl (by decide),
   writes_sub_of_mem main_v172 _ rfl (by decide),
   writes_sub_of_mem main_v173 _ rfl (by decide),
   writes_sub_of_mem main_c_36 _ rfl (by decide),
   writes_sub_of_mem main_v174 _ rfl (by decide),
   writes_sub_of_mem main_v175 _ rfl (by decide),
   writes_sub_of_mem main_v176 _ rfl (by decide),
   writes_sub_of_mem main_v177 _ rfl (by decide),
   writes_sub_of_mem main_v178 _ rfl (by decide),
   writes_sub_of_mem main_v179 _ rfl (by decide),
   writes_sub_of_mem main_v180 _ rfl (by decide),
   writes_sub_of_mem main_v181 _ rfl (by decide),
   writes_sub_of_mem main_c_37 _ rfl (by decide),
   writes_sub_of_mem main_v182 _ rfl (by decide),
   writes_sub_of_mem main_v183 _ rfl (by decide),
   writes_sub_of_mem main_c_38 _ rfl (by decide),
   writes_sub_of_mem main_v184 _ rfl (by decide),
   writes_sub_of_mem main_v185 _ rfl (by decide),
   writes_sub_of_mem main_v186 _ rfl (by decide),
   writes_sub_of_mem main_v187 _ rfl (by decide),
   writes_sub_of_mem main_v188 _ rfl (by decide),
   writes_sub_of_mem main_v189 _ rfl (by decide),
   writes_sub_of_mem main_v190 _ rfl (by decide),
   writes_sub_of_mem main_v191 _ rfl (by decide),
   writes_sub_of_mem main_c_39 _ rfl (by decide),
   writes_sub_of_mem main_v192 _ rfl (by decide),
   writes_sub_of_mem main_v193 _ rfl (by decide),
   writes_sub_of_mem main_c_40 _ rfl (by decide),
   writes_sub_of_mem main_v194 _ rfl (by decide),
   writes_sub_of_mem main_v195 _ rfl (by decide),
   writes_sub_of_mem main_v196 _ rfl (by decide),
   writes_sub_of_mem main_v197 _ rfl (by decide),
   writes_sub_of_mem main_v198 _ rfl (by decide),
   writes_sub_of_mem main_v199 _ rfl (by decide),
   writes_sub_of_mem main_v200 _ rfl (by decide),
   writes_sub_of_mem main_v201 _ rfl (by decide),
   writes_sub_of_mem main_c_41 _ rfl (by decide),
   writes_sub_of_mem main_v202 _ rfl (by decide),
   writes_sub_of_mem main_v203 _ rfl (by decide),
   writes_sub_of_mem main_c_42 _ rfl (by decide),
   writes_sub_of_mem main_v204 _ rfl (by decide),
   writes_sub_of_mem main_v205 _ rfl (by decide),
   writes_sub_of_mem main_v206 _ rfl (by decide),
   writes_sub_of_mem main_v207 _ rfl (by decide),
   writes_sub_of_mem main_v208 _ rfl (by decide),
   writes_sub_of_mem main_v209 _ rfl (by decide),
   writes_sub_of_mem main_c_43 _ rfl (by decide),
   writes_sub_of_mem main_v210 _ rfl (by decide),
   writes_sub_of_mem main_v211 _ rfl (by decide),
   writes_sub_of_mem main_c_44 _ rfl (by decide),
   writes_sub_of_mem main_v212 _ rfl (by decide),
   writes_sub_of_mem main_v213 _ rfl (by decide),
   writes_sub_of_mem main_v214 _ rfl (by decide),
   writes_sub_of_mem main_v215 _ rfl (by decide),
   writes_sub_of_mem main_v216 _ rfl (by decide),
   writes_sub_of_mem main_c_45 _ rfl (by decide),
   writes_sub_of_mem main_v217 _ rfl (by decide),
   writes_sub_of_mem main_v218 _ rfl (by decide),
   writes_sub_of_mem main_c_46 _ rfl (by decide),
   writes_sub_of_mem main_v219 _ rfl (by decide),
   writes_sub_of_mem main_v220 _ rfl (by decide),
   writes_sub_of_mem main_v221 _ rfl (by decide),
   writes_sub_of_mem main_v222 _ rfl (by decide),
   writes_sub_of_mem main_v223 _ rfl (by decide),
   writes_sub_of_mem main_v224 _ rfl (by decide)⟩

set_option maxHeartbeats 4000000 in
/-- No operation of stretch 2 allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 3, in program order. -/
def writes3 : List (Ref sig .tc) :=
  [main_v226, main_v227, main_c_47, main_v228, main_v229, main_c_48, main_v230, main_v231, main_v232, main_v233, main_v234, main_v235, main_v236, main_c_49, main_v237, main_v238, main_c_50, main_v239, main_v240, main_v241, main_v242, main_v243, main_v244, main_v245, main_v246, main_c_51, main_v247, main_v248, main_c_52, main_v249, main_v250, main_v251, main_v252, main_v253, main_v254, main_v255, main_v256, main_c_53, main_v257, main_v258, main_c_54, main_v259, main_v260, main_v261, main_v262, main_v263, main_v264, main_v265, main_v266, main_c_55, main_v267, main_v268, main_c_56, main_v269, main_v270, main_v271, main_v272, main_v273, main_v274, main_v275, main_v276, main_c_57, main_v277, main_v278, main_c_58, main_v279, main_v280, main_v281, main_v282, main_v283, main_v284, main_c_59, main_v285, main_v286, main_c_60, main_v287, main_v288, main_v289, main_v290, main_v291, main_c_61, main_v292, main_v293, main_c_62, main_v294, main_v295, main_v296, main_v297, main_v298, main_v299]

set_option maxHeartbeats 4000000 in
/-- Every operation of stretch 3 writes its own result buffer only, which the list holds. -/
theorem hostOps3_writes : (hostOps3 : List (HloOp τ sig (Elt F))).Forall fun op =>
    op.writes ⊆ (writes3.map (Proc.devRef (τ := τ) .tc)).toFinset :=
  ⟨writes_sub_of_mem main_v226 _ rfl (by decide),
   writes_sub_of_mem main_v227 _ rfl (by decide),
   writes_sub_of_mem main_c_47 _ rfl (by decide),
   writes_sub_of_mem main_v228 _ rfl (by decide),
   writes_sub_of_mem main_v229 _ rfl (by decide),
   writes_sub_of_mem main_c_48 _ rfl (by decide),
   writes_sub_of_mem main_v230 _ rfl (by decide),
   writes_sub_of_mem main_v231 _ rfl (by decide),
   writes_sub_of_mem main_v232 _ rfl (by decide),
   writes_sub_of_mem main_v233 _ rfl (by decide),
   writes_sub_of_mem main_v234 _ rfl (by decide),
   writes_sub_of_mem main_v235 _ rfl (by decide),
   writes_sub_of_mem main_v236 _ rfl (by decide),
   writes_sub_of_mem main_c_49 _ rfl (by decide),
   writes_sub_of_mem main_v237 _ rfl (by decide),
   writes_sub_of_mem main_v238 _ rfl (by decide),
   writes_sub_of_mem main_c_50 _ rfl (by decide),
   writes_sub_of_mem main_v239 _ rfl (by decide),
   writes_sub_of_mem main_v240 _ rfl (by decide),
   writes_sub_of_mem main_v241 _ rfl (by decide),
   writes_sub_of_mem main_v242 _ rfl (by decide),
   writes_sub_of_mem main_v243 _ rfl (by decide),
   writes_sub_of_mem main_v244 _ rfl (by decide),
   writes_sub_of_mem main_v245 _ rfl (by decide),
   writes_sub_of_mem main_v246 _ rfl (by decide),
   writes_sub_of_mem main_c_51 _ rfl (by decide),
   writes_sub_of_mem main_v247 _ rfl (by decide),
   writes_sub_of_mem main_v248 _ rfl (by decide),
   writes_sub_of_mem main_c_52 _ rfl (by decide),
   writes_sub_of_mem main_v249 _ rfl (by decide),
   writes_sub_of_mem main_v250 _ rfl (by decide),
   writes_sub_of_mem main_v251 _ rfl (by decide),
   writes_sub_of_mem main_v252 _ rfl (by decide),
   writes_sub_of_mem main_v253 _ rfl (by decide),
   writes_sub_of_mem main_v254 _ rfl (by decide),
   writes_sub_of_mem main_v255 _ rfl (by decide),
   writes_sub_of_mem main_v256 _ rfl (by decide),
   writes_sub_of_mem main_c_53 _ rfl (by decide),
   writes_sub_of_mem main_v257 _ rfl (by decide),
   writes_sub_of_mem main_v258 _ rfl (by decide),
   writes_sub_of_mem main_c_54 _ rfl (by decide),
   writes_sub_of_mem main_v259 _ rfl (by decide),
   writes_sub_of_mem main_v260 _ rfl (by decide),
   writes_sub_of_mem main_v261 _ rfl (by decide),
   writes_sub_of_mem main_v262 _ rfl (by decide),
   writes_sub_of_mem main_v263 _ rfl (by decide),
   writes_sub_of_mem main_v264 _ rfl (by decide),
   writes_sub_of_mem main_v265 _ rfl (by decide),
   writes_sub_of_mem main_v266 _ rfl (by decide),
   writes_sub_of_mem main_c_55 _ rfl (by decide),
   writes_sub_of_mem main_v267 _ rfl (by decide),
   writes_sub_of_mem main_v268 _ rfl (by decide),
   writes_sub_of_mem main_c_56 _ rfl (by decide),
   writes_sub_of_mem main_v269 _ rfl (by decide),
   writes_sub_of_mem main_v270 _ rfl (by decide),
   writes_sub_of_mem main_v271 _ rfl (by decide),
   writes_sub_of_mem main_v272 _ rfl (by decide),
   writes_sub_of_mem main_v273 _ rfl (by decide),
   writes_sub_of_mem main_v274 _ rfl (by decide),
   writes_sub_of_mem main_v275 _ rfl (by decide),
   writes_sub_of_mem main_v276 _ rfl (by decide),
   writes_sub_of_mem main_c_57 _ rfl (by decide),
   writes_sub_of_mem main_v277 _ rfl (by decide),
   writes_sub_of_mem main_v278 _ rfl (by decide),
   writes_sub_of_mem main_c_58 _ rfl (by decide),
   writes_sub_of_mem main_v279 _ rfl (by decide),
   writes_sub_of_mem main_v280 _ rfl (by decide),
   writes_sub_of_mem main_v281 _ rfl (by decide),
   writes_sub_of_mem main_v282 _ rfl (by decide),
   writes_sub_of_mem main_v283 _ rfl (by decide),
   writes_sub_of_mem main_v284 _ rfl (by decide),
   writes_sub_of_mem main_c_59 _ rfl (by decide),
   writes_sub_of_mem main_v285 _ rfl (by decide),
   writes_sub_of_mem main_v286 _ rfl (by decide),
   writes_sub_of_mem main_c_60 _ rfl (by decide),
   writes_sub_of_mem main_v287 _ rfl (by decide),
   writes_sub_of_mem main_v288 _ rfl (by decide),
   writes_sub_of_mem main_v289 _ rfl (by decide),
   writes_sub_of_mem main_v290 _ rfl (by decide),
   writes_sub_of_mem main_v291 _ rfl (by decide),
   writes_sub_of_mem main_c_61 _ rfl (by decide),
   writes_sub_of_mem main_v292 _ rfl (by decide),
   writes_sub_of_mem main_v293 _ rfl (by decide),
   writes_sub_of_mem main_c_62 _ rfl (by decide),
   writes_sub_of_mem main_v294 _ rfl (by decide),
   writes_sub_of_mem main_v295 _ rfl (by decide),
   writes_sub_of_mem main_v296 _ rfl (by decide),
   writes_sub_of_mem main_v297 _ rfl (by decide),
   writes_sub_of_mem main_v298 _ rfl (by decide),
   writes_sub_of_mem main_v299 _ rfl (by decide)⟩

set_option maxHeartbeats 4000000 in
/-- No operation of stretch 3 allocates a buffer. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 4, in program order. -/
def writes4 : List (Ref sig .tc) :=
  [main_v301, main_v302, main_c_63, main_v303, main_v304, main_c_64, main_v305, main_v306, main_v307, main_v308, main_v309, main_v310, main_v311, main_c_65, main_v312, main_v313, main_c_66, main_v314, main_v315, main_v316, main_v317, main_v318, main_v319, main_v320, main_v321, main_c_67, main_v322, main_v323, main_c_68, main_v324, main_v325, main_v326, main_v327, main_v328, main_v329, main_v330, main_v331, main_c_69, main_v332, main_v333, main_c_70, main_v334, main_v335, main_v336, main_v337, main_v338, main_v339, main_v340, main_v341, main_c_71, main_v342, main_v343, main_c_72, main_v344, main_v345, main_v346, main_v347, main_v348, main_v349, main_v350, main_v351, main_c_73, main_v352, main_v353, main_c_74, main_v354, main_v355, main_v356, main_v357, main_v358, main_v359, main_c_75, main_v360, main_v361, main_c_76, main_v362, main_v363, main_v364, main_v365, main_v366, main_c_77, main_v367, main_v368, main_c_78, main_v369, main_v370, main_v371, main_v372, main_v373, main_v374]

set_option maxHeartbeats 4000000 in
/-- Every operation of stretch 4 writes its own result buffer only, which the list holds. -/
theorem hostOps4_writes : (hostOps4 : List (HloOp τ sig (Elt F))).Forall fun op =>
    op.writes ⊆ (writes4.map (Proc.devRef (τ := τ) .tc)).toFinset :=
  ⟨writes_sub_of_mem main_v301 _ rfl (by decide),
   writes_sub_of_mem main_v302 _ rfl (by decide),
   writes_sub_of_mem main_c_63 _ rfl (by decide),
   writes_sub_of_mem main_v303 _ rfl (by decide),
   writes_sub_of_mem main_v304 _ rfl (by decide),
   writes_sub_of_mem main_c_64 _ rfl (by decide),
   writes_sub_of_mem main_v305 _ rfl (by decide),
   writes_sub_of_mem main_v306 _ rfl (by decide),
   writes_sub_of_mem main_v307 _ rfl (by decide),
   writes_sub_of_mem main_v308 _ rfl (by decide),
   writes_sub_of_mem main_v309 _ rfl (by decide),
   writes_sub_of_mem main_v310 _ rfl (by decide),
   writes_sub_of_mem main_v311 _ rfl (by decide),
   writes_sub_of_mem main_c_65 _ rfl (by decide),
   writes_sub_of_mem main_v312 _ rfl (by decide),
   writes_sub_of_mem main_v313 _ rfl (by decide),
   writes_sub_of_mem main_c_66 _ rfl (by decide),
   writes_sub_of_mem main_v314 _ rfl (by decide),
   writes_sub_of_mem main_v315 _ rfl (by decide),
   writes_sub_of_mem main_v316 _ rfl (by decide),
   writes_sub_of_mem main_v317 _ rfl (by decide),
   writes_sub_of_mem main_v318 _ rfl (by decide),
   writes_sub_of_mem main_v319 _ rfl (by decide),
   writes_sub_of_mem main_v320 _ rfl (by decide),
   writes_sub_of_mem main_v321 _ rfl (by decide),
   writes_sub_of_mem main_c_67 _ rfl (by decide),
   writes_sub_of_mem main_v322 _ rfl (by decide),
   writes_sub_of_mem main_v323 _ rfl (by decide),
   writes_sub_of_mem main_c_68 _ rfl (by decide),
   writes_sub_of_mem main_v324 _ rfl (by decide),
   writes_sub_of_mem main_v325 _ rfl (by decide),
   writes_sub_of_mem main_v326 _ rfl (by decide),
   writes_sub_of_mem main_v327 _ rfl (by decide),
   writes_sub_of_mem main_v328 _ rfl (by decide),
   writes_sub_of_mem main_v329 _ rfl (by decide),
   writes_sub_of_mem main_v330 _ rfl (by decide),
   writes_sub_of_mem main_v331 _ rfl (by decide),
   writes_sub_of_mem main_c_69 _ rfl (by decide),
   writes_sub_of_mem main_v332 _ rfl (by decide),
   writes_sub_of_mem main_v333 _ rfl (by decide),
   writes_sub_of_mem main_c_70 _ rfl (by decide),
   writes_sub_of_mem main_v334 _ rfl (by decide),
   writes_sub_of_mem main_v335 _ rfl (by decide),
   writes_sub_of_mem main_v336 _ rfl (by decide),
   writes_sub_of_mem main_v337 _ rfl (by decide),
   writes_sub_of_mem main_v338 _ rfl (by decide),
   writes_sub_of_mem main_v339 _ rfl (by decide),
   writes_sub_of_mem main_v340 _ rfl (by decide),
   writes_sub_of_mem main_v341 _ rfl (by decide),
   writes_sub_of_mem main_c_71 _ rfl (by decide),
   writes_sub_of_mem main_v342 _ rfl (by decide),
   writes_sub_of_mem main_v343 _ rfl (by decide),
   writes_sub_of_mem main_c_72 _ rfl (by decide),
   writes_sub_of_mem main_v344 _ rfl (by decide),
   writes_sub_of_mem main_v345 _ rfl (by decide),
   writes_sub_of_mem main_v346 _ rfl (by decide),
   writes_sub_of_mem main_v347 _ rfl (by decide),
   writes_sub_of_mem main_v348 _ rfl (by decide),
   writes_sub_of_mem main_v349 _ rfl (by decide),
   writes_sub_of_mem main_v350 _ rfl (by decide),
   writes_sub_of_mem main_v351 _ rfl (by decide),
   writes_sub_of_mem main_c_73 _ rfl (by decide),
   writes_sub_of_mem main_v352 _ rfl (by decide),
   writes_sub_of_mem main_v353 _ rfl (by decide),
   writes_sub_of_mem main_c_74 _ rfl (by decide),
   writes_sub_of_mem main_v354 _ rfl (by decide),
   writes_sub_of_mem main_v355 _ rfl (by decide),
   writes_sub_of_mem main_v356 _ rfl (by decide),
   writes_sub_of_mem main_v357 _ rfl (by decide),
   writes_sub_of_mem main_v358 _ rfl (by decide),
   writes_sub_of_mem main_v359 _ rfl (by decide),
   writes_sub_of_mem main_c_75 _ rfl (by decide),
   writes_sub_of_mem main_v360 _ rfl (by decide),
   writes_sub_of_mem main_v361 _ rfl (by decide),
   writes_sub_of_mem main_c_76 _ rfl (by decide),
   writes_sub_of_mem main_v362 _ rfl (by decide),
   writes_sub_of_mem main_v363 _ rfl (by decide),
   writes_sub_of_mem main_v364 _ rfl (by decide),
   writes_sub_of_mem main_v365 _ rfl (by decide),
   writes_sub_of_mem main_v366 _ rfl (by decide),
   writes_sub_of_mem main_c_77 _ rfl (by decide),
   writes_sub_of_mem main_v367 _ rfl (by decide),
   writes_sub_of_mem main_v368 _ rfl (by decide),
   writes_sub_of_mem main_c_78 _ rfl (by decide),
   writes_sub_of_mem main_v369 _ rfl (by decide),
   writes_sub_of_mem main_v370 _ rfl (by decide),
   writes_sub_of_mem main_v371 _ rfl (by decide),
   writes_sub_of_mem main_v372 _ rfl (by decide),
   writes_sub_of_mem main_v373 _ rfl (by decide),
   writes_sub_of_mem main_v374 _ rfl (by decide)⟩

set_option maxHeartbeats 4000000 in
/-- No operation of stretch 4 allocates a buffer. -/
theorem hostOps4_fresh : (hostOps4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 5, in program order. -/
def writes5 : List (Ref sig .tc) :=
  [main_v376, main_v377, main_v378]

set_option maxHeartbeats 4000000 in
/-- Every operation of stretch 5 writes its own result buffer only, which the list holds. -/
theorem hostOps5_writes : (hostOps5 : List (HloOp τ sig (Elt F))).Forall fun op =>
    op.writes ⊆ (writes5.map (Proc.devRef (τ := τ) .tc)).toFinset :=
  ⟨writes_sub_of_mem main_v376 _ rfl (by decide),
   writes_sub_of_mem main_v377 _ rfl (by decide),
   writes_sub_of_mem main_v378 _ rfl (by decide)⟩

set_option maxHeartbeats 4000000 in
/-- No operation of stretch 5 allocates a buffer. -/
theorem hostOps5_fresh : (hostOps5 : List (HloOp τ sig (Elt F))).Forall fun op => op.fresh = ∅ :=
  ⟨rfl, rfl, rfl⟩

end Cert.Kernel.Hand

end
-- ==== Proof.K.Body0.lean ====
/- The body half of the frame of region 0 (pipeline 0, the first linear–skip–relu call): what the kernel body finds in
   each window's staging buffer at a grid point, what it leaves in the output window's buffer, the proof data of the
   pipeline over the contents the region starts from, and the body obligation at every point. -/
import proofs.«177690_j24824910971087_2_alg».proof.Proof.Gen.Kernel.Launch
import proofs.«177690_j24824910971087_2_alg».proof.Proof.Gen.Kernel.Skeleton
import proofs.«177690_j24824910971087_2_alg».proof.Proof.Gen.Kernel.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0, the 1000-row block of the activations: the body only reads it, so before the body its staging buffer
    holds the point's block of the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- Window 1, the 1000-row block of the skip input, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- Window 2, the first 256 × 256 weight matrix: one block for the whole grid, moved in at the first point only. At a
    later point the block index has not changed, so the buffer still holds that same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-- Window 3, the second weight matrix, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
    (fun t => by rw [hafter]; unfold Dat.blockOf iblk0; rw [hA]; try rfl) t d).trans
    (by unfold Dat.fetched Dat.blockOf iblk0; rw [hA]; try rfl)

/-- Window 4, the third weight matrix, likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
    (fun t => by rw [hafter]; unfold Dat.blockOf iblk0; rw [hA]; try rfl) t d).trans
    (by unfold Dat.fetched Dat.blockOf iblk0; rw [hA]; try rfl)

/-! ## The three column bands of the output block -/

/-- Columns 0–255, 256–511 and 512–767 of the 1000 × 768 block: the rectangles the body stores through. -/
abbrev band0_a : Rect S1000x768 := Rect.unit (s := S1000x768) ![0, 0] S1000x256.size inb_S1000x768_S1000x256_0_0
abbrev band0_b : Rect S1000x768 := Rect.unit (s := S1000x768) ![0, 256] S1000x256.size inb_S1000x768_S1000x256_0_256
abbrev band0_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out0_5 (x0 x1 : Vec F S1000x768 .f32) (x2 x3 x4 : Vec F S256x256 .f32) : Vec F S1000x768 .f32 :=
  View.canon [⟨band0_c, k0_pay5 x0 x1 x4⟩, ⟨band0_b, k0_pay4 x0 x1 x3⟩, ⟨band0_a, k0_pay3 x0 x1 x2⟩]

/-- The three bands are 1000 × 256 tiles at column offsets 0, 256, 512 of a 1000 × 768 block, so every index of the
    block lies in one of them, whatever is stored through them. -/
theorem cover0_5 (pc pb pa : Vec F S1000x256 .f32) (y : S1000x768.Idx) :
    ∃ p ∈ ([⟨band0_c, pc⟩, ⟨band0_b, pb⟩, ⟨band0_a, pa⟩] : List (View.Piece (Elt F) S1000x768 .f32)), y ∈ p.1.set :=
  View.cover_of_tiled [⟨band0_c, pc⟩, ⟨band0_b, pb⟩, ⟨band0_a, pa⟩] S1000x256.size (by rfl) y

/-- A load of a whole 1000 × 768 buffer, through the rectangle at offset (0, 0) of the buffer's own extents, reads
    the buffer's contents. -/
theorem load_whole0_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole0_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out0_5 of the inputs. The body loads each band of the output
    buffer just before it overwrites that band; the loaded values are never used, so what the buffer held does not
    matter, and after the third store every index has been overwritten. -/
theorem sound_kernel0 (c : Dev nD) (E : Set ℕ) (i : grid0.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__linear_skip_relu_joint_kernel i a1 h1 a2 h2 a3 h3 a4 h4 a5 h5 a6 h6) K := by
  simp only [cc0__linear_skip_relu_joint_kernel_eq_skeleton]; unfold cc0__linear_skip_relu_joint_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover0_5 _ _ _)).trans ?_
  rw [load_whole0_768 a1.view f1, load_whole0_768 a2.view f2, load_whole0_256 a3.view f3, load_whole0_256 a4.view f4,
    load_whole0_256 a5.view f5]
  rfl

/-! ## The pipeline's proof data -/

/-- The proof data of pipeline 0 on core c. The arrays are the contents the region starts from. After the body at
    point t, each input window's buffer still holds its block and the output window's holds out0_5 of the five input
    blocks. The invariant is the untouched rest of the core's state; all shares are full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the proof data are the contents the region starts from. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-- Before the body, each input window's buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a grid point -/

/-- What the pipeline hands the body at point t: the invariant, the core's debts, and the six current staging buffers,
    each holding what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body hands back: the same, each buffer holding what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, the output buffer holds something, so the body's
    triple applies; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/- The body half of the frame of region 1 (pipeline 1, the second linear–skip–relu call): what the kernel body finds in
   each window's staging buffer at a grid point, what it leaves in the output window's buffer, the proof data of the
   pipeline over the contents the region starts from, and the body obligation at every point. -/
import proofs.«177690_j24824910971087_2_alg».proof.Proof.Gen.Kernel.Launch
import proofs.«177690_j24824910971087_2_alg».proof.Proof.Gen.Kernel.Skeleton
import proofs.«177690_j24824910971087_2_alg».proof.Proof.Gen.Kernel.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0, the 1000-row block of the activations: the body only reads it, so before the body its staging buffer
    holds the point's block of the array. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- Window 1, the 1000-row block of the skip input, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- Window 2, the first 256 × 256 weight matrix: one block for the whole grid, moved in at the first point only. At a
    later point the block index has not changed, so the buffer still holds that same block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- Window 3, the second weight matrix, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-- Window 4, the third weight matrix, likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
    (fun t => by rw [hafter]; unfold Dat.blockOf iblk1; rw [hA]; try rfl) t d).trans
    (by unfold Dat.fetched Dat.blockOf iblk1; rw [hA]; try rfl)

/-! ## The three column bands of the output block -/

/-- Columns 0–255, 256–511 and 512–767 of the 1000 × 768 block: the rectangles the body stores through. -/
abbrev band1_a : Rect S1000x768 := Rect.unit (s := S1000x768) ![0, 0] S1000x256.size inb_S1000x768_S1000x256_0_0
abbrev band1_b : Rect S1000x768 := Rect.unit (s := S1000x768) ![0, 256] S1000x256.size inb_S1000x768_S1000x256_0_256
abbrev band1_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out1_5 (x0 x1 : Vec F S1000x768 .f32) (x2 x3 x4 : Vec F S256x256 .f32) : Vec F S1000x768 .f32 :=
  View.canon [⟨band1_c, k1_pay5 x0 x1 x4⟩, ⟨band1_b, k1_pay4 x0 x1 x3⟩, ⟨band1_a, k1_pay3 x0 x1 x2⟩]

/-- The three bands are 1000 × 256 tiles at column offsets 0, 256, 512 of a 1000 × 768 block, so every index of the
    block lies in one of them, whatever is stored through them. -/
theorem cover1_5 (pc pb pa : Vec F S1000x256 .f32) (y : S1000x768.Idx) :
    ∃ p ∈ ([⟨band1_c, pc⟩, ⟨band1_b, pb⟩, ⟨band1_a, pa⟩] : List (View.Piece (Elt F) S1000x768 .f32)), y ∈ p.1.set :=
  View.cover_of_tiled [⟨band1_c, pc⟩, ⟨band1_b, pb⟩, ⟨band1_a, pa⟩] S1000x256.size (by rfl) y

/-- A load of a whole 1000 × 768 buffer, through the rectangle at offset (0, 0) of the buffer's own extents, reads
    the buffer's contents. -/
theorem load_whole1_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole1_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out1_5 of the inputs. The body loads each band of the output
    buffer just before it overwrites that band; the loaded values are never used, so what the buffer held does not
    matter, and after the third store every index has been overwritten. -/
theorem sound_kernel1 (c : Dev nD) (E : Set ℕ) (i : grid1.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out1_5 x0 x1 x2 x3 x4)) -∗ K ⟨⟩))
      ⊢ wp frame (wpE (defs₀ (F := F)) Variants.none c none) E (cc1__linear_skip_relu_joint_kernel i a1 h1 a2 h2 a3 h3 a4 h4 a5 h5 a6 h6) K := by
  simp only [cc1__linear_skip_relu_joint_kernel_eq_skeleton]; unfold cc1__linear_skip_relu_joint_kernel_skel
  simp only [k1_part1_eq_skeleton]; unfold k1_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_5 _ _ _)).trans ?_
  rw [load_whole1_768 a1.view f1, load_whole1_768 a2.view f2, load_whole1_256 a3.view f3, load_whole1_256 a4.view f4,
    load_whole1_256 a5.view f5]
  rfl

/-! ## The pipeline's proof data -/

/-- The proof data of pipeline 1 on core c. The arrays are the contents the region starts from. After the body at
    point t, each input window's buffer still holds its block and the output window's holds out1_5 of the five input
    blocks. The invariant is the untouched rest of the core's state; all shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The arrays of the proof data are the contents the region starts from. -/
theorem A_eq1 (c : Dev nD) (w : Fin cfg1.W) : (dat1 V c).A w = V c (Pipeline.arrRef spec1 w) := by
  dsimp only [dat1]

/-- What the body leaves in each window's buffer, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Before the body, each input window's buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a grid point -/

/-- What the pipeline hands the body at point t: the invariant, the core's debts, and the six current staging buffers,
    each holding what the proof data says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back: the same, each buffer holding what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, the output buffer holds something, so the body's
    triple applies; the invariant and the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/- The body half of the frame of region 2 (pipeline 2, the third linear–skip–relu call): what the kernel body finds in
   each window's staging buffer at a grid point, what it leaves in the output window's buffer, the proof data of the
   pipeline over the contents the region starts from, and the body obligation at every point. -/
import proofs.«177690_j24824910971087_2_alg».proof.Proof.Gen.Kernel.Launch
import proofs.«177690_j24824910971087_2_alg».proof.Proof.Gen.Kernel.Skeleton
import proofs.«177690_j24824910971087_2_alg».proof.Proof.Gen.Kernel.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0, the 1000-row block of the activations: the body only reads it, so before the body its staging buffer
    holds the point's block of the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- Window 1, the 1000-row block of the skip input, likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

/-- Window 2, the first 256 × 256 weight matrix: one block for the whole grid, moved in at the first point only. At a
    later point the block index has not changed, so the buffer still holds that same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
    (fun t => by rw [hafter]; unfold Dat.blockOf iblk2; rw [hA]; try rfl) t d).trans
    (by unfold Dat.fetched Dat.blockOf iblk2; rw [hA]; try rfl)

/-- Window 3, the second weight matrix, likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
    (fun t => by rw [hafter]; unfold Dat.blockOf iblk2; rw [hA]; try rfl) t d).trans
    (by unfold Dat.fetched Dat.blockOf iblk2; rw [hA]; try rfl)

/-- Window 4, the third weight matrix, likewise. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
    (fun t => by rw [hafter]; unfold Dat.blockOf iblk2; rw [hA]; try rfl) t d).trans
    (by unfold Dat.fetched Dat.blockOf iblk2; rw [hA]; try rfl)

/-! ## The three column bands of the output block -/

/-- Columns 0–255, 256–511 and 512–767 of the 1000 × 768 block: the rectangles the body stores through. -/
abbrev band2_a : Rect S1000x768 := Rect.unit (s := S1000x768) ![0, 0] S1000x256.size inb_S1000x768_S1000x256_0_0
abbrev band2_b : Rect S1000x768 := Rect.unit (s := S1000x768) ![0, 256] S1000x256.size inb_S1000x768_S1000x256_0_256
abbrev band2_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out2_5 (x0 x1 : Vec F S1000x768 .f32) (x2 x3 x4 : Vec F S256x256 .f32) : Vec F S1000x768 .f32 :=
  View.canon [⟨band2_c, k2_pay5 x0 x1 x4⟩, ⟨band2_b, k2_pay4 x0 x1 x3⟩, ⟨band2_a, k2_pay3 x0 x1 x2⟩]

/-- The three bands are 1000 × 256 tiles at column offsets 0, 256, 512 of a 1000 × 768 block, so every index of the
    block lies in one of them, whatever is stored through them. -/
theorem cover2_5 (pc pb pa : Vec F S1000x256 .f32) (y : S1000x768.Idx) :
    ∃ p ∈ ([⟨band2_c, pc⟩, ⟨band2_b, pb⟩, ⟨band2_a, pa⟩] : List (View.Piece (Elt F) S1000x768 .f32)), y ∈ p.1.set :=
  View.cover_of_tiled [⟨band2_c, pc⟩, ⟨band2_b, pb⟩, ⟨band2_a, pa⟩] S1000x256.size (by rfl) y

/-- A load of a whole 1000 × 768 buffer, through the rectangle at offset (0, 0) of the buffer's own extents, reads
    the buffer's contents. -/
theorem load_whole2_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole2_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out2_5 of the inputs. The body loads each band of the output
    buffer just before it overwrites that band; the loaded values are never used, so what the buffer held does not
    matter, and after the third store every index has been overwritten. -/
theorem sound_kernel2 (c : Dev nD) (E : Set ℕ) (i : grid2.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out2_5 x0 x1 x2 x3 x4)) -∗ K ⟨⟩))
      ⊢ wp frame (wpE (defs₀ (F := F)) Variants.none c none) E (cc2__linear_skip_relu_joint_kernel i a1 h1 a2 h2 a3 h3 a4 h4 a5 h5 a6 h6) K := by
  simp only [cc2__linear_skip_relu_joint_kernel_eq_skeleton]; unfold cc2__linear_skip_relu_joint_kernel_skel
  simp only [k2_part1_eq_skeleton]; unfold k2_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover2_5 _ _ _)).trans ?_
  rw [load_whole2_768 a1.view f1, load_whole2_768 a2.view f2, load_whole2_256 a3.view f3, load_whole2_256 a4.view f4,
    load_whole2_256 a5.view f5]
  rfl

/-! ## The pipeline's proof data -/

/-- The proof data of pipeline 2 on core c. The arrays are the contents the region starts from. After the body at
    point t, each input window's buffer still holds its block and the output window's holds out2_5 of the five input
    blocks. The invariant is the untouched rest of the core's state; all shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The arrays of the proof data are the contents the region starts from. -/
theorem A_eq2 (c : Dev nD) (w : Fin cfg2.W) : (dat2 V c).A w = V c (Pipeline.arrRef spec2 w) := by
  dsimp only [dat2]

/-- What the body leaves in each window's buffer, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-- Before the body, each input window's buffer holds its block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a grid point -/

/-- What the pipeline hands the body at point t: the invariant, the core's debts, and the six current staging buffers,
    each holding what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same, each buffer holding what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the five input buffers hold their blocks, the output buffer holds something, so the body's
    triple applies; the invariant and the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/- The body half of the frame of region 3 (pipeline 3, the fourth linear–skip–relu call): what the kernel body finds in
   each window's staging buffer at a grid point, what it leaves in the output window's buffer, the proof data of the
   pipeline over the contents the region starts from, and the body obligation at every point. -/
import proofs.«177690_j24824910971087_2_alg».proof.Proof.Gen.Kernel.Launch
import proofs.«177690_j24824910971087_2_alg».proof.Proof.Gen.Kernel.Skeleton
import proofs.«177690_j24824910971087_2_alg».proof.Proof.Gen.Kernel.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0, the 1000-row block of the activations: the body only reads it, so before the body its staging buffer
    holds the point's block of the array. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

/-- Window 1, the 1000-row block of the skip input, likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

/-- Window 2, the first 256 × 256 weight matrix: one block for the whole grid, moved in at the first point only. At a
    later point the block index has not changed, so the buffer still holds that same block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl)
    (fun t => by rw [hafter]; unfold Dat.blockOf iblk3; rw [hA]; try rfl) t d).trans
    (by unfold Dat.fetched Dat.blockOf iblk3; rw [hA]; try rfl)

/-- Window 3, the second weight matrix, likewise. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl)
    (fun t => by rw [hafter]; unfold Dat.blockOf iblk3; rw [hA]; try rfl) t d).trans
    (by unfold Dat.fetched Dat.blockOf iblk3; rw [hA]; try rfl)

/-- Window 4, the third weight matrix, likewise. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl)
    (fun t => by rw [hafter]; unfold Dat.blockOf iblk3; rw [hA]; try rfl) t d).trans
    (by unfold Dat.fetched Dat.blockOf iblk3; rw [hA]; try rfl)

/-! ## The three column bands of the output block -/

/-- Columns 0–255, 256–511 and 512–767 of the 1000 × 768 block: the rectangles the body stores through. -/
abbrev band3_a : Rect S1000x768 := Rect.unit (s := S1000x768) ![0, 0] S1000x256.size inb_S1000x768_S1000x256_0_0
abbrev band3_b : Rect S1000x768 := Rect.unit (s := S1000x768) ![0, 256] S1000x256.size inb_S1000x768_S1000x256_0_256
abbrev band3_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out3_5 (x0 x1 : Vec F S1000x768 .f32) (x2 x3 x4 : Vec F S256x256 .f32) : Vec F S1000x768 .f32 :=
  View.canon [⟨band3_c, k3_pay5 x0 x1 x4⟩, ⟨band3_b, k3_pay4 x0 x1 x3⟩, ⟨band3_a, k3_pay3 x0 x1 x2⟩]

/-- The three bands are 1000 × 256 tiles at column offsets 0, 256, 512 of a 1000 × 768 block, so every index of the
    block lies in one of them, whatever is stored through them. -/
theorem cover3_5 (pc pb pa : Vec F S1000x256 .f32) (y : S1000x768.Idx) :
    ∃ p ∈ ([⟨band3_c, pc⟩, ⟨band3_b, pb⟩, ⟨band3_a, pa⟩] : List (View.Piece (Elt F) S1000x768 .f32)), y ∈ p.1.set :=
  View.cover_of_tiled [⟨band3_c, pc⟩, ⟨band3_b, pb⟩, ⟨band3_a, pa⟩] S1000x256.size (by rfl) y

/-- A load of a whole 1000 × 768 buffer, through the rectangle at offset (0, 0) of the buffer's own extents, reads
    the buffer's contents. -/
theorem load_whole3_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole3_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out3_5 of the inputs. The body loads each band of the output
    buffer just before it overwrites that band; the loaded values are never used, so what the buffer held does not
    matter, and after the third store every index has been overwritten. -/
theorem sound_kernel3 (c : Dev nD) (E : Set ℕ) (i : grid3.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out3_5 x0 x1 x2 x3 x4)) -∗ K ⟨⟩))
      ⊢ wp frame (wpE (defs₀ (F := F)) Variants.none c none) E (cc3__linear_skip_relu_joint_kernel i a1 h1 a2 h2 a3 h3 a4 h4 a5 h5 a6 h6) K := by
  simp only [cc3__linear_skip_relu_joint_kernel_eq_skeleton]; unfold cc3__linear_skip_relu_joint_kernel_skel
  simp only [k3_part1_eq_skeleton]; unfold k3_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover3_5 _ _ _)).trans ?_
  rw [load_whole3_768 a1.view f1, load_whole3_768 a2.view f2, load_whole3_256 a3.view f3, load_whole3_256 a4.view f4,
    load_whole3_256 a5.view f5]
  rfl

/-! ## The pipeline's proof data -/

/-- The proof data of pipeline 3 on core c. The arrays are the contents the region starts from. After the body at
    point t, each input window's buffer still holds its block and the output window's holds out3_5 of the five input
    blocks. The invariant is the untouched rest of the core's state; all shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are the contents the region starts from. -/
theorem A_eq3 (c : Dev nD) (w : Fin cfg3.W) : (dat3 V c).A w = V c (Pipeline.arrRef spec3 w) := by
  dsimp only [dat3]

/-- What the body leaves in each window's buffer, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Before the body, each input window's buffer holds its block at the point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a grid point -/

/-- What the pipeline hands the body at point t: the invariant, the core's debts, and the six current staging buffers,
    each holding what the proof data says it holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body hands back: the same, each buffer holding what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five input buffers hold their blocks, the output buffer holds something, so the body's
    triple applies; the invariant and the debts are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/- The body half of the frame of region 4 (pipeline 4, the fifth linear–skip–relu call): what the kernel body finds in
   each window's staging buffer at a grid point, what it leaves in the output window's buffer, the proof data of the
   pipeline over the contents the region starts from, and the body obligation at every point. -/
import proofs.«177690_j24824910971087_2_alg».proof.Proof.Gen.Kernel.Launch
import proofs.«177690_j24824910971087_2_alg».proof.Proof.Gen.Kernel.Skeleton
import proofs.«177690_j24824910971087_2_alg».proof.Proof.Gen.Kernel.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0, the 1000-row block of the activations: the body only reads it, so before the body its staging buffer
    holds the point's block of the array. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- Window 1, the 1000-row block of the skip input, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

/-- Window 2, the first 256 × 256 weight matrix: one block for the whole grid, moved in at the first point only. At a
    later point the block index has not changed, so the buffer still holds that same block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl)
    (fun t => by rw [hafter]; unfold Dat.blockOf iblk4; rw [hA]; try rfl) t d).trans
    (by unfold Dat.fetched Dat.blockOf iblk4; rw [hA]; try rfl)

/-- Window 3, the second weight matrix, likewise. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl)
    (fun t => by rw [hafter]; unfold Dat.blockOf iblk4; rw [hA]; try rfl) t d).trans
    (by unfold Dat.fetched Dat.blockOf iblk4; rw [hA]; try rfl)

/-- Window 4, the third weight matrix, likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl)
    (fun t => by rw [hafter]; unfold Dat.blockOf iblk4; rw [hA]; try rfl) t d).trans
    (by unfold Dat.fetched Dat.blockOf iblk4; rw [hA]; try rfl)

/-! ## The three column bands of the output block -/

/-- Columns 0–255, 256–511 and 512–767 of the 1000 × 768 block: the rectangles the body stores through. -/
abbrev band4_a : Rect S1000x768 := Rect.unit (s := S1000x768) ![0, 0] S1000x256.size inb_S1000x768_S1000x256_0_0
abbrev band4_b : Rect S1000x768 := Rect.unit (s := S1000x768) ![0, 256] S1000x256.size inb_S1000x768_S1000x256_0_256
abbrev band4_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out4_5 (x0 x1 : Vec F S1000x768 .f32) (x2 x3 x4 : Vec F S256x256 .f32) : Vec F S1000x768 .f32 :=
  View.canon [⟨band4_c, k4_pay5 x0 x1 x4⟩, ⟨band4_b, k4_pay4 x0 x1 x3⟩, ⟨band4_a, k4_pay3 x0 x1 x2⟩]

/-- The three bands are 1000 × 256 tiles at column offsets 0, 256, 512 of a 1000 × 768 block, so every index of the
    block lies in one of them, whatever is stored through them. -/
theorem cover4_5 (pc pb pa : Vec F S1000x256 .f32) (y : S1000x768.Idx) :
    ∃ p ∈ ([⟨band4_c, pc⟩, ⟨band4_b, pb⟩, ⟨band4_a, pa⟩] : List (View.Piece (Elt F) S1000x768 .f32)), y ∈ p.1.set :=
  View.cover_of_tiled [⟨band4_c, pc⟩, ⟨band4_b, pb⟩, ⟨band4_a, pa⟩] S1000x256.size (by rfl) y

/-- A load of a whole 1000 × 768 buffer, through the rectangle at offset (0, 0) of the buffer's own extents, reads
    the buffer's contents. -/
theorem load_whole4_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole4_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out4_5 of the inputs. The body loads each band of the output
    buffer just before it overwrites that band; the loaded values are never used, so what the buffer held does not
    matter, and after the third store every index has been overwritten. -/
theorem sound_kernel4 (c : Dev nD) (E : Set ℕ) (i : grid4.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out4_5 x0 x1 x2 x3 x4)) -∗ K ⟨⟩))
      ⊢ wp frame (wpE (defs₀ (F := F)) Variants.none c none) E (cc4__linear_skip_relu_joint_kernel i a1 h1 a2 h2 a3 h3 a4 h4 a5 h5 a6 h6) K := by
  simp only [cc4__linear_skip_relu_joint_kernel_eq_skeleton]; unfold cc4__linear_skip_relu_joint_kernel_skel
  simp only [k4_part1_eq_skeleton]; unfold k4_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover4_5 _ _ _)).trans ?_
  rw [load_whole4_768 a1.view f1, load_whole4_768 a2.view f2, load_whole4_256 a3.view f3, load_whole4_256 a4.view f4,
    load_whole4_256 a5.view f5]
  rfl

/-! ## The pipeline's proof data -/

/-- The proof data of pipeline 4 on core c. The arrays are the contents the region starts from. After the body at
    point t, each input window's buffer still holds its block and the output window's holds out4_5 of the five input
    blocks. The invariant is the untouched rest of the core's state; all shares are full and nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The arrays of the proof data are the contents the region starts from. -/
theorem A_eq4 (c : Dev nD) (w : Fin cfg4.W) : (dat4 V c).A w = V c (Pipeline.arrRef spec4 w) := by
  dsimp only [dat4]

/-- What the body leaves in each window's buffer, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

/-- Before the body, each input window's buffer holds its block at the point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation at a grid point -/

/-- What the pipeline hands the body at point t: the invariant, the core's debts, and the six current staging buffers,
    each holding what the proof data says it holds before the body. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What the body hands back: the same, each buffer holding what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the five input buffers hold their blocks, the output buffer holds something, so the body's
    triple applies; the invariant and the debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Boundary.lean ====
/- The run of @main as eleven segments — six stretches of host operations with the five pipelined regions between
   them — and the frame that follows from it. The contents of every buffer are followed from the launch through each
   boundary: a host stretch maps them by its operations, a region replaces its six windows' arrays by what the
   pipeline leaves and keeps every other buffer. The launch theorem for several regions then gives that @main
   terminates without fault and that the final memory is the last boundary's contents; the seven argument arrays
   are never written, so they end as launched. -/
import proofs.«177690_j24824910971087_2_alg».proof.Proof.Gen.Kernel.Launch
import proofs.«177690_j24824910971087_2_alg».proof.Proof.Gen.Kernel.Skeleton
import proofs.«177690_j24824910971087_2_alg».proof.Proof.Gen.Kernel.Points
import proofs.«177690_j24824910971087_2_alg».proof.Proof.K.Writes
import proofs.«177690_j24824910971087_2_alg».proof.Proof.K.Body0
import proofs.«177690_j24824910971087_2_alg».proof.Proof.K.Body1
import proofs.«177690_j24824910971087_2_alg».proof.Proof.K.Body2
import proofs.«177690_j24824910971087_2_alg».proof.Proof.K.Body3
import proofs.«177690_j24824910971087_2_alg».proof.Proof.K.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- What core c's buffers hold at the launch. -/
abbrev W0 : Dev nD → Valuation τ sig (Elt F) := fun c b => (s₀ m ρ).mem ((c : Dev nD), b)

/-- After host stretch 0: what region 0 starts from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer that stretch 0 does not write holds after it what it held before. -/
theorem W1_of_not_written (c : Dev nD) (r : Ref sig .tc) (hr : r ∉ writes0) :
    W1 m ρ c (Proc.devRef .tc r) = W0 m ρ c (Proc.devRef .tc r) :=
  StableHlo.after_of_writes_sub hostOps0 _ hostOps0_writes hr
/-- When region 0 is left: each of its windows' arrays holds what the pipeline leaves there (an input array what it
    held, the output array every block written back), and every other buffer is as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what region 1 starts from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer that stretch 1 does not write holds after it what it held before. -/
theorem W3_of_not_written (c : Dev nD) (r : Ref sig .tc) (hr : r ∉ writes1) :
    W3 m ρ c (Proc.devRef .tc r) = W2 m ρ c (Proc.devRef .tc r) :=
  StableHlo.after_of_writes_sub hostOps1 _ hostOps1_writes hr
/-- When region 1 is left: each of its windows' arrays holds what the pipeline leaves there (an input array what it
    held, the output array every block written back), and every other buffer is as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what region 2 starts from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer that stretch 2 does not write holds after it what it held before. -/
theorem W5_of_not_written (c : Dev nD) (r : Ref sig .tc) (hr : r ∉ writes2) :
    W5 m ρ c (Proc.devRef .tc r) = W4 m ρ c (Proc.devRef .tc r) :=
  StableHlo.after_of_writes_sub hostOps2 _ hostOps2_writes hr
/-- When region 2 is left: each of its windows' arrays holds what the pipeline leaves there (an input array what it
    held, the output array every block written back), and every other buffer is as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what region 3 starts from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer that stretch 3 does not write holds after it what it held before. -/
theorem W7_of_not_written (c : Dev nD) (r : Ref sig .tc) (hr : r ∉ writes3) :
    W7 m ρ c (Proc.devRef .tc r) = W6 m ρ c (Proc.devRef .tc r) :=
  StableHlo.after_of_writes_sub hostOps3 _ hostOps3_writes hr
/-- When region 3 is left: each of its windows' arrays holds what the pipeline leaves there (an input array what it
    held, the output array every block written back), and every other buffer is as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4: what region 4 starts from. -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- A buffer that stretch 4 does not write holds after it what it held before. -/
theorem W9_of_not_written (c : Dev nD) (r : Ref sig .tc) (hr : r ∉ writes4) :
    W9 m ρ c (Proc.devRef .tc r) = W8 m ρ c (Proc.devRef .tc r) :=
  StableHlo.after_of_writes_sub hostOps4 _ hostOps4_writes hr
/-- When region 4 is left: each of its windows' arrays holds what the pipeline leaves there (an input array what it
    held, the output array every block written back), and every other buffer is as the region found it. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: what @main returns with. -/
abbrev W11 : Dev nD → Valuation τ sig (Elt F) := fun c => StableHlo.after hostOps5 (W10 m ρ c)
/-- A buffer that the last stretch does not write holds after it what it held before. -/
theorem W11_of_not_written (c : Dev nD) (r : Ref sig .tc) (hr : r ∉ writes5) :
    W11 m ρ c (Proc.devRef .tc r) = W10 m ρ c (Proc.devRef .tc r) :=
  StableHlo.after_of_writes_sub hostOps5 _ hostOps5_writes hr

/-! ## The arguments end as launched

No host operation writes an argument array. A region either does not touch it (arguments 0 to 3 are no window's
array) or reads it through an input window (arguments 4, 5, 6 are windows 2, 3, 4 of every region), and an input
window's array is left as found. So the contents at an argument's buffer walk back, boundary by boundary, to the
launch memory. -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_not_written m ρ c main_arg0 (by decide)
    _ = W9 m ρ c (Proc.devRef .tc main_arg0) := W10_of_ne m ρ c main_arg0 (by decide)
    _ = W8 m ρ c (Proc.devRef .tc main_arg0) := W9_of_not_written m ρ c main_arg0 (by decide)
    _ = W7 m ρ c (Proc.devRef .tc main_arg0) := W8_of_ne m ρ c main_arg0 (by decide)
    _ = W6 m ρ c (Proc.devRef .tc main_arg0) := W7_of_not_written m ρ c main_arg0 (by decide)
    _ = W5 m ρ c (Proc.devRef .tc main_arg0) := W6_of_ne m ρ c main_arg0 (by decide)
    _ = W4 m ρ c (Proc.devRef .tc main_arg0) := W5_of_not_written m ρ c main_arg0 (by decide)
    _ = W3 m ρ c (Proc.devRef .tc main_arg0) := W4_of_ne m ρ c main_arg0 (by decide)
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_not_written m ρ c main_arg1 (by decide)
    _ = W9 m ρ c (Proc.devRef .tc main_arg1) := W10_of_ne m ρ c main_arg1 (by decide)
    _ = W8 m ρ c (Proc.devRef .tc main_arg1) := W9_of_not_written m ρ c main_arg1 (by decide)
    _ = W7 m ρ c (Proc.devRef .tc main_arg1) := W8_of_ne m ρ c main_arg1 (by decide)
    _ = W6 m ρ c (Proc.devRef .tc main_arg1) := W7_of_not_written m ρ c main_arg1 (by decide)
    _ = W5 m ρ c (Proc.devRef .tc main_arg1) := W6_of_ne m ρ c main_arg1 (by decide)
    _ = W4 m ρ c (Proc.devRef .tc main_arg1) := W5_of_not_written m ρ c main_arg1 (by decide)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_not_written m ρ c main_arg2 (by decide)
    _ = W9 m ρ c (Proc.devRef .tc main_arg2) := W10_of_ne m ρ c main_arg2 (by decide)
    _ = W8 m ρ c (Proc.devRef .tc main_arg2) := W9_of_not_written m ρ c main_arg2 (by decide)
    _ = W7 m ρ c (Proc.devRef .tc main_arg2) := W8_of_ne m ρ c main_arg2 (by decide)
    _ = W6 m ρ c (Proc.devRef .tc main_arg2) := W7_of_not_written m ρ c main_arg2 (by decide)
    _ = W5 m ρ c (Proc.devRef .tc main_arg2) := W6_of_ne m ρ c main_arg2 (by decide)
    _ = W4 m ρ c (Proc.devRef .tc main_arg2) := W5_of_not_written m ρ c main_arg2 (by decide)
    _ = W3 m ρ c (Proc.devRef .tc main_arg2) := W4_of_ne m ρ c main_arg2 (by decide)
    _ = W2 m ρ c (Proc.devRef .tc main_arg2) := W3_of_not_written m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_not_written m ρ c main_arg3 (by decide)
    _ = W9 m ρ c (Proc.devRef .tc main_arg3) := W10_of_ne m ρ c main_arg3 (by decide)
    _ = W8 m ρ c (Proc.devRef .tc main_arg3) := W9_of_not_written m ρ c main_arg3 (by decide)
    _ = W7 m ρ c (Proc.devRef .tc main_arg3) := W8_of_ne m ρ c main_arg3 (by decide)
    _ = W6 m ρ c (Proc.devRef .tc main_arg3) := W7_of_not_written m ρ c main_arg3 (by decide)
    _ = W5 m ρ c (Proc.devRef .tc main_arg3) := W6_of_ne m ρ c main_arg3 (by decide)
    _ = W4 m ρ c (Proc.devRef .tc main_arg3) := W5_of_not_written m ρ c main_arg3 (by decide)
    _ = W3 m ρ c (Proc.devRef .tc main_arg3) := W4_of_ne m ρ c main_arg3 (by decide)
    _ = W2 m ρ c (Proc.devRef .tc main_arg3) := W3_of_not_written m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl

theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_not_written m ρ c main_arg4 (by decide)
    _ = W9 m ρ c (Proc.devRef .tc main_arg4) := (W10_arr m ρ c 2).trans (((dat4 (V9 m ρ) c).arrAt_in 2 rfl _).trans (A_eq4 (V9 m ρ) c 2))
    _ = W8 m ρ c (Proc.devRef .tc main_arg4) := W9_of_not_written m ρ c main_arg4 (by decide)
    _ = W7 m ρ c (Proc.devRef .tc main_arg4) := (W8_arr m ρ c 2).trans (((dat3 (V7 m ρ) c).arrAt_in 2 rfl _).trans (A_eq3 (V7 m ρ) c 2))
    _ = W6 m ρ c (Proc.devRef .tc main_arg4) := W7_of_not_written m ρ c main_arg4 (by decide)
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := W5_of_not_written m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := W3_of_not_written m ρ c main_arg4 (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := W1_of_not_written m ρ c main_arg4 (by decide)
    _ = m ((c : Thread nD τ).loc main_arg4) := rfl

theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_not_written m ρ c main_arg5 (by decide)
    _ = W9 m ρ c (Proc.devRef .tc main_arg5) := (W10_arr m ρ c 3).trans (((dat4 (V9 m ρ) c).arrAt_in 3 rfl _).trans (A_eq4 (V9 m ρ) c 3))
    _ = W8 m ρ c (Proc.devRef .tc main_arg5) := W9_of_not_written m ρ c main_arg5 (by decide)
    _ = W7 m ρ c (Proc.devRef .tc main_arg5) := (W8_arr m ρ c 3).trans (((dat3 (V7 m ρ) c).arrAt_in 3 rfl _).trans (A_eq3 (V7 m ρ) c 3))
    _ = W6 m ρ c (Proc.devRef .tc main_arg5) := W7_of_not_written m ρ c main_arg5 (by decide)
    _ = W5 m ρ c (Proc.devRef .tc main_arg5) := (W6_arr m ρ c 3).trans (((dat2 (V5 m ρ) c).arrAt_in 3 rfl _).trans (A_eq2 (V5 m ρ) c 3))
    _ = W4 m ρ c (Proc.devRef .tc main_arg5) := W5_of_not_written m ρ c main_arg5 (by decide)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := W3_of_not_written m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_of_not_written m ρ c main_arg5 (by decide)
    _ = m ((c : Thread nD τ).loc main_arg5) := rfl

theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_not_written m ρ c main_arg6 (by decide)
    _ = W9 m ρ c (Proc.devRef .tc main_arg6) := (W10_arr m ρ c 4).trans (((dat4 (V9 m ρ) c).arrAt_in 4 rfl _).trans (A_eq4 (V9 m ρ) c 4))
    _ = W8 m ρ c (Proc.devRef .tc main_arg6) := W9_of_not_written m ρ c main_arg6 (by decide)
    _ = W7 m ρ c (Proc.devRef .tc main_arg6) := (W8_arr m ρ c 4).trans (((dat3 (V7 m ρ) c).arrAt_in 4 rfl _).trans (A_eq3 (V7 m ρ) c 4))
    _ = W6 m ρ c (Proc.devRef .tc main_arg6) := W7_of_not_written m ρ c main_arg6 (by decide)
    _ = W5 m ρ c (Proc.devRef .tc main_arg6) := (W6_arr m ρ c 4).trans (((dat2 (V5 m ρ) c).arrAt_in 4 rfl _).trans (A_eq2 (V5 m ρ) c 4))
    _ = W4 m ρ c (Proc.devRef .tc main_arg6) := W5_of_not_written m ρ c main_arg6 (by decide)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := W3_of_not_written m ρ c main_arg6 (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := W1_of_not_written m ρ c main_arg6 (by decide)
    _ = m ((c : Thread nD τ).loc main_arg6) := rfl

end Cert.Kernel.Hand

end
-- ==== Proof.K.Run.lean ====
/- @main as eleven segments and the launch: every pipeline's proof data at the contents its region starts from, a
   segment per host stretch and per region over the thread state "every unscoped buffer at the boundary's contents,
   the generator register at some state, nothing owed", the equation between @main and the segments' run, and the
   launch theorem for several regions applied to them. Its conclusion is read twice: as the final memory being the last
   boundary's contents on every unscoped buffer, and as the frame (the seven argument arrays end as launched). -/
import proofs.«177690_j24824910971087_2_alg».proof.Proof.K.Boundary

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data and thread state -/

/-- No pipeline prefetches a table, so the admissible table contents are the trivial ones. -/
abbrev adm : (p : Fin 5) → (pcfgs (F := F) p).Adm := fun p => (cfgs p).toPCfg_adm
/-- The proof data of the five pipelines, each over the contents its region starts from. Written as a literal case
    split so that at a numeral it reduces to the region's own data. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core waits on another, so no pair of cores is given a level. -/
abbrev L : GSem nD τ sig → Finset Unit := fun _ => ∅
abbrev lv : GSem nD τ sig → Unit → ℕ := fun _ _ => 0
/-- What accompanies the buffers through every segment: the generator register at some state, and the record that
    the core owes nothing. -/
abbrev R (c : Dev nD) : sProp 𝕄 := iprop((∃ r, prngReg c r) ∗ ∃ W, owes (c : Thread nD τ) (0 : CellTallies nD τ sig Unit) W)
/-- A host stretch as a segment over all unscoped buffers, from the contents W: it ends at the contents the stretch's
    operations make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that is not scoped is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at the contents @main returns
    with, the generator register at some state. -/
abbrev Tₙ (c : Dev nD) : sProp 𝕄 := iprop(StableHlo.held (c : Thread nD τ) (Pipeline.ucRefs τ sig) (W11 m ρ c) ∗ ∃ r, prngReg c r)

/-! ## The five regions as segments

Each region is entered with every unscoped buffer at the boundary's contents. Its six windows' arrays are taken out
of these buffers and handed to the pipeline; the generator register goes into the pipeline's invariant and comes
back; the scoped buffers are the pipeline's own; the remaining unscoped buffers pass by untouched. At the exit the
arrays, now at what the pipeline leaves, are put back beside the untouched rest, which is every unscoped buffer at
the next boundary's contents. -/

-- applying a library lemma stated at the pinned configuration needs unification to unfold definitions in types
set_option backward.isDefEq.respectTransparency.types false in
/-- Region 0: from every unscoped buffer at W1 to every unscoped buffer at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers split into the six arrays and the rest
    have harr := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W2
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 1: from every unscoped buffer at W3 to every unscoped buffer at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers split into the six arrays and the rest
    have harr := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W4
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 2: from every unscoped buffer at W5 to every unscoped buffer at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    -- the unscoped buffers split into the six arrays and the rest
    have harr := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W6
    have hback := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 3: from every unscoped buffer at W7 to every unscoped buffer at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    -- the unscoped buffers split into the six arrays and the rest
    have harr := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 3 c).Φ 0 = Pipeline.ΦA spec3 c from rfl]; unfold Pipeline.ΦA
    iintro ⟨Hreg, -, Hscoped⟩
    isplitl [Hscoped]; · iexact Hscoped
    iexact Hreg
  hout c := by
    rw [Pipeline.ownSems0_none, show (pdats m ρ 3 c).Φ (Fin.last _) = Pipeline.ΦA spec3 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W8
    have hback := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 4: from every unscoped buffer at W9 to every unscoped buffer at W10. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    -- the unscoped buffers split into the six arrays and the rest
    have harr := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 4 c).Φ 0 = Pipeline.ΦA spec4 c from rfl]; unfold Pipeline.ΦA
    iintro ⟨Hreg, -, Hscoped⟩
    isplitl [Hscoped]; · iexact Hscoped
    iexact Hreg
  hout c := by
    rw [Pipeline.ownSems0_none, show (pdats m ρ 4 c).Φ (Fin.last _) = Pipeline.ΦA spec4 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W10
    have hback := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

/-! ## @main as the run of its segments -/

/-- Three resources held together, regrouped: the first two on one side, the third on the other. -/
theorem sep_regroup (A B C : sProp 𝕄) : iprop(A ∗ B ∗ C) ⊢ iprop((A ∗ B) ∗ C) := by
  iintro ⟨Ha, Hb, Hc⟩
  isplitr [Hc]
  · isplitl [Ha]; · iexact Ha
    iexact Hb
  iexact Hc

/-- The eleven segments of @main in program order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

/-- @main is the run of these segments: it is the chain of its items, and the segments' run is the same chain. -/
theorem main_run (c : Dev nD) : main (F := F) c = Pipeline.Seg.run (segs m ρ) := (main_chain c).trans (by chain_rfl)

/-- What is read off a final memory on core c: every unscoped buffer holds the last boundary's contents. -/
abbrev QY (c : Dev nD) (s : MemSt nD τ sig (Elt F)) : Prop :=
  ∀ b ∈ Pipeline.ucRefs τ sig, s.mem (((c : Thread nD τ)).1, b) = W11 m ρ c b

-- the launch theorem's implicit arguments are found by unifying its conclusion with ours, which unfolds definitions in types
set_option backward.isDefEq.respectTransparency.types false in
/-- The launch over the segments, at any property Q of the final memory that follows from the readings QY on every
    core: from any memory with every semaphore counter at zero, every weakly fair execution of @main on the
    TensorCores terminates without fault in a memory satisfying Q. -/
theorem run_main_of {Q : PUnit × MemSt nD τ sig (Elt F) → Prop}
    (hQ : ∀ s : MemSt nD τ sig (Elt F), (∀ c : Dev nD, QY m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl,
      -- the last stretch's thread state, regrouped: buffers and register on one side, the record of owing nothing on the other
      fun c => sep_regroup _ _ _⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := QY m ρ)
    (hfin := fun c s' => by
      iintro ⟨⟨Hbufs, -⟩, HSI⟩
      unfold StableHlo.held
      imodintro
      iapply (pointsTo_read_all (Pipeline.ucRefs τ sig) (fun b => (((c : Thread nD τ)).1, b)) (W11 m ρ c) s')
      isplitl [Hbufs] <;> iassumption)
    (hQ := hQ)

/-- The run of @main: it terminates without fault, and in every final memory every unscoped buffer of every core holds
    the contents of the last boundary. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  run_main_of m ρ fun _ h => h

/-- The frame: @main terminates without fault and each of the seven argument arrays ends holding what it held at the
    launch. Each is an unscoped buffer, so the final memory holds the last boundary's contents there, and those
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main_of m ρ fun s h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩

/-- info: 'Cert.Kernel.Hand.frame' depends on axioms: [propext, Classical.choice, Quot.sound] -/
#guard_msgs in #print axioms frame

end Cert.Kernel.Hand

end
-- ==== Proof.KI.Writes.lean ====
/- What each stretch of host operations of @main writes: the list of its result buffers, that every operation writes
   inside that list, and that no operation allocates a buffer. A buffer outside the list keeps its contents across the
   stretch; this is how the argument arrays are followed from the launch to the return. -/
import proofs.«177690_j24824910971087_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- An operation whose only written buffer is the reference y writes inside any list that holds y. -/
theorem writes_sub_of_mem {W : List (Ref sig .tc)} (y : Ref sig .tc) (op : HloOp τ sig (Elt F))
    (h : op.writes = {Proc.devRef .tc y}) (hy : y ∈ W) :
    op.writes ⊆ (W.map (Proc.devRef (τ := τ) .tc)).toFinset := by
  rw [h]
  intro b hb
  rw [Finset.mem_singleton] at hb
  subst hb
  exact List.mem_toFinset.mpr (List.mem_map.mpr ⟨y, hy, rfl⟩)

/-- The result buffers of stretch 0, in program order. -/
def writes0 : List (Ref sig .tc) :=
  [main_v0, main_v1, main_v2, main_c, main_v3, main_v4, main_c_0, main_v5, main_v6, main_v7, main_v8, main_v9, main_v10, main_v11, main_c_1, main_v12, main_v13, main_c_2, main_v14, main_v15, main_v16, main_v17, main_v18, main_v19, main_v20, main_v21, main_c_3, main_v22, main_v23, main_c_4, main_v24, main_v25, main_v26, main_v27, main_v28, main_v29, main_v30, main_v31, main_c_5, main_v32, main_v33, main_c_6, main_v34, main_v35, main_v36, main_v37, main_v38, main_v39, main_v40, main_v41, main_c_7, main_v42, main_v43, main_c_8, main_v44, main_v45, main_v46, main_v47, main_v48, main_v49, main_v50, main_v51, main_c_9, main_v52, main_v53, main_c_10, main_v54, main_v55, main_v56, main_v57, main_v58, main_v59, main_c_11, main_v60, main_v61, main_c_12, main_v62, main_v63, main_v64, main_v65, main_v66, main_c_13, main_v67, main_v68, main_c_14, main_v69, main_v70, main_v71, main_v72, main_v73, main_v74]

set_option maxHeartbeats 4000000 in
/-- Every operation of stretch 0 writes its own result buffer only, which the list holds. -/
theorem hostOps0_writes : (hostOps0 : List (HloOp τ sig (Elt F))).Forall fun op =>
    op.writes ⊆ (writes0.map (Proc.devRef (τ := τ) .tc)).toFinset :=
  ⟨writes_sub_of_mem main_v0 _ rfl (by decide),
   writes_sub_of_mem main_v1 _ rfl (by decide),
   writes_sub_of_mem main_v2 _ rfl (by decide),
   writes_sub_of_mem main_c _ rfl (by decide),
   writes_sub_of_mem main_v3 _ rfl (by decide),
   writes_sub_of_mem main_v4 _ rfl (by decide),
   writes_sub_of_mem main_c_0 _ rfl (by decide),
   writes_sub_of_mem main_v5 _ rfl (by decide),
   writes_sub_of_mem main_v6 _ rfl (by decide),
   writes_sub_of_mem main_v7 _ rfl (by decide),
   writes_sub_of_mem main_v8 _ rfl (by decide),
   writes_sub_of_mem main_v9 _ rfl (by decide),
   writes_sub_of_mem main_v10 _ rfl (by decide),
   writes_sub_of_mem main_v11 _ rfl (by decide),
   writes_sub_of_mem main_c_1 _ rfl (by decide),
   writes_sub_of_mem main_v12 _ rfl (by decide),
   writes_sub_of_mem main_v13 _ rfl (by decide),
   writes_sub_of_mem main_c_2 _ rfl (by decide),
   writes_sub_of_mem main_v14 _ rfl (by decide),
   writes_sub_of_mem main_v15 _ rfl (by decide),
   writes_sub_of_mem main_v16 _ rfl (by decide),
   writes_sub_of_mem main_v17 _ rfl (by decide),
   writes_sub_of_mem main_v18 _ rfl (by decide),
   writes_sub_of_mem main_v19 _ rfl (by decide),
   writes_sub_of_mem main_v20 _ rfl (by decide),
   writes_sub_of_mem main_v21 _ rfl (by decide),
   writes_sub_of_mem main_c_3 _ rfl (by decide),
   writes_sub_of_mem main_v22 _ rfl (by decide),
   writes_sub_of_mem main_v23 _ rfl (by decide),
   writes_sub_of_mem main_c_4 _ rfl (by decide),
   writes_sub_of_mem main_v24 _ rfl (by decide),
   writes_sub_of_mem main_v25 _ rfl (by decide),
   writes_sub_of_mem main_v26 _ rfl (by decide),
   writes_sub_of_mem main_v27 _ rfl (by decide),
   writes_sub_of_mem main_v28 _ rfl (by decide),
   writes_sub_of_mem main_v29 _ rfl (by decide),
   writes_sub_of_mem main_v30 _ rfl (by decide),
   writes_sub_of_mem main_v31 _ rfl (by decide),
   writes_sub_of_mem main_c_5 _ rfl (by decide),
   writes_sub_of_mem main_v32 _ rfl (by decide),
   writes_sub_of_mem main_v33 _ rfl (by decide),
   writes_sub_of_mem main_c_6 _ rfl (by decide),
   writes_sub_of_mem main_v34 _ rfl (by decide),
   writes_sub_of_mem main_v35 _ rfl (by decide),
   writes_sub_of_mem main_v36 _ rfl (by decide),
   writes_sub_of_mem main_v37 _ rfl (by decide),
   writes_sub_of_mem main_v38 _ rfl (by decide),
   writes_sub_of_mem main_v39 _ rfl (by decide),
   writes_sub_of_mem main_v40 _ rfl (by decide),
   writes_sub_of_mem main_v41 _ rfl (by decide),
   writes_sub_of_mem main_c_7 _ rfl (by decide),
   writes_sub_of_mem main_v42 _ rfl (by decide),
   writes_sub_of_mem main_v43 _ rfl (by decide),
   writes_sub_of_mem main_c_8 _ rfl (by decide),
   writes_sub_of_mem main_v44 _ rfl (by decide),
   writes_sub_of_mem main_v45 _ rfl (by decide),
   writes_sub_of_mem main_v46 _ rfl (by decide),
   writes_sub_of_mem main_v47 _ rfl (by decide),
   writes_sub_of_mem main_v48 _ rfl (by decide),
   writes_sub_of_mem main_v49 _ rfl (by decide),
   writes_sub_of_mem main_v50 _ rfl (by decide),
   writes_sub_of_mem main_v51 _ rfl (by decide),
   writes_sub_of_mem main_c_9 _ rfl (by decide),
   writes_sub_of_mem main_v52 _ rfl (by decide),
   writes_sub_of_mem main_v53 _ rfl (by decide),
   writes_sub_of_mem main_c_10 _ rfl (by decide),
   writes_sub_of_mem main_v54 _ rfl (by decide),
   writes_sub_of_mem main_v55 _ rfl (by decide),
   writes_sub_of_mem main_v56 _ rfl (by decide),
   writes_sub_of_mem main_v57 _ rfl (by decide),
   writes_sub_of_mem main_v58 _ rfl (by decide),
   writes_sub_of_mem main_v59 _ rfl (by decide),
   writes_sub_of_mem main_c_11 _ rfl (by decide),
   writes_sub_of_mem main_v60 _ rfl (by decide),
   writes_sub_of_mem main_v61 _ rfl (by decide),
   writes_sub_of_mem main_c_12 _ rfl (by decide),
   writes_sub_of_mem main_v62 _ rfl (by decide),
   writes_sub_of_mem main_v63 _ rfl (by decide),
   writes_sub_of_mem main_v64 _ rfl (by decide),
   writes_sub_of_mem main_v65 _ rfl (by decide),
   writes_sub_of_mem main_v66 _ rfl (by decide),
   writes_sub_of_mem main_c_13 _ rfl (by decide),
   writes_sub_of_mem main_v67 _ rfl (by decide),
   writes_sub_of_mem main_v68 _ rfl (by decide),
   writes_sub_of_mem main_c_14 _ rfl (by decide),
   writes_sub_of_mem main_v69 _ rfl (by decide),
   writes_sub_of_mem main_v70 _ rfl (by decide),
   writes_sub_of_mem main_v71 _ rfl (by decide),
   writes_sub_of_mem main_v72 _ rfl (by decide),
   writes_sub_of_mem main_v73 _ rfl (by decide),
   writes_sub_of_mem main_v74 _ rfl (by decide)⟩

set_option maxHeartbeats 4000000 in
/-- No operation of stretch 0 allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 1, in program order. -/
def writes1 : List (Ref sig .tc) :=
  [main_v76, main_v77, main_c_15, main_v78, main_v79, main_c_16, main_v80, main_v81, main_v82, main_v83, main_v84, main_v85, main_v86, main_c_17, main_v87, main_v88, main_c_18, main_v89, main_v90, main_v91, main_v92, main_v93, main_v94, main_v95, main_v96, main_c_19, main_v97, main_v98, main_c_20, main_v99, main_v100, main_v101, main_v102, main_v103, main_v104, main_v105, main_v106, main_c_21, main_v107, main_v108, main_c_22, main_v109, main_v110, main_v111, main_v112, main_v113, main_v114, main_v115, main_v116, main_c_23, main_v117, main_v118, main_c_24, main_v119, main_v120, main_v121, main_v122, main_v123, main_v124, main_v125, main_v126, main_c_25, main_v127, main_v128, main_c_26, main_v129, main_v130, main_v131, main_v132, main_v133, main_v134, main_c_27, main_v135, main_v136, main_c_28, main_v137, main_v138, main_v139, main_v140, main_v141, main_c_29, main_v142, main_v143, main_c_30, main_v144, main_v145, main_v146, main_v147, main_v148, main_v149]

set_option maxHeartbeats 4000000 in
/-- Every operation of stretch 1 writes its own result buffer only, which the list holds. -/
theorem hostOps1_writes : (hostOps1 : List (HloOp τ sig (Elt F))).Forall fun op =>
    op.writes ⊆ (writes1.map (Proc.devRef (τ := τ) .tc)).toFinset :=
  ⟨writes_sub_of_mem main_v76 _ rfl (by decide),
   writes_sub_of_mem main_v77 _ rfl (by decide),
   writes_sub_of_mem main_c_15 _ rfl (by decide),
   writes_sub_of_mem main_v78 _ rfl (by decide),
   writes_sub_of_mem main_v79 _ rfl (by decide),
   writes_sub_of_mem main_c_16 _ rfl (by decide),
   writes_sub_of_mem main_v80 _ rfl (by decide),
   writes_sub_of_mem main_v81 _ rfl (by decide),
   writes_sub_of_mem main_v82 _ rfl (by decide),
   writes_sub_of_mem main_v83 _ rfl (by decide),
   writes_sub_of_mem main_v84 _ rfl (by decide),
   writes_sub_of_mem main_v85 _ rfl (by decide),
   writes_sub_of_mem main_v86 _ rfl (by decide),
   writes_sub_of_mem main_c_17 _ rfl (by decide),
   writes_sub_of_mem main_v87 _ rfl (by decide),
   writes_sub_of_mem main_v88 _ rfl (by decide),
   writes_sub_of_mem main_c_18 _ rfl (by decide),
   writes_sub_of_mem main_v89 _ rfl (by decide),
   writes_sub_of_mem main_v90 _ rfl (by decide),
   writes_sub_of_mem main_v91 _ rfl (by decide),
   writes_sub_of_mem main_v92 _ rfl (by decide),
   writes_sub_of_mem main_v93 _ rfl (by decide),
   writes_sub_of_mem main_v94 _ rfl (by decide),
   writes_sub_of_mem main_v95 _ rfl (by decide),
   writes_sub_of_mem main_v96 _ rfl (by decide),
   writes_sub_of_mem main_c_19 _ rfl (by decide),
   writes_sub_of_mem main_v97 _ rfl (by decide),
   writes_sub_of_mem main_v98 _ rfl (by decide),
   writes_sub_of_mem main_c_20 _ rfl (by decide),
   writes_sub_of_mem main_v99 _ rfl (by decide),
   writes_sub_of_mem main_v100 _ rfl (by decide),
   writes_sub_of_mem main_v101 _ rfl (by decide),
   writes_sub_of_mem main_v102 _ rfl (by decide),
   writes_sub_of_mem main_v103 _ rfl (by decide),
   writes_sub_of_mem main_v104 _ rfl (by decide),
   writes_sub_of_mem main_v105 _ rfl (by decide),
   writes_sub_of_mem main_v106 _ rfl (by decide),
   writes_sub_of_mem main_c_21 _ rfl (by decide),
   writes_sub_of_mem main_v107 _ rfl (by decide),
   writes_sub_of_mem main_v108 _ rfl (by decide),
   writes_sub_of_mem main_c_22 _ rfl (by decide),
   writes_sub_of_mem main_v109 _ rfl (by decide),
   writes_sub_of_mem main_v110 _ rfl (by decide),
   writes_sub_of_mem main_v111 _ rfl (by decide),
   writes_sub_of_mem main_v112 _ rfl (by decide),
   writes_sub_of_mem main_v113 _ rfl (by decide),
   writes_sub_of_mem main_v114 _ rfl (by decide),
   writes_sub_of_mem main_v115 _ rfl (by decide),
   writes_sub_of_mem main_v116 _ rfl (by decide),
   writes_sub_of_mem main_c_23 _ rfl (by decide),
   writes_sub_of_mem main_v117 _ rfl (by decide),
   writes_sub_of_mem main_v118 _ rfl (by decide),
   writes_sub_of_mem main_c_24 _ rfl (by decide),
   writes_sub_of_mem main_v119 _ rfl (by decide),
   writes_sub_of_mem main_v120 _ rfl (by decide),
   writes_sub_of_mem main_v121 _ rfl (by decide),
   writes_sub_of_mem main_v122 _ rfl (by decide),
   writes_sub_of_mem main_v123 _ rfl (by decide),
   writes_sub_of_mem main_v124 _ rfl (by decide),
   writes_sub_of_mem main_v125 _ rfl (by decide),
   writes_sub_of_mem main_v126 _ rfl (by decide),
   writes_sub_of_mem main_c_25 _ rfl (by decide),
   writes_sub_of_mem main_v127 _ rfl (by decide),
   writes_sub_of_mem main_v128 _ rfl (by decide),
   writes_sub_of_mem main_c_26 _ rfl (by decide),
   writes_sub_of_mem main_v129 _ rfl (by decide),
   writes_sub_of_mem main_v130 _ rfl (by decide),
   writes_sub_of_mem main_v131 _ rfl (by decide),
   writes_sub_of_mem main_v132 _ rfl (by decide),
   writes_sub_of_mem main_v133 _ rfl (by decide),
   writes_sub_of_mem main_v134 _ rfl (by decide),
   writes_sub_of_mem main_c_27 _ rfl (by decide),
   writes_sub_of_mem main_v135 _ rfl (by decide),
   writes_sub_of_mem main_v136 _ rfl (by decide),
   writes_sub_of_mem main_c_28 _ rfl (by decide),
   writes_sub_of_mem main_v137 _ rfl (by decide),
   writes_sub_of_mem main_v138 _ rfl (by decide),
   writes_sub_of_mem main_v139 _ rfl (by decide),
   writes_sub_of_mem main_v140 _ rfl (by decide),
   writes_sub_of_mem main_v141 _ rfl (by decide),
   writes_sub_of_mem main_c_29 _ rfl (by decide),
   writes_sub_of_mem main_v142 _ rfl (by decide),
   writes_sub_of_mem main_v143 _ rfl (by decide),
   writes_sub_of_mem main_c_30 _ rfl (by decide),
   writes_sub_of_mem main_v144 _ rfl (by decide),
   writes_sub_of_mem main_v145 _ rfl (by decide),
   writes_sub_of_mem main_v146 _ rfl (by decide),
   writes_sub_of_mem main_v147 _ rfl (by decide),
   writes_sub_of_mem main_v148 _ rfl (by decide),
   writes_sub_of_mem main_v149 _ rfl (by decide)⟩

set_option maxHeartbeats 4000000 in
/-- No operation of stretch 1 allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 2, in program order. -/
def writes2 : List (Ref sig .tc) :=
  [main_v151, main_v152, main_c_31, main_v153, main_v154, main_c_32, main_v155, main_v156, main_v157, main_v158, main_v159, main_v160, main_v161, main_c_33, main_v162, main_v163, main_c_34, main_v164, main_v165, main_v166, main_v167, main_v168, main_v169, main_v170, main_v171, main_c_35, main_v172, main_v173, main_c_36, main_v174, main_v175, main_v176, main_v177, main_v178, main_v179, main_v180, main_v181, main_c_37, main_v182, main_v183, main_c_38, main_v184, main_v185, main_v186, main_v187, main_v188, main_v189, main_v190, main_v191, main_c_39, main_v192, main_v193, main_c_40, main_v194, main_v195, main_v196, main_v197, main_v198, main_v199, main_v200, main_v201, main_c_41, main_v202, main_v203, main_c_42, main_v204, main_v205, main_v206, main_v207, main_v208, main_v209, main_c_43, main_v210, main_v211, main_c_44, main_v212, main_v213, main_v214, main_v215, main_v216, main_c_45, main_v217, main_v218, main_c_46, main_v219, main_v220, main_v221, main_v222, main_v223, main_v224]

set_option maxHeartbeats 4000000 in
/-- Every operation of stretch 2 writes its own result buffer only, which the list holds. -/
theorem hostOps2_writes : (hostOps2 : List (HloOp τ sig (Elt F))).Forall fun op =>
    op.writes ⊆ (writes2.map (Proc.devRef (τ := τ) .tc)).toFinset :=
  ⟨writes_sub_of_mem main_v151 _ rfl (by decide),
   writes_sub_of_mem main_v152 _ rfl (by decide),
   writes_sub_of_mem main_c_31 _ rfl (by decide),
   writes_sub_of_mem main_v153 _ rfl (by decide),
   writes_sub_of_mem main_v154 _ rfl (by decide),
   writes_sub_of_mem main_c_32 _ rfl (by decide),
   writes_sub_of_mem main_v155 _ rfl (by decide),
   writes_sub_of_mem main_v156 _ rfl (by decide),
   writes_sub_of_mem main_v157 _ rfl (by decide),
   writes_sub_of_mem main_v158 _ rfl (by decide),
   writes_sub_of_mem main_v159 _ rfl (by decide),
   writes_sub_of_mem main_v160 _ rfl (by decide),
   writes_sub_of_mem main_v161 _ rfl (by decide),
   writes_sub_of_mem main_c_33 _ rfl (by decide),
   writes_sub_of_mem main_v162 _ rfl (by decide),
   writes_sub_of_mem main_v163 _ rfl (by decide),
   writes_sub_of_mem main_c_34 _ rfl (by decide),
   writes_sub_of_mem main_v164 _ rfl (by decide),
   writes_sub_of_mem main_v165 _ rfl (by decide),
   writes_sub_of_mem main_v166 _ rfl (by decide),
   writes_sub_of_mem main_v167 _ rfl (by decide),
   writes_sub_of_mem main_v168 _ rfl (by decide),
   writes_sub_of_mem main_v169 _ rfl (by decide),
   writes_sub_of_mem main_v170 _ rfl (by decide),
   writes_sub_of_mem main_v171 _ rfl (by decide),
   writes_sub_of_mem main_c_35 _ rfl (by decide),
   writes_sub_of_mem main_v172 _ rfl (by decide),
   writes_sub_of_mem main_v173 _ rfl (by decide),
   writes_sub_of_mem main_c_36 _ rfl (by decide),
   writes_sub_of_mem main_v174 _ rfl (by decide),
   writes_sub_of_mem main_v175 _ rfl (by decide),
   writes_sub_of_mem main_v176 _ rfl (by decide),
   writes_sub_of_mem main_v177 _ rfl (by decide),
   writes_sub_of_mem main_v178 _ rfl (by decide),
   writes_sub_of_mem main_v179 _ rfl (by decide),
   writes_sub_of_mem main_v180 _ rfl (by decide),
   writes_sub_of_mem main_v181 _ rfl (by decide),
   writes_sub_of_mem main_c_37 _ rfl (by decide),
   writes_sub_of_mem main_v182 _ rfl (by decide),
   writes_sub_of_mem main_v183 _ rfl (by decide),
   writes_sub_of_mem main_c_38 _ rfl (by decide),
   writes_sub_of_mem main_v184 _ rfl (by decide),
   writes_sub_of_mem main_v185 _ rfl (by decide),
   writes_sub_of_mem main_v186 _ rfl (by decide),
   writes_sub_of_mem main_v187 _ rfl (by decide),
   writes_sub_of_mem main_v188 _ rfl (by decide),
   writes_sub_of_mem main_v189 _ rfl (by decide),
   writes_sub_of_mem main_v190 _ rfl (by decide),
   writes_sub_of_mem main_v191 _ rfl (by decide),
   writes_sub_of_mem main_c_39 _ rfl (by decide),
   writes_sub_of_mem main_v192 _ rfl (by decide),
   writes_sub_of_mem main_v193 _ rfl (by decide),
   writes_sub_of_mem main_c_40 _ rfl (by decide),
   writes_sub_of_mem main_v194 _ rfl (by decide),
   writes_sub_of_mem main_v195 _ rfl (by decide),
   writes_sub_of_mem main_v196 _ rfl (by decide),
   writes_sub_of_mem main_v197 _ rfl (by decide),
   writes_sub_of_mem main_v198 _ rfl (by decide),
   writes_sub_of_mem main_v199 _ rfl (by decide),
   writes_sub_of_mem main_v200 _ rfl (by decide),
   writes_sub_of_mem main_v201 _ rfl (by decide),
   writes_sub_of_mem main_c_41 _ rfl (by decide),
   writes_sub_of_mem main_v202 _ rfl (by decide),
   writes_sub_of_mem main_v203 _ rfl (by decide),
   writes_sub_of_mem main_c_42 _ rfl (by decide),
   writes_sub_of_mem main_v204 _ rfl (by decide),
   writes_sub_of_mem main_v205 _ rfl (by decide),
   writes_sub_of_mem main_v206 _ rfl (by decide),
   writes_sub_of_mem main_v207 _ rfl (by decide),
   writes_sub_of_mem main_v208 _ rfl (by decide),
   writes_sub_of_mem main_v209 _ rfl (by decide),
   writes_sub_of_mem main_c_43 _ rfl (by decide),
   writes_sub_of_mem main_v210 _ rfl (by decide),
   writes_sub_of_mem main_v211 _ rfl (by decide),
   writes_sub_of_mem main_c_44 _ rfl (by decide),
   writes_sub_of_mem main_v212 _ rfl (by decide),
   writes_sub_of_mem main_v213 _ rfl (by decide),
   writes_sub_of_mem main_v214 _ rfl (by decide),
   writes_sub_of_mem main_v215 _ rfl (by decide),
   writes_sub_of_mem main_v216 _ rfl (by decide),
   writes_sub_of_mem main_c_45 _ rfl (by decide),
   writes_sub_of_mem main_v217 _ rfl (by decide),
   writes_sub_of_mem main_v218 _ rfl (by decide),
   writes_sub_of_mem main_c_46 _ rfl (by decide),
   writes_sub_of_mem main_v219 _ rfl (by decide),
   writes_sub_of_mem main_v220 _ rfl (by decide),
   writes_sub_of_mem main_v221 _ rfl (by decide),
   writes_sub_of_mem main_v222 _ rfl (by decide),
   writes_sub_of_mem main_v223 _ rfl (by decide),
   writes_sub_of_mem main_v224 _ rfl (by decide)⟩

set_option maxHeartbeats 4000000 in
/-- No operation of stretch 2 allocates a buffer. -/
theorem hostOps2_fresh : (hostOps2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 3, in program order. -/
def writes3 : List (Ref sig .tc) :=
  [main_v226, main_v227, main_c_47, main_v228, main_v229, main_c_48, main_v230, main_v231, main_v232, main_v233, main_v234, main_v235, main_v236, main_c_49, main_v237, main_v238, main_c_50, main_v239, main_v240, main_v241, main_v242, main_v243, main_v244, main_v245, main_v246, main_c_51, main_v247, main_v248, main_c_52, main_v249, main_v250, main_v251, main_v252, main_v253, main_v254, main_v255, main_v256, main_c_53, main_v257, main_v258, main_c_54, main_v259, main_v260, main_v261, main_v262, main_v263, main_v264, main_v265, main_v266, main_c_55, main_v267, main_v268, main_c_56, main_v269, main_v270, main_v271, main_v272, main_v273, main_v274, main_v275, main_v276, main_c_57, main_v277, main_v278, main_c_58, main_v279, main_v280, main_v281, main_v282, main_v283, main_v284, main_c_59, main_v285, main_v286, main_c_60, main_v287, main_v288, main_v289, main_v290, main_v291, main_c_61, main_v292, main_v293, main_c_62, main_v294, main_v295, main_v296, main_v297, main_v298, main_v299]

set_option maxHeartbeats 4000000 in
/-- Every operation of stretch 3 writes its own result buffer only, which the list holds. -/
theorem hostOps3_writes : (hostOps3 : List (HloOp τ sig (Elt F))).Forall fun op =>
    op.writes ⊆ (writes3.map (Proc.devRef (τ := τ) .tc)).toFinset :=
  ⟨writes_sub_of_mem main_v226 _ rfl (by decide),
   writes_sub_of_mem main_v227 _ rfl (by decide),
   writes_sub_of_mem main_c_47 _ rfl (by decide),
   writes_sub_of_mem main_v228 _ rfl (by decide),
   writes_sub_of_mem main_v229 _ rfl (by decide),
   writes_sub_of_mem main_c_48 _ rfl (by decide),
   writes_sub_of_mem main_v230 _ rfl (by decide),
   writes_sub_of_mem main_v231 _ rfl (by decide),
   writes_sub_of_mem main_v232 _ rfl (by decide),
   writes_sub_of_mem main_v233 _ rfl (by decide),
   writes_sub_of_mem main_v234 _ rfl (by decide),
   writes_sub_of_mem main_v235 _ rfl (by decide),
   writes_sub_of_mem main_v236 _ rfl (by decide),
   writes_sub_of_mem main_c_49 _ rfl (by decide),
   writes_sub_of_mem main_v237 _ rfl (by decide),
   writes_sub_of_mem main_v238 _ rfl (by decide),
   writes_sub_of_mem main_c_50 _ rfl (by decide),
   writes_sub_of_mem main_v239 _ rfl (by decide),
   writes_sub_of_mem main_v240 _ rfl (by decide),
   writes_sub_of_mem main_v241 _ rfl (by decide),
   writes_sub_of_mem main_v242 _ rfl (by decide),
   writes_sub_of_mem main_v243 _ rfl (by decide),
   writes_sub_of_mem main_v244 _ rfl (by decide),
   writes_sub_of_mem main_v245 _ rfl (by decide),
   writes_sub_of_mem main_v246 _ rfl (by decide),
   writes_sub_of_mem main_c_51 _ rfl (by decide),
   writes_sub_of_mem main_v247 _ rfl (by decide),
   writes_sub_of_mem main_v248 _ rfl (by decide),
   writes_sub_of_mem main_c_52 _ rfl (by decide),
   writes_sub_of_mem main_v249 _ rfl (by decide),
   writes_sub_of_mem main_v250 _ rfl (by decide),
   writes_sub_of_mem main_v251 _ rfl (by decide),
   writes_sub_of_mem main_v252 _ rfl (by decide),
   writes_sub_of_mem main_v253 _ rfl (by decide),
   writes_sub_of_mem main_v254 _ rfl (by decide),
   writes_sub_of_mem main_v255 _ rfl (by decide),
   writes_sub_of_mem main_v256 _ rfl (by decide),
   writes_sub_of_mem main_c_53 _ rfl (by decide),
   writes_sub_of_mem main_v257 _ rfl (by decide),
   writes_sub_of_mem main_v258 _ rfl (by decide),
   writes_sub_of_mem main_c_54 _ rfl (by decide),
   writes_sub_of_mem main_v259 _ rfl (by decide),
   writes_sub_of_mem main_v260 _ rfl (by decide),
   writes_sub_of_mem main_v261 _ rfl (by decide),
   writes_sub_of_mem main_v262 _ rfl (by decide),
   writes_sub_of_mem main_v263 _ rfl (by decide),
   writes_sub_of_mem main_v264 _ rfl (by decide),
   writes_sub_of_mem main_v265 _ rfl (by decide),
   writes_sub_of_mem main_v266 _ rfl (by decide),
   writes_sub_of_mem main_c_55 _ rfl (by decide),
   writes_sub_of_mem main_v267 _ rfl (by decide),
   writes_sub_of_mem main_v268 _ rfl (by decide),
   writes_sub_of_mem main_c_56 _ rfl (by decide),
   writes_sub_of_mem main_v269 _ rfl (by decide),
   writes_sub_of_mem main_v270 _ rfl (by decide),
   writes_sub_of_mem main_v271 _ rfl (by decide),
   writes_sub_of_mem main_v272 _ rfl (by decide),
   writes_sub_of_mem main_v273 _ rfl (by decide),
   writes_sub_of_mem main_v274 _ rfl (by decide),
   writes_sub_of_mem main_v275 _ rfl (by decide),
   writes_sub_of_mem main_v276 _ rfl (by decide),
   writes_sub_of_mem main_c_57 _ rfl (by decide),
   writes_sub_of_mem main_v277 _ rfl (by decide),
   writes_sub_of_mem main_v278 _ rfl (by decide),
   writes_sub_of_mem main_c_58 _ rfl (by decide),
   writes_sub_of_mem main_v279 _ rfl (by decide),
   writes_sub_of_mem main_v280 _ rfl (by decide),
   writes_sub_of_mem main_v281 _ rfl (by decide),
   writes_sub_of_mem main_v282 _ rfl (by decide),
   writes_sub_of_mem main_v283 _ rfl (by decide),
   writes_sub_of_mem main_v284 _ rfl (by decide),
   writes_sub_of_mem main_c_59 _ rfl (by decide),
   writes_sub_of_mem main_v285 _ rfl (by decide),
   writes_sub_of_mem main_v286 _ rfl (by decide),
   writes_sub_of_mem main_c_60 _ rfl (by decide),
   writes_sub_of_mem main_v287 _ rfl (by decide),
   writes_sub_of_mem main_v288 _ rfl (by decide),
   writes_sub_of_mem main_v289 _ rfl (by decide),
   writes_sub_of_mem main_v290 _ rfl (by decide),
   writes_sub_of_mem main_v291 _ rfl (by decide),
   writes_sub_of_mem main_c_61 _ rfl (by decide),
   writes_sub_of_mem main_v292 _ rfl (by decide),
   writes_sub_of_mem main_v293 _ rfl (by decide),
   writes_sub_of_mem main_c_62 _ rfl (by decide),
   writes_sub_of_mem main_v294 _ rfl (by decide),
   writes_sub_of_mem main_v295 _ rfl (by decide),
   writes_sub_of_mem main_v296 _ rfl (by decide),
   writes_sub_of_mem main_v297 _ rfl (by decide),
   writes_sub_of_mem main_v298 _ rfl (by decide),
   writes_sub_of_mem main_v299 _ rfl (by decide)⟩

set_option maxHeartbeats 4000000 in
/-- No operation of stretch 3 allocates a buffer. -/
theorem hostOps3_fresh : (hostOps3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 4, in program order. -/
def writes4 : List (Ref sig .tc) :=
  [main_v301, main_v302, main_c_63, main_v303, main_v304, main_c_64, main_v305, main_v306, main_v307, main_v308, main_v309, main_v310, main_v311, main_c_65, main_v312, main_v313, main_c_66, main_v314, main_v315, main_v316, main_v317, main_v318, main_v319, main_v320, main_v321, main_c_67, main_v322, main_v323, main_c_68, main_v324, main_v325, main_v326, main_v327, main_v328, main_v329, main_v330, main_v331, main_c_69, main_v332, main_v333, main_c_70, main_v334, main_v335, main_v336, main_v337, main_v338, main_v339, main_v340, main_v341, main_c_71, main_v342, main_v343, main_c_72, main_v344, main_v345, main_v346, main_v347, main_v348, main_v349, main_v350, main_v351, main_c_73, main_v352, main_v353, main_c_74, main_v354, main_v355, main_v356, main_v357, main_v358, main_v359, main_c_75, main_v360, main_v361, main_c_76, main_v362, main_v363, main_v364, main_v365, main_v366, main_c_77, main_v367, main_v368, main_c_78, main_v369, main_v370, main_v371, main_v372, main_v373, main_v374]

set_option maxHeartbeats 4000000 in
/-- Every operation of stretch 4 writes its own result buffer only, which the list holds. -/
theorem hostOps4_writes : (hostOps4 : List (HloOp τ sig (Elt F))).Forall fun op =>
    op.writes ⊆ (writes4.map (Proc.devRef (τ := τ) .tc)).toFinset :=
  ⟨writes_sub_of_mem main_v301 _ rfl (by decide),
   writes_sub_of_mem main_v302 _ rfl (by decide),
   writes_sub_of_mem main_c_63 _ rfl (by decide),
   writes_sub_of_mem main_v303 _ rfl (by decide),
   writes_sub_of_mem main_v304 _ rfl (by decide),
   writes_sub_of_mem main_c_64 _ rfl (by decide),
   writes_sub_of_mem main_v305 _ rfl (by decide),
   writes_sub_of_mem main_v306 _ rfl (by decide),
   writes_sub_of_mem main_v307 _ rfl (by decide),
   writes_sub_of_mem main_v308 _ rfl (by decide),
   writes_sub_of_mem main_v309 _ rfl (by decide),
   writes_sub_of_mem main_v310 _ rfl (by decide),
   writes_sub_of_mem main_v311 _ rfl (by decide),
   writes_sub_of_mem main_c_65 _ rfl (by decide),
   writes_sub_of_mem main_v312 _ rfl (by decide),
   writes_sub_of_mem main_v313 _ rfl (by decide),
   writes_sub_of_mem main_c_66 _ rfl (by decide),
   writes_sub_of_mem main_v314 _ rfl (by decide),
   writes_sub_of_mem main_v315 _ rfl (by decide),
   writes_sub_of_mem main_v316 _ rfl (by decide),
   writes_sub_of_mem main_v317 _ rfl (by decide),
   writes_sub_of_mem main_v318 _ rfl (by decide),
   writes_sub_of_mem main_v319 _ rfl (by decide),
   writes_sub_of_mem main_v320 _ rfl (by decide),
   writes_sub_of_mem main_v321 _ rfl (by decide),
   writes_sub_of_mem main_c_67 _ rfl (by decide),
   writes_sub_of_mem main_v322 _ rfl (by decide),
   writes_sub_of_mem main_v323 _ rfl (by decide),
   writes_sub_of_mem main_c_68 _ rfl (by decide),
   writes_sub_of_mem main_v324 _ rfl (by decide),
   writes_sub_of_mem main_v325 _ rfl (by decide),
   writes_sub_of_mem main_v326 _ rfl (by decide),
   writes_sub_of_mem main_v327 _ rfl (by decide),
   writes_sub_of_mem main_v328 _ rfl (by decide),
   writes_sub_of_mem main_v329 _ rfl (by decide),
   writes_sub_of_mem main_v330 _ rfl (by decide),
   writes_sub_of_mem main_v331 _ rfl (by decide),
   writes_sub_of_mem main_c_69 _ rfl (by decide),
   writes_sub_of_mem main_v332 _ rfl (by decide),
   writes_sub_of_mem main_v333 _ rfl (by decide),
   writes_sub_of_mem main_c_70 _ rfl (by decide),
   writes_sub_of_mem main_v334 _ rfl (by decide),
   writes_sub_of_mem main_v335 _ rfl (by decide),
   writes_sub_of_mem main_v336 _ rfl (by decide),
   writes_sub_of_mem main_v337 _ rfl (by decide),
   writes_sub_of_mem main_v338 _ rfl (by decide),
   writes_sub_of_mem main_v339 _ rfl (by decide),
   writes_sub_of_mem main_v340 _ rfl (by decide),
   writes_sub_of_mem main_v341 _ rfl (by decide),
   writes_sub_of_mem main_c_71 _ rfl (by decide),
   writes_sub_of_mem main_v342 _ rfl (by decide),
   writes_sub_of_mem main_v343 _ rfl (by decide),
   writes_sub_of_mem main_c_72 _ rfl (by decide),
   writes_sub_of_mem main_v344 _ rfl (by decide),
   writes_sub_of_mem main_v345 _ rfl (by decide),
   writes_sub_of_mem main_v346 _ rfl (by decide),
   writes_sub_of_mem main_v347 _ rfl (by decide),
   writes_sub_of_mem main_v348 _ rfl (by decide),
   writes_sub_of_mem main_v349 _ rfl (by decide),
   writes_sub_of_mem main_v350 _ rfl (by decide),
   writes_sub_of_mem main_v351 _ rfl (by decide),
   writes_sub_of_mem main_c_73 _ rfl (by decide),
   writes_sub_of_mem main_v352 _ rfl (by decide),
   writes_sub_of_mem main_v353 _ rfl (by decide),
   writes_sub_of_mem main_c_74 _ rfl (by decide),
   writes_sub_of_mem main_v354 _ rfl (by decide),
   writes_sub_of_mem main_v355 _ rfl (by decide),
   writes_sub_of_mem main_v356 _ rfl (by decide),
   writes_sub_of_mem main_v357 _ rfl (by decide),
   writes_sub_of_mem main_v358 _ rfl (by decide),
   writes_sub_of_mem main_v359 _ rfl (by decide),
   writes_sub_of_mem main_c_75 _ rfl (by decide),
   writes_sub_of_mem main_v360 _ rfl (by decide),
   writes_sub_of_mem main_v361 _ rfl (by decide),
   writes_sub_of_mem main_c_76 _ rfl (by decide),
   writes_sub_of_mem main_v362 _ rfl (by decide),
   writes_sub_of_mem main_v363 _ rfl (by decide),
   writes_sub_of_mem main_v364 _ rfl (by decide),
   writes_sub_of_mem main_v365 _ rfl (by decide),
   writes_sub_of_mem main_v366 _ rfl (by decide),
   writes_sub_of_mem main_c_77 _ rfl (by decide),
   writes_sub_of_mem main_v367 _ rfl (by decide),
   writes_sub_of_mem main_v368 _ rfl (by decide),
   writes_sub_of_mem main_c_78 _ rfl (by decide),
   writes_sub_of_mem main_v369 _ rfl (by decide),
   writes_sub_of_mem main_v370 _ rfl (by decide),
   writes_sub_of_mem main_v371 _ rfl (by decide),
   writes_sub_of_mem main_v372 _ rfl (by decide),
   writes_sub_of_mem main_v373 _ rfl (by decide),
   writes_sub_of_mem main_v374 _ rfl (by decide)⟩

set_option maxHeartbeats 4000000 in
/-- No operation of stretch 4 allocates a buffer. -/
theorem hostOps4_fresh : (hostOps4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result buffers of stretch 5, in program order. -/
def writes5 : List (Ref sig .tc) :=
  [main_v376, main_v377, main_v378]

set_option maxHeartbeats 4000000 in
/-- Every operation of stretch 5 writes its own result buffer only, which the list holds. -/
theorem hostOps5_writes : (hostOps5 : List (HloOp τ sig (Elt F))).Forall fun op =>
    op.writes ⊆ (writes5.map (Proc.devRef (τ := τ) .tc)).toFinset :=
  ⟨writes_sub_of_mem main_v376 _ rfl (by decide),
   writes_sub_of_mem main_v377 _ rfl (by decide),
   writes_sub_of_mem main_v378 _ rfl (by decide)⟩

set_option maxHeartbeats 4000000 in
/-- No operation of stretch 5 allocates a buffer. -/
theorem hostOps5_fresh : (hostOps5 : List (HloOp τ sig (Elt F))).Forall fun op => op.fresh = ∅ :=
  ⟨rfl, rfl, rfl⟩

end Cert.KernelIdeal.Hand

end
-- ==== Proof.KI.Body0.lean ====
/- The body half of the frame of region 0 (pipeline 0, the first linear–skip–relu call): what the kernel body finds in
   each window's staging buffer at a grid point, what it leaves in the output window's buffer, the proof data of the
   pipeline over the contents the region starts from, and the body obligation at every point. -/
import proofs.«177690_j24824910971087_2_alg».proof.Proof.Gen.KernelIdeal.Launch
import proofs.«177690_j24824910971087_2_alg».proof.Proof.Gen.KernelIdeal.Skeleton
import proofs.«177690_j24824910971087_2_alg».proof.Proof.Gen.KernelIdeal.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0, the 1000-row block of the activations: the body only reads it, so before the body its staging buffer
    holds the point's block of the array. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl)
    (fun t => by rw [hafter]; unfold Dat.blockOf iblk0; rw [hA]; try rfl) t d).trans
    (by unfold Dat.fetched Dat.blockOf iblk0; rw [hA]; try rfl)

/-- Window 1, the 1000-row block of the skip input, likewise. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl)
    (fun t => by rw [hafter]; unfold Dat.blockOf iblk0; rw [hA]; try rfl) t d).trans
    (by unfold Dat.fetched Dat.blockOf iblk0; rw [hA]; try rfl)

/-- Window 2, the first 256 × 256 weight matrix: one block for the whole grid, moved in at the first point only. At a
    later point the block index has not changed, so the buffer still holds that same block. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl)
    (fun t => by rw [hafter]; unfold Dat.blockOf iblk0; rw [hA]; try rfl) t d).trans
    (by unfold Dat.fetched Dat.blockOf iblk0; rw [hA]; try rfl)

/-- Window 3, the second weight matrix, likewise. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl)
    (fun t => by rw [hafter]; unfold Dat.blockOf iblk0; rw [hA]; try rfl) t d).trans
    (by unfold Dat.fetched Dat.blockOf iblk0; rw [hA]; try rfl)

/-- Window 4, the third weight matrix, likewise. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl)
    (fun t => by rw [hafter]; unfold Dat.blockOf iblk0; rw [hA]; try rfl) t d).trans
    (by unfold Dat.fetched Dat.blockOf iblk0; rw [hA]; try rfl)

/-! ## The three column bands of the output block -/

/-- Columns 0–255, 256–511 and 512–767 of the 1000 × 768 block: the rectangles the body stores through. -/
abbrev band0_a : Rect S1000x768 := Rect.unit (s := S1000x768) ![0, 0] S1000x256.size inb_S1000x768_S1000x256_0_0
abbrev band0_b : Rect S1000x768 := Rect.unit (s := S1000x768) ![0, 256] S1000x256.size inb_S1000x768_S1000x256_0_256
abbrev band0_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out0_5 (x0 x1 : Vec F S1000x768 .f32) (x2 x3 x4 : Vec F S256x256 .f32) : Vec F S1000x768 .f32 :=
  View.canon [⟨band0_c, k0_pay5 x0 x1 x4⟩, ⟨band0_b, k0_pay4 x0 x1 x3⟩, ⟨band0_a, k0_pay3 x0 x1 x2⟩]

/-- The three bands are 1000 × 256 tiles at column offsets 0, 256, 512 of a 1000 × 768 block, so every index of the
    block lies in one of them, whatever is stored through them. -/
theorem cover0_5 (pc pb pa : Vec F S1000x256 .f32) (y : S1000x768.Idx) :
    ∃ p ∈ ([⟨band0_c, pc⟩, ⟨band0_b, pb⟩, ⟨band0_a, pa⟩] : List (View.Piece (Elt F) S1000x768 .f32)), y ∈ p.1.set :=
  View.cover_of_tiled [⟨band0_c, pc⟩, ⟨band0_b, pb⟩, ⟨band0_a, pa⟩] S1000x256.size (by rfl) y

/-- A load of a whole 1000 × 768 buffer, through the rectangle at offset (0, 0) of the buffer's own extents, reads
    the buffer's contents. -/
theorem load_whole0_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole0_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out0_5 of the inputs. The body loads each band of the output
    buffer just before it overwrites that band; the loaded values are never used, so what the buffer held does not
    matter, and after the third store every index has been overwritten. -/
theorem sound_kernel0 (c : Dev nD) (E : Set ℕ) (i : grid0.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out0_5 x0 x1 x2 x3 x4)) -∗ K ⟨⟩))
      ⊢ wp frame (wpE (defs₀ (F := F)) Variants.none c none) E (cc0__linear_skip_relu_joint_kernel i a1 h1 a2 h2 a3 h3 a4 h4 a5 h5 a6 h6) K := by
  simp only [cc0__linear_skip_relu_joint_kernel_eq_skeleton]; unfold cc0__linear_skip_relu_joint_kernel_skel
  simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover0_5 _ _ _)).trans ?_
  rw [load_whole0_768 a1.view f1, load_whole0_768 a2.view f2, load_whole0_256 a3.view f3, load_whole0_256 a4.view f4,
    load_whole0_256 a5.view f5]
  rfl

/-! ## The pipeline's proof data -/

/-- The proof data of pipeline 0 on core c. The arrays are the contents the region starts from. After the body at
    point t, each input window's buffer still holds its block and the output window's holds out0_5 of the five input
    blocks. The invariant is the untouched rest of the core's state; all shares are full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the proof data are the contents the region starts from. -/
theorem A_eq0 (c : Dev nD) (w : Fin cfg0.W) : (dat0 V c).A w = V c (Pipeline.arrRef spec0 w) := by
  dsimp only [dat0]

/-- What the body leaves in each window's buffer, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-- Before the body, each input window's buffer holds its block at the point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a grid point -/

/-- What the pipeline hands the body at point t: the invariant, the core's debts, and the six current staging buffers,
    each holding what the proof data says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body hands back: the same, each buffer holding what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the five input buffers hold their blocks, the output buffer holds something, so the body's
    triple applies; the invariant and the debts are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/- The body half of the frame of region 1 (pipeline 1, the second linear–skip–relu call): what the kernel body finds in
   each window's staging buffer at a grid point, what it leaves in the output window's buffer, the proof data of the
   pipeline over the contents the region starts from, and the body obligation at every point. -/
import proofs.«177690_j24824910971087_2_alg».proof.Proof.Gen.KernelIdeal.Launch
import proofs.«177690_j24824910971087_2_alg».proof.Proof.Gen.KernelIdeal.Skeleton
import proofs.«177690_j24824910971087_2_alg».proof.Proof.Gen.KernelIdeal.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0, the 1000-row block of the activations: the body only reads it, so before the body its staging buffer
    holds the point's block of the array. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl)
    (fun t => by rw [hafter]; unfold Dat.blockOf iblk1; rw [hA]; try rfl) t d).trans
    (by unfold Dat.fetched Dat.blockOf iblk1; rw [hA]; try rfl)

/-- Window 1, the 1000-row block of the skip input, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl)
    (fun t => by rw [hafter]; unfold Dat.blockOf iblk1; rw [hA]; try rfl) t d).trans
    (by unfold Dat.fetched Dat.blockOf iblk1; rw [hA]; try rfl)

/-- Window 2, the first 256 × 256 weight matrix: one block for the whole grid, moved in at the first point only. At a
    later point the block index has not changed, so the buffer still holds that same block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl)
    (fun t => by rw [hafter]; unfold Dat.blockOf iblk1; rw [hA]; try rfl) t d).trans
    (by unfold Dat.fetched Dat.blockOf iblk1; rw [hA]; try rfl)

/-- Window 3, the second weight matrix, likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl)
    (fun t => by rw [hafter]; unfold Dat.blockOf iblk1; rw [hA]; try rfl) t d).trans
    (by unfold Dat.fetched Dat.blockOf iblk1; rw [hA]; try rfl)

/-- Window 4, the third weight matrix, likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl)
    (fun t => by rw [hafter]; unfold Dat.blockOf iblk1; rw [hA]; try rfl) t d).trans
    (by unfold Dat.fetched Dat.blockOf iblk1; rw [hA]; try rfl)

/-! ## The three column bands of the output block -/

/-- Columns 0–255, 256–511 and 512–767 of the 1000 × 768 block: the rectangles the body stores through. -/
abbrev band1_a : Rect S1000x768 := Rect.unit (s := S1000x768) ![0, 0] S1000x256.size inb_S1000x768_S1000x256_0_0
abbrev band1_b : Rect S1000x768 := Rect.unit (s := S1000x768) ![0, 256] S1000x256.size inb_S1000x768_S1000x256_0_256
abbrev band1_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out1_5 (x0 x1 : Vec F S1000x768 .f32) (x2 x3 x4 : Vec F S256x256 .f32) : Vec F S1000x768 .f32 :=
  View.canon [⟨band1_c, k1_pay5 x0 x1 x4⟩, ⟨band1_b, k1_pay4 x0 x1 x3⟩, ⟨band1_a, k1_pay3 x0 x1 x2⟩]

/-- The three bands are 1000 × 256 tiles at column offsets 0, 256, 512 of a 1000 × 768 block, so every index of the
    block lies in one of them, whatever is stored through them. -/
theorem cover1_5 (pc pb pa : Vec F S1000x256 .f32) (y : S1000x768.Idx) :
    ∃ p ∈ ([⟨band1_c, pc⟩, ⟨band1_b, pb⟩, ⟨band1_a, pa⟩] : List (View.Piece (Elt F) S1000x768 .f32)), y ∈ p.1.set :=
  View.cover_of_tiled [⟨band1_c, pc⟩, ⟨band1_b, pb⟩, ⟨band1_a, pa⟩] S1000x256.size (by rfl) y

/-- A load of a whole 1000 × 768 buffer, through the rectangle at offset (0, 0) of the buffer's own extents, reads
    the buffer's contents. -/
theorem load_whole1_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole1_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out1_5 of the inputs. The body loads each band of the output
    buffer just before it overwrites that band; the loaded values are never used, so what the buffer held does not
    matter, and after the third store every index has been overwritten. -/
theorem sound_kernel1 (c : Dev nD) (E : Set ℕ) (i : grid1.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out1_5 x0 x1 x2 x3 x4)) -∗ K ⟨⟩))
      ⊢ wp frame (wpE (defs₀ (F := F)) Variants.none c none) E (cc1__linear_skip_relu_joint_kernel i a1 h1 a2 h2 a3 h3 a4 h4 a5 h5 a6 h6) K := by
  simp only [cc1__linear_skip_relu_joint_kernel_eq_skeleton]; unfold cc1__linear_skip_relu_joint_kernel_skel
  simp only [k1_part1_eq_skeleton]; unfold k1_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_5 _ _ _)).trans ?_
  rw [load_whole1_768 a1.view f1, load_whole1_768 a2.view f2, load_whole1_256 a3.view f3, load_whole1_256 a4.view f4,
    load_whole1_256 a5.view f5]
  rfl

/-! ## The pipeline's proof data -/

/-- The proof data of pipeline 1 on core c. The arrays are the contents the region starts from. After the body at
    point t, each input window's buffer still holds its block and the output window's holds out1_5 of the five input
    blocks. The invariant is the untouched rest of the core's state; all shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The arrays of the proof data are the contents the region starts from. -/
theorem A_eq1 (c : Dev nD) (w : Fin cfg1.W) : (dat1 V c).A w = V c (Pipeline.arrRef spec1 w) := by
  dsimp only [dat1]

/-- What the body leaves in each window's buffer, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Before the body, each input window's buffer holds its block at the point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a grid point -/

/-- What the pipeline hands the body at point t: the invariant, the core's debts, and the six current staging buffers,
    each holding what the proof data says it holds before the body. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body hands back: the same, each buffer holding what the proof data says the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the five input buffers hold their blocks, the output buffer holds something, so the body's
    triple applies; the invariant and the debts are not touched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/- The body half of the frame of region 2 (pipeline 2, the third linear–skip–relu call): what the kernel body finds in
   each window's staging buffer at a grid point, what it leaves in the output window's buffer, the proof data of the
   pipeline over the contents the region starts from, and the body obligation at every point. -/
import proofs.«177690_j24824910971087_2_alg».proof.Proof.Gen.KernelIdeal.Launch
import proofs.«177690_j24824910971087_2_alg».proof.Proof.Gen.KernelIdeal.Skeleton
import proofs.«177690_j24824910971087_2_alg».proof.Proof.Gen.KernelIdeal.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Window 0, the 1000-row block of the activations: the body only reads it, so before the body its staging buffer
    holds the point's block of the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl)
    (fun t => by rw [hafter]; unfold Dat.blockOf iblk2; rw [hA]; try rfl) t d).trans
    (by unfold Dat.fetched Dat.blockOf iblk2; rw [hA]; try rfl)

/-- Window 1, the 1000-row block of the skip input, likewise. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl)
    (fun t => by rw [hafter]; unfold Dat.blockOf iblk2; rw [hA]; try rfl) t d).trans
    (by unfold Dat.fetched Dat.blockOf iblk2; rw [hA]; try rfl)

/-- Window 2, the first 256 × 256 weight matrix: one block for the whole grid, moved in at the first point only. At a
    later point the block index has not changed, so the buffer still holds that same block. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl)
    (fun t => by rw [hafter]; unfold Dat.blockOf iblk2; rw [hA]; try rfl) t d).trans
    (by unfold Dat.fetched Dat.blockOf iblk2; rw [hA]; try rfl)

/-- Window 3, the second weight matrix, likewise. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl)
    (fun t => by rw [hafter]; unfold Dat.blockOf iblk2; rw [hA]; try rfl) t d).trans
    (by unfold Dat.fetched Dat.blockOf iblk2; rw [hA]; try rfl)

/-- Window 4, the third weight matrix, likewise. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl)
    (fun t => by rw [hafter]; unfold Dat.blockOf iblk2; rw [hA]; try rfl) t d).trans
    (by unfold Dat.fetched Dat.blockOf iblk2; rw [hA]; try rfl)

/-! ## The three column bands of the output block -/

/-- Columns 0–255, 256–511 and 512–767 of the 1000 × 768 block: the rectangles the body stores through. -/
abbrev band2_a : Rect S1000x768 := Rect.unit (s := S1000x768) ![0, 0] S1000x256.size inb_S1000x768_S1000x256_0_0
abbrev band2_b : Rect S1000x768 := Rect.unit (s := S1000x768) ![0, 256] S1000x256.size inb_S1000x768_S1000x256_0_256
abbrev band2_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out2_5 (x0 x1 : Vec F S1000x768 .f32) (x2 x3 x4 : Vec F S256x256 .f32) : Vec F S1000x768 .f32 :=
  View.canon [⟨band2_c, k2_pay5 x0 x1 x4⟩, ⟨band2_b, k2_pay4 x0 x1 x3⟩, ⟨band2_a, k2_pay3 x0 x1 x2⟩]

/-- The three bands are 1000 × 256 tiles at column offsets 0, 256, 512 of a 1000 × 768 block, so every index of the
    block lies in one of them, whatever is stored through them. -/
theorem cover2_5 (pc pb pa : Vec F S1000x256 .f32) (y : S1000x768.Idx) :
    ∃ p ∈ ([⟨band2_c, pc⟩, ⟨band2_b, pb⟩, ⟨band2_a, pa⟩] : List (View.Piece (Elt F) S1000x768 .f32)), y ∈ p.1.set :=
  View.cover_of_tiled [⟨band2_c, pc⟩, ⟨band2_b, pb⟩, ⟨band2_a, pa⟩] S1000x256.size (by rfl) y

/-- A load of a whole 1000 × 768 buffer, through the rectangle at offset (0, 0) of the buffer's own extents, reads
    the buffer's contents. -/
theorem load_whole2_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole2_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out2_5 of the inputs. The body loads each band of the output
    buffer just before it overwrites that band; the loaded values are never used, so what the buffer held does not
    matter, and after the third store every index has been overwritten. -/
theorem sound_kernel2 (c : Dev nD) (E : Set ℕ) (i : grid2.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out2_5 x0 x1 x2 x3 x4)) -∗ K ⟨⟩))
      ⊢ wp frame (wpE (defs₀ (F := F)) Variants.none c none) E (cc2__linear_skip_relu_joint_kernel i a1 h1 a2 h2 a3 h3 a4 h4 a5 h5 a6 h6) K := by
  simp only [cc2__linear_skip_relu_joint_kernel_eq_skeleton]; unfold cc2__linear_skip_relu_joint_kernel_skel
  simp only [k2_part1_eq_skeleton]; unfold k2_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover2_5 _ _ _)).trans ?_
  rw [load_whole2_768 a1.view f1, load_whole2_768 a2.view f2, load_whole2_256 a3.view f3, load_whole2_256 a4.view f4,
    load_whole2_256 a5.view f5]
  rfl

/-! ## The pipeline's proof data -/

/-- The proof data of pipeline 2 on core c. The arrays are the contents the region starts from. After the body at
    point t, each input window's buffer still holds its block and the output window's holds out2_5 of the five input
    blocks. The invariant is the untouched rest of the core's state; all shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The arrays of the proof data are the contents the region starts from. -/
theorem A_eq2 (c : Dev nD) (w : Fin cfg2.W) : (dat2 V c).A w = V c (Pipeline.arrRef spec2 w) := by
  dsimp only [dat2]

/-- What the body leaves in each window's buffer, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = out2_5 (iblk2 V c 0 t) (iblk2 V c 1 t) (iblk2 V c 2 t) (iblk2 V c 3 t) (iblk2 V c 4 t) := by dsimp only [dat2]

/-- Before the body, each input window's buffer holds its block at the point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a grid point -/

/-- What the pipeline hands the body at point t: the invariant, the core's debts, and the six current staging buffers,
    each holding what the proof data says it holds before the body. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What the body hands back: the same, each buffer holding what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the five input buffers hold their blocks, the output buffer holds something, so the body's
    triple applies; the invariant and the debts are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/- The body half of the frame of region 3 (pipeline 3, the fourth linear–skip–relu call): what the kernel body finds in
   each window's staging buffer at a grid point, what it leaves in the output window's buffer, the proof data of the
   pipeline over the contents the region starts from, and the body obligation at every point. -/
import proofs.«177690_j24824910971087_2_alg».proof.Proof.Gen.KernelIdeal.Launch
import proofs.«177690_j24824910971087_2_alg».proof.Proof.Gen.KernelIdeal.Skeleton
import proofs.«177690_j24824910971087_2_alg».proof.Proof.Gen.KernelIdeal.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Window 0, the 1000-row block of the activations: the body only reads it, so before the body its staging buffer
    holds the point's block of the array. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl)
    (fun t => by rw [hafter]; unfold Dat.blockOf iblk3; rw [hA]; try rfl) t d).trans
    (by unfold Dat.fetched Dat.blockOf iblk3; rw [hA]; try rfl)

/-- Window 1, the 1000-row block of the skip input, likewise. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl)
    (fun t => by rw [hafter]; unfold Dat.blockOf iblk3; rw [hA]; try rfl) t d).trans
    (by unfold Dat.fetched Dat.blockOf iblk3; rw [hA]; try rfl)

/-- Window 2, the first 256 × 256 weight matrix: one block for the whole grid, moved in at the first point only. At a
    later point the block index has not changed, so the buffer still holds that same block. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl)
    (fun t => by rw [hafter]; unfold Dat.blockOf iblk3; rw [hA]; try rfl) t d).trans
    (by unfold Dat.fetched Dat.blockOf iblk3; rw [hA]; try rfl)

/-- Window 3, the second weight matrix, likewise. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl)
    (fun t => by rw [hafter]; unfold Dat.blockOf iblk3; rw [hA]; try rfl) t d).trans
    (by unfold Dat.fetched Dat.blockOf iblk3; rw [hA]; try rfl)

/-- Window 4, the third weight matrix, likewise. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl)
    (fun t => by rw [hafter]; unfold Dat.blockOf iblk3; rw [hA]; try rfl) t d).trans
    (by unfold Dat.fetched Dat.blockOf iblk3; rw [hA]; try rfl)

/-! ## The three column bands of the output block -/

/-- Columns 0–255, 256–511 and 512–767 of the 1000 × 768 block: the rectangles the body stores through. -/
abbrev band3_a : Rect S1000x768 := Rect.unit (s := S1000x768) ![0, 0] S1000x256.size inb_S1000x768_S1000x256_0_0
abbrev band3_b : Rect S1000x768 := Rect.unit (s := S1000x768) ![0, 256] S1000x256.size inb_S1000x768_S1000x256_0_256
abbrev band3_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out3_5 (x0 x1 : Vec F S1000x768 .f32) (x2 x3 x4 : Vec F S256x256 .f32) : Vec F S1000x768 .f32 :=
  View.canon [⟨band3_c, k3_pay5 x0 x1 x4⟩, ⟨band3_b, k3_pay4 x0 x1 x3⟩, ⟨band3_a, k3_pay3 x0 x1 x2⟩]

/-- The three bands are 1000 × 256 tiles at column offsets 0, 256, 512 of a 1000 × 768 block, so every index of the
    block lies in one of them, whatever is stored through them. -/
theorem cover3_5 (pc pb pa : Vec F S1000x256 .f32) (y : S1000x768.Idx) :
    ∃ p ∈ ([⟨band3_c, pc⟩, ⟨band3_b, pb⟩, ⟨band3_a, pa⟩] : List (View.Piece (Elt F) S1000x768 .f32)), y ∈ p.1.set :=
  View.cover_of_tiled [⟨band3_c, pc⟩, ⟨band3_b, pb⟩, ⟨band3_a, pa⟩] S1000x256.size (by rfl) y

/-- A load of a whole 1000 × 768 buffer, through the rectangle at offset (0, 0) of the buffer's own extents, reads
    the buffer's contents. -/
theorem load_whole3_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole3_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out3_5 of the inputs. The body loads each band of the output
    buffer just before it overwrites that band; the loaded values are never used, so what the buffer held does not
    matter, and after the third store every index has been overwritten. -/
theorem sound_kernel3 (c : Dev nD) (E : Set ℕ) (i : grid3.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out3_5 x0 x1 x2 x3 x4)) -∗ K ⟨⟩))
      ⊢ wp frame (wpE (defs₀ (F := F)) Variants.none c none) E (cc3__linear_skip_relu_joint_kernel i a1 h1 a2 h2 a3 h3 a4 h4 a5 h5 a6 h6) K := by
  simp only [cc3__linear_skip_relu_joint_kernel_eq_skeleton]; unfold cc3__linear_skip_relu_joint_kernel_skel
  simp only [k3_part1_eq_skeleton]; unfold k3_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover3_5 _ _ _)).trans ?_
  rw [load_whole3_768 a1.view f1, load_whole3_768 a2.view f2, load_whole3_256 a3.view f3, load_whole3_256 a4.view f4,
    load_whole3_256 a5.view f5]
  rfl

/-! ## The pipeline's proof data -/

/-- The proof data of pipeline 3 on core c. The arrays are the contents the region starts from. After the body at
    point t, each input window's buffer still holds its block and the output window's holds out3_5 of the five input
    blocks. The invariant is the untouched rest of the core's state; all shares are full and nothing is owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The arrays of the proof data are the contents the region starts from. -/
theorem A_eq3 (c : Dev nD) (w : Fin cfg3.W) : (dat3 V c).A w = V c (Pipeline.arrRef spec3 w) := by
  dsimp only [dat3]

/-- What the body leaves in each window's buffer, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Before the body, each input window's buffer holds its block at the point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation at a grid point -/

/-- What the pipeline hands the body at point t: the invariant, the core's debts, and the six current staging buffers,
    each holding what the proof data says it holds before the body. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- What the body hands back: the same, each buffer holding what the proof data says the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the five input buffers hold their blocks, the output buffer holds something, so the body's
    triple applies; the invariant and the debts are not touched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/- The body half of the frame of region 4 (pipeline 4, the fifth linear–skip–relu call): what the kernel body finds in
   each window's staging buffer at a grid point, what it leaves in the output window's buffer, the proof data of the
   pipeline over the contents the region starts from, and the body obligation at every point. -/
import proofs.«177690_j24824910971087_2_alg».proof.Proof.Gen.KernelIdeal.Launch
import proofs.«177690_j24824910971087_2_alg».proof.Proof.Gen.KernelIdeal.Skeleton
import proofs.«177690_j24824910971087_2_alg».proof.Proof.Gen.KernelIdeal.Points
import Idealize.ShloMosaic.Lib.Pipeline.FrameBody
import Idealize.ShloMosaic.Lib.Pipeline.Value
import Idealize.ShloMosaic.Lib.Tactic

-- deciding that the three column bands tile the block recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what the TensorCore's buffers hold when the region starts; every statement below is relative to it
variable (V : (c : Dev nD) → (b : Ref sig .tc) → Buf (Elt F) ((c : Thread nD τ).loc b))

/-! ## Blocks of the six windows -/

/-- The block of window w at grid point t, cut out of the window's array as it stands when the region starts. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Window 0, the 1000-row block of the activations: the body only reads it, so before the body its staging buffer
    holds the point's block of the array. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl)
    (fun t => by rw [hafter]; unfold Dat.blockOf iblk4; rw [hA]; try rfl) t d).trans
    (by unfold Dat.fetched Dat.blockOf iblk4; rw [hA]; try rfl)

/-- Window 1, the 1000-row block of the skip input, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl)
    (fun t => by rw [hafter]; unfold Dat.blockOf iblk4; rw [hA]; try rfl) t d).trans
    (by unfold Dat.fetched Dat.blockOf iblk4; rw [hA]; try rfl)

/-- Window 2, the first 256 × 256 weight matrix: one block for the whole grid, moved in at the first point only. At a
    later point the block index has not changed, so the buffer still holds that same block. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl)
    (fun t => by rw [hafter]; unfold Dat.blockOf iblk4; rw [hA]; try rfl) t d).trans
    (by unfold Dat.fetched Dat.blockOf iblk4; rw [hA]; try rfl)

/-- Window 3, the second weight matrix, likewise. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl)
    (fun t => by rw [hafter]; unfold Dat.blockOf iblk4; rw [hA]; try rfl) t d).trans
    (by unfold Dat.fetched Dat.blockOf iblk4; rw [hA]; try rfl)

/-- Window 4, the third weight matrix, likewise. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl)
    (fun t => by rw [hafter]; unfold Dat.blockOf iblk4; rw [hA]; try rfl) t d).trans
    (by unfold Dat.fetched Dat.blockOf iblk4; rw [hA]; try rfl)

/-! ## The three column bands of the output block -/

/-- Columns 0–255, 256–511 and 512–767 of the 1000 × 768 block: the rectangles the body stores through. -/
abbrev band4_a : Rect S1000x768 := Rect.unit (s := S1000x768) ![0, 0] S1000x256.size inb_S1000x768_S1000x256_0_0
abbrev band4_b : Rect S1000x768 := Rect.unit (s := S1000x768) ![0, 256] S1000x256.size inb_S1000x768_S1000x256_0_256
abbrev band4_c : Rect S1000x768 := Rect.unit (s := S1000x768) ![0, 512] S1000x256.size inb_S1000x768_S1000x256_0_512

/-- The output block the body leaves, as a function of the five input blocks: band j is the j-th stored value, which is
    the relu of the skip input's band j plus the product of the activations' band j and weight matrix j, both rounded to
    bf16. Written as the three stores laid over one another, the last store first. -/
def out4_5 (x0 x1 : Vec F S1000x768 .f32) (x2 x3 x4 : Vec F S256x256 .f32) : Vec F S1000x768 .f32 :=
  View.canon [⟨band4_c, k4_pay5 x0 x1 x4⟩, ⟨band4_b, k4_pay4 x0 x1 x3⟩, ⟨band4_a, k4_pay3 x0 x1 x2⟩]

/-- The three bands are 1000 × 256 tiles at column offsets 0, 256, 512 of a 1000 × 768 block, so every index of the
    block lies in one of them, whatever is stored through them. -/
theorem cover4_5 (pc pb pa : Vec F S1000x256 .f32) (y : S1000x768.Idx) :
    ∃ p ∈ ([⟨band4_c, pc⟩, ⟨band4_b, pb⟩, ⟨band4_a, pa⟩] : List (View.Piece (Elt F) S1000x768 .f32)), y ∈ p.1.set :=
  View.cover_of_tiled [⟨band4_c, pc⟩, ⟨band4_b, pb⟩, ⟨band4_a, pa⟩] S1000x256.size (by rfl) y

/-- A load of a whole 1000 × 768 buffer, through the rectangle at offset (0, 0) of the buffer's own extents, reads
    the buffer's contents. -/
theorem load_whole4_768 {κ : Kind} {sp : Space} (v : View sig κ sp S1000x768 .f32) (f : v.ty.Contents (Elt F)) :
    View.readAt (Elt F) v (Rect.unit (s := S1000x768) ![0, 0] S1000x768.size inb_S1000x768_S1000x768_0_0).toLoadRect f
      = View.read (Elt F) v f :=
  (View.readAt_eq_ld v f _).trans
    (View.ld_unit_zero (S := S1000x768) (by funext a; fin_cases a <;> rfl) inb_S1000x768_S1000x768_0_0 _)

/-- The same for a whole 256 × 256 buffer. -/
theorem load_whole4_256 {κ : Kind} {sp : Space} (v : View sig κ sp S256x256 .f32) (f : v.ty.Contents (Elt F)) :
    View.readAt (Elt F) v (Rect.unit (s := S256x256) ![0, 0] S256x256.size inb_S256x256_S256x256_0_0).toLoadRect f
      = View.read (Elt F) v f :=
  (View.readAt_eq_ld v f _).trans
    (View.ld_unit_zero (S := S256x256) (by funext a; fin_cases a <;> rfl) inb_S256x256_S256x256_0_0 _)

/-! ## The body's triple -/

set_option maxHeartbeats 1000000 in
/-- Run on whole staging buffers — the five inputs' reading x0 … x4, the output's holding anything — the body ends with
    the inputs' unchanged and the output's reading out4_5 of the inputs. The body loads each band of the output
    buffer just before it overwrites that band; the loaded values are never used, so what the buffer held does not
    matter, and after the third store every index has been overwritten. -/
theorem sound_kernel4 (c : Dev nD) (E : Set ℕ) (i : grid4.Coords)
    (a1 : Memref sig .tc .vmem S1000x768 .f32) (h1 : a1.IsWhole) (a2 : Memref sig .tc .vmem S1000x768 .f32) (h2 : a2.IsWhole)
    (a3 : Memref sig .tc .vmem S256x256 .f32) (h3 : a3.IsWhole) (a4 : Memref sig .tc .vmem S256x256 .f32) (h4 : a4.IsWhole)
    (a5 : Memref sig .tc .vmem S256x256 .f32) (h5 : a5.IsWhole) (a6 : Memref sig .tc .vmem S1000x768 .f32) (h6 : a6.IsWhole)
    (x0 x1 : Vec F S1000x768 .f32) (x2 x3 x4 : Vec F S256x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3 ∗ owns (c : Thread nD τ) a5 fullShare x4
        ∗ (∃ d, owns (c : Thread nD τ) a6 fullShare d)
        ∗ (iprop(owns (c : Thread nD τ) a1 fullShare x0 ∗ owns (c : Thread nD τ) a2 fullShare x1
            ∗ owns (c : Thread nD τ) a3 fullShare x2 ∗ owns (c : Thread nD τ) a4 fullShare x3 ∗ owns (c : Thread nD τ) a5 fullShare x4
            ∗ owns (c : Thread nD τ) a6 fullShare (out4_5 x0 x1 x2 x3 x4)) -∗ K ⟨⟩))
      ⊢ wp frame (wpE (defs₀ (F := F)) Variants.none c none) E (cc4__linear_skip_relu_joint_kernel i a1 h1 a2 h2 a3 h3 a4 h4 a5 h5 a6 h6) K := by
  simp only [cc4__linear_skip_relu_joint_kernel_eq_skeleton]; unfold cc4__linear_skip_relu_joint_kernel_skel
  simp only [k4_part1_eq_skeleton]; unfold k4_part1_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover4_5 _ _ _)).trans ?_
  rw [load_whole4_768 a1.view f1, load_whole4_768 a2.view f2, load_whole4_256 a3.view f3, load_whole4_256 a4.view f4,
    load_whole4_256 a5.view f5]
  rfl

/-! ## The pipeline's proof data -/

/-- The proof data of pipeline 4 on core c. The arrays are the contents the region starts from. After the body at
    point t, each input window's buffer still holds its block and the output window's holds out4_5 of the five input
    blocks. The invariant is the untouched rest of the core's state; all shares are full and nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The arrays of the proof data are the contents the region starts from. -/
theorem A_eq4 (c : Dev nD) (w : Fin cfg4.W) : (dat4 V c).A w = V c (Pipeline.arrRef spec4 w) := by
  dsimp only [dat4]

/-- What the body leaves in each window's buffer, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t
    = out4_5 (iblk4 V c 0 t) (iblk4 V c 1 t) (iblk4 V c 2 t) (iblk4 V c 3 t) (iblk4 V c 4 t) := by dsimp only [dat4]

/-- Before the body, each input window's buffer holds its block at the point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation at a grid point -/

/-- What the pipeline hands the body at point t: the invariant, the core's debts, and the six current staging buffers,
    each holding what the proof data says it holds before the body. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What the body hands back: the same, each buffer holding what the proof data says the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the five input buffers hold their blocks, the output buffer holds something, so the body's
    triple applies; the invariant and the debts are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 4, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Boundary.lean ====
/- The run of @main as eleven segments — six stretches of host operations with the five pipelined regions between
   them — and the frame that follows from it. The contents of every buffer are followed from the launch through each
   boundary: a host stretch maps them by its operations, a region replaces its six windows' arrays by what the
   pipeline leaves and keeps every other buffer. The launch theorem for several regions then gives that @main
   terminates without fault and that the final memory is the last boundary's contents; the seven argument arrays
   are never written, so they end as launched. -/
import proofs.«177690_j24824910971087_2_alg».proof.Proof.Gen.KernelIdeal.Launch
import proofs.«177690_j24824910971087_2_alg».proof.Proof.Gen.KernelIdeal.Skeleton
import proofs.«177690_j24824910971087_2_alg».proof.Proof.Gen.KernelIdeal.Points
import proofs.«177690_j24824910971087_2_alg».proof.Proof.KI.Writes
import proofs.«177690_j24824910971087_2_alg».proof.Proof.KI.Body0
import proofs.«177690_j24824910971087_2_alg».proof.Proof.KI.Body1
import proofs.«177690_j24824910971087_2_alg».proof.Proof.KI.Body2
import proofs.«177690_j24824910971087_2_alg».proof.Proof.KI.Body3
import proofs.«177690_j24824910971087_2_alg».proof.Proof.KI.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents of the buffers at each boundary -/

/-- What core c's buffers hold at the launch. -/
abbrev W0 : Dev nD → Valuation τ sig (Elt F) := fun c b => (s₀ m ρ).mem ((c : Dev nD), b)

/-- After host stretch 0: what region 0 starts from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- A buffer that stretch 0 does not write holds after it what it held before. -/
theorem W1_of_not_written (c : Dev nD) (r : Ref sig .tc) (hr : r ∉ writes0) :
    W1 m ρ c (Proc.devRef .tc r) = W0 m ρ c (Proc.devRef .tc r) :=
  StableHlo.after_of_writes_sub hostOps0 _ hostOps0_writes hr
/-- When region 0 is left: each of its windows' arrays holds what the pipeline leaves there (an input array what it
    held, the output array every block written back), and every other buffer is as the region found it. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After host stretch 1: what region 1 starts from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b
/-- A buffer that stretch 1 does not write holds after it what it held before. -/
theorem W3_of_not_written (c : Dev nD) (r : Ref sig .tc) (hr : r ∉ writes1) :
    W3 m ρ c (Proc.devRef .tc r) = W2 m ρ c (Proc.devRef .tc r) :=
  StableHlo.after_of_writes_sub hostOps1 _ hostOps1_writes hr
/-- When region 1 is left: each of its windows' arrays holds what the pipeline leaves there (an input array what it
    held, the output array every block written back), and every other buffer is as the region found it. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After host stretch 2: what region 2 starts from. -/
abbrev W5 : Dev nD → Valuation τ sig (Elt F) := fun c => StableHlo.after hostOps2 (W4 m ρ c)
/-- The same, read at the TensorCore's references. -/
abbrev V5 : (c : Dev nD) → (b : Ref sig .tc) → Buf (Elt F) ((c : Thread nD τ).loc b) := fun c b => W5 m ρ c b
/-- A buffer that stretch 2 does not write holds after it what it held before. -/
theorem W5_of_not_written (c : Dev nD) (r : Ref sig .tc) (hr : r ∉ writes2) :
    W5 m ρ c (Proc.devRef .tc r) = W4 m ρ c (Proc.devRef .tc r) :=
  StableHlo.after_of_writes_sub hostOps2 _ hostOps2_writes hr
/-- When region 2 is left: each of its windows' arrays holds what the pipeline leaves there (an input array what it
    held, the output array every block written back), and every other buffer is as the region found it. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same, read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After host stretch 3: what region 3 starts from. -/
abbrev W7 : Dev nD → Valuation τ sig (Elt F) := fun c => StableHlo.after hostOps3 (W6 m ρ c)
/-- The same, read at the TensorCore's references. -/
abbrev V7 : (c : Dev nD) → (b : Ref sig .tc) → Buf (Elt F) ((c : Thread nD τ).loc b) := fun c b => W7 m ρ c b
/-- A buffer that stretch 3 does not write holds after it what it held before. -/
theorem W7_of_not_written (c : Dev nD) (r : Ref sig .tc) (hr : r ∉ writes3) :
    W7 m ρ c (Proc.devRef .tc r) = W6 m ρ c (Proc.devRef .tc r) :=
  StableHlo.after_of_writes_sub hostOps3 _ hostOps3_writes hr
/-- When region 3 is left: each of its windows' arrays holds what the pipeline leaves there (an input array what it
    held, the output array every block written back), and every other buffer is as the region found it. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same, read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After host stretch 4: what region 4 starts from. -/
abbrev W9 : Dev nD → Valuation τ sig (Elt F) := fun c => StableHlo.after hostOps4 (W8 m ρ c)
/-- The same, read at the TensorCore's references. -/
abbrev V9 : (c : Dev nD) → (b : Ref sig .tc) → Buf (Elt F) ((c : Thread nD τ).loc b) := fun c b => W9 m ρ c b
/-- A buffer that stretch 4 does not write holds after it what it held before. -/
theorem W9_of_not_written (c : Dev nD) (r : Ref sig .tc) (hr : r ∉ writes4) :
    W9 m ρ c (Proc.devRef .tc r) = W8 m ρ c (Proc.devRef .tc r) :=
  StableHlo.after_of_writes_sub hostOps4 _ hostOps4_writes hr
/-- When region 4 is left: each of its windows' arrays holds what the pipeline leaves there (an input array what it
    held, the output array every block written back), and every other buffer is as the region found it. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same, read at the TensorCore's references. -/
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After the last host stretch: what @main returns with. -/
abbrev W11 : Dev nD → Valuation τ sig (Elt F) := fun c => StableHlo.after hostOps5 (W10 m ρ c)
/-- A buffer that the last stretch does not write holds after it what it held before. -/
theorem W11_of_not_written (c : Dev nD) (r : Ref sig .tc) (hr : r ∉ writes5) :
    W11 m ρ c (Proc.devRef .tc r) = W10 m ρ c (Proc.devRef .tc r) :=
  StableHlo.after_of_writes_sub hostOps5 _ hostOps5_writes hr

/-! ## The arguments end as launched

No host operation writes an argument array. A region either does not touch it (arguments 0 to 3 are no window's
array) or reads it through an input window (arguments 4, 5, 6 are windows 2, 3, 4 of every region), and an input
window's array is left as found. So the contents at an argument's buffer walk back, boundary by boundary, to the
launch memory. -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_not_written m ρ c main_arg0 (by decide)
    _ = W9 m ρ c (Proc.devRef .tc main_arg0) := W10_of_ne m ρ c main_arg0 (by decide)
    _ = W8 m ρ c (Proc.devRef .tc main_arg0) := W9_of_not_written m ρ c main_arg0 (by decide)
    _ = W7 m ρ c (Proc.devRef .tc main_arg0) := W8_of_ne m ρ c main_arg0 (by decide)
    _ = W6 m ρ c (Proc.devRef .tc main_arg0) := W7_of_not_written m ρ c main_arg0 (by decide)
    _ = W5 m ρ c (Proc.devRef .tc main_arg0) := W6_of_ne m ρ c main_arg0 (by decide)
    _ = W4 m ρ c (Proc.devRef .tc main_arg0) := W5_of_not_written m ρ c main_arg0 (by decide)
    _ = W3 m ρ c (Proc.devRef .tc main_arg0) := W4_of_ne m ρ c main_arg0 (by decide)
    _ = W2 m ρ c (Proc.devRef .tc main_arg0) := W3_of_not_written m ρ c main_arg0 (by decide)
    _ = W1 m ρ c (Proc.devRef .tc main_arg0) := W2_of_ne m ρ c main_arg0 (by decide)
    _ = W0 m ρ c (Proc.devRef .tc main_arg0) := W1_of_not_written m ρ c main_arg0 (by decide)
    _ = m ((c : Thread nD τ).loc main_arg0) := rfl

theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_not_written m ρ c main_arg1 (by decide)
    _ = W9 m ρ c (Proc.devRef .tc main_arg1) := W10_of_ne m ρ c main_arg1 (by decide)
    _ = W8 m ρ c (Proc.devRef .tc main_arg1) := W9_of_not_written m ρ c main_arg1 (by decide)
    _ = W7 m ρ c (Proc.devRef .tc main_arg1) := W8_of_ne m ρ c main_arg1 (by decide)
    _ = W6 m ρ c (Proc.devRef .tc main_arg1) := W7_of_not_written m ρ c main_arg1 (by decide)
    _ = W5 m ρ c (Proc.devRef .tc main_arg1) := W6_of_ne m ρ c main_arg1 (by decide)
    _ = W4 m ρ c (Proc.devRef .tc main_arg1) := W5_of_not_written m ρ c main_arg1 (by decide)
    _ = W3 m ρ c (Proc.devRef .tc main_arg1) := W4_of_ne m ρ c main_arg1 (by decide)
    _ = W2 m ρ c (Proc.devRef .tc main_arg1) := W3_of_not_written m ρ c main_arg1 (by decide)
    _ = W1 m ρ c (Proc.devRef .tc main_arg1) := W2_of_ne m ρ c main_arg1 (by decide)
    _ = W0 m ρ c (Proc.devRef .tc main_arg1) := W1_of_not_written m ρ c main_arg1 (by decide)
    _ = m ((c : Thread nD τ).loc main_arg1) := rfl

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_not_written m ρ c main_arg2 (by decide)
    _ = W9 m ρ c (Proc.devRef .tc main_arg2) := W10_of_ne m ρ c main_arg2 (by decide)
    _ = W8 m ρ c (Proc.devRef .tc main_arg2) := W9_of_not_written m ρ c main_arg2 (by decide)
    _ = W7 m ρ c (Proc.devRef .tc main_arg2) := W8_of_ne m ρ c main_arg2 (by decide)
    _ = W6 m ρ c (Proc.devRef .tc main_arg2) := W7_of_not_written m ρ c main_arg2 (by decide)
    _ = W5 m ρ c (Proc.devRef .tc main_arg2) := W6_of_ne m ρ c main_arg2 (by decide)
    _ = W4 m ρ c (Proc.devRef .tc main_arg2) := W5_of_not_written m ρ c main_arg2 (by decide)
    _ = W3 m ρ c (Proc.devRef .tc main_arg2) := W4_of_ne m ρ c main_arg2 (by decide)
    _ = W2 m ρ c (Proc.devRef .tc main_arg2) := W3_of_not_written m ρ c main_arg2 (by decide)
    _ = W1 m ρ c (Proc.devRef .tc main_arg2) := W2_of_ne m ρ c main_arg2 (by decide)
    _ = W0 m ρ c (Proc.devRef .tc main_arg2) := W1_of_not_written m ρ c main_arg2 (by decide)
    _ = m ((c : Thread nD τ).loc main_arg2) := rfl

theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_not_written m ρ c main_arg3 (by decide)
    _ = W9 m ρ c (Proc.devRef .tc main_arg3) := W10_of_ne m ρ c main_arg3 (by decide)
    _ = W8 m ρ c (Proc.devRef .tc main_arg3) := W9_of_not_written m ρ c main_arg3 (by decide)
    _ = W7 m ρ c (Proc.devRef .tc main_arg3) := W8_of_ne m ρ c main_arg3 (by decide)
    _ = W6 m ρ c (Proc.devRef .tc main_arg3) := W7_of_not_written m ρ c main_arg3 (by decide)
    _ = W5 m ρ c (Proc.devRef .tc main_arg3) := W6_of_ne m ρ c main_arg3 (by decide)
    _ = W4 m ρ c (Proc.devRef .tc main_arg3) := W5_of_not_written m ρ c main_arg3 (by decide)
    _ = W3 m ρ c (Proc.devRef .tc main_arg3) := W4_of_ne m ρ c main_arg3 (by decide)
    _ = W2 m ρ c (Proc.devRef .tc main_arg3) := W3_of_not_written m ρ c main_arg3 (by decide)
    _ = W1 m ρ c (Proc.devRef .tc main_arg3) := W2_of_ne m ρ c main_arg3 (by decide)
    _ = W0 m ρ c (Proc.devRef .tc main_arg3) := W1_of_not_written m ρ c main_arg3 (by decide)
    _ = m ((c : Thread nD τ).loc main_arg3) := rfl

theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := W11_of_not_written m ρ c main_arg4 (by decide)
    _ = W9 m ρ c (Proc.devRef .tc main_arg4) := (W10_arr m ρ c 2).trans (((dat4 (V9 m ρ) c).arrAt_in 2 rfl _).trans (A_eq4 (V9 m ρ) c 2))
    _ = W8 m ρ c (Proc.devRef .tc main_arg4) := W9_of_not_written m ρ c main_arg4 (by decide)
    _ = W7 m ρ c (Proc.devRef .tc main_arg4) := (W8_arr m ρ c 2).trans (((dat3 (V7 m ρ) c).arrAt_in 2 rfl _).trans (A_eq3 (V7 m ρ) c 2))
    _ = W6 m ρ c (Proc.devRef .tc main_arg4) := W7_of_not_written m ρ c main_arg4 (by decide)
    _ = W5 m ρ c (Proc.devRef .tc main_arg4) := (W6_arr m ρ c 2).trans (((dat2 (V5 m ρ) c).arrAt_in 2 rfl _).trans (A_eq2 (V5 m ρ) c 2))
    _ = W4 m ρ c (Proc.devRef .tc main_arg4) := W5_of_not_written m ρ c main_arg4 (by decide)
    _ = W3 m ρ c (Proc.devRef .tc main_arg4) := (W4_arr m ρ c 2).trans (((dat1 (V3 m ρ) c).arrAt_in 2 rfl _).trans (A_eq1 (V3 m ρ) c 2))
    _ = W2 m ρ c (Proc.devRef .tc main_arg4) := W3_of_not_written m ρ c main_arg4 (by decide)
    _ = W1 m ρ c (Proc.devRef .tc main_arg4) := (W2_arr m ρ c 2).trans (((dat0 (V1 m ρ) c).arrAt_in 2 rfl _).trans (A_eq0 (V1 m ρ) c 2))
    _ = W0 m ρ c (Proc.devRef .tc main_arg4) := W1_of_not_written m ρ c main_arg4 (by decide)
    _ = m ((c : Thread nD τ).loc main_arg4) := rfl

theorem W11_main_arg5 (c : Dev nD) : W11 m ρ c (Proc.devRef .tc main_arg5) = m ((c : Thread nD τ).loc main_arg5) :=
  calc W11 m ρ c (Proc.devRef .tc main_arg5)
    _ = W10 m ρ c (Proc.devRef .tc main_arg5) := W11_of_not_written m ρ c main_arg5 (by decide)
    _ = W9 m ρ c (Proc.devRef .tc main_arg5) := (W10_arr m ρ c 3).trans (((dat4 (V9 m ρ) c).arrAt_in 3 rfl _).trans (A_eq4 (V9 m ρ) c 3))
    _ = W8 m ρ c (Proc.devRef .tc main_arg5) := W9_of_not_written m ρ c main_arg5 (by decide)
    _ = W7 m ρ c (Proc.devRef .tc main_arg5) := (W8_arr m ρ c 3).trans (((dat3 (V7 m ρ) c).arrAt_in 3 rfl _).trans (A_eq3 (V7 m ρ) c 3))
    _ = W6 m ρ c (Proc.devRef .tc main_arg5) := W7_of_not_written m ρ c main_arg5 (by decide)
    _ = W5 m ρ c (Proc.devRef .tc main_arg5) := (W6_arr m ρ c 3).trans (((dat2 (V5 m ρ) c).arrAt_in 3 rfl _).trans (A_eq2 (V5 m ρ) c 3))
    _ = W4 m ρ c (Proc.devRef .tc main_arg5) := W5_of_not_written m ρ c main_arg5 (by decide)
    _ = W3 m ρ c (Proc.devRef .tc main_arg5) := (W4_arr m ρ c 3).trans (((dat1 (V3 m ρ) c).arrAt_in 3 rfl _).trans (A_eq1 (V3 m ρ) c 3))
    _ = W2 m ρ c (Proc.devRef .tc main_arg5) := W3_of_not_written m ρ c main_arg5 (by decide)
    _ = W1 m ρ c (Proc.devRef .tc main_arg5) := (W2_arr m ρ c 3).trans (((dat0 (V1 m ρ) c).arrAt_in 3 rfl _).trans (A_eq0 (V1 m ρ) c 3))
    _ = W0 m ρ c (Proc.devRef .tc main_arg5) := W1_of_not_written m ρ c main_arg5 (by decide)
    _ = m ((c : Thread nD τ).loc main_arg5) := rfl

theorem W11_main_arg6 (c : Dev nD) : W11 m ρ c (Proc.devRef .tc main_arg6) = m ((c : Thread nD τ).loc main_arg6) :=
  calc W11 m ρ c (Proc.devRef .tc main_arg6)
    _ = W10 m ρ c (Proc.devRef .tc main_arg6) := W11_of_not_written m ρ c main_arg6 (by decide)
    _ = W9 m ρ c (Proc.devRef .tc main_arg6) := (W10_arr m ρ c 4).trans (((dat4 (V9 m ρ) c).arrAt_in 4 rfl _).trans (A_eq4 (V9 m ρ) c 4))
    _ = W8 m ρ c (Proc.devRef .tc main_arg6) := W9_of_not_written m ρ c main_arg6 (by decide)
    _ = W7 m ρ c (Proc.devRef .tc main_arg6) := (W8_arr m ρ c 4).trans (((dat3 (V7 m ρ) c).arrAt_in 4 rfl _).trans (A_eq3 (V7 m ρ) c 4))
    _ = W6 m ρ c (Proc.devRef .tc main_arg6) := W7_of_not_written m ρ c main_arg6 (by decide)
    _ = W5 m ρ c (Proc.devRef .tc main_arg6) := (W6_arr m ρ c 4).trans (((dat2 (V5 m ρ) c).arrAt_in 4 rfl _).trans (A_eq2 (V5 m ρ) c 4))
    _ = W4 m ρ c (Proc.devRef .tc main_arg6) := W5_of_not_written m ρ c main_arg6 (by decide)
    _ = W3 m ρ c (Proc.devRef .tc main_arg6) := (W4_arr m ρ c 4).trans (((dat1 (V3 m ρ) c).arrAt_in 4 rfl _).trans (A_eq1 (V3 m ρ) c 4))
    _ = W2 m ρ c (Proc.devRef .tc main_arg6) := W3_of_not_written m ρ c main_arg6 (by decide)
    _ = W1 m ρ c (Proc.devRef .tc main_arg6) := (W2_arr m ρ c 4).trans (((dat0 (V1 m ρ) c).arrAt_in 4 rfl _).trans (A_eq0 (V1 m ρ) c 4))
    _ = W0 m ρ c (Proc.devRef .tc main_arg6) := W1_of_not_written m ρ c main_arg6 (by decide)
    _ = m ((c : Thread nD τ).loc main_arg6) := rfl

end Cert.KernelIdeal.Hand

end
-- ==== Proof.KI.Run.lean ====
/- @main as eleven segments and the launch: every pipeline's proof data at the contents its region starts from, a
   segment per host stretch and per region over the thread state "every unscoped buffer at the boundary's contents,
   the generator register at some state, nothing owed", the equation between @main and the segments' run, and the
   launch theorem for several regions applied to them. Its conclusion is read twice: as the final memory being the last
   boundary's contents on every unscoped buffer, and as the frame (the seven argument arrays end as launched). -/
import proofs.«177690_j24824910971087_2_alg».proof.Proof.KI.Boundary

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Proof data and thread state -/

/-- No pipeline prefetches a table, so the admissible table contents are the trivial ones. -/
abbrev adm : (p : Fin 5) → (pcfgs (F := F) p).Adm := fun p => (cfgs p).toPCfg_adm
/-- The proof data of the five pipelines, each over the contents its region starts from. Written as a literal case
    split so that at a numeral it reduces to the region's own data. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core waits on another, so no pair of cores is given a level. -/
abbrev L : GSem nD τ sig → Finset Unit := fun _ => ∅
abbrev lv : GSem nD τ sig → Unit → ℕ := fun _ _ => 0
/-- What accompanies the buffers through every segment: the generator register at some state, and the record that
    the core owes nothing. -/
abbrev R (c : Dev nD) : sProp 𝕄 := iprop((∃ r, prngReg c r) ∗ ∃ W, owes (c : Thread nD τ) (0 : CellTallies nD τ sig Unit) W)
/-- A host stretch as a segment over all unscoped buffers, from the contents W: it ends at the contents the stretch's
    operations make of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A TensorCore reference that is not scoped is one of the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the record of owing nothing: every unscoped buffer at the contents @main returns
    with, the generator register at some state. -/
abbrev Tₙ (c : Dev nD) : sProp 𝕄 := iprop(StableHlo.held (c : Thread nD τ) (Pipeline.ucRefs τ sig) (W11 m ρ c) ∗ ∃ r, prngReg c r)

/-! ## The five regions as segments

Each region is entered with every unscoped buffer at the boundary's contents. Its six windows' arrays are taken out
of these buffers and handed to the pipeline; the generator register goes into the pipeline's invariant and comes
back; the scoped buffers are the pipeline's own; the remaining unscoped buffers pass by untouched. At the exit the
arrays, now at what the pipeline leaves, are put back beside the untouched rest, which is every unscoped buffer at
the next boundary's contents. -/

-- applying a library lemma stated at the pinned configuration needs unification to unfold definitions in types
set_option backward.isDefEq.respectTransparency.types false in
/-- Region 0: from every unscoped buffer at W1 to every unscoped buffer at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers split into the six arrays and the rest
    have harr := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m ρ 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W2
    have hback := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 1: from every unscoped buffer at W3 to every unscoped buffer at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers split into the six arrays and the rest
    have harr := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m ρ 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W4
    have hback := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 2: from every unscoped buffer at W5 to every unscoped buffer at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    -- the unscoped buffers split into the six arrays and the rest
    have harr := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m ρ 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W6
    have hback := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 3: from every unscoped buffer at W7 to every unscoped buffer at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    -- the unscoped buffers split into the six arrays and the rest
    have harr := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 3 c).Φ 0 = Pipeline.ΦA spec3 c from rfl]; unfold Pipeline.ΦA
    iintro ⟨Hreg, -, Hscoped⟩
    isplitl [Hscoped]; · iexact Hscoped
    iexact Hreg
  hout c := by
    rw [Pipeline.ownSems0_none, show (pdats m ρ 3 c).Φ (Fin.last _) = Pipeline.ΦA spec3 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W8
    have hback := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

-- applying a library lemma stated at the pinned configuration needs unification to unfold definitions in types
set_option backward.isDefEq.respectTransparency.types false in
/-- Region 4: from every unscoped buffer at W9 to every unscoped buffer at W10. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    -- the unscoped buffers split into the six arrays and the rest
    have harr := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at harr
    rw [Pipeline.ownSems0_none]
    iintro ⟨⟨Hbufs, Hreg, Howes⟩, -, -⟩
    ihave Hsplit := harr $$ Hbufs
    icases Hsplit with ⟨Harrs, Hother⟩
    imodintro
    isplitl [Harrs]; · iexact Harrs
    isplitr
    · -- no prefetched table
      unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W
      isplitr; · ipureintro; exact fun _ _ => Or.inl trivial
      iexact Howes
    isplitl [Hreg]; · iexact Hreg
    iexact Hother
  hin c := by
    rw [show (pdats m ρ 4 c).Φ 0 = Pipeline.ΦA spec4 c from rfl]; unfold Pipeline.ΦA
    iintro ⟨Hreg, -, Hscoped⟩
    isplitl [Hscoped]; · iexact Hscoped
    iexact Hreg
  hout c := by
    rw [Pipeline.ownSems0_none, show (pdats m ρ 4 c).Φ (Fin.last _) = Pipeline.ΦA spec4 c from rfl]; unfold Pipeline.ΦA
    iintro ⟨Hscoped, Hreg⟩
    isplitl [Hreg]; · iexact Hreg
    isplitr; · iempintro
    iexact Hscoped
  hexit c := by
    -- the six arrays at what the pipeline leaves and the untouched rest are every unscoped buffer at W10
    have hback := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hback
    iintro ⟨Harrs, Howes, Hreg, Hother⟩
    imodintro
    isplitl [Harrs Hother]
    · iapply hback; isplitl [Harrs] <;> iassumption
    isplitl [Hreg]; · iexact Hreg
    unfold Pipeline.Dat.owesAt Pipeline.owesWithin
    icases Howes with ⟨%W, -, Howes⟩; iexists W; iexact Howes

/-! ## @main as the run of its segments -/

/-- Three resources held together, regrouped: the first two on one side, the third on the other. -/
theorem sep_regroup (A B C : sProp 𝕄) : iprop(A ∗ B ∗ C) ⊢ iprop((A ∗ B) ∗ C) := by
  iintro ⟨Ha, Hb, Hc⟩
  isplitr [Hc]
  · isplitl [Ha]; · iexact Ha
    iexact Hb
  iexact Hc

/-- The eleven segments of @main in program order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

/-- @main is the run of these segments: it is the chain of its items, and the segments' run is the same chain. -/
theorem main_run (c : Dev nD) : main (F := F) c = Pipeline.Seg.run (segs m ρ) := (main_chain c).trans (by chain_rfl)

/-- What is read off a final memory on core c: every unscoped buffer holds the last boundary's contents. -/
abbrev QY (c : Dev nD) (s : MemSt nD τ sig (Elt F)) : Prop :=
  ∀ b ∈ Pipeline.ucRefs τ sig, s.mem (((c : Thread nD τ)).1, b) = W11 m ρ c b

-- the launch theorem's implicit arguments are found by unifying its conclusion with ours, which unfolds definitions in types
set_option backward.isDefEq.respectTransparency.types false in
/-- The launch over the segments, at any property Q of the final memory that follows from the readings QY on every
    core: from any memory with every semaphore counter at zero, every weakly fair execution of @main on the
    TensorCores terminates without fault in a memory satisfying Q. -/
theorem run_main_of {Q : PUnit × MemSt nD τ sig (Elt F) → Prop}
    (hQ : ∀ s : MemSt nD τ sig (Elt F), (∀ c : Dev nD, QY m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl,
      -- the last stretch's thread state, regrouped: buffers and register on one side, the record of owing nothing on the other
      fun c => sep_regroup _ _ _⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := QY m ρ)
    (hfin := fun c s' => by
      iintro ⟨⟨Hbufs, -⟩, HSI⟩
      unfold StableHlo.held
      imodintro
      iapply (pointsTo_read_all (Pipeline.ucRefs τ sig) (fun b => (((c : Thread nD τ)).1, b)) (W11 m ρ c) s')
      isplitl [Hbufs] <;> iassumption)
    (hQ := hQ)

/-- The run of @main: it terminates without fault, and in every final memory every unscoped buffer of every core holds
    the contents of the last boundary. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  run_main_of m ρ fun _ h => h

/-- The frame: @main terminates without fault and each of the seven argument arrays ends holding what it held at the
    launch. Each is an unscoped buffer, so the final memory holds the last boundary's contents there, and those
    are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main_of m ρ fun s h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩

/-- info: 'Cert.KernelIdeal.Hand.frame' depends on axioms: [propext, Classical.choice, Quot.sound] -/
#guard_msgs in #print axioms frame

end Cert.KernelIdeal.Hand

end
-- ==== Proof.LibGatherScatter.lean ====
/-
  Row lookups and row accumulations read at one entry.

  A table of N rows is looked up at a list of E signed row numbers: entry e of the result is the table's row whose
  number is the e-th row number, read as a signed integer and clamped into [0, N − 1].  An accumulation adds E update
  rows into a table of N rows: update e is added to the row its signed row number names, and is dropped when that
  number names no row.  Over the extended reals the accumulated table reads, at row i, the table's own entry plus
  the sum of the updates whose row number is i.  Both are stated for tables of rows of W entries and for tables of
  single numbers, with the row numbers given as an E-by-1 array.
-/
import Idealize.ShloMosaic.PureOps.Ideal.Laws
import Idealize.ShloMosaic.Lib.ValueIdx

noncomputable section

open scoped BigOperators

namespace LibGatherScatter

open Idealize.ShloMosaic Idealize.ShloMosaic.ValueIdx

/-- A signed word clamped to a row number of a table of N rows. -/
def clampRow (N : Nat) (hN : 0 < N) {w : Nat} (v : BitVec w) : Fin N := ⟨min v.toInt.toNat (N - 1), by omega⟩

/-- A word that, read signed, is the row number i is clamped to i. -/
theorem clampRow_of_toInt {N : Nat} (hN : 0 < N) {w : Nat} (v : BitVec w) (i : Fin N) (h : v.toInt = (i.val : ℤ)) :
    clampRow N hN v = i := by
  refine Fin.ext ?_
  show min v.toInt.toNat (N - 1) = i.val
  rw [h, Int.toNat_natCast]
  have := i.isLt
  omega

/-- The one entry of the one-entry list of axes `[1]`, whatever number it is asked for under. -/
theorem getElem_single_one (n : Nat) (hn : n < ([1] : List (Fin 2)).length) : (([1] : List (Fin 2))[n]'hn) = 1 := by
  have h0 : n = 0 := by simpa using hn
  subst h0
  rfl

/-! ## Looking rows up -/

section Gather
variable {α : Type}

/-- The lookup of whole rows of an N-by-W table at an E-by-1 array of row numbers. -/
abbrev rowsDims (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- Entry (e, k) of the looked-up rows is entry k of the table's row named by row number e, clamped. -/
theorem gather_rows_apply {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowsDims N E W wf) x idx (ix2 e k) = x (ix2 (clampRow N hN (idx (ix2 e (0 : Fin 1)))) k) := by
  unfold Host.gather
  refine congrArg x (funext fun a => Fin.ext ?_)
  match a with
  | ⟨0, _⟩ =>
    show (rowsDims N E W wf).start (ix2 e k) idx 0 + (rowsDims N E W wf).batchCoord (ix2 e k) 0
      + (rowsDims N E W wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E W wf).startIndexMap from List.mem_singleton.mpr rfl)]
    have hsi : (rowsDims N E W wf).siIdx (ix2 e k) ⟨List.idxOf (0 : Fin 2) (rowsDims N E W wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E W wf).start (ix2 e k) idx 1 + (rowsDims N E W wf).batchCoord (ix2 e k) 1
      + (rowsDims N E W wf).offCoord (ix2 e k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rowsDims N E W wf).startIndexMap from h10)]
    unfold GatherDims.offCoord
    rw [dif_pos (show (1 : Fin 2) ∈ (rowsDims N E W wf).sKept from
      (GatherDims.mem_sKept _ _).mpr ⟨h10, List.not_mem_nil⟩)]
    rw [Nat.zero_add]
    exact congrArg (fun z : Fin 2 => ((ix2 e k z).val : ℕ)) (getElem_single_one _ _)

/-- The lookup of single numbers of a table of N numbers at an E-by-1 array of row numbers. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the looked-up numbers is the table's number named by row number e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  refine congrArg x (funext fun a => Fin.ext ?_)
  obtain rfl : a = 0 := Subsingleton.elim _ _
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Accumulating rows -/

/-- An axis is among the axes outside a list exactly when it is not in the list. -/
theorem mem_kept {s : Shape} (axes : List (Fin s.rank)) (a : Fin s.rank) : a ∈ s.kept axes ↔ a ∉ axes := by
  simp [Shape.kept, List.mem_filter, List.mem_finRange]

/-- A rank-1 index set is its one coordinate range, so a sum over it is the sum over the coordinate. -/
def idxEquiv1 {n : Nat} : (⟨1, ![n]⟩ : Shape).Idx ≃ Fin n where
  toFun i := i 0
  invFun p := ix1 p
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section ScatterRows

/-- The accumulation of E update rows into an N-by-W table at an E-by-1 array of row numbers. -/
abbrev rowsScat (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)
  (idx : IVec ⟨2, ![E, 1]⟩ w) (e : Fin E) (k' : Fin W)

theorem one_not_mem_zero : ¬ (1 : Fin 2) ∈ ([0] : List (Fin 2)) := by decide

/-- Update (e, k') starts, along the rows, at its row number read signed … -/
theorem rowsScat_start0 : (rowsScat N E W wf).start (ix2 e k') idx 0 = (idx (ix2 e (0 : Fin 1))).toInt := by
  unfold ScatterDims.start
  rw [dif_pos (show (0 : Fin 2) ∈ (rowsScat N E W wf).scatterDimsToOperandDims from List.mem_singleton.mpr rfl)]
  have hsi : (rowsScat N E W wf).siIdx (ix2 e k') ⟨List.idxOf (0 : Fin 2) (rowsScat N E W wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, along a row, at 0; -/
theorem rowsScat_start1 : (rowsScat N E W wf).start (ix2 e k') idx 1 = 0 := by
  unfold ScatterDims.start
  rw [dif_neg (show ¬ (1 : Fin 2) ∈ (rowsScat N E W wf).scatterDimsToOperandDims from one_not_mem_zero)]

/-- its place inside the row window is 0 along the rows … -/
theorem rowsScat_window0 : (rowsScat N E W wf).window (ix2 e k') 0 = 0 := by
  unfold ScatterDims.window
  rw [dif_neg (show ¬ (0 : Fin 2) ∈ (rowsScat N E W wf).sKept from
    fun h => ((mem_kept _ _).mp h) (List.mem_singleton.mpr rfl))]

/-- … and k' along the row. -/
theorem rowsScat_window1 : (rowsScat N E W wf).window (ix2 e k') 1 = k'.val := by
  unfold ScatterDims.window
  rw [dif_pos (show (1 : Fin 2) ∈ (rowsScat N E W wf).sKept from (mem_kept _ _).mpr one_not_mem_zero)]
  exact congrArg (fun z : Fin 2 => ((ix2 e k' z).val : ℕ)) (getElem_single_one _ _)

/-- Update (e, k') lands on entry (i, k) exactly when its row number, read signed, is i and k' is k. -/
theorem rowsScat_resultIdx_iff (i : Fin N) (k : Fin W) :
    (rowsScat N E W wf).resultIdx? (ix2 e k') idx = some (ix2 i k)
      ↔ (idx (ix2 e (0 : Fin 1))).toInt = (i.val : ℤ) ∧ k' = k := by
  have s0 := rowsScat_start0 wf idx e k'
  have s1 := rowsScat_start1 wf idx e k'
  have w0 := rowsScat_window0 wf e k'
  have w1 := rowsScat_window1 wf e k'
  have hi := i.isLt
  have hk := k.isLt
  have hk' := k'.isLt
  unfold ScatterDims.resultIdx?
  split
  · rename_i h
    rw [Option.some.injEq]
    constructor
    · intro hf
      have h0 : ((rowsScat N E W wf).start (ix2 e k') idx 0 + ((rowsScat N E W wf).window (ix2 e k') 0 : ℕ)).toNat = i.val :=
        congrArg (fun f : (⟨2, ![N, W]⟩ : Shape).Idx => (f 0).val) hf
      have h1 : ((rowsScat N E W wf).start (ix2 e k') idx 1 + ((rowsScat N E W wf).window (ix2 e k') 1 : ℕ)).toNat = k.val :=
        congrArg (fun f : (⟨2, ![N, W]⟩ : Shape).Idx => (f 1).val) hf
      have hh := (h 0).1
      rw [s0, w0] at h0 hh
      rw [s1, w1] at h1
      exact ⟨by omega, Fin.ext (by omega)⟩
    · rintro ⟨hI, rfl⟩
      funext a; refine Fin.ext ?_
      match a with
      | ⟨0, _⟩ =>
        show ((rowsScat N E W wf).start (ix2 e k') idx 0 + ((rowsScat N E W wf).window (ix2 e k') 0 : ℕ)).toNat = i.val
        rw [s0, w0, hI]; omega
      | ⟨1, _⟩ =>
        show ((rowsScat N E W wf).start (ix2 e k') idx 1 + ((rowsScat N E W wf).window (ix2 e k') 1 : ℕ)).toNat = k'.val
        rw [s1, w1]; omega
  · rename_i h
    constructor
    · intro hf; exact absurd hf (by simp)
    · rintro ⟨hI, rfl⟩
      exfalso; apply h; intro a
      match a with
      | ⟨0, _⟩ =>
        show 0 ≤ (rowsScat N E W wf).start (ix2 e k') idx 0 + ((rowsScat N E W wf).window (ix2 e k') 0 : ℕ)
          ∧ (rowsScat N E W wf).start (ix2 e k') idx 0 + ((rowsScat N E W wf).window (ix2 e k') 0 : ℕ) < (N : ℤ)
        rw [s0, w0, hI]; omega
      | ⟨1, _⟩ =>
        show 0 ≤ (rowsScat N E W wf).start (ix2 e k') idx 1 + ((rowsScat N E W wf).window (ix2 e k') 1 : ℕ)
          ∧ (rowsScat N E W wf).start (ix2 e k') idx 1 + ((rowsScat N E W wf).window (ix2 e k') 1 : ℕ) < (W : ℤ)
        rw [s1, w1]; omega

/-- Entry (i, k) of the accumulated table, over the extended reals: the table's own entry plus the sum of the
    entries k of the update rows whose row number is i. -/
theorem scatterAdd_rows_apply {φ : FTy} (x : FVec Ideal ⟨2, ![N, W]⟩ φ) (upd : FVec Ideal ⟨2, ![E, W]⟩ φ) (i : Fin N) (k : Fin W) :
    Host.scatterAdd (F := Ideal) (rowsScat N E W wf) x idx upd (ix2 i k)
      = x (ix2 i k) + ∑ e : Fin E, if (idx (ix2 e (0 : Fin 1))).toInt = (i.val : ℤ) then upd (ix2 e k) else 0 := by
  unfold Host.scatterAdd
  rw [Ideal.hostScatterAdd_def]
  unfold Ideal.hostScatterAdd
  refine congrArg (x (ix2 i k) + ·) ?_
  rw [Finset.sum_filter, sum_idx2]
  refine Finset.sum_congr rfl fun e _ => ?_
  simp only [rowsScat_resultIdx_iff wf idx e _ i k]
  by_cases hP : (idx (ix2 e (0 : Fin 1))).toInt = (i.val : ℤ)
  · simp only [hP, true_and]
    rw [Finset.sum_ite_eq' Finset.univ k (fun k' => upd (ix2 e k')), if_pos (Finset.mem_univ k), if_pos trivial]
  · simp only [hP, false_and, if_false, Finset.sum_const_zero]

end ScatterRows

section ScatterVec

/-- The accumulation of E update numbers into a table of N numbers at an E-by-1 array of row numbers. -/
abbrev vecScat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

theorem vecScat_start0 : (vecScat N E wf).start (ix1 e) idx 0 = (idx (ix2 e (0 : Fin 1))).toInt := by
  unfold ScatterDims.start
  rw [dif_pos (show (0 : Fin 1) ∈ (vecScat N E wf).scatterDimsToOperandDims from List.mem_singleton.mpr rfl)]
  have hsi : (vecScat N E wf).siIdx (ix1 e) ⟨List.idxOf (0 : Fin 1) (vecScat N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScat_window0 : (vecScat N E wf).window (ix1 e) 0 = 0 := by
  unfold ScatterDims.window
  rw [dif_neg (show ¬ (0 : Fin 1) ∈ (vecScat N E wf).sKept from
    fun h => ((mem_kept _ _).mp h) (List.mem_singleton.mpr rfl))]

/-- Update e lands on entry i exactly when its row number, read signed, is i. -/
theorem vecScat_resultIdx_iff (i : Fin N) :
    (vecScat N E wf).resultIdx? (ix1 e) idx = some (ix1 i) ↔ (idx (ix2 e (0 : Fin 1))).toInt = (i.val : ℤ) := by
  have s0 := vecScat_start0 wf idx e
  have w0 := vecScat_window0 wf e
  have hi := i.isLt
  unfold ScatterDims.resultIdx?
  split
  · rename_i h
    rw [Option.some.injEq]
    constructor
    · intro hf
      have h0 : ((vecScat N E wf).start (ix1 e) idx 0 + ((vecScat N E wf).window (ix1 e) 0 : ℕ)).toNat = i.val :=
        congrArg (fun f : (⟨1, ![N]⟩ : Shape).Idx => (f 0).val) hf
      have hh := (h 0).1
      rw [s0, w0] at h0 hh
      omega
    · intro hI
      funext a; refine Fin.ext ?_
      obtain rfl : a = 0 := Subsingleton.elim _ _
      show ((vecScat N E wf).start (ix1 e) idx 0 + ((vecScat N E wf).window (ix1 e) 0 : ℕ)).toNat = i.val
      rw [s0, w0, hI]; omega
  · rename_i h
    constructor
    · intro hf; exact absurd hf (by simp)
    · intro hI
      exfalso; apply h; intro a
      obtain rfl : a = 0 := Subsingleton.elim _ _
      show 0 ≤ (vecScat N E wf).start (ix1 e) idx 0 + ((vecScat N E wf).window (ix1 e) 0 : ℕ)
        ∧ (vecScat N E wf).start (ix1 e) idx 0 + ((vecScat N E wf).window (ix1 e) 0 : ℕ) < (N : ℤ)
      rw [s0, w0, hI]; omega

/-- Entry i of the accumulated table, over the extended reals: the table's own entry plus the sum of the updates
    whose row number is i. -/
theorem scatterAdd_vec_apply {φ : FTy} (x : FVec Ideal ⟨1, ![N]⟩ φ) (upd : FVec Ideal ⟨1, ![E]⟩ φ) (i : Fin N) :
    Host.scatterAdd (F := Ideal) (vecScat N E wf) x idx upd (ix1 i)
      = x (ix1 i) + ∑ e : Fin E, if (idx (ix2 e (0 : Fin 1))).toInt = (i.val : ℤ) then upd (ix1 e) else 0 := by
  unfold Host.scatterAdd
  rw [Ideal.hostScatterAdd_def]
  unfold Ideal.hostScatterAdd
  refine congrArg (x (ix1 i) + ·) ?_
  rw [Finset.sum_filter, sum_idx1]
  refine Finset.sum_congr rfl fun e _ => ?_
  simp only [vecScat_resultIdx_iff wf idx e i]

end ScatterVec

end LibGatherScatter

end
-- ==== Proof.Spec.lean ====
/-
  The message-passing recurrence both programs compute, one chain at a time, over the extended reals.

  There are 100000 bonds and 50000 atoms; every bond carries a row of 256 numbers.  An atom has six incoming bonds
  (a 50000-by-6 table of bond numbers), a bond has a source atom and a reverse bond.  A row number is a signed word: a
  negative one counts from the end of its table, and the result is clamped into the table.  One round replaces the
  message m by

      m'(b, c) = max( f(b, c) + Σ_d ( Σ_j m(in(atom(b), j), d) − m(rev(b), d) ) · w(d, c) , 0 ),

  the sum over the six incoming bonds of the bond's source atom, less the reverse bond's message, pushed through the
  256-by-256 weight w, added to the bond's own features f and cut off below at zero.  The result is five rounds from
  m = f.  The three chains differ in w only.
-/
import Idealize.ShloMosaic.PureOps.Ideal.Laws
import Idealize.ShloMosaic.Lib.ValueIdx
import proofs.«177690_j24824910971087_2_alg».proof.Proof.LibGatherScatter

noncomputable section

open scoped BigOperators

namespace Cert.Hand.Mpn

open Idealize.ShloMosaic Idealize.ShloMosaic.ValueIdx

/-- The row of a table of `N` rows a signed word names: a negative word counts from the end (the word `n`, the
    table's length, is added to it), and the outcome is clamped into the table. -/
def rowNo (N : Nat) (hN : 0 < N) (n v : BitVec 32) : Fin N :=
  LibGatherScatter.clampRow N hN (Scalar.select (IntOp.cmpi .slt v 0#32) (IntOp.addi v n) v)

/-- The three lookups of a round: the incoming bonds of an atom, the source atom of a bond, the reverse of a bond. -/
structure Rows where
  inc : Fin 50000 → Fin 6 → Fin 100000
  atom : Fin 100000 → Fin 50000
  rev : Fin 100000 → Fin 100000

/-- The lookups read off the three index arrays. -/
def rows (a2b : (⟨2, ![50000, 6]⟩ : Shape).Idx → BitVec 32) (b2a b2revb : (⟨1, ![100000]⟩ : Shape).Idx → BitVec 32) : Rows where
  inc e j := rowNo 100000 (by decide) 100000#32 (a2b (ix2 e j))
  atom b := rowNo 50000 (by decide) 50000#32 (b2a (ix1 b))
  rev b := rowNo 100000 (by decide) 100000#32 (b2revb (ix1 b))

/-- What a bond's update reads of the current message, at column `d`: the six incoming messages of its source atom,
    summed, less its reverse bond's message. -/
def pre (R : Rows) (msg : Fin 100000 → Fin 256 → EReal) (b : Fin 100000) (d : Fin 256) : EReal :=
  (∑ j : Fin 6, msg (R.inc (R.atom b) j) d) - msg (R.rev b) d

/-- One round. `z` is the cut-off (zero). -/
def round (z : EReal) (R : Rows) (w : Fin 256 → Fin 256 → EReal) (f msg : Fin 100000 → Fin 256 → EReal) :
    Fin 100000 → Fin 256 → EReal :=
  fun b c => max (f b c + ∑ d : Fin 256, pre R msg b d * w d c) z

/-- `n` rounds from the features themselves. -/
def chain (z : EReal) (R : Rows) (w : Fin 256 → Fin 256 → EReal) (f : Fin 100000 → Fin 256 → EReal) :
    ℕ → Fin 100000 → Fin 256 → EReal
  | 0 => f
  | n + 1 => round z R w f (chain z R w f n)

/-- A matrix as a function of its two coordinates. -/
def mat {a b : ℕ} (x : (⟨2, ![a, b]⟩ : Shape).Idx → EReal) : Fin a → Fin b → EReal := fun r c => x (ix2 r c)

/-- A function of two coordinates as a matrix. -/
def unmat {a b : ℕ} (g : Fin a → Fin b → EReal) : (⟨2, ![a, b]⟩ : Shape).Idx → EReal :=
  fun i => g ⟨(i 0).val, (i 0).isLt⟩ ⟨(i 1).val, (i 1).isLt⟩

theorem unmat_ix2 {a b : ℕ} (g : Fin a → Fin b → EReal) (r : Fin a) (c : Fin b) : unmat g (ix2 r c) = g r c := rfl

theorem mat_unmat {a b : ℕ} (g : Fin a → Fin b → EReal) : mat (unmat g) = g := rfl

theorem unmat_mat {a b : ℕ} (x : (⟨2, ![a, b]⟩ : Shape).Idx → EReal) : unmat (mat x) = x := by
  funext i
  show x (ix2 _ _) = x i
  exact congrArg x (eq_ix2 i).symm

/-- The zero both programs cut off at: the float word of all zero bits. -/
abbrev zero : EReal := Ideal.ofBits .f32 0x00000000#32

/-- One chain's result, as an array: five rounds from the features, through the weight `w`. -/
def result (f : (⟨2, ![100000, 256]⟩ : Shape).Idx → EReal) (a2b : (⟨2, ![50000, 6]⟩ : Shape).Idx → BitVec 32)
    (b2a b2revb : (⟨1, ![100000]⟩ : Shape).Idx → BitVec 32) (w : (⟨2, ![256, 256]⟩ : Shape).Idx → EReal) :
    (⟨2, ![100000, 256]⟩ : Shape).Idx → EReal :=
  unmat (chain zero (rows a2b b2a b2revb) (mat w) (mat f) 5)

end Cert.Hand.Mpn

end
-- ==== Proof.Joint.lean ====
/-
  Three chains side by side.

  The kernel keeps the three chains' messages in one array 768 columns wide: columns 0–255 the first chain, 256–511
  the second, 512–767 the third.  Column k belongs to chain k / 256 and is that chain's column k % 256.  Looking rows
  up, adding rows and subtracting rows act on every column alike, so they act on each chain's 256 columns as they
  would on that chain alone; and the fused update multiplies each chain's 256 columns by that chain's own weight.
  Hence one joint round is the three chains' rounds side by side.
-/
import proofs.«177690_j24824910971087_2_alg».proof.Proof.Spec

noncomputable section

open scoped BigOperators

namespace Cert.Hand.Joint

open Idealize.ShloMosaic Idealize.ShloMosaic.ValueIdx Cert.Hand Cert.Hand.Mpn

/-- One of three, by chain number (0, 1, anything else). -/
def sel3 {α : Type} (ch : ℕ) (a b c : α) : α := if ch = 0 then a else if ch = 1 then b else c

theorem sel3_map {α β : Type} (g : α → β) (ch : ℕ) (a b c : α) : g (sel3 ch a b c) = sel3 ch (g a) (g b) (g c) := by
  unfold sel3; split_ifs <;> rfl

/-- Three matrices of 256 columns side by side, as one array of 768 columns. -/
def join3 {R : ℕ} (q k v : Fin R → Fin 256 → EReal) : (⟨2, ![R, 768]⟩ : Shape).Idx → EReal :=
  fun i => sel3 ((i 1).val / 256) q k v ⟨(i 0).val, idx2_lt0 i⟩ ⟨(i 1).val % 256, Nat.mod_lt _ (by decide)⟩

/-- The fused update of a 768-wide array: at row b and column k of chain ch = k / 256, the skip entry plus row b of
    the chain's 256 pre-activation columns against column k % 256 of the chain's weight, cut off below at zero. -/
def jointG {R : ℕ} (pre inp : (⟨2, ![R, 768]⟩ : Shape).Idx → EReal) (wq wk wv : (⟨2, ![256, 256]⟩ : Shape).Idx → EReal) :
    (⟨2, ![R, 768]⟩ : Shape).Idx → EReal :=
  fun i => max (inp i + ∑ d : Fin 256,
      pre (ix2 (⟨(i 0).val, idx2_lt0 i⟩ : Fin R) (⟨256 * ((i 1).val / 256) + d.val, by have := idx2_lt1 i; omega⟩ : Fin 768))
        * sel3 ((i 1).val / 256) wq wk wv (ix2 d (⟨(i 1).val % 256, Nat.mod_lt _ (by decide)⟩ : Fin 256))) Mpn.zero

/-- What a joint round reads of the 768-wide message: at row b, the six incoming rows of b's source atom, summed, less
    the reverse bond's row — column by column. -/
def preJ (R : Rows) (msg : (⟨2, ![100000, 768]⟩ : Shape).Idx → EReal) : (⟨2, ![100000, 768]⟩ : Shape).Idx → EReal :=
  fun i => (∑ j : Fin 6, msg (ix2 (R.inc (R.atom ⟨(i 0).val, idx2_lt0 i⟩) j) (⟨(i 1).val, idx2_lt1 i⟩ : Fin 768)))
    - msg (ix2 (R.rev ⟨(i 0).val, idx2_lt0 i⟩) (⟨(i 1).val, idx2_lt1 i⟩ : Fin 768))

theorem ix2_0 {a b : ℕ} (r : Fin a) (c : Fin b) : ((ix2 r c : (⟨2, ![a, b]⟩ : Shape).Idx) 0).val = r.val := rfl
theorem ix2_1 {a b : ℕ} (r : Fin a) (c : Fin b) : ((ix2 r c : (⟨2, ![a, b]⟩ : Shape).Idx) 1).val = c.val := rfl

/-- The lookups and the subtraction act on each chain's columns as on that chain alone. -/
theorem preJ_join3 (R : Rows) (q k v : Fin 100000 → Fin 256 → EReal) :
    preJ R (join3 q k v) = join3 (Mpn.pre R q) (Mpn.pre R k) (Mpn.pre R v) := by
  funext i
  unfold preJ join3 Mpn.pre
  simp only [ix2_0, ix2_1]
  unfold sel3
  split_ifs <;> rfl

/-- Column 256·ch + d, with d below 256, is chain ch's column d. -/
theorem join3_col {R : ℕ} (q k v : Fin R → Fin 256 → EReal) (r : Fin R) (ch : ℕ) (d : Fin 256) (h : 256 * ch + d.val < 768) :
    join3 q k v (ix2 r (⟨256 * ch + d.val, h⟩ : Fin 768)) = sel3 ch q k v r d := by
  unfold join3
  have hd := d.isLt
  have e1 : (256 * ch + d.val) / 256 = ch := by omega
  have e2 : (256 * ch + d.val) % 256 = d.val := by omega
  have key : ∀ (a : ℕ) (_ : a = ch) (x : Fin 256) (_ : x = d) (r' : Fin R) (_ : r' = r),
      sel3 a q k v r' x = sel3 ch q k v r d := by
    intro a ha x hx r' hr; subst ha hx hr; rfl
  exact key _ e1 _ (Fin.ext e2) _ rfl

/-- The fused update of three side-by-side pre-activations and skips is the three chains' updates side by side. -/
theorem jointG_join3 {R : ℕ} (pq pk pv fq fk fv : Fin R → Fin 256 → EReal) (wq wk wv : (⟨2, ![256, 256]⟩ : Shape).Idx → EReal) :
    jointG (join3 pq pk pv) (join3 fq fk fv) wq wk wv
      = join3 (fun b c => max (fq b c + ∑ d : Fin 256, pq b d * Mpn.mat wq d c) Mpn.zero)
          (fun b c => max (fk b c + ∑ d : Fin 256, pk b d * Mpn.mat wk d c) Mpn.zero)
          (fun b c => max (fv b c + ∑ d : Fin 256, pv b d * Mpn.mat wv d c) Mpn.zero) := by
  funext i
  unfold jointG
  simp only [join3_col]
  unfold join3 sel3 Mpn.mat
  split_ifs <;> rfl

/-- ONE JOINT ROUND is the three chains' rounds side by side. -/
theorem joint_round (R : Rows) (f q k v : Fin 100000 → Fin 256 → EReal) (wq wk wv : (⟨2, ![256, 256]⟩ : Shape).Idx → EReal) :
    jointG (preJ R (join3 q k v)) (join3 f f f) wq wk wv
      = join3 (Mpn.round Mpn.zero R (Mpn.mat wq) f q) (Mpn.round Mpn.zero R (Mpn.mat wk) f k)
          (Mpn.round Mpn.zero R (Mpn.mat wv) f v) := by
  rw [preJ_join3, jointG_join3]
  rfl

end Cert.Hand.Joint

end
-- ==== Proof.JointRows.lean ====
/-
  The fused update read band by band and row block by row block.

  The update of a 768-wide array at row b and column k looks only at row b of the two arrays and, of the columns, only
  at the 256 columns of k's chain.  Two consequences, used to pass from what one grid point computes to the whole
  array: at a column written as (start of chain ch) + c it is the chain's own formula with the chain's own weight; and
  the update of a block of consecutive rows of the arrays is the same block of rows of the update of the arrays.
-/
import proofs.«177690_j24824910971087_2_alg».proof.Proof.Joint

noncomputable section

open scoped BigOperators

namespace Cert.Hand.JointRows

open Idealize.ShloMosaic Idealize.ShloMosaic.ValueIdx Cert.Hand Cert.Hand.Joint

theorem sel3_zero {α : Type} (a b c : α) : sel3 0 a b c = a := by unfold sel3; rw [if_pos rfl]
theorem sel3_one {α : Type} (a b c : α) : sel3 1 a b c = b := by
  unfold sel3; rw [if_neg (by decide), if_pos rfl]
theorem sel3_two {α : Type} (a b c : α) : sel3 2 a b c = c := by
  unfold sel3; rw [if_neg (by decide), if_neg (by decide)]

/-- At column o + c of the chain whose columns start at o = 256·ch, the update is the skip entry plus row r of the
    chain's 256 pre-activation columns against column c of the chain's weight, cut off below at zero. -/
theorem jointG_at {R : ℕ} (pre inp : (⟨2, ![R, 768]⟩ : Shape).Idx → EReal) (wq wk wv : (⟨2, ![256, 256]⟩ : Shape).Idx → EReal)
    (o ch : ℕ) (ho : o = 256 * ch) (r : Fin R) (c : Fin 256) (h : o + c.val < 768) :
    jointG pre inp wq wk wv (ix2 r (⟨o + c.val, h⟩ : Fin 768))
      = max (inp (ix2 r (⟨o + c.val, h⟩ : Fin 768))
          + ∑ d : Fin 256, pre (ix2 r (⟨o + d.val, by have := d.isLt; omega⟩ : Fin 768)) * sel3 ch wq wk wv (ix2 d c)) Mpn.zero := by
  subst ho
  have hc := c.isLt
  have e1 : (256 * ch + c.val) / 256 = ch := by omega
  have e2 : (256 * ch + c.val) % 256 = c.val := by omega
  have key : ∀ (a : ℕ) (_ : a = ch) (m : ℕ) (_ : m = c.val) (h1 : ∀ d : Fin 256, 256 * a + d.val < 768) (h2 : m < 256),
      (∑ d : Fin 256, pre (ix2 r (⟨256 * a + d.val, h1 d⟩ : Fin 768)) * sel3 a wq wk wv (ix2 d (⟨m, h2⟩ : Fin 256)))
        = ∑ d : Fin 256, pre (ix2 r (⟨256 * ch + d.val, by have := d.isLt; omega⟩ : Fin 768)) * sel3 ch wq wk wv (ix2 d c) := by
    intro a ha m hm h1 h2; subst ha; subst hm; rfl
  unfold jointG
  exact congrArg (fun s => max (inp (ix2 r (⟨256 * ch + c.val, h⟩ : Fin 768)) + s) Mpn.zero)
    (key _ e1 _ e2 (fun d => by have := d.isLt; omega) (Nat.mod_lt _ (by decide)))

/-- Rows base, base + 1, … of the update are the update of rows base, base + 1, … : if pre' and inp' are those rows of
    pre and inp, then at matching indices the two updates agree. -/
theorem jointG_rows {R R' : ℕ} (pre inp : (⟨2, ![R, 768]⟩ : Shape).Idx → EReal)
    (pre' inp' : (⟨2, ![R', 768]⟩ : Shape).Idx → EReal) (wq wk wv : (⟨2, ![256, 256]⟩ : Shape).Idx → EReal) (base : ℕ)
    (hpre : ∀ (r : Fin R') (k : Fin 768) (h : base + r.val < R), pre' (ix2 r k) = pre (ix2 (⟨base + r.val, h⟩ : Fin R) k))
    (hinp : ∀ (r : Fin R') (k : Fin 768) (h : base + r.val < R), inp' (ix2 r k) = inp (ix2 (⟨base + r.val, h⟩ : Fin R) k))
    (j : (⟨2, ![R', 768]⟩ : Shape).Idx) (i : (⟨2, ![R, 768]⟩ : Shape).Idx)
    (h0 : (i 0).val = base + (j 0).val) (h1 : (i 1).val = (j 1).val) :
    jointG pre' inp' wq wk wv j = jointG pre inp wq wk wv i := by
  obtain ⟨r, k, rfl⟩ : ∃ (r : Fin R') (k : Fin 768), j = ix2 r k := ⟨j 0, j 1, eq_ix2 j⟩
  obtain ⟨b, k', rfl⟩ : ∃ (b : Fin R) (k' : Fin 768), i = ix2 b k' := ⟨i 0, i 1, eq_ix2 i⟩
  have hk : k' = k := Fin.ext h1
  subst hk
  have hlt : base + r.val < R := by have := b.isLt; have : b.val = base + r.val := h0; omega
  have hb : b = (⟨base + r.val, hlt⟩ : Fin R) := Fin.ext h0
  subst hb
  unfold jointG
  show max (inp' (ix2 r k') + ∑ d : Fin 256, pre' (ix2 r (⟨256 * (k'.val / 256) + d.val, _⟩ : Fin 768))
        * sel3 (k'.val / 256) wq wk wv (ix2 d (⟨k'.val % 256, _⟩ : Fin 256))) Mpn.zero
      = max (inp (ix2 (⟨base + r.val, hlt⟩ : Fin R) k') + ∑ d : Fin 256, pre (ix2 (⟨base + r.val, hlt⟩ : Fin R) (⟨256 * (k'.val / 256) + d.val, _⟩ : Fin 768))
        * sel3 (k'.val / 256) wq wk wv (ix2 d (⟨k'.val % 256, _⟩ : Fin 256))) Mpn.zero
  rw [hinp r k' hlt]
  refine congrArg (fun s => max (inp (ix2 (⟨base + r.val, hlt⟩ : Fin R) k') + s) Mpn.zero) (Finset.sum_congr rfl fun d _ => ?_)
  rw [hpre r _ hlt]

end Cert.Hand.JointRows

end
-- ==== Proof.LibMatmul.lean ====
/-
  A row-by-column matrix product read at an index, over the extended reals.

  For the plain dimension numbers (left operand M×K contracted on its second axis, right operand K×N contracted on
  its first, no batch axis) the product accumulated into the zero matrix is, at row r and column c,
  the sum over k < K of lhs(r, k) · rhs(k, c).  The contraction index of the dimension numbers is a rank-1
  index; the sum is re-indexed through its one coordinate.
-/
import Idealize.ShloMosaic.PureOps.Ideal.Laws
import Idealize.ShloMosaic.Lib.ValueIdx

noncomputable section

namespace LibMatmul

open Idealize.ShloMosaic Idealize.ShloMosaic.ValueIdx

/-- The row coordinate of a rank-2 index, as a number below the first extent. -/
abbrev rowOf {M N : Nat} (j : (⟨2, ![M, N]⟩ : Shape).Idx) : Fin M := ⟨(j 0).val, (j 0).isLt⟩
/-- The column coordinate of a rank-2 index, as a number below the second extent. -/
abbrev colOf {M N : Nat} (j : (⟨2, ![M, N]⟩ : Shape).Idx) : Fin N := ⟨(j 1).val, (j 1).isLt⟩

/-- The sum a matrix product is, with the contraction index a plain number below K. -/
theorem plain_sum (M K N : Nat) (lhs : (⟨2, ![M, K]⟩ : Shape).Idx → EReal) (rhs : (⟨2, ![K, N]⟩ : Shape).Idx → EReal)
    (j : (⟨2, ![M, N]⟩ : Shape).Idx) :
    (∑ k : (DotDims.plain M K N).contr.Idx, lhs ((DotDims.plain M K N).lhsIdx j k) * rhs ((DotDims.plain M K N).rhsIdx j k))
      = ∑ k : Fin K, lhs (ix2 (rowOf j) k) * rhs (ix2 k (colOf j)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (rowOf j) k :=
    funext fun a => Fin.ext (by
      match a with
      | ⟨0, _⟩ => rfl
      | ⟨1, _⟩ => exact ((DotDims.plain M K N).lhsIdx_val_of_single rfl j _).trans hk)
  have er : (DotDims.plain M K N).rhsIdx j ((contrEquiv1 (DotDims.plain M K N) K rfl rfl).symm k) = ix2 k (colOf j) :=
    funext fun a => Fin.ext (by
      match a with
      | ⟨0, _⟩ => exact ((DotDims.plain M K N).rhsIdx_val_of_single rfl j _).trans hk
      | ⟨1, _⟩ => rfl)
  rw [el, er]

/-- A matrix product accumulated into the zero matrix, read at an index. -/
theorem matmul_zero_apply (M K N : Nat) (prec : Option ContractPrecision)
    (lhs : FVec Ideal ⟨2, ![M, K]⟩ .f32) (rhs : FVec Ideal ⟨2, ![K, N]⟩ .f32) (j : (⟨2, ![M, N]⟩ : Shape).Idx) :
    FloatOps.matmul (DotDims.plain M K N) prec lhs rhs (constant (F := Ideal) ⟨2, ![M, N]⟩ .f32 0x00000000#32) j
      = ∑ k : Fin K, lhs (ix2 (rowOf j) k) * rhs (ix2 k (colOf j)) := by
  rw [Ideal.matmul_constant_zero_apply]
  exact plain_sum M K N lhs rhs j

/-- The host's general dot product with the same dimension numbers, read at an index. -/
theorem dotGeneral_apply (M K N : Nat) (prec : Option ContractPrecision) (sched : HostSchedule)
    (lhs : FVec Ideal ⟨2, ![M, K]⟩ .f32) (rhs : FVec Ideal ⟨2, ![K, N]⟩ .f32) (j : (⟨2, ![M, N]⟩ : Shape).Idx) :
    FloatOps.dotGeneral (DotDims.plain M K N) prec sched lhs rhs j
      = ∑ k : Fin K, lhs (ix2 (rowOf j) k) * rhs (ix2 k (colOf j)) := by
  rw [Ideal.dotGeneral_apply]
  exact plain_sum M K N lhs rhs j

end LibMatmul

end
-- ==== Proof.LibDense.lean ====
/-
  The pieces of a dense layer read at one entry, over the extended reals.

  A matrix product reads, at row r and column c, the sum over k of A(r, k) · B(k, c): row r of A against
  column c of B.  The product accumulated into the zero matrix and the plain product are both this sum when
  their dimension numbers are the plain ones (left operand contracted on its second axis, right operand on its
  first, no batch axis), whatever float formats the operands carry.  A one-column matrix spread across the
  columns reads, at (r, c), its entry of row r; a single number spread over a whole array reads that number.
-/
import Idealize.ShloMosaic.PureOps.Ideal.Laws
import Idealize.ShloMosaic.Lib.ValueIdx
import Idealize.ShloMosaic.Lib.Pipeline.Value
import proofs.«177690_j24824910971087_2_alg».proof.Proof.LibMatmul

noncomputable section

namespace Cert.Hand.Dense

open Idealize.ShloMosaic Idealize.ShloMosaic.ValueIdx

/-- Column `c` of a matrix, as a function of the row. -/
def col {a b : ℕ} (A : (⟨2, ![a, b]⟩ : Shape).Idx → EReal) (c : Fin b) : Fin a → EReal := fun k => A (ix2 k c)

/-- Row `r` of a matrix against a vector: the sum over k of A(r, k) · v(k). -/
def lin {a k : ℕ} (A : (⟨2, ![a, k]⟩ : Shape).Idx → EReal) (v : Fin k → EReal) (r : Fin a) : EReal :=
  ∑ j : Fin k, A (ix2 r j) * v j

theorem col_apply {a b : ℕ} (A : (⟨2, ![a, b]⟩ : Shape).Idx → EReal) (c : Fin b) (k : Fin a) :
    col A c k = A (ix2 k c) := rfl

/-- A product accumulated into the zero matrix, at (r, c): row r of the left operand against column c of the right. -/
theorem matmul_entry {M K N : ℕ} {φ₁ φ₂ : FTy} (prec : Option ContractPrecision)
    (A : FVec Ideal ⟨2, ![M, K]⟩ φ₁) (B : FVec Ideal ⟨2, ![K, N]⟩ φ₂) (r : Fin M) (c : Fin N) :
    FloatOps.matmul (DotDims.plain M K N) prec A B (constant (F := Ideal) ⟨2, ![M, N]⟩ .f32 0x00000000#32) (ix2 r c)
      = lin A (col B c) r := by
  rw [Ideal.matmul_constant_zero_apply]
  exact LibMatmul.plain_sum M K N A B (ix2 r c)

/-- The plain product, at (r, c): the same sum. -/
theorem dot_entry {M K N : ℕ} {φ₁ φ₂ : FTy} (prec : Option ContractPrecision) (sched : HostSchedule)
    (A : FVec Ideal ⟨2, ![M, K]⟩ φ₁) (B : FVec Ideal ⟨2, ![K, N]⟩ φ₂) (r : Fin M) (c : Fin N) :
    FloatOps.dotGeneral (DotDims.plain M K N) prec sched A B (ix2 r c) = lin A (col B c) r := by
  rw [Ideal.dotGeneral_apply]
  exact LibMatmul.plain_sum M K N A B (ix2 r c)

variable {α : Type}

/-- An a-by-1 column spread across b columns (each operand axis kept in place) reads, at (r, c), the column at row r. -/
theorem spread_col_apply {a b : ℕ} (v : (⟨2, ![a, 1]⟩ : Shape).Idx → α)
    (h : (⟨2, ![a, 1]⟩ : Shape).BroadcastsInDim ⟨2, ![a, b]⟩ ![0, 1]) (r : Fin a) (c : Fin b) :
    broadcastInDim ⟨2, ![a, b]⟩ ![0, 1] h v (ix2 r c) = v (ix2 r (0 : Fin 1)) := by
  refine broadcastInDim_apply _ h v (ix2 r c) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else c.val
    rw [if_pos rfl]

/-- A single value spread over a whole array reads that value everywhere. -/
theorem spread_scalar_apply {s : Shape} (y : (⟨0, ![]⟩ : Shape).Idx → α)
    (h : (⟨0, ![]⟩ : Shape).BroadcastsInDim s ![]) (j : s.Idx) :
    broadcastInDim s ![] h y j = y ix0 :=
  broadcastInDim_apply _ h y j ix0 fun ax => ax.elim0

end Cert.Hand.Dense

end
-- ==== Proof.LibSlice2.lean ====
/-
  A rectangular cut of a matrix, read at an index: entry (a, b) of the cut that starts at row o₀ and column o₁ is
  entry (o₀ + a, o₁ + b) of the matrix.
-/
import Idealize.ShloMosaic.Lib.ValueIdx
import Idealize.ShloMosaic.Lib.Pipeline.Value

namespace LibSlice2

open Idealize.ShloMosaic Idealize.ShloMosaic.ValueIdx

variable {α : Type}

/-- A matrix cut from (o₀, o₁) reads, at (a, b), the matrix at (a', b') with a' = o₀ + a and b' = o₁ + b. -/
theorem slice2_apply {n0 n1 m0 m1 : ℕ} (o0 o1 : ℕ) (X : (⟨2, ![n0, n1]⟩ : Shape).Idx → α)
    (h : (⟨2, ![n0, n1]⟩ : Shape).Slices ![o0, o1] ⟨2, ![m0, m1]⟩)
    (a : Fin m0) (b : Fin m1) (a' : Fin n0) (b' : Fin n1) (ha : a'.val = o0 + a.val) (hb : b'.val = o1 + b.val) :
    extractStridedSlice ⟨2, ![m0, m1]⟩ ![o0, o1] X h (ix2 a b) = X (ix2 a' b') :=
  extractStridedSlice_apply _ _ _ _ _ (fun ax => by
    match ax with
    | ⟨0, _⟩ => exact ha
    | ⟨1, _⟩ => exact hb)

end LibSlice2
-- ==== Proof.ColBlock.lean ====
/-
  One column block of the fused update, read at an entry.

  The kernel holds a tile of R bond rows, 768 numbers wide: three chains of 256 columns side by side.  For the chain
  whose columns start at o it cuts the 256 columns from o out of the pre-activation tile and out of the skip tile,
  multiplies the first by the chain's 256-by-256 weight (into a zero accumulator; the operands rounded to a narrower
  float format on the way in, which over the extended reals changes nothing), adds the second, and cuts the sum off
  below at zero.  At row r and column c of the block that is

      max( skip(r, o + c) + Σ_d pre(r, o + d) · w(d, c) , 0 ).
-/
import proofs.«177690_j24824910971087_2_alg».proof.Proof.Spec
import proofs.«177690_j24824910971087_2_alg».proof.Proof.LibDense
import proofs.«177690_j24824910971087_2_alg».proof.Proof.LibSlice2
import Idealize.ShloMosaic.Lib.Pipeline.Value
import Idealize.ShloMosaic.Lib.ValueIdx

noncomputable section

open scoped BigOperators

namespace Cert.Hand.ColBlock

open Idealize.ShloMosaic Idealize.ShloMosaic.ValueIdx Cert.Hand

/-- A column block of the update at an entry: the skip entry plus the row of the pre-activation against the column of
    the weight, cut off below at zero. -/
theorem entry {R : ℕ} (o : ℕ) (ho : o + 256 ≤ 768) (pre inp : FVec Ideal ⟨2, ![R, 768]⟩ .f32)
    (w : FVec Ideal ⟨2, ![256, 256]⟩ .f32)
    (hc : (⟨2, ![R, 768]⟩ : Shape).ShapeCasts ⟨2, ![R, 768]⟩)
    (hs : (⟨2, ![R, 768]⟩ : Shape).Slices ![0, o] ⟨2, ![R, 256]⟩)
    (hb : FTy.bits .bf16 < FTy.bits .f32) (r : Fin R) (c : Fin 256) :
    maximumf (addf (extractStridedSlice ⟨2, ![R, 256]⟩ ![0, o] (shapeCast ⟨2, ![R, 768]⟩ inp hc) hs)
        (matmul (F := Ideal) (DotDims.plain R 256 256) none
          (truncf .bf16 (extractStridedSlice ⟨2, ![R, 256]⟩ ![0, o] (shapeCast ⟨2, ![R, 768]⟩ pre hc) hs) hb)
          (truncf .bf16 w hb) (constant (F := Ideal) ⟨2, ![R, 256]⟩ .f32 0x00000000#32)))
      (broadcast ⟨2, ![R, 256]⟩ (Scalar.ofBits (F := Ideal) .f32 0x00000000#32)) (ix2 r c)
    = max (inp (ix2 r (⟨o + c.val, by omega⟩ : Fin 768))
        + ∑ d : Fin 256, pre (ix2 r (⟨o + d.val, by omega⟩ : Fin 768)) * w (ix2 d c)) Mpn.zero := by
  rw [shapeCast_self, shapeCast_self]
  show max (extractStridedSlice ⟨2, ![R, 256]⟩ ![0, o] inp hs (ix2 r c)
      + FloatOps.matmul (F := Ideal) (DotDims.plain R 256 256) none _ _ _ (ix2 r c)) Mpn.zero = _
  rw [Dense.matmul_entry,
    LibSlice2.slice2_apply 0 o inp hs r c r (⟨o + c.val, by omega⟩ : Fin 768) (by simp) rfl]
  refine congrArg (fun s => max (inp (ix2 r (⟨o + c.val, by omega⟩ : Fin 768)) + s) Mpn.zero) ?_
  unfold Dense.lin Dense.col
  refine Finset.sum_congr rfl fun d _ => ?_
  show extractStridedSlice ⟨2, ![R, 256]⟩ ![0, o] pre hs (ix2 r d) * w (ix2 d c) = _
  rw [LibSlice2.slice2_apply 0 o pre hs r d r (⟨o + d.val, by omega⟩ : Fin 768) (by simp) rfl]

end Cert.Hand.ColBlock

end
-- ==== Proof.KI.Value0.lean ====
/- The value of region 0 (the first linear–skip–relu call) over the extended reals: the block each grid point leaves is
   the fused update of the point's input blocks, and the output array after the last point is the fused update of the
   region's input arrays, as one function of the array index. -/
import proofs.«177690_j24824910971087_2_alg».proof.Proof.KI.Body0
import proofs.«177690_j24824910971087_2_alg».proof.Proof.Joint
import proofs.«177690_j24824910971087_2_alg».proof.Proof.JointRows
import proofs.«177690_j24824910971087_2_alg».proof.Proof.ColBlock
import Idealize.ShloMosaic.Lib.Pipeline.Value

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Hand Cert.Hand.Joint Cert.Hand.JointRows

variable (V : (c : Dev nD) → (b : Ref sig .tc) → Buf (Elt Ideal) ((c : Thread nD τ).loc b))

/-! ## One grid point: the three stored bands are the three chains' updates -/

/-- The value stored through the first band (columns 0–255), at row r and column c of the band, is the fused update of
    the blocks at row r and column 0 + c. -/
theorem band0_a_entry (x0 x1 : Vec Ideal S1000x768 .f32) (x2 x3 x4 : Vec Ideal S256x256 .f32) (r : Fin 1000) (c : Fin 256) :
    k0_pay3 (F := Ideal) x0 x1 x2 (ix2 r c)
      = jointG (R := 1000) x0 x1 x2 x3 x4 (ix2 r (⟨0 + c.val, by have := c.isLt; omega⟩ : Fin 768)) := by
  rw [jointG_at x0 x1 x2 x3 x4 0 0 rfl r c, sel3_zero]
  exact ColBlock.entry (R := 1000) 0 (by omega) x0 x1 x2 shapeCasts_S1000x768_S1000x768 slices_S1000x768_o0_0_S1000x256
    bitsLt_bf16_f32 r c

/-- The second band (columns 256–511), likewise, with the second weight. -/
theorem band0_b_entry (x0 x1 : Vec Ideal S1000x768 .f32) (x2 x3 x4 : Vec Ideal S256x256 .f32) (r : Fin 1000) (c : Fin 256) :
    k0_pay4 (F := Ideal) x0 x1 x3 (ix2 r c)
      = jointG (R := 1000) x0 x1 x2 x3 x4 (ix2 r (⟨256 + c.val, by have := c.isLt; omega⟩ : Fin 768)) := by
  rw [jointG_at x0 x1 x2 x3 x4 256 1 rfl r c, sel3_one]
  exact ColBlock.entry (R := 1000) 256 (by omega) x0 x1 x3 shapeCasts_S1000x768_S1000x768 slices_S1000x768_o0_256_S1000x256
    bitsLt_bf16_f32 r c

/-- The third band (columns 512–767), likewise, with the third weight. -/
theorem band0_c_entry (x0 x1 : Vec Ideal S1000x768 .f32) (x2 x3 x4 : Vec Ideal S256x256 .f32) (r : Fin 1000) (c : Fin 256) :
    k0_pay5 (F := Ideal) x0 x1 x4 (ix2 r c)
      = jointG (R := 1000) x0 x1 x2 x3 x4 (ix2 r (⟨512 + c.val, by have := c.isLt; omega⟩ : Fin 768)) := by
  rw [jointG_at x0 x1 x2 x3 x4 512 2 rfl r c, sel3_two]
  exact ColBlock.entry (R := 1000) 512 (by omega) x0 x1 x4 shapeCasts_S1000x768_S1000x768 slices_S1000x768_o0_512_S1000x256
    bitsLt_bf16_f32 r c

/-- Row r, column c of a band sits in the block at row r and column (the band's first column) + c. -/
theorem band0_a_emb (r : Fin 1000) (c : Fin 256) :
    band0_a.emb (ix2 r c) = ix2 r (⟨0 + c.val, by have := c.isLt; omega⟩ : Fin 768) := by
  funext a; apply Fin.ext
  match a with
  | ⟨0, _⟩ => show 0 + 1 * r.val = r.val; omega
  | ⟨1, _⟩ => show 0 + 1 * c.val = 0 + c.val; omega
theorem band0_b_emb (r : Fin 1000) (c : Fin 256) :
    band0_b.emb (ix2 r c) = ix2 r (⟨256 + c.val, by have := c.isLt; omega⟩ : Fin 768) := by
  funext a; apply Fin.ext
  match a with
  | ⟨0, _⟩ => show 0 + 1 * r.val = r.val; omega
  | ⟨1, _⟩ => show 256 + 1 * c.val = 256 + c.val; omega
theorem band0_c_emb (r : Fin 1000) (c : Fin 256) :
    band0_c.emb (ix2 r c) = ix2 r (⟨512 + c.val, by have := c.isLt; omega⟩ : Fin 768) := by
  funext a; apply Fin.ext
  match a with
  | ⟨0, _⟩ => show 0 + 1 * r.val = r.val; omega
  | ⟨1, _⟩ => show 512 + 1 * c.val = 512 + c.val; omega

/-- WHAT ONE POINT LEAVES in the output block: the fused update of its five input blocks. Every index of the block lies in
    one of the three bands, and on each band the stored value is that one function of the block index. -/
theorem out0_5_eq (x0 x1 : Vec Ideal S1000x768 .f32) (x2 x3 x4 : Vec Ideal S256x256 .f32) :
    Cert.KernelIdeal.Hand.out0_5 (F := Ideal) x0 x1 x2 x3 x4 = Cert.Hand.Joint.jointG (R := 1000) x0 x1 x2 x3 x4 := by
  funext y
  unfold out0_5
  refine View.canon_apply_of_pieces (Val := Elt Ideal) (S := S1000x768) (e := .f32) (jointG (R := 1000) x0 x1 x2 x3 x4) _ ?_ y
    (cover0_5 _ _ _ y)
  intro p hp x
  simp only [List.mem_cons, List.mem_singleton, List.not_mem_nil, or_false] at hp
  rcases hp with rfl | rfl | rfl
  · obtain ⟨r, c, rfl⟩ : ∃ (r : Fin 1000) (c : Fin 256), x = ix2 r c := ⟨x 0, x 1, eq_ix2 x⟩
    exact (band0_c_entry x0 x1 x2 x3 x4 r c).trans (congrArg (jointG (R := 1000) x0 x1 x2 x3 x4) (band0_c_emb r c).symm)
  · obtain ⟨r, c, rfl⟩ : ∃ (r : Fin 1000) (c : Fin 256), x = ix2 r c := ⟨x 0, x 1, eq_ix2 x⟩
    exact (band0_b_entry x0 x1 x2 x3 x4 r c).trans (congrArg (jointG (R := 1000) x0 x1 x2 x3 x4) (band0_b_emb r c).symm)
  · obtain ⟨r, c, rfl⟩ : ∃ (r : Fin 1000) (c : Fin 256), x = ix2 r c := ⟨x 0, x 1, eq_ix2 x⟩
    exact (band0_a_entry x0 x1 x2 x3 x4 r c).trans (congrArg (jointG (R := 1000) x0 x1 x2 x3 x4) (band0_a_emb r c).symm)

/-! ## From the points' blocks to the array -/

/-- Where each window's block sits at grid point t: the two row-block inputs and the output at block row t, all columns;
    the three weights whole. Decided over the 100 points. -/
theorem index0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The activations' block at point t is rows 1000·t … 1000·t + 999 of their array. -/
theorem blk0_0_apply (c : Dev nD) (t : Fin cfg0.N) (r : Fin 1000) (k : Fin 768) (h : 1000 * t.val + r.val < 100000) :
    (iblk0 V c 0 t : (⟨2, ![1000, 768]⟩ : Shape).Idx → EReal) (ix2 r k)
      = (V c (Pipeline.arrRef spec0 0) : (⟨2, ![100000, 768]⟩ : Shape).Idx → EReal) (ix2 (⟨1000 * t.val + r.val, h⟩ : Fin 100000) k) := by
  obtain ⟨e0, e1, -⟩ := index0_facts t
  show V c (Pipeline.arrRef spec0 0) (((cfg0.win 0).blk t).view.emb (ix2 r k)) = _
  refine congrArg (V c (Pipeline.arrRef spec0 0)) ?_
  funext a; apply Fin.ext
  match a with
  | ⟨0, _⟩ => show win0_0.index t (0 : Fin 2) * 1000 + 1 * r.val = 1000 * t.val + r.val; rw [e0]; omega
  | ⟨1, _⟩ => show win0_0.index t (1 : Fin 2) * 768 + 1 * k.val = k.val; rw [e1]; omega

/-- The skip input's block at point t is the same rows of its array. -/
theorem blk0_1_apply (c : Dev nD) (t : Fin cfg0.N) (r : Fin 1000) (k : Fin 768) (h : 1000 * t.val + r.val < 100000) :
    (iblk0 V c 1 t : (⟨2, ![1000, 768]⟩ : Shape).Idx → EReal) (ix2 r k)
      = (V c (Pipeline.arrRef spec0 1) : (⟨2, ![100000, 768]⟩ : Shape).Idx → EReal) (ix2 (⟨1000 * t.val + r.val, h⟩ : Fin 100000) k) := by
  obtain ⟨-, -, e0, e1, -⟩ := index0_facts t
  show V c (Pipeline.arrRef spec0 1) (((cfg0.win 1).blk t).view.emb (ix2 r k)) = _
  refine congrArg (V c (Pipeline.arrRef spec0 1)) ?_
  funext a; apply Fin.ext
  match a with
  | ⟨0, _⟩ => show win0_1.index t (0 : Fin 2) * 1000 + 1 * r.val = 1000 * t.val + r.val; rw [e0]; omega
  | ⟨1, _⟩ => show win0_1.index t (1 : Fin 2) * 768 + 1 * k.val = k.val; rw [e1]; omega

/-- Each weight's block, at every point, is the whole weight matrix. -/
theorem blk0_2_eq (c : Dev nD) (t : Fin cfg0.N) :
    (iblk0 V c 2 t : (⟨2, ![256, 256]⟩ : Shape).Idx → EReal) = V c (Pipeline.arrRef spec0 2) := by
  obtain ⟨-, -, -, -, e0, e1, -⟩ := index0_facts t
  funext x
  show V c (Pipeline.arrRef spec0 2) (((cfg0.win 2).blk t).view.emb x) = V c (Pipeline.arrRef spec0 2) x
  refine congrArg (V c (Pipeline.arrRef spec0 2)) ?_
  funext a; apply Fin.ext
  match a with
  | ⟨0, _⟩ => show win0_2.index t (0 : Fin 2) * 256 + 1 * (x 0).val = (x 0).val; rw [e0]; omega
  | ⟨1, _⟩ => show win0_2.index t (1 : Fin 2) * 256 + 1 * (x 1).val = (x 1).val; rw [e1]; omega
theorem blk0_3_eq (c : Dev nD) (t : Fin cfg0.N) :
    (iblk0 V c 3 t : (⟨2, ![256, 256]⟩ : Shape).Idx → EReal) = V c (Pipeline.arrRef spec0 3) := by
  obtain ⟨-, -, -, -, -, -, e0, e1, -⟩ := index0_facts t
  funext x
  show V c (Pipeline.arrRef spec0 3) (((cfg0.win 3).blk t).view.emb x) = V c (Pipeline.arrRef spec0 3) x
  refine congrArg (V c (Pipeline.arrRef spec0 3)) ?_
  funext a; apply Fin.ext
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega
theorem blk0_4_eq (c : Dev nD) (t : Fin cfg0.N) :
    (iblk0 V c 4 t : (⟨2, ![256, 256]⟩ : Shape).Idx → EReal) = V c (Pipeline.arrRef spec0 4) := by
  obtain ⟨-, -, -, -, -, -, -, -, e0, e1, -⟩ := index0_facts t
  funext x
  show V c (Pipeline.arrRef spec0 4) (((cfg0.win 4).blk t).view.emb x) = V c (Pipeline.arrRef spec0 4) x
  refine congrArg (V c (Pipeline.arrRef spec0 4)) ?_
  funext a; apply Fin.ext
  match a with
  | ⟨0, _⟩ => show win0_4.index t (0 : Fin 2) * 256 + 1 * (x 0).val = (x 0).val; rw [e0]; omega
  | ⟨1, _⟩ => show win0_4.index t (1 : Fin 2) * 256 + 1 * (x 1).val = (x 1).val; rw [e1]; omega

/-- WHAT POINT t WRITES BACK is rows 1000·t … 1000·t + 999 of the fused update of the region's input arrays: the update
    at a row reads only that row of the two row-block inputs, and the weights are whole at every point. -/
theorem flushed0_eq (c : Dev nD) (t : Fin cfg0.N) :
    (dat0 (F := Ideal) V c).flushed 5 t
      = ((cfg0.win 5).blk t).view.read (Elt Ideal) (jointG (R := 100000) (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5, out0_5_eq (iblk0 V c 0 t) (iblk0 V c 1 t) (iblk0 V c 2 t) (iblk0 V c 3 t) (iblk0 V c 4 t),
    blk0_2_eq V c t, blk0_3_eq V c t, blk0_4_eq V c t]
  obtain ⟨-, -, -, -, -, -, -, -, -, -, e0, e1⟩ := index0_facts t
  funext j
  show jointG (R := 1000) (iblk0 V c 0 t) (iblk0 V c 1 t) (V c (Pipeline.arrRef spec0 2)) (V c (Pipeline.arrRef spec0 3))
      (V c (Pipeline.arrRef spec0 4)) j
    = jointG (R := 100000) (V c (Pipeline.arrRef spec0 0)) (V c (Pipeline.arrRef spec0 1)) (V c (Pipeline.arrRef spec0 2))
      (V c (Pipeline.arrRef spec0 3)) (V c (Pipeline.arrRef spec0 4)) (((cfg0.win 5).blk t).view.emb j)
  refine jointG_rows (R := 100000) (R' := 1000) (V c (Pipeline.arrRef spec0 0)) (V c (Pipeline.arrRef spec0 1))
    (iblk0 V c 0 t) (iblk0 V c 1 t) (V c (Pipeline.arrRef spec0 2)) (V c (Pipeline.arrRef spec0 3)) (V c (Pipeline.arrRef spec0 4))
    (1000 * t.val) (fun r k h => blk0_0_apply V c t r k h) (fun r k h => blk0_1_apply V c t r k h) j _ ?_ ?_
  · show win0_5.index t (0 : Fin 2) * 1000 + 1 * (j 0).val = 1000 * t.val + (j 0).val; rw [e0]; omega
  · show win0_5.index t (1 : Fin 2) * 768 + 1 * (j 1).val = (j 1).val; rw [e1]; omega

/-- An index of the output array lies in point t's block iff, on each axis, its coordinate lies in the block's range. -/
theorem mem_blk0_5 (t : Fin cfg0.N) (i : S100000x768.Idx) :
    i ∈ ((cfg0.win 5).blk t).view.set
      ↔ ∀ a : Fin 2, win0_5.index t a * S1000x768.size a ≤ (i a).val ∧ (i a).val < win0_5.index t a * S1000x768.size a + S1000x768.size a := by
  show i ∈ ((View.whole main_v75).slice (win0_5.rect t)).set ↔ _
  rw [View.set_slice_whole, Rect.mem_set_unit]
  exact Iff.rfl

/-- THE REGION'S VALUE: after the last point the output array is the fused update of the region's five input arrays.
    Row b of the array lies in the block of point b / 1000, and every point writes its block back. -/
theorem region0_value (c : Dev nD) :
    (Cert.KernelIdeal.Hand.dat0 (F := Ideal) V c).arrAt 5 cfg0.N
      = Cert.Hand.Joint.jointG (R := 100000) (V c (Pipeline.arrRef spec0 0)) (V c (Pipeline.arrRef spec0 1))
          (V c (Pipeline.arrRef spec0 2)) (V c (Pipeline.arrRef spec0 3)) (V c (Pipeline.arrRef spec0 4)) :=
  (dat0 (F := Ideal) V c).arrAt_eq_of_cover 5 (jointG (R := 100000) (V c (Pipeline.arrRef spec0 0)) (V c (Pipeline.arrRef spec0 1)) (V c (Pipeline.arrRef spec0 2)) (V c (Pipeline.arrRef spec0 3)) (V c (Pipeline.arrRef spec0 4)))
    (fun t _ => flushed0_eq V c t) fun i => by
      have hi0 : (i 0).val < 100000 := (i 0).isLt
      have hi1 : (i 1).val < 768 := (i 1).isLt
      have hN : cfg0.N = 100 := N_0
      obtain ⟨t, ht⟩ : ∃ t : Fin cfg0.N, t.val = (i 0).val / 1000 := ⟨⟨(i 0).val / 1000, by rw [hN]; omega⟩, rfl⟩
      obtain ⟨-, -, -, -, -, -, -, -, -, -, e0, e1⟩ := index0_facts t
      refine ⟨t, flush0_5 t, ?_⟩
      rw [mem_blk0_5]
      intro a
      match a with
      | ⟨0, _⟩ =>
        show win0_5.index t (0 : Fin 2) * 1000 ≤ (i 0).val ∧ (i 0).val < win0_5.index t (0 : Fin 2) * 1000 + 1000
        rw [e0, ht]; omega
      | ⟨1, _⟩ =>
        show win0_5.index t (1 : Fin 2) * 768 ≤ (i 1).val ∧ (i 1).val < win0_5.index t (1 : Fin 2) * 768 + 768
        rw [e1]; omega

end Cert.KernelIdeal.HandV

end
-- ==== Proof.KI.Value1.lean ====
/- The value of region 1 (the second linear–skip–relu call) over the extended reals: the block each grid point leaves is
   the fused update of the point's input blocks, and the output array after the last point is the fused update of the
   region's input arrays, as one function of the array index. -/
import proofs.«177690_j24824910971087_2_alg».proof.Proof.KI.Body1
import proofs.«177690_j24824910971087_2_alg».proof.Proof.Joint
import proofs.«177690_j24824910971087_2_alg».proof.Proof.JointRows
import proofs.«177690_j24824910971087_2_alg».proof.Proof.ColBlock
import Idealize.ShloMosaic.Lib.Pipeline.Value

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Hand Cert.Hand.Joint Cert.Hand.JointRows

variable (V : (c : Dev nD) → (b : Ref sig .tc) → Buf (Elt Ideal) ((c : Thread nD τ).loc b))

/-! ## One grid point: the three stored bands are the three chains' updates -/

/-- The value stored through the first band (columns 0–255), at row r and column c of the band, is the fused update of
    the blocks at row r and column 0 + c. -/
theorem band1_a_entry (x0 x1 : Vec Ideal S1000x768 .f32) (x2 x3 x4 : Vec Ideal S256x256 .f32) (r : Fin 1000) (c : Fin 256) :
    k1_pay3 (F := Ideal) x0 x1 x2 (ix2 r c)
      = jointG (R := 1000) x0 x1 x2 x3 x4 (ix2 r (⟨0 + c.val, by have := c.isLt; omega⟩ : Fin 768)) := by
  rw [jointG_at x0 x1 x2 x3 x4 0 0 rfl r c, sel3_zero]
  exact ColBlock.entry (R := 1000) 0 (by omega) x0 x1 x2 shapeCasts_S1000x768_S1000x768 slices_S1000x768_o0_0_S1000x256
    bitsLt_bf16_f32 r c

/-- The second band (columns 256–511), likewise, with the second weight. -/
theorem band1_b_entry (x0 x1 : Vec Ideal S1000x768 .f32) (x2 x3 x4 : Vec Ideal S256x256 .f32) (r : Fin 1000) (c : Fin 256) :
    k1_pay4 (F := Ideal) x0 x1 x3 (ix2 r c)
      = jointG (R := 1000) x0 x1 x2 x3 x4 (ix2 r (⟨256 + c.val, by have := c.isLt; omega⟩ : Fin 768)) := by
  rw [jointG_at x0 x1 x2 x3 x4 256 1 rfl r c, sel3_one]
  exact ColBlock.entry (R := 1000) 256 (by omega) x0 x1 x3 shapeCasts_S1000x768_S1000x768 slices_S1000x768_o0_256_S1000x256
    bitsLt_bf16_f32 r c

/-- The third band (columns 512–767), likewise, with the third weight. -/
theorem band1_c_entry (x0 x1 : Vec Ideal S1000x768 .f32) (x2 x3 x4 : Vec Ideal S256x256 .f32) (r : Fin 1000) (c : Fin 256) :
    k1_pay5 (F := Ideal) x0 x1 x4 (ix2 r c)
      = jointG (R := 1000) x0 x1 x2 x3 x4 (ix2 r (⟨512 + c.val, by have := c.isLt; omega⟩ : Fin 768)) := by
  rw [jointG_at x0 x1 x2 x3 x4 512 2 rfl r c, sel3_two]
  exact ColBlock.entry (R := 1000) 512 (by omega) x0 x1 x4 shapeCasts_S1000x768_S1000x768 slices_S1000x768_o0_512_S1000x256
    bitsLt_bf16_f32 r c

/-- Row r, column c of a band sits in the block at row r and column (the band's first column) + c. -/
theorem band1_a_emb (r : Fin 1000) (c : Fin 256) :
    band1_a.emb (ix2 r c) = ix2 r (⟨0 + c.val, by have := c.isLt; omega⟩ : Fin 768) := by
  funext a; apply Fin.ext
  match a with
  | ⟨0, _⟩ => show 0 + 1 * r.val = r.val; omega
  | ⟨1, _⟩ => show 0 + 1 * c.val = 0 + c.val; omega
theorem band1_b_emb (r : Fin 1000) (c : Fin 256) :
    band1_b.emb (ix2 r c) = ix2 r (⟨256 + c.val, by have := c.isLt; omega⟩ : Fin 768) := by
  funext a; apply Fin.ext
  match a with
  | ⟨0, _⟩ => show 0 + 1 * r.val = r.val; omega
  | ⟨1, _⟩ => show 256 + 1 * c.val = 256 + c.val; omega
theorem band1_c_emb (r : Fin 1000) (c : Fin 256) :
    band1_c.emb (ix2 r c) = ix2 r (⟨512 + c.val, by have := c.isLt; omega⟩ : Fin 768) := by
  funext a; apply Fin.ext
  match a with
  | ⟨0, _⟩ => show 0 + 1 * r.val = r.val; omega
  | ⟨1, _⟩ => show 512 + 1 * c.val = 512 + c.val; omega

/-- WHAT ONE POINT LEAVES in the output block: the fused update of its five input blocks. Every index of the block lies in
    one of the three bands, and on each band the stored value is that one function of the block index. -/
theorem out1_5_eq (x0 x1 : Vec Ideal S1000x768 .f32) (x2 x3 x4 : Vec Ideal S256x256 .f32) :
    Cert.KernelIdeal.Hand.out1_5 (F := Ideal) x0 x1 x2 x3 x4 = Cert.Hand.Joint.jointG (R := 1000) x0 x1 x2 x3 x4 := by
  funext y
  unfold out1_5
  refine View.canon_apply_of_pieces (Val := Elt Ideal) (S := S1000x768) (e := .f32) (jointG (R := 1000) x0 x1 x2 x3 x4) _ ?_ y
    (cover1_5 _ _ _ y)
  intro p hp x
  simp only [List.mem_cons, List.mem_singleton, List.not_mem_nil, or_false] at hp
  rcases hp with rfl | rfl | rfl
  · obtain ⟨r, c, rfl⟩ : ∃ (r : Fin 1000) (c : Fin 256), x = ix2 r c := ⟨x 0, x 1, eq_ix2 x⟩
    exact (band1_c_entry x0 x1 x2 x3 x4 r c).trans (congrArg (jointG (R := 1000) x0 x1 x2 x3 x4) (band1_c_emb r c).symm)
  · obtain ⟨r, c, rfl⟩ : ∃ (r : Fin 1000) (c : Fin 256), x = ix2 r c := ⟨x 0, x 1, eq_ix2 x⟩
    exact (band1_b_entry x0 x1 x2 x3 x4 r c).trans (congrArg (jointG (R := 1000) x0 x1 x2 x3 x4) (band1_b_emb r c).symm)
  · obtain ⟨r, c, rfl⟩ : ∃ (r : Fin 1000) (c : Fin 256), x = ix2 r c := ⟨x 0, x 1, eq_ix2 x⟩
    exact (band1_a_entry x0 x1 x2 x3 x4 r c).trans (congrArg (jointG (R := 1000) x0 x1 x2 x3 x4) (band1_a_emb r c).symm)

/-! ## From the points' blocks to the array -/

/-- Where each window's block sits at grid point t: the two row-block inputs and the output at block row t, all columns;
    the three weights whole. Decided over the 100 points. -/
theorem index1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The activations' block at point t is rows 1000·t … 1000·t + 999 of their array. -/
theorem blk1_0_apply (c : Dev nD) (t : Fin cfg1.N) (r : Fin 1000) (k : Fin 768) (h : 1000 * t.val + r.val < 100000) :
    (iblk1 V c 0 t : (⟨2, ![1000, 768]⟩ : Shape).Idx → EReal) (ix2 r k)
      = (V c (Pipeline.arrRef spec1 0) : (⟨2, ![100000, 768]⟩ : Shape).Idx → EReal) (ix2 (⟨1000 * t.val + r.val, h⟩ : Fin 100000) k) := by
  obtain ⟨e0, e1, -⟩ := index1_facts t
  show V c (Pipeline.arrRef spec1 0) (((cfg1.win 0).blk t).view.emb (ix2 r k)) = _
  refine congrArg (V c (Pipeline.arrRef spec1 0)) ?_
  funext a; apply Fin.ext
  match a with
  | ⟨0, _⟩ => show win1_0.index t (0 : Fin 2) * 1000 + 1 * r.val = 1000 * t.val + r.val; rw [e0]; omega
  | ⟨1, _⟩ => show win1_0.index t (1 : Fin 2) * 768 + 1 * k.val = k.val; rw [e1]; omega

/-- The skip input's block at point t is the same rows of its array. -/
theorem blk1_1_apply (c : Dev nD) (t : Fin cfg1.N) (r : Fin 1000) (k : Fin 768) (h : 1000 * t.val + r.val < 100000) :
    (iblk1 V c 1 t : (⟨2, ![1000, 768]⟩ : Shape).Idx → EReal) (ix2 r k)
      = (V c (Pipeline.arrRef spec1 1) : (⟨2, ![100000, 768]⟩ : Shape).Idx → EReal) (ix2 (⟨1000 * t.val + r.val, h⟩ : Fin 100000) k) := by
  obtain ⟨-, -, e0, e1, -⟩ := index1_facts t
  show V c (Pipeline.arrRef spec1 1) (((cfg1.win 1).blk t).view.emb (ix2 r k)) = _
  refine congrArg (V c (Pipeline.arrRef spec1 1)) ?_
  funext a; apply Fin.ext
  match a with
  | ⟨0, _⟩ => show win1_1.index t (0 : Fin 2) * 1000 + 1 * r.val = 1000 * t.val + r.val; rw [e0]; omega
  | ⟨1, _⟩ => show win1_1.index t (1 : Fin 2) * 768 + 1 * k.val = k.val; rw [e1]; omega

/-- Each weight's block, at every point, is the whole weight matrix. -/
theorem blk1_2_eq (c : Dev nD) (t : Fin cfg1.N) :
    (iblk1 V c 2 t : (⟨2, ![256, 256]⟩ : Shape).Idx → EReal) = V c (Pipeline.arrRef spec1 2) := by
  obtain ⟨-, -, -, -, e0, e1, -⟩ := index1_facts t
  funext x
  show V c (Pipeline.arrRef spec1 2) (((cfg1.win 2).blk t).view.emb x) = V c (Pipeline.arrRef spec1 2) x
  refine congrArg (V c (Pipeline.arrRef spec1 2)) ?_
  funext a; apply Fin.ext
  match a with
  | ⟨0, _⟩ => show win1_2.index t (0 : Fin 2) * 256 + 1 * (x 0).val = (x 0).val; rw [e0]; omega
  | ⟨1, _⟩ => show win1_2.index t (1 : Fin 2) * 256 + 1 * (x 1).val = (x 1).val; rw [e1]; omega
theorem blk1_3_eq (c : Dev nD) (t : Fin cfg1.N) :
    (iblk1 V c 3 t : (⟨2, ![256, 256]⟩ : Shape).Idx → EReal) = V c (Pipeline.arrRef spec1 3) := by
  obtain ⟨-, -, -, -, -, -, e0, e1, -⟩ := index1_facts t
  funext x
  show V c (Pipeline.arrRef spec1 3) (((cfg1.win 3).blk t).view.emb x) = V c (Pipeline.arrRef spec1 3) x
  refine congrArg (V c (Pipeline.arrRef spec1 3)) ?_
  funext a; apply Fin.ext
  match a with
  | ⟨0, _⟩ => show win1_3.index t (0 : Fin 2) * 256 + 1 * (x 0).val = (x 0).val; rw [e0]; omega
  | ⟨1, _⟩ => show win1_3.index t (1 : Fin 2) * 256 + 1 * (x 1).val = (x 1).val; rw [e1]; omega
theorem blk1_4_eq (c : Dev nD) (t : Fin cfg1.N) :
    (iblk1 V c 4 t : (⟨2, ![256, 256]⟩ : Shape).Idx → EReal) = V c (Pipeline.arrRef spec1 4) := by
  obtain ⟨-, -, -, -, -, -, -, -, e0, e1, -⟩ := index1_facts t
  funext x
  show V c (Pipeline.arrRef spec1 4) (((cfg1.win 4).blk t).view.emb x) = V c (Pipeline.arrRef spec1 4) x
  refine congrArg (V c (Pipeline.arrRef spec1 4)) ?_
  funext a; apply Fin.ext
  match a with
  | ⟨0, _⟩ => show win1_4.index t (0 : Fin 2) * 256 + 1 * (x 0).val = (x 0).val; rw [e0]; omega
  | ⟨1, _⟩ => show win1_4.index t (1 : Fin 2) * 256 + 1 * (x 1).val = (x 1).val; rw [e1]; omega

/-- WHAT POINT t WRITES BACK is rows 1000·t … 1000·t + 999 of the fused update of the region's input arrays: the update
    at a row reads only that row of the two row-block inputs, and the weights are whole at every point. -/
theorem flushed1_eq (c : Dev nD) (t : Fin cfg1.N) :
    (dat1 (F := Ideal) V c).flushed 5 t
      = ((cfg1.win 5).blk t).view.read (Elt Ideal) (jointG (R := 100000) (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5, out1_5_eq (iblk1 V c 0 t) (iblk1 V c 1 t) (iblk1 V c 2 t) (iblk1 V c 3 t) (iblk1 V c 4 t),
    blk1_2_eq V c t, blk1_3_eq V c t, blk1_4_eq V c t]
  obtain ⟨-, -, -, -, -, -, -, -, -, -, e0, e1⟩ := index1_facts t
  funext j
  show jointG (R := 1000) (iblk1 V c 0 t) (iblk1 V c 1 t) (V c (Pipeline.arrRef spec1 2)) (V c (Pipeline.arrRef spec1 3))
      (V c (Pipeline.arrRef spec1 4)) j
    = jointG (R := 100000) (V c (Pipeline.arrRef spec1 0)) (V c (Pipeline.arrRef spec1 1)) (V c (Pipeline.arrRef spec1 2))
      (V c (Pipeline.arrRef spec1 3)) (V c (Pipeline.arrRef spec1 4)) (((cfg1.win 5).blk t).view.emb j)
  refine jointG_rows (R := 100000) (R' := 1000) (V c (Pipeline.arrRef spec1 0)) (V c (Pipeline.arrRef spec1 1))
    (iblk1 V c 0 t) (iblk1 V c 1 t) (V c (Pipeline.arrRef spec1 2)) (V c (Pipeline.arrRef spec1 3)) (V c (Pipeline.arrRef spec1 4))
    (1000 * t.val) (fun r k h => blk1_0_apply V c t r k h) (fun r k h => blk1_1_apply V c t r k h) j _ ?_ ?_
  · show win1_5.index t (0 : Fin 2) * 1000 + 1 * (j 0).val = 1000 * t.val + (j 0).val; rw [e0]; omega
  · show win1_5.index t (1 : Fin 2) * 768 + 1 * (j 1).val = (j 1).val; rw [e1]; omega

/-- An index of the output array lies in point t's block iff, on each axis, its coordinate lies in the block's range. -/
theorem mem_blk1_5 (t : Fin cfg1.N) (i : S100000x768.Idx) :
    i ∈ ((cfg1.win 5).blk t).view.set
      ↔ ∀ a : Fin 2, win1_5.index t a * S1000x768.size a ≤ (i a).val ∧ (i a).val < win1_5.index t a * S1000x768.size a + S1000x768.size a := by
  show i ∈ ((View.whole main_v150).slice (win1_5.rect t)).set ↔ _
  rw [View.set_slice_whole, Rect.mem_set_unit]
  exact Iff.rfl

/-- THE REGION'S VALUE: after the last point the output array is the fused update of the region's five input arrays.
    Row b of the array lies in the block of point b / 1000, and every point writes its block back. -/
theorem region1_value (c : Dev nD) :
    (Cert.KernelIdeal.Hand.dat1 (F := Ideal) V c).arrAt 5 cfg1.N
      = Cert.Hand.Joint.jointG (R := 100000) (V c (Pipeline.arrRef spec1 0)) (V c (Pipeline.arrRef spec1 1))
          (V c (Pipeline.arrRef spec1 2)) (V c (Pipeline.arrRef spec1 3)) (V c (Pipeline.arrRef spec1 4)) :=
  (dat1 (F := Ideal) V c).arrAt_eq_of_cover 5 (jointG (R := 100000) (V c (Pipeline.arrRef spec1 0)) (V c (Pipeline.arrRef spec1 1)) (V c (Pipeline.arrRef spec1 2)) (V c (Pipeline.arrRef spec1 3)) (V c (Pipeline.arrRef spec1 4)))
    (fun t _ => flushed1_eq V c t) fun i => by
      have hi0 : (i 0).val < 100000 := (i 0).isLt
      have hi1 : (i 1).val < 768 := (i 1).isLt
      have hN : cfg1.N = 100 := N_1
      obtain ⟨t, ht⟩ : ∃ t : Fin cfg1.N, t.val = (i 0).val / 1000 := ⟨⟨(i 0).val / 1000, by rw [hN]; omega⟩, rfl⟩
      obtain ⟨-, -, -, -, -, -, -, -, -, -, e0, e1⟩ := index1_facts t
      refine ⟨t, flush1_5 t, ?_⟩
      rw [mem_blk1_5]
      intro a
      match a with
      | ⟨0, _⟩ =>
        show win1_5.index t (0 : Fin 2) * 1000 ≤ (i 0).val ∧ (i 0).val < win1_5.index t (0 : Fin 2) * 1000 + 1000
        rw [e0, ht]; omega
      | ⟨1, _⟩ =>
        show win1_5.index t (1 : Fin 2) * 768 ≤ (i 1).val ∧ (i 1).val < win1_5.index t (1 : Fin 2) * 768 + 768
        rw [e1]; omega

end Cert.KernelIdeal.HandV

end
-- ==== Proof.KI.Value2.lean ====
/- The value of region 2 (the third linear–skip–relu call) over the extended reals: the block each grid point leaves is
   the fused update of the point's input blocks, and the output array after the last point is the fused update of the
   region's input arrays, as one function of the array index. -/
import proofs.«177690_j24824910971087_2_alg».proof.Proof.KI.Body2
import proofs.«177690_j24824910971087_2_alg».proof.Proof.Joint
import proofs.«177690_j24824910971087_2_alg».proof.Proof.JointRows
import proofs.«177690_j24824910971087_2_alg».proof.Proof.ColBlock
import Idealize.ShloMosaic.Lib.Pipeline.Value

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Hand Cert.Hand.Joint Cert.Hand.JointRows

variable (V : (c : Dev nD) → (b : Ref sig .tc) → Buf (Elt Ideal) ((c : Thread nD τ).loc b))

/-! ## One grid point: the three stored bands are the three chains' updates -/

/-- The value stored through the first band (columns 0–255), at row r and column c of the band, is the fused update of
    the blocks at row r and column 0 + c. -/
theorem band2_a_entry (x0 x1 : Vec Ideal S1000x768 .f32) (x2 x3 x4 : Vec Ideal S256x256 .f32) (r : Fin 1000) (c : Fin 256) :
    k2_pay3 (F := Ideal) x0 x1 x2 (ix2 r c)
      = jointG (R := 1000) x0 x1 x2 x3 x4 (ix2 r (⟨0 + c.val, by have := c.isLt; omega⟩ : Fin 768)) := by
  rw [jointG_at x0 x1 x2 x3 x4 0 0 rfl r c, sel3_zero]
  exact ColBlock.entry (R := 1000) 0 (by omega) x0 x1 x2 shapeCasts_S1000x768_S1000x768 slices_S1000x768_o0_0_S1000x256
    bitsLt_bf16_f32 r c

/-- The second band (columns 256–511), likewise, with the second weight. -/
theorem band2_b_entry (x0 x1 : Vec Ideal S1000x768 .f32) (x2 x3 x4 : Vec Ideal S256x256 .f32) (r : Fin 1000) (c : Fin 256) :
    k2_pay4 (F := Ideal) x0 x1 x3 (ix2 r c)
      = jointG (R := 1000) x0 x1 x2 x3 x4 (ix2 r (⟨256 + c.val, by have := c.isLt; omega⟩ : Fin 768)) := by
  rw [jointG_at x0 x1 x2 x3 x4 256 1 rfl r c, sel3_one]
  exact ColBlock.entry (R := 1000) 256 (by omega) x0 x1 x3 shapeCasts_S1000x768_S1000x768 slices_S1000x768_o0_256_S1000x256
    bitsLt_bf16_f32 r c

/-- The third band (columns 512–767), likewise, with the third weight. -/
theorem band2_c_entry (x0 x1 : Vec Ideal S1000x768 .f32) (x2 x3 x4 : Vec Ideal S256x256 .f32) (r : Fin 1000) (c : Fin 256) :
    k2_pay5 (F := Ideal) x0 x1 x4 (ix2 r c)
      = jointG (R := 1000) x0 x1 x2 x3 x4 (ix2 r (⟨512 + c.val, by have := c.isLt; omega⟩ : Fin 768)) := by
  rw [jointG_at x0 x1 x2 x3 x4 512 2 rfl r c, sel3_two]
  exact ColBlock.entry (R := 1000) 512 (by omega) x0 x1 x4 shapeCasts_S1000x768_S1000x768 slices_S1000x768_o0_512_S1000x256
    bitsLt_bf16_f32 r c

/-- Row r, column c of a band sits in the block at row r and column (the band's first column) + c. -/
theorem band2_a_emb (r : Fin 1000) (c : Fin 256) :
    band2_a.emb (ix2 r c) = ix2 r (⟨0 + c.val, by have := c.isLt; omega⟩ : Fin 768) := by
  funext a; apply Fin.ext
  match a with
  | ⟨0, _⟩ => show 0 + 1 * r.val = r.val; omega
  | ⟨1, _⟩ => show 0 + 1 * c.val = 0 + c.val; omega
theorem band2_b_emb (r : Fin 1000) (c : Fin 256) :
    band2_b.emb (ix2 r c) = ix2 r (⟨256 + c.val, by have := c.isLt; omega⟩ : Fin 768) := by
  funext a; apply Fin.ext
  match a with
  | ⟨0, _⟩ => show 0 + 1 * r.val = r.val; omega
  | ⟨1, _⟩ => show 256 + 1 * c.val = 256 + c.val; omega
theorem band2_c_emb (r : Fin 1000) (c : Fin 256) :
    band2_c.emb (ix2 r c) = ix2 r (⟨512 + c.val, by have := c.isLt; omega⟩ : Fin 768) := by
  funext a; apply Fin.ext
  match a with
  | ⟨0, _⟩ => show 0 + 1 * r.val = r.val; omega
  | ⟨1, _⟩ => show 512 + 1 * c.val = 512 + c.val; omega

/-- WHAT ONE POINT LEAVES in the output block: the fused update of its five input blocks. Every index of the block lies in
    one of the three bands, and on each band the stored value is that one function of the block index. -/
theorem out2_5_eq (x0 x1 : Vec Ideal S1000x768 .f32) (x2 x3 x4 : Vec Ideal S256x256 .f32) :
    Cert.KernelIdeal.Hand.out2_5 (F := Ideal) x0 x1 x2 x3 x4 = Cert.Hand.Joint.jointG (R := 1000) x0 x1 x2 x3 x4 := by
  funext y
  unfold out2_5
  refine View.canon_apply_of_pieces (Val := Elt Ideal) (S := S1000x768) (e := .f32) (jointG (R := 1000) x0 x1 x2 x3 x4) _ ?_ y
    (cover2_5 _ _ _ y)
  intro p hp x
  simp only [List.mem_cons, List.mem_singleton, List.not_mem_nil, or_false] at hp
  rcases hp with rfl | rfl | rfl
  · obtain ⟨r, c, rfl⟩ : ∃ (r : Fin 1000) (c : Fin 256), x = ix2 r c := ⟨x 0, x 1, eq_ix2 x⟩
    exact (band2_c_entry x0 x1 x2 x3 x4 r c).trans (congrArg (jointG (R := 1000) x0 x1 x2 x3 x4) (band2_c_emb r c).symm)
  · obtain ⟨r, c, rfl⟩ : ∃ (r : Fin 1000) (c : Fin 256), x = ix2 r c := ⟨x 0, x 1, eq_ix2 x⟩
    exact (band2_b_entry x0 x1 x2 x3 x4 r c).trans (congrArg (jointG (R := 1000) x0 x1 x2 x3 x4) (band2_b_emb r c).symm)
  · obtain ⟨r, c, rfl⟩ : ∃ (r : Fin 1000) (c : Fin 256), x = ix2 r c := ⟨x 0, x 1, eq_ix2 x⟩
    exact (band2_a_entry x0 x1 x2 x3 x4 r c).trans (congrArg (jointG (R := 1000) x0 x1 x2 x3 x4) (band2_a_emb r c).symm)

/-! ## From the points' blocks to the array -/

/-- Where each window's block sits at grid point t: the two row-block inputs and the output at block row t, all columns;
    the three weights whole. Decided over the 100 points. -/
theorem index2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The activations' block at point t is rows 1000·t … 1000·t + 999 of their array. -/
theorem blk2_0_apply (c : Dev nD) (t : Fin cfg2.N) (r : Fin 1000) (k : Fin 768) (h : 1000 * t.val + r.val < 100000) :
    (iblk2 V c 0 t : (⟨2, ![1000, 768]⟩ : Shape).Idx → EReal) (ix2 r k)
      = (V c (Pipeline.arrRef spec2 0) : (⟨2, ![100000, 768]⟩ : Shape).Idx → EReal) (ix2 (⟨1000 * t.val + r.val, h⟩ : Fin 100000) k) := by
  obtain ⟨e0, e1, -⟩ := index2_facts t
  show V c (Pipeline.arrRef spec2 0) (((cfg2.win 0).blk t).view.emb (ix2 r k)) = _
  refine congrArg (V c (Pipeline.arrRef spec2 0)) ?_
  funext a; apply Fin.ext
  match a with
  | ⟨0, _⟩ => show win2_0.index t (0 : Fin 2) * 1000 + 1 * r.val = 1000 * t.val + r.val; rw [e0]; omega
  | ⟨1, _⟩ => show win2_0.index t (1 : Fin 2) * 768 + 1 * k.val = k.val; rw [e1]; omega

/-- The skip input's block at point t is the same rows of its array. -/
theorem blk2_1_apply (c : Dev nD) (t : Fin cfg2.N) (r : Fin 1000) (k : Fin 768) (h : 1000 * t.val + r.val < 100000) :
    (iblk2 V c 1 t : (⟨2, ![1000, 768]⟩ : Shape).Idx → EReal) (ix2 r k)
      = (V c (Pipeline.arrRef spec2 1) : (⟨2, ![100000, 768]⟩ : Shape).Idx → EReal) (ix2 (⟨1000 * t.val + r.val, h⟩ : Fin 100000) k) := by
  obtain ⟨-, -, e0, e1, -⟩ := index2_facts t
  show V c (Pipeline.arrRef spec2 1) (((cfg2.win 1).blk t).view.emb (ix2 r k)) = _
  refine congrArg (V c (Pipeline.arrRef spec2 1)) ?_
  funext a; apply Fin.ext
  match a with
  | ⟨0, _⟩ => show win2_1.index t (0 : Fin 2) * 1000 + 1 * r.val = 1000 * t.val + r.val; rw [e0]; omega
  | ⟨1, _⟩ => show win2_1.index t (1 : Fin 2) * 768 + 1 * k.val = k.val; rw [e1]; omega

/-- Each weight's block, at every point, is the whole weight matrix. -/
theorem blk2_2_eq (c : Dev nD) (t : Fin cfg2.N) :
    (iblk2 V c 2 t : (⟨2, ![256, 256]⟩ : Shape).Idx → EReal) = V c (Pipeline.arrRef spec2 2) := by
  obtain ⟨-, -, -, -, e0, e1, -⟩ := index2_facts t
  funext x
  show V c (Pipeline.arrRef spec2 2) (((cfg2.win 2).blk t).view.emb x) = V c (Pipeline.arrRef spec2 2) x
  refine congrArg (V c (Pipeline.arrRef spec2 2)) ?_
  funext a; apply Fin.ext
  match a with
  | ⟨0, _⟩ => show win2_2.index t (0 : Fin 2) * 256 + 1 * (x 0).val = (x 0).val; rw [e0]; omega
  | ⟨1, _⟩ => show win2_2.index t (1 : Fin 2) * 256 + 1 * (x 1).val = (x 1).val; rw [e1]; omega
theorem blk2_3_eq (c : Dev nD) (t : Fin cfg2.N) :
    (iblk2 V c 3 t : (⟨2, ![256, 256]⟩ : Shape).Idx → EReal) = V c (Pipeline.arrRef spec2 3) := by
  obtain ⟨-, -, -, -, -, -, e0, e1, -⟩ := index2_facts t
  funext x
  show V c (Pipeline.arrRef spec2 3) (((cfg2.win 3).blk t).view.emb x) = V c (Pipeline.arrRef spec2 3) x
  refine congrArg (V c (Pipeline.arrRef spec2 3)) ?_
  funext a; apply Fin.ext
  match a with
  | ⟨0, _⟩ => show win2_3.index t (0 : Fin 2) * 256 + 1 * (x 0).val = (x 0).val; rw [e0]; omega
  | ⟨1, _⟩ => show win2_3.index t (1 : Fin 2) * 256 + 1 * (x 1).val = (x 1).val; rw [e1]; omega
theorem blk2_4_eq (c : Dev nD) (t : Fin cfg2.N) :
    (iblk2 V c 4 t : (⟨2, ![256, 256]⟩ : Shape).Idx → EReal) = V c (Pipeline.arrRef spec2 4) := by
  obtain ⟨-, -, -, -, -, -, -, -, e0, e1, -⟩ := index2_facts t
  funext x
  show V c (Pipeline.arrRef spec2 4) (((cfg2.win 4).blk t).view.emb x) = V c (Pipeline.arrRef spec2 4) x
  refine congrArg (V c (Pipeline.arrRef spec2 4)) ?_
  funext a; apply Fin.ext
  match a with
  | ⟨0, _⟩ => show win2_4.index t (0 : Fin 2) * 256 + 1 * (x 0).val = (x 0).val; rw [e0]; omega
  | ⟨1, _⟩ => show win2_4.index t (1 : Fin 2) * 256 + 1 * (x 1).val = (x 1).val; rw [e1]; omega

/-- WHAT POINT t WRITES BACK is rows 1000·t … 1000·t + 999 of the fused update of the region's input arrays: the update
    at a row reads only that row of the two row-block inputs, and the weights are whole at every point. -/
theorem flushed2_eq (c : Dev nD) (t : Fin cfg2.N) :
    (dat2 (F := Ideal) V c).flushed 5 t
      = ((cfg2.win 5).blk t).view.read (Elt Ideal) (jointG (R := 100000) (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5, out2_5_eq (iblk2 V c 0 t) (iblk2 V c 1 t) (iblk2 V c 2 t) (iblk2 V c 3 t) (iblk2 V c 4 t),
    blk2_2_eq V c t, blk2_3_eq V c t, blk2_4_eq V c t]
  obtain ⟨-, -, -, -, -, -, -, -, -, -, e0, e1⟩ := index2_facts t
  funext j
  show jointG (R := 1000) (iblk2 V c 0 t) (iblk2 V c 1 t) (V c (Pipeline.arrRef spec2 2)) (V c (Pipeline.arrRef spec2 3))
      (V c (Pipeline.arrRef spec2 4)) j
    = jointG (R := 100000) (V c (Pipeline.arrRef spec2 0)) (V c (Pipeline.arrRef spec2 1)) (V c (Pipeline.arrRef spec2 2))
      (V c (Pipeline.arrRef spec2 3)) (V c (Pipeline.arrRef spec2 4)) (((cfg2.win 5).blk t).view.emb j)
  refine jointG_rows (R := 100000) (R' := 1000) (V c (Pipeline.arrRef spec2 0)) (V c (Pipeline.arrRef spec2 1))
    (iblk2 V c 0 t) (iblk2 V c 1 t) (V c (Pipeline.arrRef spec2 2)) (V c (Pipeline.arrRef spec2 3)) (V c (Pipeline.arrRef spec2 4))
    (1000 * t.val) (fun r k h => blk2_0_apply V c t r k h) (fun r k h => blk2_1_apply V c t r k h) j _ ?_ ?_
  · show win2_5.index t (0 : Fin 2) * 1000 + 1 * (j 0).val = 1000 * t.val + (j 0).val; rw [e0]; omega
  · show win2_5.index t (1 : Fin 2) * 768 + 1 * (j 1).val = (j 1).val; rw [e1]; omega

/-- An index of the output array lies in point t's block iff, on each axis, its coordinate lies in the block's range. -/
theorem mem_blk2_5 (t : Fin cfg2.N) (i : S100000x768.Idx) :
    i ∈ ((cfg2.win 5).blk t).view.set
      ↔ ∀ a : Fin 2, win2_5.index t a * S1000x768.size a ≤ (i a).val ∧ (i a).val < win2_5.index t a * S1000x768.size a + S1000x768.size a := by
  show i ∈ ((View.whole main_v225).slice (win2_5.rect t)).set ↔ _
  rw [View.set_slice_whole, Rect.mem_set_unit]
  exact Iff.rfl

/-- THE REGION'S VALUE: after the last point the output array is the fused update of the region's five input arrays.
    Row b of the array lies in the block of point b / 1000, and every point writes its block back. -/
theorem region2_value (c : Dev nD) :
    (Cert.KernelIdeal.Hand.dat2 (F := Ideal) V c).arrAt 5 cfg2.N
      = Cert.Hand.Joint.jointG (R := 100000) (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 (jointG (R := 100000) (V c (Pipeline.arrRef spec2 0)) (V c (Pipeline.arrRef spec2 1)) (V c (Pipeline.arrRef spec2 2)) (V c (Pipeline.arrRef spec2 3)) (V c (Pipeline.arrRef spec2 4)))
    (fun t _ => flushed2_eq V c t) fun i => by
      have hi0 : (i 0).val < 100000 := (i 0).isLt
      have hi1 : (i 1).val < 768 := (i 1).isLt
      have hN : cfg2.N = 100 := N_2
      obtain ⟨t, ht⟩ : ∃ t : Fin cfg2.N, t.val = (i 0).val / 1000 := ⟨⟨(i 0).val / 1000, by rw [hN]; omega⟩, rfl⟩
      obtain ⟨-, -, -, -, -, -, -, -, -, -, e0, e1⟩ := index2_facts t
      refine ⟨t, flush2_5 t, ?_⟩
      rw [mem_blk2_5]
      intro a
      match a with
      | ⟨0, _⟩ =>
        show win2_5.index t (0 : Fin 2) * 1000 ≤ (i 0).val ∧ (i 0).val < win2_5.index t (0 : Fin 2) * 1000 + 1000
        rw [e0, ht]; omega
      | ⟨1, _⟩ =>
        show win2_5.index t (1 : Fin 2) * 768 ≤ (i 1).val ∧ (i 1).val < win2_5.index t (1 : Fin 2) * 768 + 768
        rw [e1]; omega

end Cert.KernelIdeal.HandV

end
-- ==== Proof.KI.Value3.lean ====
/- The value of region 3 (the fourth linear–skip–relu call) over the extended reals: the block each grid point leaves is
   the fused update of the point's input blocks, and the output array after the last point is the fused update of the
   region's input arrays, as one function of the array index. -/
import proofs.«177690_j24824910971087_2_alg».proof.Proof.KI.Body3
import proofs.«177690_j24824910971087_2_alg».proof.Proof.Joint
import proofs.«177690_j24824910971087_2_alg».proof.Proof.JointRows
import proofs.«177690_j24824910971087_2_alg».proof.Proof.ColBlock
import Idealize.ShloMosaic.Lib.Pipeline.Value

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Hand Cert.Hand.Joint Cert.Hand.JointRows

variable (V : (c : Dev nD) → (b : Ref sig .tc) → Buf (Elt Ideal) ((c : Thread nD τ).loc b))

/-! ## One grid point: the three stored bands are the three chains' updates -/

/-- The value stored through the first band (columns 0–255), at row r and column c of the band, is the fused update of
    the blocks at row r and column 0 + c. -/
theorem band3_a_entry (x0 x1 : Vec Ideal S1000x768 .f32) (x2 x3 x4 : Vec Ideal S256x256 .f32) (r : Fin 1000) (c : Fin 256) :
    k3_pay3 (F := Ideal) x0 x1 x2 (ix2 r c)
      = jointG (R := 1000) x0 x1 x2 x3 x4 (ix2 r (⟨0 + c.val, by have := c.isLt; omega⟩ : Fin 768)) := by
  rw [jointG_at x0 x1 x2 x3 x4 0 0 rfl r c, sel3_zero]
  exact ColBlock.entry (R := 1000) 0 (by omega) x0 x1 x2 shapeCasts_S1000x768_S1000x768 slices_S1000x768_o0_0_S1000x256
    bitsLt_bf16_f32 r c

/-- The second band (columns 256–511), likewise, with the second weight. -/
theorem band3_b_entry (x0 x1 : Vec Ideal S1000x768 .f32) (x2 x3 x4 : Vec Ideal S256x256 .f32) (r : Fin 1000) (c : Fin 256) :
    k3_pay4 (F := Ideal) x0 x1 x3 (ix2 r c)
      = jointG (R := 1000) x0 x1 x2 x3 x4 (ix2 r (⟨256 + c.val, by have := c.isLt; omega⟩ : Fin 768)) := by
  rw [jointG_at x0 x1 x2 x3 x4 256 1 rfl r c, sel3_one]
  exact ColBlock.entry (R := 1000) 256 (by omega) x0 x1 x3 shapeCasts_S1000x768_S1000x768 slices_S1000x768_o0_256_S1000x256
    bitsLt_bf16_f32 r c

/-- The third band (columns 512–767), likewise, with the third weight. -/
theorem band3_c_entry (x0 x1 : Vec Ideal S1000x768 .f32) (x2 x3 x4 : Vec Ideal S256x256 .f32) (r : Fin 1000) (c : Fin 256) :
    k3_pay5 (F := Ideal) x0 x1 x4 (ix2 r c)
      = jointG (R := 1000) x0 x1 x2 x3 x4 (ix2 r (⟨512 + c.val, by have := c.isLt; omega⟩ : Fin 768)) := by
  rw [jointG_at x0 x1 x2 x3 x4 512 2 rfl r c, sel3_two]
  exact ColBlock.entry (R := 1000) 512 (by omega) x0 x1 x4 shapeCasts_S1000x768_S1000x768 slices_S1000x768_o0_512_S1000x256
    bitsLt_bf16_f32 r c

/-- Row r, column c of a band sits in the block at row r and column (the band's first column) + c. -/
theorem band3_a_emb (r : Fin 1000) (c : Fin 256) :
    band3_a.emb (ix2 r c) = ix2 r (⟨0 + c.val, by have := c.isLt; omega⟩ : Fin 768) := by
  funext a; apply Fin.ext
  match a with
  | ⟨0, _⟩ => show 0 + 1 * r.val = r.val; omega
  | ⟨1, _⟩ => show 0 + 1 * c.val = 0 + c.val; omega
theorem band3_b_emb (r : Fin 1000) (c : Fin 256) :
    band3_b.emb (ix2 r c) = ix2 r (⟨256 + c.val, by have := c.isLt; omega⟩ : Fin 768) := by
  funext a; apply Fin.ext
  match a with
  | ⟨0, _⟩ => show 0 + 1 * r.val = r.val; omega
  | ⟨1, _⟩ => show 256 + 1 * c.val = 256 + c.val; omega
theorem band3_c_emb (r : Fin 1000) (c : Fin 256) :
    band3_c.emb (ix2 r c) = ix2 r (⟨512 + c.val, by have := c.isLt; omega⟩ : Fin 768) := by
  funext a; apply Fin.ext
  match a with
  | ⟨0, _⟩ => show 0 + 1 * r.val = r.val; omega
  | ⟨1, _⟩ => show 512 + 1 * c.val = 512 + c.val; omega

/-- WHAT ONE POINT LEAVES in the output block: the fused update of its five input blocks. Every index of the block lies in
    one of the three bands, and on each band the stored value is that one function of the block index. -/
theorem out3_5_eq (x0 x1 : Vec Ideal S1000x768 .f32) (x2 x3 x4 : Vec Ideal S256x256 .f32) :
    Cert.KernelIdeal.Hand.out3_5 (F := Ideal) x0 x1 x2 x3 x4 = Cert.Hand.Joint.jointG (R := 1000) x0 x1 x2 x3 x4 := by
  funext y
  unfold out3_5
  refine View.canon_apply_of_pieces (Val := Elt Ideal) (S := S1000x768) (e := .f32) (jointG (R := 1000) x0 x1 x2 x3 x4) _ ?_ y
    (cover3_5 _ _ _ y)
  intro p hp x
  simp only [List.mem_cons, List.mem_singleton, List.not_mem_nil, or_false] at hp
  rcases hp with rfl | rfl | rfl
  · obtain ⟨r, c, rfl⟩ : ∃ (r : Fin 1000) (c : Fin 256), x = ix2 r c := ⟨x 0, x 1, eq_ix2 x⟩
    exact (band3_c_entry x0 x1 x2 x3 x4 r c).trans (congrArg (jointG (R := 1000) x0 x1 x2 x3 x4) (band3_c_emb r c).symm)
  · obtain ⟨r, c, rfl⟩ : ∃ (r : Fin 1000) (c : Fin 256), x = ix2 r c := ⟨x 0, x 1, eq_ix2 x⟩
    exact (band3_b_entry x0 x1 x2 x3 x4 r c).trans (congrArg (jointG (R := 1000) x0 x1 x2 x3 x4) (band3_b_emb r c).symm)
  · obtain ⟨r, c, rfl⟩ : ∃ (r : Fin 1000) (c : Fin 256), x = ix2 r c := ⟨x 0, x 1, eq_ix2 x⟩
    exact (band3_a_entry x0 x1 x2 x3 x4 r c).trans (congrArg (jointG (R := 1000) x0 x1 x2 x3 x4) (band3_a_emb r c).symm)

/-! ## From the points' blocks to the array -/

/-- Where each window's block sits at grid point t: the two row-block inputs and the output at block row t, all columns;
    the three weights whole. Decided over the 100 points. -/
theorem index3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activations' block at point t is rows 1000·t … 1000·t + 999 of their array. -/
theorem blk3_0_apply (c : Dev nD) (t : Fin cfg3.N) (r : Fin 1000) (k : Fin 768) (h : 1000 * t.val + r.val < 100000) :
    (iblk3 V c 0 t : (⟨2, ![1000, 768]⟩ : Shape).Idx → EReal) (ix2 r k)
      = (V c (Pipeline.arrRef spec3 0) : (⟨2, ![100000, 768]⟩ : Shape).Idx → EReal) (ix2 (⟨1000 * t.val + r.val, h⟩ : Fin 100000) k) := by
  obtain ⟨e0, e1, -⟩ := index3_facts t
  show V c (Pipeline.arrRef spec3 0) (((cfg3.win 0).blk t).view.emb (ix2 r k)) = _
  refine congrArg (V c (Pipeline.arrRef spec3 0)) ?_
  funext a; apply Fin.ext
  match a with
  | ⟨0, _⟩ => show win3_0.index t (0 : Fin 2) * 1000 + 1 * r.val = 1000 * t.val + r.val; rw [e0]; omega
  | ⟨1, _⟩ => show win3_0.index t (1 : Fin 2) * 768 + 1 * k.val = k.val; rw [e1]; omega

/-- The skip input's block at point t is the same rows of its array. -/
theorem blk3_1_apply (c : Dev nD) (t : Fin cfg3.N) (r : Fin 1000) (k : Fin 768) (h : 1000 * t.val + r.val < 100000) :
    (iblk3 V c 1 t : (⟨2, ![1000, 768]⟩ : Shape).Idx → EReal) (ix2 r k)
      = (V c (Pipeline.arrRef spec3 1) : (⟨2, ![100000, 768]⟩ : Shape).Idx → EReal) (ix2 (⟨1000 * t.val + r.val, h⟩ : Fin 100000) k) := by
  obtain ⟨-, -, e0, e1, -⟩ := index3_facts t
  show V c (Pipeline.arrRef spec3 1) (((cfg3.win 1).blk t).view.emb (ix2 r k)) = _
  refine congrArg (V c (Pipeline.arrRef spec3 1)) ?_
  funext a; apply Fin.ext
  match a with
  | ⟨0, _⟩ => show win3_1.index t (0 : Fin 2) * 1000 + 1 * r.val = 1000 * t.val + r.val; rw [e0]; omega
  | ⟨1, _⟩ => show win3_1.index t (1 : Fin 2) * 768 + 1 * k.val = k.val; rw [e1]; omega

/-- Each weight's block, at every point, is the whole weight matrix. -/
theorem blk3_2_eq (c : Dev nD) (t : Fin cfg3.N) :
    (iblk3 V c 2 t : (⟨2, ![256, 256]⟩ : Shape).Idx → EReal) = V c (Pipeline.arrRef spec3 2) := by
  obtain ⟨-, -, -, -, e0, e1, -⟩ := index3_facts t
  funext x
  show V c (Pipeline.arrRef spec3 2) (((cfg3.win 2).blk t).view.emb x) = V c (Pipeline.arrRef spec3 2) x
  refine congrArg (V c (Pipeline.arrRef spec3 2)) ?_
  funext a; apply Fin.ext
  match a with
  | ⟨0, _⟩ => show win3_2.index t (0 : Fin 2) * 256 + 1 * (x 0).val = (x 0).val; rw [e0]; omega
  | ⟨1, _⟩ => show win3_2.index t (1 : Fin 2) * 256 + 1 * (x 1).val = (x 1).val; rw [e1]; omega
theorem blk3_3_eq (c : Dev nD) (t : Fin cfg3.N) :
    (iblk3 V c 3 t : (⟨2, ![256, 256]⟩ : Shape).Idx → EReal) = V c (Pipeline.arrRef spec3 3) := by
  obtain ⟨-, -, -, -, -, -, e0, e1, -⟩ := index3_facts t
  funext x
  show V c (Pipeline.arrRef spec3 3) (((cfg3.win 3).blk t).view.emb x) = V c (Pipeline.arrRef spec3 3) x
  refine congrArg (V c (Pipeline.arrRef spec3 3)) ?_
  funext a; apply Fin.ext
  match a with
  | ⟨0, _⟩ => show win3_3.index t (0 : Fin 2) * 256 + 1 * (x 0).val = (x 0).val; rw [e0]; omega
  | ⟨1, _⟩ => show win3_3.index t (1 : Fin 2) * 256 + 1 * (x 1).val = (x 1).val; rw [e1]; omega
theorem blk3_4_eq (c : Dev nD) (t : Fin cfg3.N) :
    (iblk3 V c 4 t : (⟨2, ![256, 256]⟩ : Shape).Idx → EReal) = V c (Pipeline.arrRef spec3 4) := by
  obtain ⟨-, -, -, -, -, -, -, -, e0, e1, -⟩ := index3_facts t
  funext x
  show V c (Pipeline.arrRef spec3 4) (((cfg3.win 4).blk t).view.emb x) = V c (Pipeline.arrRef spec3 4) x
  refine congrArg (V c (Pipeline.arrRef spec3 4)) ?_
  funext a; apply Fin.ext
  match a with
  | ⟨0, _⟩ => show win3_4.index t (0 : Fin 2) * 256 + 1 * (x 0).val = (x 0).val; rw [e0]; omega
  | ⟨1, _⟩ => show win3_4.index t (1 : Fin 2) * 256 + 1 * (x 1).val = (x 1).val; rw [e1]; omega

/-- WHAT POINT t WRITES BACK is rows 1000·t … 1000·t + 999 of the fused update of the region's input arrays: the update
    at a row reads only that row of the two row-block inputs, and the weights are whole at every point. -/
theorem flushed3_eq (c : Dev nD) (t : Fin cfg3.N) :
    (dat3 (F := Ideal) V c).flushed 5 t
      = ((cfg3.win 5).blk t).view.read (Elt Ideal) (jointG (R := 100000) (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5, out3_5_eq (iblk3 V c 0 t) (iblk3 V c 1 t) (iblk3 V c 2 t) (iblk3 V c 3 t) (iblk3 V c 4 t),
    blk3_2_eq V c t, blk3_3_eq V c t, blk3_4_eq V c t]
  obtain ⟨-, -, -, -, -, -, -, -, -, -, e0, e1⟩ := index3_facts t
  funext j
  show jointG (R := 1000) (iblk3 V c 0 t) (iblk3 V c 1 t) (V c (Pipeline.arrRef spec3 2)) (V c (Pipeline.arrRef spec3 3))
      (V c (Pipeline.arrRef spec3 4)) j
    = jointG (R := 100000) (V c (Pipeline.arrRef spec3 0)) (V c (Pipeline.arrRef spec3 1)) (V c (Pipeline.arrRef spec3 2))
      (V c (Pipeline.arrRef spec3 3)) (V c (Pipeline.arrRef spec3 4)) (((cfg3.win 5).blk t).view.emb j)
  refine jointG_rows (R := 100000) (R' := 1000) (V c (Pipeline.arrRef spec3 0)) (V c (Pipeline.arrRef spec3 1))
    (iblk3 V c 0 t) (iblk3 V c 1 t) (V c (Pipeline.arrRef spec3 2)) (V c (Pipeline.arrRef spec3 3)) (V c (Pipeline.arrRef spec3 4))
    (1000 * t.val) (fun r k h => blk3_0_apply V c t r k h) (fun r k h => blk3_1_apply V c t r k h) j _ ?_ ?_
  · show win3_5.index t (0 : Fin 2) * 1000 + 1 * (j 0).val = 1000 * t.val + (j 0).val; rw [e0]; omega
  · show win3_5.index t (1 : Fin 2) * 768 + 1 * (j 1).val = (j 1).val; rw [e1]; omega

/-- An index of the output array lies in point t's block iff, on each axis, its coordinate lies in the block's range. -/
theorem mem_blk3_5 (t : Fin cfg3.N) (i : S100000x768.Idx) :
    i ∈ ((cfg3.win 5).blk t).view.set
      ↔ ∀ a : Fin 2, win3_5.index t a * S1000x768.size a ≤ (i a).val ∧ (i a).val < win3_5.index t a * S1000x768.size a + S1000x768.size a := by
  show i ∈ ((View.whole main_v300).slice (win3_5.rect t)).set ↔ _
  rw [View.set_slice_whole, Rect.mem_set_unit]
  exact Iff.rfl

/-- THE REGION'S VALUE: after the last point the output array is the fused update of the region's five input arrays.
    Row b of the array lies in the block of point b / 1000, and every point writes its block back. -/
theorem region3_value (c : Dev nD) :
    (Cert.KernelIdeal.Hand.dat3 (F := Ideal) V c).arrAt 5 cfg3.N
      = Cert.Hand.Joint.jointG (R := 100000) (V c (Pipeline.arrRef spec3 0)) (V c (Pipeline.arrRef spec3 1))
          (V c (Pipeline.arrRef spec3 2)) (V c (Pipeline.arrRef spec3 3)) (V c (Pipeline.arrRef spec3 4)) :=
  (dat3 (F := Ideal) V c).arrAt_eq_of_cover 5 (jointG (R := 100000) (V c (Pipeline.arrRef spec3 0)) (V c (Pipeline.arrRef spec3 1)) (V c (Pipeline.arrRef spec3 2)) (V c (Pipeline.arrRef spec3 3)) (V c (Pipeline.arrRef spec3 4)))
    (fun t _ => flushed3_eq V c t) fun i => by
      have hi0 : (i 0).val < 100000 := (i 0).isLt
      have hi1 : (i 1).val < 768 := (i 1).isLt
      have hN : cfg3.N = 100 := N_3
      obtain ⟨t, ht⟩ : ∃ t : Fin cfg3.N, t.val = (i 0).val / 1000 := ⟨⟨(i 0).val / 1000, by rw [hN]; omega⟩, rfl⟩
      obtain ⟨-, -, -, -, -, -, -, -, -, -, e0, e1⟩ := index3_facts t
      refine ⟨t, flush3_5 t, ?_⟩
      rw [mem_blk3_5]
      intro a
      match a with
      | ⟨0, _⟩ =>
        show win3_5.index t (0 : Fin 2) * 1000 ≤ (i 0).val ∧ (i 0).val < win3_5.index t (0 : Fin 2) * 1000 + 1000
        rw [e0, ht]; omega
      | ⟨1, _⟩ =>
        show win3_5.index t (1 : Fin 2) * 768 ≤ (i 1).val ∧ (i 1).val < win3_5.index t (1 : Fin 2) * 768 + 768
        rw [e1]; omega

end Cert.KernelIdeal.HandV

end
-- ==== Proof.KI.Value4.lean ====
/- The value of region 4 (the fifth linear–skip–relu call) over the extended reals: the block each grid point leaves is
   the fused update of the point's input blocks, and the output array after the last point is the fused update of the
   region's input arrays, as one function of the array index. -/
import proofs.«177690_j24824910971087_2_alg».proof.Proof.KI.Body4
import proofs.«177690_j24824910971087_2_alg».proof.Proof.Joint
import proofs.«177690_j24824910971087_2_alg».proof.Proof.JointRows
import proofs.«177690_j24824910971087_2_alg».proof.Proof.ColBlock
import Idealize.ShloMosaic.Lib.Pipeline.Value

noncomputable section

open scoped BigOperators

namespace Cert.KernelIdeal.HandV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open Cert.Hand Cert.Hand.Joint Cert.Hand.JointRows

variable (V : (c : Dev nD) → (b : Ref sig .tc) → Buf (Elt Ideal) ((c : Thread nD τ).loc b))

/-! ## One grid point: the three stored bands are the three chains' updates -/

/-- The value stored through the first band (columns 0–255), at row r and column c of the band, is the fused update of
    the blocks at row r and column 0 + c. -/
theorem band4_a_entry (x0 x1 : Vec Ideal S1000x768 .f32) (x2 x3 x4 : Vec Ideal S256x256 .f32) (r : Fin 1000) (c : Fin 256) :
    k4_pay3 (F := Ideal) x0 x1 x2 (ix2 r c)
      = jointG (R := 1000) x0 x1 x2 x3 x4 (ix2 r (⟨0 + c.val, by have := c.isLt; omega⟩ : Fin 768)) := by
  rw [jointG_at x0 x1 x2 x3 x4 0 0 rfl r c, sel3_zero]
  exact ColBlock.entry (R := 1000) 0 (by omega) x0 x1 x2 shapeCasts_S1000x768_S1000x768 slices_S1000x768_o0_0_S1000x256
    bitsLt_bf16_f32 r c

/-- The second band (columns 256–511), likewise, with the second weight. -/
theorem band4_b_entry (x0 x1 : Vec Ideal S1000x768 .f32) (x2 x3 x4 : Vec Ideal S256x256 .f32) (r : Fin 1000) (c : Fin 256) :
    k4_pay4 (F := Ideal) x0 x1 x3 (ix2 r c)
      = jointG (R := 1000) x0 x1 x2 x3 x4 (ix2 r (⟨256 + c.val, by have := c.isLt; omega⟩ : Fin 768)) := by
  rw [jointG_at x0 x1 x2 x3 x4 256 1 rfl r c, sel3_one]
  exact ColBlock.entry (R := 1000) 256 (by omega) x0 x1 x3 shapeCasts_S1000x768_S1000x768 slices_S1000x768_o0_256_S1000x256
    bitsLt_bf16_f32 r c

/-- The third band (columns 512–767), likewise, with the third weight. -/
theorem band4_c_entry (x0 x1 : Vec Ideal S1000x768 .f32) (x2 x3 x4 : Vec Ideal S256x256 .f32) (r : Fin 1000) (c : Fin 256) :
    k4_pay5 (F := Ideal) x0 x1 x4 (ix2 r c)
      = jointG (R := 1000) x0 x1 x2 x3 x4 (ix2 r (⟨512 + c.val, by have := c.isLt; omega⟩ : Fin 768)) := by
  rw [jointG_at x0 x1 x2 x3 x4 512 2 rfl r c, sel3_two]
  exact ColBlock.entry (R := 1000) 512 (by omega) x0 x1 x4 shapeCasts_S1000x768_S1000x768 slices_S1000x768_o0_512_S1000x256
    bitsLt_bf16_f32 r c

/-- Row r, column c of a band sits in the block at row r and column (the band's first column) + c. -/
theorem band4_a_emb (r : Fin 1000) (c : Fin 256) :
    band4_a.emb (ix2 r c) = ix2 r (⟨0 + c.val, by have := c.isLt; omega⟩ : Fin 768) := by
  funext a; apply Fin.ext
  match a with
  | ⟨0, _⟩ => show 0 + 1 * r.val = r.val; omega
  | ⟨1, _⟩ => show 0 + 1 * c.val = 0 + c.val; omega
theorem band4_b_emb (r : Fin 1000) (c : Fin 256) :
    band4_b.emb (ix2 r c) = ix2 r (⟨256 + c.val, by have := c.isLt; omega⟩ : Fin 768) := by
  funext a; apply Fin.ext
  match a with
  | ⟨0, _⟩ => show 0 + 1 * r.val = r.val; omega
  | ⟨1, _⟩ => show 256 + 1 * c.val = 256 + c.val; omega
theorem band4_c_emb (r : Fin 1000) (c : Fin 256) :
    band4_c.emb (ix2 r c) = ix2 r (⟨512 + c.val, by have := c.isLt; omega⟩ : Fin 768) := by
  funext a; apply Fin.ext
  match a with
  | ⟨0, _⟩ => show 0 + 1 * r.val = r.val; omega
  | ⟨1, _⟩ => show 512 + 1 * c.val = 512 + c.val; omega

/-- WHAT ONE POINT LEAVES in the output block: the fused update of its five input blocks. Every index of the block lies in
    one of the three bands, and on each band the stored value is that one function of the block index. -/
theorem out4_5_eq (x0 x1 : Vec Ideal S1000x768 .f32) (x2 x3 x4 : Vec Ideal S256x256 .f32) :
    Cert.KernelIdeal.Hand.out4_5 (F := Ideal) x0 x1 x2 x3 x4 = Cert.Hand.Joint.jointG (R := 1000) x0 x1 x2 x3 x4 := by
  funext y
  unfold out4_5
  refine View.canon_apply_of_pieces (Val := Elt Ideal) (S := S1000x768) (e := .f32) (jointG (R := 1000) x0 x1 x2 x3 x4) _ ?_ y
    (cover4_5 _ _ _ y)
  intro p hp x
  simp only [List.mem_cons, List.mem_singleton, List.not_mem_nil, or_false] at hp
  rcases hp with rfl | rfl | rfl
  · obtain ⟨r, c, rfl⟩ : ∃ (r : Fin 1000) (c : Fin 256), x = ix2 r c := ⟨x 0, x 1, eq_ix2 x⟩
    exact (band4_c_entry x0 x1 x2 x3 x4 r c).trans (congrArg (jointG (R := 1000) x0 x1 x2 x3 x4) (band4_c_emb r c).symm)
  · obtain ⟨r, c, rfl⟩ : ∃ (r : Fin 1000) (c : Fin 256), x = ix2 r c := ⟨x 0, x 1, eq_ix2 x⟩
    exact (band4_b_entry x0 x1 x2 x3 x4 r c).trans (congrArg (jointG (R := 1000) x0 x1 x2 x3 x4) (band4_b_emb r c).symm)
  · obtain ⟨r, c, rfl⟩ : ∃ (r : Fin 1000) (c : Fin 256), x = ix2 r c := ⟨x 0, x 1, eq_ix2 x⟩
    exact (band4_a_entry x0 x1 x2 x3 x4 r c).trans (congrArg (jointG (R := 1000) x0 x1 x2 x3 x4) (band4_a_emb r c).symm)

/-! ## From the points' blocks to the array -/

/-- Where each window's block sits at grid point t: the two row-block inputs and the output at block row t, all columns;
    the three weights whole. Decided over the 100 points. -/
theorem index4_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The activations' block at point t is rows 1000·t … 1000·t + 999 of their array. -/
theorem blk4_0_apply (c : Dev nD) (t : Fin cfg4.N) (r : Fin 1000) (k : Fin 768) (h : 1000 * t.val + r.val < 100000) :
    (iblk4 V c 0 t : (⟨2, ![1000, 768]⟩ : Shape).Idx → EReal) (ix2 r k)
      = (V c (Pipeline.arrRef spec4 0) : (⟨2, ![100000, 768]⟩ : Shape).Idx → EReal) (ix2 (⟨1000 * t.val + r.val, h⟩ : Fin 100000) k) := by
  obtain ⟨e0, e1, -⟩ := index4_facts t
  show V c (Pipeline.arrRef spec4 0) (((cfg4.win 0).blk t).view.emb (ix2 r k)) = _
  refine congrArg (V c (Pipeline.arrRef spec4 0)) ?_
  funext a; apply Fin.ext
  match a with
  | ⟨0, _⟩ => show win4_0.index t (0 : Fin 2) * 1000 + 1 * r.val = 1000 * t.val + r.val; rw [e0]; omega
  | ⟨1, _⟩ => show win4_0.index t (1 : Fin 2) * 768 + 1 * k.val = k.val; rw [e1]; omega

/-- The skip input's block at point t is the same rows of its array. -/
theorem blk4_1_apply (c : Dev nD) (t : Fin cfg4.N) (r : Fin 1000) (k : Fin 768) (h : 1000 * t.val + r.val < 100000) :
    (iblk4 V c 1 t : (⟨2, ![1000, 768]⟩ : Shape).Idx → EReal) (ix2 r k)
      = (V c (Pipeline.arrRef spec4 1) : (⟨2, ![100000, 768]⟩ : Shape).Idx → EReal) (ix2 (⟨1000 * t.val + r.val, h⟩ : Fin 100000) k) := by
  obtain ⟨-, -, e0, e1, -⟩ := index4_facts t
  show V c (Pipeline.arrRef spec4 1) (((cfg4.win 1).blk t).view.emb (ix2 r k)) = _
  refine congrArg (V c (Pipeline.arrRef spec4 1)) ?_
  funext a; apply Fin.ext
  match a with
  | ⟨0, _⟩ => show win4_1.index t (0 : Fin 2) * 1000 + 1 * r.val = 1000 * t.val + r.val; rw [e0]; omega
  | ⟨1, _⟩ => show win4_1.index t (1 : Fin 2) * 768 + 1 * k.val = k.val; rw [e1]; omega

/-- Each weight's block, at every point, is the whole weight matrix. -/
theorem blk4_2_eq (c : Dev nD) (t : Fin cfg4.N) :
    (iblk4 V c 2 t : (⟨2, ![256, 256]⟩ : Shape).Idx → EReal) = V c (Pipeline.arrRef spec4 2) := by
  obtain ⟨-, -, -, -, e0, e1, -⟩ := index4_facts t
  funext x
  show V c (Pipeline.arrRef spec4 2) (((cfg4.win 2).blk t).view.emb x) = V c (Pipeline.arrRef spec4 2) x
  refine congrArg (V c (Pipeline.arrRef spec4 2)) ?_
  funext a; apply Fin.ext
  match a with
  | ⟨0, _⟩ => show win4_2.index t (0 : Fin 2) * 256 + 1 * (x 0).val = (x 0).val; rw [e0]; omega
  | ⟨1, _⟩ => show win4_2.index t (1 : Fin 2) * 256 + 1 * (x 1).val = (x 1).val; rw [e1]; omega
theorem blk4_3_eq (c : Dev nD) (t : Fin cfg4.N) :
    (iblk4 V c 3 t : (⟨2, ![256, 256]⟩ : Shape).Idx → EReal) = V c (Pipeline.arrRef spec4 3) := by
  obtain ⟨-, -, -, -, -, -, e0, e1, -⟩ := index4_facts t
  funext x
  show V c (Pipeline.arrRef spec4 3) (((cfg4.win 3).blk t).view.emb x) = V c (Pipeline.arrRef spec4 3) x
  refine congrArg (V c (Pipeline.arrRef spec4 3)) ?_
  funext a; apply Fin.ext
  match a with
  | ⟨0, _⟩ => show win4_3.index t (0 : Fin 2) * 256 + 1 * (x 0).val = (x 0).val; rw [e0]; omega
  | ⟨1, _⟩ => show win4_3.index t (1 : Fin 2) * 256 + 1 * (x 1).val = (x 1).val; rw [e1]; omega
theorem blk4_4_eq (c : Dev nD) (t : Fin cfg4.N) :
    (iblk4 V c 4 t : (⟨2, ![256, 256]⟩ : Shape).Idx → EReal) = V c (Pipeline.arrRef spec4 4) := by
  obtain ⟨-, -, -, -, -, -, -, -, e0, e1, -⟩ := index4_facts t
  funext x
  show V c (Pipeline.arrRef spec4 4) (((cfg4.win 4).blk t).view.emb x) = V c (Pipeline.arrRef spec4 4) x
  refine congrArg (V c (Pipeline.arrRef spec4 4)) ?_
  funext a; apply Fin.ext
  match a with
  | ⟨0, _⟩ => show win4_4.index t (0 : Fin 2) * 256 + 1 * (x 0).val = (x 0).val; rw [e0]; omega
  | ⟨1, _⟩ => show win4_4.index t (1 : Fin 2) * 256 + 1 * (x 1).val = (x 1).val; rw [e1]; omega

/-- WHAT POINT t WRITES BACK is rows 1000·t … 1000·t + 999 of the fused update of the region's input arrays: the update
    at a row reads only that row of the two row-block inputs, and the weights are whole at every point. -/
theorem flushed4_eq (c : Dev nD) (t : Fin cfg4.N) :
    (dat4 (F := Ideal) V c).flushed 5 t
      = ((cfg4.win 5).blk t).view.read (Elt Ideal) (jointG (R := 100000) (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5, out4_5_eq (iblk4 V c 0 t) (iblk4 V c 1 t) (iblk4 V c 2 t) (iblk4 V c 3 t) (iblk4 V c 4 t),
    blk4_2_eq V c t, blk4_3_eq V c t, blk4_4_eq V c t]
  obtain ⟨-, -, -, -, -, -, -, -, -, -, e0, e1⟩ := index4_facts t
  funext j
  show jointG (R := 1000) (iblk4 V c 0 t) (iblk4 V c 1 t) (V c (Pipeline.arrRef spec4 2)) (V c (Pipeline.arrRef spec4 3))
      (V c (Pipeline.arrRef spec4 4)) j
    = jointG (R := 100000) (V c (Pipeline.arrRef spec4 0)) (V c (Pipeline.arrRef spec4 1)) (V c (Pipeline.arrRef spec4 2))
      (V c (Pipeline.arrRef spec4 3)) (V c (Pipeline.arrRef spec4 4)) (((cfg4.win 5).blk t).view.emb j)
  refine jointG_rows (R := 100000) (R' := 1000) (V c (Pipeline.arrRef spec4 0)) (V c (Pipeline.arrRef spec4 1))
    (iblk4 V c 0 t) (iblk4 V c 1 t) (V c (Pipeline.arrRef spec4 2)) (V c (Pipeline.arrRef spec4 3)) (V c (Pipeline.arrRef spec4 4))
    (1000 * t.val) (fun r k h => blk4_0_apply V c t r k h) (fun r k h => blk4_1_apply V c t r k h) j _ ?_ ?_
  · show win4_5.index t (0 : Fin 2) * 1000 + 1 * (j 0).val = 1000 * t.val + (j 0).val; rw [e0]; omega
  · show win4_5.index t (1 : Fin 2) * 768 + 1 * (j 1).val = (j 1).val; rw [e1]; omega

/-- An index of the output array lies in point t's block iff, on each axis, its coordinate lies in the block's range. -/
theorem mem_blk4_5 (t : Fin cfg4.N) (i : S100000x768.Idx) :
    i ∈ ((cfg4.win 5).blk t).view.set
      ↔ ∀ a : Fin 2, win4_5.index t a * S1000x768.size a ≤ (i a).val ∧ (i a).val < win4_5.index t a * S1000x768.size a + S1000x768.size a := by
  show i ∈ ((View.whole main_v375).slice (win4_5.rect t)).set ↔ _
  rw [View.set_slice_whole, Rect.mem_set_unit]
  exact Iff.rfl

/-- THE REGION'S VALUE: after the last point the output array is the fused update of the region's five input arrays.
    Row b of the array lies in the block of point b / 1000, and every point writes its block back. -/
theorem region4_value (c : Dev nD) :
    (Cert.KernelIdeal.Hand.dat4 (F := Ideal) V c).arrAt 5 cfg4.N
      = Cert.Hand.Joint.jointG (R := 100000) (V c (Pipeline.arrRef spec4 0)) (V c (Pipeline.arrRef spec4 1))
          (V c (Pipeline.arrRef spec4 2)) (V c (Pipeline.arrRef spec4 3)) (V c (Pipeline.arrRef spec4 4)) :=
  (dat4 (F := Ideal) V c).arrAt_eq_of_cover 5 (jointG (R := 100000) (V c (Pipeline.arrRef spec4 0)) (V c (Pipeline.arrRef spec4 1)) (V c (Pipeline.arrRef spec4 2)) (V c (Pipeline.arrRef spec4 3)) (V c (Pipeline.arrRef spec4 4)))
    (fun t _ => flushed4_eq V c t) fun i => by
      have hi0 : (i 0).val < 100000 := (i 0).isLt
      have hi1 : (i 1).val < 768 := (i 1).isLt
      have hN : cfg4.N = 100 := N_4
      obtain ⟨t, ht⟩ : ∃ t : Fin cfg4.N, t.val = (i 0).val / 1000 := ⟨⟨(i 0).val / 1000, by rw [hN]; omega⟩, rfl⟩
      obtain ⟨-, -, -, -, -, -, -, -, -, -, e0, e1⟩ := index4_facts t
      refine ⟨t, flush4_5 t, ?_⟩
      rw [mem_blk4_5]
      intro a
      match a with
      | ⟨0, _⟩ =>
        show win4_5.index t (0 : Fin 2) * 1000 ≤ (i 0).val ∧ (i 0).val < win4_5.index t (0 : Fin 2) * 1000 + 1000
        rw [e0, ht]; omega
      | ⟨1, _⟩ =>
        show win4_5.index t (1 : Fin 2) * 768 ≤ (i 1).val ∧ (i 1).val < win4_5.index t (1 : Fin 2) * 768 + 768
        rw [e1]; omega

end Cert.KernelIdeal.HandV

end
-- ==== Proof.LibSpread.lean ====
/-
  A vector spread as a one-column matrix, read at an index: a length-a vector placed along the first axis of an
  a-by-1 array reads, at (r, 0), the vector's entry r.
-/
import Idealize.ShloMosaic.Lib.ValueIdx
import Idealize.ShloMosaic.Lib.Pipeline.Value

namespace LibSpread

open Idealize.ShloMosaic Idealize.ShloMosaic.ValueIdx

variable {α : Type}

/-- A length-a vector spread as an a-by-1 column reads, at (r, u), the vector at r. -/
theorem spread_vec_col_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) := by
  refine broadcastInDim_apply _ h v (ix2 r u) (ix1 r) fun ax => ?_
  match ax with
  | ⟨0, _⟩ =>
    show r.val = if a = 1 then 0 else r.val
    split
    · have := r.isLt; omega
    · rfl

end LibSpread
-- ==== Proof.HostPre.lean ====
/-
  What the host computes between two fused updates, read at an entry.

  From the 768-wide message the host builds the update's pre-activation: for each of the six columns of the
  incoming-bond table it looks up the message's rows named by that column (every row number first normalised: a negative
  number counts from the end), adds the six looked-up arrays, looks the sum up at the bonds' source atoms, and subtracts
  the message looked up at the reverse bonds.  Entry (b, k) of the outcome is therefore

      Σ_j msg(in(atom(b), j), k) − msg(rev(b), k),

  column by column.  Before the first update the message is the bond features three times side by side, and after the
  last one the three chains are cut apart again.
-/
import proofs.«177690_j24824910971087_2_alg».proof.Proof.Gen.KernelIdeal
import proofs.«177690_j24824910971087_2_alg».proof.Proof.Spec
import proofs.«177690_j24824910971087_2_alg».proof.Proof.Joint
import proofs.«177690_j24824910971087_2_alg».proof.Proof.LibGatherScatter
import proofs.«177690_j24824910971087_2_alg».proof.Proof.LibSpread
import proofs.«177690_j24824910971087_2_alg».proof.Proof.LibSlice2
import proofs.«177690_j24824910971087_2_alg».proof.Proof.LibDense
import Idealize.ShloMosaic.Lib.Pipeline.Value
import Idealize.ShloMosaic.Lib.ValueIdx

noncomputable section

open scoped BigOperators

namespace Cert.KernelIdeal.HandV

open Idealize.ShloMosaic Idealize.ShloMosaic.ValueIdx Cert.KernelIdeal Cert.Hand Cert.Hand.Mpn Cert.Hand.Joint
open Cert.KernelIdeal.Facts₀ Cert.KernelIdeal.Facts

/-! ## Row numbers -/

/-- An a-by-1 column read as a vector: entry e is the column's entry (e, 0). -/
theorem col_as_vec {α : Type} {a : ℕ} (y : (⟨2, ![a, 1]⟩ : Shape).Idx → α)
    (h : (⟨2, ![a, 1]⟩ : Shape).ShapeCasts ⟨1, ![a]⟩) (e : Fin a) :
    shapeCast ⟨1, ![a]⟩ y h (ix1 e) = y (ix2 e (0 : Fin 1)) :=
  shapeCast_apply y h (ix1 e) (ix2 e (0 : Fin 1)) (by
    rw [Shape.rowMajor_val_two, Shape.rowMajor_val_one]
    show e.val * 1 + 0 = e.val
    omega)

/-- A row number normalised: a negative word has the table's length added. -/
abbrev norm (n v : BitVec 32) : BitVec 32 := Scalar.select (IntOp.cmpi .slt v 0#32) (IntOp.addi v n) v

/-- Column `j` of the incoming-bond table, normalised, as a 50000-by-1 array of row numbers. -/
def incIdx (a2b : IVec S50000x6 32) (j : ℕ) (hs : S50000x6.Slices ![0, j] S50000x1) : IVec S50000x1 32 :=
  broadcastInDim S50000x1 ![0] bcast_S50000_S50000x1_0
    (select
      (cmpi .slt (fun i => shapeCast S50000 (extractStridedSlice S50000x1 ![0, j] a2b hs) shapeCasts_S50000x1_S50000 i)
        (broadcastInDim S50000 ![] bcast_S_S50000 (constantI S_ 32 0#32)))
      (addi (fun i => shapeCast S50000 (extractStridedSlice S50000x1 ![0, j] a2b hs) shapeCasts_S50000x1_S50000 i)
        (broadcastInDim S50000 ![] bcast_S_S50000 (constantI S_ 32 100000#32)))
      (fun i => shapeCast S50000 (extractStridedSlice S50000x1 ![0, j] a2b hs) shapeCasts_S50000x1_S50000 i))

theorem incIdx_apply (a2b : IVec S50000x6 32) (j : ℕ) (hj : j < 6) (hs : S50000x6.Slices ![0, j] S50000x1) (e : Fin 50000) :
    incIdx a2b j hs (ix2 e (0 : Fin 1)) = norm 100000#32 (a2b (ix2 e (⟨j, hj⟩ : Fin 6))) := by
  unfold incIdx
  rw [LibSpread.spread_vec_col_apply]
  have hcol : shapeCast S50000 (extractStridedSlice S50000x1 ![0, j] a2b hs) shapeCasts_S50000x1_S50000 (ix1 e)
      = a2b (ix2 e (⟨j, hj⟩ : Fin 6)) := by
    rw [col_as_vec]
    exact LibSlice2.slice2_apply 0 j a2b hs e (0 : Fin 1) e (⟨j, hj⟩ : Fin 6) (by simp) (by simp)
  show Scalar.select (IntOp.cmpi .slt
        (shapeCast S50000 (extractStridedSlice S50000x1 ![0, j] a2b hs) shapeCasts_S50000x1_S50000 (ix1 e))
        (broadcastInDim S50000 ![] bcast_S_S50000 (constantI S_ 32 0#32) (ix1 e)))
      (IntOp.addi (shapeCast S50000 (extractStridedSlice S50000x1 ![0, j] a2b hs) shapeCasts_S50000x1_S50000 (ix1 e))
        (broadcastInDim S50000 ![] bcast_S_S50000 (constantI S_ 32 100000#32) (ix1 e)))
      (shapeCast S50000 (extractStridedSlice S50000x1 ![0, j] a2b hs) shapeCasts_S50000x1_S50000 (ix1 e)) = _
  rw [hcol, Dense.spread_scalar_apply, Dense.spread_scalar_apply]
  rfl

/-- A list of 100000 row numbers, normalised against a table of `n` rows, as a 100000-by-1 array. -/
def rowIdx (n : BitVec 32) (x : IVec S100000 32) : IVec S100000x1 32 :=
  broadcastInDim S100000x1 ![0] bcast_S100000_S100000x1_0
    (select (cmpi .slt x (broadcastInDim S100000 ![] bcast_S_S100000 (constantI S_ 32 0#32)))
      (addi x (broadcastInDim S100000 ![] bcast_S_S100000 (constantI S_ 32 n))) x)

theorem rowIdx_apply (n : BitVec 32) (x : IVec S100000 32) (b : Fin 100000) :
    rowIdx n x (ix2 b (0 : Fin 1)) = norm n (x (ix1 b)) := by
  unfold rowIdx
  rw [LibSpread.spread_vec_col_apply]
  show Scalar.select (IntOp.cmpi .slt (x (ix1 b)) (broadcastInDim S100000 ![] bcast_S_S100000 (constantI S_ 32 0#32) (ix1 b)))
      (IntOp.addi (x (ix1 b)) (broadcastInDim S100000 ![] bcast_S_S100000 (constantI S_ 32 n) (ix1 b))) (x (ix1 b)) = _
  rw [Dense.spread_scalar_apply, Dense.spread_scalar_apply]
  rfl

/-! ## The pre-activation -/

/-- The host's pre-activation of the 768-wide message, as the operations compose it. -/
def hostPre (msg : FVec Ideal S100000x768 .f32) (a2b : IVec S50000x6 32) (b2a b2revb : IVec S100000 32) :
    FVec Ideal S100000x768 .f32 :=
  subf
    (Host.gather gather_S50000x768_S100000x1_S100000x768_1_0_n_n_0_1_1768
      (addf (addf (addf (addf (addf
        (Host.gather gather_S100000x768_S50000x1_S50000x768_1_0_n_n_0_1_1768 msg (incIdx a2b 0 slices_S50000x6_S50000x1_0_0))
        (Host.gather gather_S100000x768_S50000x1_S50000x768_1_0_n_n_0_1_1768 msg (incIdx a2b 1 slices_S50000x6_S50000x1_0_1)))
        (Host.gather gather_S100000x768_S50000x1_S50000x768_1_0_n_n_0_1_1768 msg (incIdx a2b 2 slices_S50000x6_S50000x1_0_2)))
        (Host.gather gather_S100000x768_S50000x1_S50000x768_1_0_n_n_0_1_1768 msg (incIdx a2b 3 slices_S50000x6_S50000x1_0_3)))
        (Host.gather gather_S100000x768_S50000x1_S50000x768_1_0_n_n_0_1_1768 msg (incIdx a2b 4 slices_S50000x6_S50000x1_0_4)))
        (Host.gather gather_S100000x768_S50000x1_S50000x768_1_0_n_n_0_1_1768 msg (incIdx a2b 5 slices_S50000x6_S50000x1_0_5)))
      (rowIdx 50000#32 b2a))
    (Host.gather gather_S100000x768_S100000x1_S100000x768_1_0_n_n_0_1_1768 msg (rowIdx 100000#32 b2revb))

/-- One looked-up array at an entry. -/
theorem inc_gather_apply (msg : FVec Ideal S100000x768 .f32) (a2b : IVec S50000x6 32) (j : ℕ) (hj : j < 6)
    (hs : S50000x6.Slices ![0, j] S50000x1) (a : Fin 50000) (k : Fin 768) :
    Host.gather gather_S100000x768_S50000x1_S50000x768_1_0_n_n_0_1_1768 msg (incIdx a2b j hs) (ix2 a k)
      = msg (ix2 (Mpn.rowNo 100000 (by decide) 100000#32 (a2b (ix2 a (⟨j, hj⟩ : Fin 6)))) k) := by
  have hg : gather_S100000x768_S50000x1_S50000x768_1_0_n_n_0_1_1768
      = LibGatherScatter.rowsDims 100000 50000 768 gather_S100000x768_S50000x1_S50000x768_1_0_n_n_0_1_1768_wf := rfl
  rw [hg, LibGatherScatter.gather_rows_apply (by decide : 0 < 100000), incIdx_apply a2b j hj]
  rfl

/-- THE PRE-ACTIVATION AT AN ENTRY. -/
theorem hostPre_eq (msg : FVec Ideal S100000x768 .f32) (a2b : IVec S50000x6 32) (b2a b2revb : IVec S100000 32) :
    hostPre msg a2b b2a b2revb = preJ (Mpn.rows a2b b2a b2revb) msg := by
  funext i
  obtain ⟨b, k, rfl⟩ : ∃ (b : Fin 100000) (k : Fin 768), i = ix2 b k := ⟨i 0, i 1, eq_ix2 i⟩
  have hB : gather_S50000x768_S100000x1_S100000x768_1_0_n_n_0_1_1768
      = LibGatherScatter.rowsDims 50000 100000 768 gather_S50000x768_S100000x1_S100000x768_1_0_n_n_0_1_1768_wf := rfl
  have hC : gather_S100000x768_S100000x1_S100000x768_1_0_n_n_0_1_1768
      = LibGatherScatter.rowsDims 100000 100000 768 gather_S100000x768_S100000x1_S100000x768_1_0_n_n_0_1_1768_wf := rfl
  unfold hostPre
  rw [subf_apply, hB, hC, LibGatherScatter.gather_rows_apply (by decide : 0 < 50000),
    LibGatherScatter.gather_rows_apply (by decide : 0 < 100000), rowIdx_apply, rowIdx_apply]
  simp only [addf_apply]
  rw [inc_gather_apply msg a2b 0 (by decide), inc_gather_apply msg a2b 1 (by decide), inc_gather_apply msg a2b 2 (by decide),
    inc_gather_apply msg a2b 3 (by decide), inc_gather_apply msg a2b 4 (by decide), inc_gather_apply msg a2b 5 (by decide)]
  unfold preJ
  rw [Fin.sum_univ_six]
  rfl

/-! ## The first message and the last cuts -/

/-- The bond features three times side by side. -/
theorem concat3_eq (f : FVec Ideal S100000x256 .f32) :
    concatenate S100000x768 1 [⟨S100000x256, f⟩, ⟨S100000x256, f⟩, ⟨S100000x256, f⟩]
        concatenates_S100000x256_S100000x256_S100000x256_S100000x768_d1
      = join3 (Mpn.mat f) (Mpn.mat f) (Mpn.mat f) := by
  funext i
  obtain ⟨b, k, rfl⟩ : ∃ (b : Fin 100000) (k : Fin 768), i = ix2 b k := ⟨i 0, i 1, eq_ix2 i⟩
  have hk := k.isLt
  have hjoin : join3 (Mpn.mat f) (Mpn.mat f) (Mpn.mat f) (ix2 b k)
      = f (ix2 b (⟨k.val % 256, Nat.mod_lt _ (by decide)⟩ : Fin 256)) := by
    unfold join3 sel3; split_ifs <;> rfl
  rw [hjoin]
  have hcase : k.val / 256 = 0 ∨ k.val / 256 = 1 ∨ k.val / 256 = 2 := by omega
  rcases hcase with h0 | h1 | h2
  · exact concatenate_apply_piece 1 _ _ (ix2 b k) 0 (by simp) S100000x256 f rfl rfl 0 rfl
      (ix2 b (⟨k.val % 256, Nat.mod_lt _ (by decide)⟩ : Fin 256))
      (fun a ha => by match a with | ⟨0, _⟩ => rfl | ⟨1, _⟩ => exact absurd rfl ha)
      (by show 0 + k.val % 256 = k.val; omega)
  · exact concatenate_apply_piece 1 _ _ (ix2 b k) 1 (by simp) S100000x256 f rfl rfl 256 rfl
      (ix2 b (⟨k.val % 256, Nat.mod_lt _ (by decide)⟩ : Fin 256))
      (fun a ha => by match a with | ⟨0, _⟩ => rfl | ⟨1, _⟩ => exact absurd rfl ha)
      (by show 256 + k.val % 256 = k.val; omega)
  · exact concatenate_apply_piece 1 _ _ (ix2 b k) 2 (by simp) S100000x256 f rfl rfl 512 rfl
      (ix2 b (⟨k.val % 256, Nat.mod_lt _ (by decide)⟩ : Fin 256))
      (fun a ha => by match a with | ⟨0, _⟩ => rfl | ⟨1, _⟩ => exact absurd rfl ha)
      (by show 512 + k.val % 256 = k.val; omega)

/-- The 256 columns from 256·ch of three chains side by side are chain ch. -/
theorem cut_join3 (q k v : Fin 100000 → Fin 256 → EReal) (ch : ℕ) (hch : 256 * ch + 256 ≤ 768)
    (hs : S100000x768.Slices ![0, 256 * ch] S100000x256) :
    extractStridedSlice S100000x256 ![0, 256 * ch] (join3 q k v) hs = Mpn.unmat (sel3 ch q k v) := by
  funext i
  obtain ⟨b, c, rfl⟩ : ∃ (b : Fin 100000) (c : Fin 256), i = ix2 b c := ⟨i 0, i 1, eq_ix2 i⟩
  have hc := c.isLt
  rw [LibSlice2.slice2_apply 0 (256 * ch) (join3 q k v) hs b c b (⟨256 * ch + c.val, by omega⟩ : Fin 768) (by simp) rfl,
    join3_col q k v b ch c]
  rfl

end Cert.KernelIdeal.HandV

end
-- ==== Proof.Stretch.lean ====
/-
  The host stretches of the kernel's program, read off the fold of their operations.

  Before the first fused update the host lays the bond features three times side by side and builds the first
  pre-activation from that; between two updates it builds the next pre-activation from the update's result; after the
  last it cuts the three chains apart.  No stretch writes the arguments or the side-by-side features, which every update
  reads again.
-/
import proofs.«177690_j24824910971087_2_alg».proof.Proof.Gen.KernelIdeal.Launch
import proofs.«177690_j24824910971087_2_alg».proof.Proof.HostPre
import Idealize.ShloMosaic.Lib.StableHlo.Run

set_option maxRecDepth 20000

noncomputable section

namespace Cert.KernelIdeal.HandV

open Idealize.ShloMosaic Idealize.ShloMosaic.TcCoe Idealize.SL.Sem Idealize.ShloMosaic.StableHlo
open Cert.KernelIdeal Cert.KernelIdeal.Gen

variable (W : Valuation τ sig (Elt Ideal))

/-! ## Before the first update -/

set_option maxHeartbeats 4000000 in
/-- The features three times side by side. -/
theorem stretch0_feat : StableHlo.after (hostOps0 (F := Ideal)) W (Proc.devRef .tc main_v0)
    = concatenate S100000x768 1 [⟨S100000x256, W (Proc.devRef .tc main_arg0)⟩, ⟨S100000x256, W (Proc.devRef .tc main_arg0)⟩,
        ⟨S100000x256, W (Proc.devRef .tc main_arg0)⟩] Facts₀.concatenates_S100000x256_S100000x256_S100000x256_S100000x768_d1 := by
  after_results_simp
  rfl

set_option maxHeartbeats 4000000 in
/-- The first pre-activation, built from them. -/
theorem stretch0_pre : StableHlo.after (hostOps0 (F := Ideal)) W (Proc.devRef .tc main_v74)
    = hostPre (concatenate S100000x768 1 [⟨S100000x256, W (Proc.devRef .tc main_arg0)⟩, ⟨S100000x256, W (Proc.devRef .tc main_arg0)⟩,
        ⟨S100000x256, W (Proc.devRef .tc main_arg0)⟩] Facts₀.concatenates_S100000x256_S100000x256_S100000x256_S100000x768_d1)
        (W (Proc.devRef .tc main_arg1)) (W (Proc.devRef .tc main_arg2)) (W (Proc.devRef .tc main_arg3)) := by
  after_results_simp
  rfl

set_option maxHeartbeats 4000000 in
theorem stretch0_main_arg1 : StableHlo.after (hostOps0 (F := Ideal)) W (Proc.devRef .tc main_arg1) = W (Proc.devRef .tc main_arg1) := by
  after_results_simp

set_option maxHeartbeats 4000000 in
theorem stretch0_main_arg2 : StableHlo.after (hostOps0 (F := Ideal)) W (Proc.devRef .tc main_arg2) = W (Proc.devRef .tc main_arg2) := by
  after_results_simp

set_option maxHeartbeats 4000000 in
theorem stretch0_main_arg3 : StableHlo.after (hostOps0 (F := Ideal)) W (Proc.devRef .tc main_arg3) = W (Proc.devRef .tc main_arg3) := by
  after_results_simp

set_option maxHeartbeats 4000000 in
theorem stretch0_main_arg4 : StableHlo.after (hostOps0 (F := Ideal)) W (Proc.devRef .tc main_arg4) = W (Proc.devRef .tc main_arg4) := by
  after_results_simp

set_option maxHeartbeats 4000000 in
theorem stretch0_main_arg5 : StableHlo.after (hostOps0 (F := Ideal)) W (Proc.devRef .tc main_arg5) = W (Proc.devRef .tc main_arg5) := by
  after_results_simp

set_option maxHeartbeats 4000000 in
theorem stretch0_main_arg6 : StableHlo.after (hostOps0 (F := Ideal)) W (Proc.devRef .tc main_arg6) = W (Proc.devRef .tc main_arg6) := by
  after_results_simp

/-! ## Between update 0 and update 1 -/

set_option maxHeartbeats 4000000 in
/-- The next pre-activation, built from the update's result. -/
theorem stretch1_pre : StableHlo.after (hostOps1 (F := Ideal)) W (Proc.devRef .tc main_v149)
    = hostPre (W (Proc.devRef .tc main_v75)) (W (Proc.devRef .tc main_arg1)) (W (Proc.devRef .tc main_arg2))
        (W (Proc.devRef .tc main_arg3)) := by
  after_results_simp
  rfl

set_option maxHeartbeats 4000000 in
theorem stretch1_main_v0 : StableHlo.after (hostOps1 (F := Ideal)) W (Proc.devRef .tc main_v0) = W (Proc.devRef .tc main_v0) := by
  after_results_simp

set_option maxHeartbeats 4000000 in
theorem stretch1_main_arg1 : StableHlo.after (hostOps1 (F := Ideal)) W (Proc.devRef .tc main_arg1) = W (Proc.devRef .tc main_arg1) := by
  after_results_simp

set_option maxHeartbeats 4000000 in
theorem stretch1_main_arg2 : StableHlo.after (hostOps1 (F := Ideal)) W (Proc.devRef .tc main_arg2) = W (Proc.devRef .tc main_arg2) := by
  after_results_simp

set_option maxHeartbeats 4000000 in
theorem stretch1_main_arg3 : StableHlo.after (hostOps1 (F := Ideal)) W (Proc.devRef .tc main_arg3) = W (Proc.devRef .tc main_arg3) := by
  after_results_simp

set_option maxHeartbeats 4000000 in
theorem stretch1_main_arg4 : StableHlo.after (hostOps1 (F := Ideal)) W (Proc.devRef .tc main_arg4) = W (Proc.devRef .tc main_arg4) := by
  after_results_simp

set_option maxHeartbeats 4000000 in
theorem stretch1_main_arg5 : StableHlo.after (hostOps1 (F := Ideal)) W (Proc.devRef .tc main_arg5) = W (Proc.devRef .tc main_arg5) := by
  after_results_simp

set_option maxHeartbeats 4000000 in
theorem stretch1_main_arg6 : StableHlo.after (hostOps1 (F := Ideal)) W (Proc.devRef .tc main_arg6) = W (Proc.devRef .tc main_arg6) := by
  after_results_simp

/-! ## Between update 1 and update 2 -/

set_option maxHeartbeats 4000000 in
/-- The next pre-activation, built from the update's result. -/
theorem stretch2_pre : StableHlo.after (hostOps2 (F := Ideal)) W (Proc.devRef .tc main_v224)
    = hostPre (W (Proc.devRef .tc main_v150)) (W (Proc.devRef .tc main_arg1)) (W (Proc.devRef .tc main_arg2))
        (W (Proc.devRef .tc main_arg3)) := by
  after_results_simp
  rfl

set_option maxHeartbeats 4000000 in
theorem stretch2_main_v0 : StableHlo.after (hostOps2 (F := Ideal)) W (Proc.devRef .tc main_v0) = W (Proc.devRef .tc main_v0) := by
  after_results_simp

set_option maxHeartbeats 4000000 in
theorem stretch2_main_arg1 : StableHlo.after (hostOps2 (F := Ideal)) W (Proc.devRef .tc main_arg1) = W (Proc.devRef .tc main_arg1) := by
  after_results_simp

set_option maxHeartbeats 4000000 in
theorem stretch2_main_arg2 : StableHlo.after (hostOps2 (F := Ideal)) W (Proc.devRef .tc main_arg2) = W (Proc.devRef .tc main_arg2) := by
  after_results_simp

set_option maxHeartbeats 4000000 in
theorem stretch2_main_arg3 : StableHlo.after (hostOps2 (F := Ideal)) W (Proc.devRef .tc main_arg3) = W (Proc.devRef .tc main_arg3) := by
  after_results_simp

set_option maxHeartbeats 4000000 in
theorem stretch2_main_arg4 : StableHlo.after (hostOps2 (F := Ideal)) W (Proc.devRef .tc main_arg4) = W (Proc.devRef .tc main_arg4) := by
  after_results_simp

set_option maxHeartbeats 4000000 in
theorem stretch2_main_arg5 : StableHlo.after (hostOps2 (F := Ideal)) W (Proc.devRef .tc main_arg5) = W (Proc.devRef .tc main_arg5) := by
  after_results_simp

set_option maxHeartbeats 4000000 in
theorem stretch2_main_arg6 : StableHlo.after (hostOps2 (F := Ideal)) W (Proc.devRef .tc main_arg6) = W (Proc.devRef .tc main_arg6) := by
  after_results_simp

/-! ## Between update 2 and update 3 -/

set_option maxHeartbeats 4000000 in
/-- The next pre-activation, built from the update's result. -/
theorem stretch3_pre : StableHlo.after (hostOps3 (F := Ideal)) W (Proc.devRef .tc main_v299)
    = hostPre (W (Proc.devRef .tc main_v225)) (W (Proc.devRef .tc main_arg1)) (W (Proc.devRef .tc main_arg2))
        (W (Proc.devRef .tc main_arg3)) := by
  after_results_simp
  rfl

set_option maxHeartbeats 4000000 in
theorem stretch3_main_v0 : StableHlo.after (hostOps3 (F := Ideal)) W (Proc.devRef .tc main_v0) = W (Proc.devRef .tc main_v0) := by
  after_results_simp

set_option maxHeartbeats 4000000 in
theorem stretch3_main_arg1 : StableHlo.after (hostOps3 (F := Ideal)) W (Proc.devRef .tc main_arg1) = W (Proc.devRef .tc main_arg1) := by
  after_results_simp

set_option maxHeartbeats 4000000 in
theorem stretch3_main_arg2 : StableHlo.after (hostOps3 (F := Ideal)) W (Proc.devRef .tc main_arg2) = W (Proc.devRef .tc main_arg2) := by
  after_results_simp

set_option maxHeartbeats 4000000 in
theorem stretch3_main_arg3 : StableHlo.after (hostOps3 (F := Ideal)) W (Proc.devRef .tc main_arg3) = W (Proc.devRef .tc main_arg3) := by
  after_results_simp

set_option maxHeartbeats 4000000 in
theorem stretch3_main_arg4 : StableHlo.after (hostOps3 (F := Ideal)) W (Proc.devRef .tc main_arg4) = W (Proc.devRef .tc main_arg4) := by
  after_results_simp

set_option maxHeartbeats 4000000 in
theorem stretch3_main_arg5 : StableHlo.after (hostOps3 (F := Ideal)) W (Proc.devRef .tc main_arg5) = W (Proc.devRef .tc main_arg5) := by
  after_results_simp

set_option maxHeartbeats 4000000 in
theorem stretch3_main_arg6 : StableHlo.after (hostOps3 (F := Ideal)) W (Proc.devRef .tc main_arg6) = W (Proc.devRef .tc main_arg6) := by
  after_results_simp

/-! ## Between update 3 and update 4 -/

set_option maxHeartbeats 4000000 in
/-- The next pre-activation, built from the update's result. -/
theorem stretch4_pre : StableHlo.after (hostOps4 (F := Ideal)) W (Proc.devRef .tc main_v374)
    = hostPre (W (Proc.devRef .tc main_v300)) (W (Proc.devRef .tc main_arg1)) (W (Proc.devRef .tc main_arg2))
        (W (Proc.devRef .tc main_arg3)) := by
  after_results_simp
  rfl

set_option maxHeartbeats 4000000 in
theorem stretch4_main_v0 : StableHlo.after (hostOps4 (F := Ideal)) W (Proc.devRef .tc main_v0) = W (Proc.devRef .tc main_v0) := by
  after_results_simp

set_option maxHeartbeats 4000000 in
theorem stretch4_main_arg1 : StableHlo.after (hostOps4 (F := Ideal)) W (Proc.devRef .tc main_arg1) = W (Proc.devRef .tc main_arg1) := by
  after_results_simp

set_option maxHeartbeats 4000000 in
theorem stretch4_main_arg2 : StableHlo.after (hostOps4 (F := Ideal)) W (Proc.devRef .tc main_arg2) = W (Proc.devRef .tc main_arg2) := by
  after_results_simp

set_option maxHeartbeats 4000000 in
theorem stretch4_main_arg3 : StableHlo.after (hostOps4 (F := Ideal)) W (Proc.devRef .tc main_arg3) = W (Proc.devRef .tc main_arg3) := by
  after_results_simp

set_option maxHeartbeats 4000000 in
theorem stretch4_main_arg4 : StableHlo.after (hostOps4 (F := Ideal)) W (Proc.devRef .tc main_arg4) = W (Proc.devRef .tc main_arg4) := by
  after_results_simp

set_option maxHeartbeats 4000000 in
theorem stretch4_main_arg5 : StableHlo.after (hostOps4 (F := Ideal)) W (Proc.devRef .tc main_arg5) = W (Proc.devRef .tc main_arg5) := by
  after_results_simp

set_option maxHeartbeats 4000000 in
theorem stretch4_main_arg6 : StableHlo.after (hostOps4 (F := Ideal)) W (Proc.devRef .tc main_arg6) = W (Proc.devRef .tc main_arg6) := by
  after_results_simp

/-! ## After the last update -/

theorem stretch5_q : StableHlo.after (hostOps5 (F := Ideal)) W (Proc.devRef .tc main_v376)
    = extractStridedSlice S100000x256 ![0, 0] (W (Proc.devRef .tc main_v375)) Facts₀.slices_S100000x768_S100000x256_0_0 := by
  after_results_simp

theorem stretch5_k : StableHlo.after (hostOps5 (F := Ideal)) W (Proc.devRef .tc main_v377)
    = extractStridedSlice S100000x256 ![0, 256] (W (Proc.devRef .tc main_v375)) Facts₀.slices_S100000x768_S100000x256_0_256 := by
  after_results_simp

theorem stretch5_v : StableHlo.after (hostOps5 (F := Ideal)) W (Proc.devRef .tc main_v378)
    = extractStridedSlice S100000x256 ![0, 512] (W (Proc.devRef .tc main_v375)) Facts₀.slices_S100000x768_S100000x256_0_512 := by
  after_results_simp

end Cert.KernelIdeal.HandV

end
-- ==== Proof.KernelValue.lean ====
/-
  The kernel's three results.

  Following the buffer contents through @main: the features three times side by side; then, five times, the host's
  pre-activation of the current 768-wide message and the fused update of it; then the three cuts.  The message after n
  updates is the three chains' messages after n rounds, side by side: the host's lookups act on each chain's columns as
  on that chain alone, and the fused update applies to each chain's columns that chain's weight.  So the three cuts are
  the three chains after five rounds.
-/
import proofs.«177690_j24824910971087_2_alg».proof.Proof.KI.Run
import proofs.«177690_j24824910971087_2_alg».proof.Proof.KI.Value0
import proofs.«177690_j24824910971087_2_alg».proof.Proof.KI.Value1
import proofs.«177690_j24824910971087_2_alg».proof.Proof.KI.Value2
import proofs.«177690_j24824910971087_2_alg».proof.Proof.KI.Value3
import proofs.«177690_j24824910971087_2_alg».proof.Proof.KI.Value4
import proofs.«177690_j24824910971087_2_alg».proof.Proof.Stretch

noncomputable section

namespace Cert.KernelIdeal.HandV

open Idealize.ShloMosaic Idealize.ShloMosaic.TcCoe Idealize.SL.Sem Idealize.ShloMosaic.StableHlo
open Cert.KernelIdeal Cert.KernelIdeal.Gen Cert.KernelIdeal.Hand Cert.Hand Cert.Hand.Mpn Cert.Hand.Joint
open Cert.KernelIdeal.Facts₀ Cert.KernelIdeal.Facts

variable (m : (ℓ : Loc nD τ sig) → Buf (Elt Ideal) ℓ) (ρ : Dev nD → PrngReg) (c : Dev nD)

/-- The bond features, the three index arrays and the three weights, as core `c` is launched with them. -/
abbrev aF : FVec Ideal S100000x256 .f32 := m ((c : Thread nD τ).loc main_arg0)
abbrev aInc : IVec S50000x6 32 := m ((c : Thread nD τ).loc main_arg1)
abbrev aAtom : IVec S100000 32 := m ((c : Thread nD τ).loc main_arg2)
abbrev aRev : IVec S100000 32 := m ((c : Thread nD τ).loc main_arg3)
abbrev aWq : FVec Ideal S256x256 .f32 := m ((c : Thread nD τ).loc main_arg4)
abbrev aWk : FVec Ideal S256x256 .f32 := m ((c : Thread nD τ).loc main_arg5)
abbrev aWv : FVec Ideal S256x256 .f32 := m ((c : Thread nD τ).loc main_arg6)

/-- The three chains after `n` rounds, side by side. -/
def joined (n : ℕ) : FVec Ideal S100000x768 .f32 :=
  join3 (Mpn.chain Mpn.zero (Mpn.rows (aInc m c) (aAtom m c) (aRev m c)) (Mpn.mat (aWq m c)) (Mpn.mat (aF m c)) n)
    (Mpn.chain Mpn.zero (Mpn.rows (aInc m c) (aAtom m c) (aRev m c)) (Mpn.mat (aWk m c)) (Mpn.mat (aF m c)) n)
    (Mpn.chain Mpn.zero (Mpn.rows (aInc m c) (aAtom m c) (aRev m c)) (Mpn.mat (aWv m c)) (Mpn.mat (aF m c)) n)

/-- What every stretch and every update leaves in place: the side-by-side features and the six other arguments. -/
structure Kept (W : Valuation τ sig (Elt Ideal)) : Prop where
  feat : W (Proc.devRef .tc main_v0) = joined m c 0
  inc : W (Proc.devRef .tc main_arg1) = aInc m c
  atom : W (Proc.devRef .tc main_arg2) = aAtom m c
  rev : W (Proc.devRef .tc main_arg3) = aRev m c
  wq : W (Proc.devRef .tc main_arg4) = aWq m c
  wk : W (Proc.devRef .tc main_arg5) = aWk m c
  wv : W (Proc.devRef .tc main_arg6) = aWv m c

/-- One fused update of the pre-activation of the message after n rounds is the message after n + 1 rounds. -/
theorem update_joined {W : Valuation τ sig (Elt Ideal)} (hK : Kept m c W) (n : ℕ) (pre : FVec Ideal S100000x768 .f32)
    (hpre : pre = hostPre (joined m c n) (aInc m c) (aAtom m c) (aRev m c)) :
    jointG (R := 100000) pre (W (Proc.devRef .tc main_v0)) (W (Proc.devRef .tc main_arg4)) (W (Proc.devRef .tc main_arg5))
        (W (Proc.devRef .tc main_arg6)) = joined m c (n + 1) := by
  rw [hpre, hK.feat, hK.wq, hK.wk, hK.wv, hostPre_eq]
  exact joint_round _ _ _ _ _ _ _ _

/-! ## Through @main -/

/-- After the first stretch. -/
theorem kept1 : Kept m c (W1 m ρ c) where
  feat := (stretch0_feat _).trans (concat3_eq _)
  inc := stretch0_main_arg1 _
  atom := stretch0_main_arg2 _
  rev := stretch0_main_arg3 _
  wq := stretch0_main_arg4 _
  wk := stretch0_main_arg5 _
  wv := stretch0_main_arg6 _

theorem pre1 : W1 m ρ c (Proc.devRef .tc main_v74) = hostPre (joined m c 0) (aInc m c) (aAtom m c) (aRev m c) := by
  rw [show W1 m ρ c (Proc.devRef .tc main_v74) = _ from stretch0_pre _, concat3_eq]
  rfl

/-- Update 0 leaves the features and the arguments in place … -/
theorem kept2 (hK : Kept m c (W1 m ρ c)) : Kept m c (W2 m ρ c) where
  feat := ((W2_arr m ρ c 1).trans (((dat0 (V1 m ρ) c).arrAt_in 1 rfl _).trans (A_eq0 (V1 m ρ) c 1))).trans hK.feat
  inc := (W2_of_ne m ρ c main_arg1 (by decide)).trans hK.inc
  atom := (W2_of_ne m ρ c main_arg2 (by decide)).trans hK.atom
  rev := (W2_of_ne m ρ c main_arg3 (by decide)).trans hK.rev
  wq := ((W2_arr m ρ c 2).trans (((dat0 (V1 m ρ) c).arrAt_in 2 rfl _).trans (A_eq0 (V1 m ρ) c 2))).trans hK.wq
  wk := ((W2_arr m ρ c 3).trans (((dat0 (V1 m ρ) c).arrAt_in 3 rfl _).trans (A_eq0 (V1 m ρ) c 3))).trans hK.wk
  wv := ((W2_arr m ρ c 4).trans (((dat0 (V1 m ρ) c).arrAt_in 4 rfl _).trans (A_eq0 (V1 m ρ) c 4))).trans hK.wv

/-- … and its result is the message after 1 round. -/
theorem msg2 (hK : Kept m c (W1 m ρ c))
    (hpre : W1 m ρ c (Proc.devRef .tc main_v74) = hostPre (joined m c 0) (aInc m c) (aAtom m c) (aRev m c)) :
    W2 m ρ c (Proc.devRef .tc main_v75) = joined m c 1 :=
  ((W2_arr m ρ c 5).trans (region0_value (V1 m ρ) c)).trans (update_joined m c hK 0 _ hpre)

/-- The stretch after update 0 leaves them in place too … -/
theorem kept3 (hK : Kept m c (W2 m ρ c)) : Kept m c (W3 m ρ c) where
  feat := (stretch1_main_v0 _).trans hK.feat
  inc := (stretch1_main_arg1 _).trans hK.inc
  atom := (stretch1_main_arg2 _).trans hK.atom
  rev := (stretch1_main_arg3 _).trans hK.rev
  wq := (stretch1_main_arg4 _).trans hK.wq
  wk := (stretch1_main_arg5 _).trans hK.wk
  wv := (stretch1_main_arg6 _).trans hK.wv

/-- … and builds the next pre-activation from the message after 1 round. -/
theorem pre3 (hK : Kept m c (W2 m ρ c)) (hmsg : W2 m ρ c (Proc.devRef .tc main_v75) = joined m c 1) :
    W3 m ρ c (Proc.devRef .tc main_v149) = hostPre (joined m c 1) (aInc m c) (aAtom m c) (aRev m c) := by
  rw [show W3 m ρ c (Proc.devRef .tc main_v149) = _ from stretch1_pre _, hmsg, hK.inc, hK.atom, hK.rev]

/-- Update 1 leaves the features and the arguments in place … -/
theorem kept4 (hK : Kept m c (W3 m ρ c)) : Kept m c (W4 m ρ c) where
  feat := ((W4_arr m ρ c 1).trans (((dat1 (V3 m ρ) c).arrAt_in 1 rfl _).trans (A_eq1 (V3 m ρ) c 1))).trans hK.feat
  inc := (W4_of_ne m ρ c main_arg1 (by decide)).trans hK.inc
  atom := (W4_of_ne m ρ c main_arg2 (by decide)).trans hK.atom
  rev := (W4_of_ne m ρ c main_arg3 (by decide)).trans hK.rev
  wq := ((W4_arr m ρ c 2).trans (((dat1 (V3 m ρ) c).arrAt_in 2 rfl _).trans (A_eq1 (V3 m ρ) c 2))).trans hK.wq
  wk := ((W4_arr m ρ c 3).trans (((dat1 (V3 m ρ) c).arrAt_in 3 rfl _).trans (A_eq1 (V3 m ρ) c 3))).trans hK.wk
  wv := ((W4_arr m ρ c 4).trans (((dat1 (V3 m ρ) c).arrAt_in 4 rfl _).trans (A_eq1 (V3 m ρ) c 4))).trans hK.wv

/-- … and its result is the message after 2 rounds. -/
theorem msg4 (hK : Kept m c (W3 m ρ c))
    (hpre : W3 m ρ c (Proc.devRef .tc main_v149) = hostPre (joined m c 1) (aInc m c) (aAtom m c) (aRev m c)) :
    W4 m ρ c (Proc.devRef .tc main_v150) = joined m c 2 :=
  ((W4_arr m ρ c 5).trans (region1_value (V3 m ρ) c)).trans (update_joined m c hK 1 _ hpre)

/-- The stretch after update 1 leaves them in place too … -/
theorem kept5 (hK : Kept m c (W4 m ρ c)) : Kept m c (W5 m ρ c) where
  feat := (stretch2_main_v0 _).trans hK.feat
  inc := (stretch2_main_arg1 _).trans hK.inc
  atom := (stretch2_main_arg2 _).trans hK.atom
  rev := (stretch2_main_arg3 _).trans hK.rev
  wq := (stretch2_main_arg4 _).trans hK.wq
  wk := (stretch2_main_arg5 _).trans hK.wk
  wv := (stretch2_main_arg6 _).trans hK.wv

/-- … and builds the next pre-activation from the message after 2 rounds. -/
theorem pre5 (hK : Kept m c (W4 m ρ c)) (hmsg : W4 m ρ c (Proc.devRef .tc main_v150) = joined m c 2) :
    W5 m ρ c (Proc.devRef .tc main_v224) = hostPre (joined m c 2) (aInc m c) (aAtom m c) (aRev m c) := by
  rw [show W5 m ρ c (Proc.devRef .tc main_v224) = _ from stretch2_pre _, hmsg, hK.inc, hK.atom, hK.rev]

/-- Update 2 leaves the features and the arguments in place … -/
theorem kept6 (hK : Kept m c (W5 m ρ c)) : Kept m c (W6 m ρ c) where
  feat := ((W6_arr m ρ c 1).trans (((dat2 (V5 m ρ) c).arrAt_in 1 rfl _).trans (A_eq2 (V5 m ρ) c 1))).trans hK.feat
  inc := (W6_of_ne m ρ c main_arg1 (by decide)).trans hK.inc
  atom := (W6_of_ne m ρ c main_arg2 (by decide)).trans hK.atom
  rev := (W6_of_ne m ρ c main_arg3 (by decide)).trans hK.rev
  wq := ((W6_arr m ρ c 2).trans (((dat2 (V5 m ρ) c).arrAt_in 2 rfl _).trans (A_eq2 (V5 m ρ) c 2))).trans hK.wq
  wk := ((W6_arr m ρ c 3).trans (((dat2 (V5 m ρ) c).arrAt_in 3 rfl _).trans (A_eq2 (V5 m ρ) c 3))).trans hK.wk
  wv := ((W6_arr m ρ c 4).trans (((dat2 (V5 m ρ) c).arrAt_in 4 rfl _).trans (A_eq2 (V5 m ρ) c 4))).trans hK.wv

/-- … and its result is the message after 3 rounds. -/
theorem msg6 (hK : Kept m c (W5 m ρ c))
    (hpre : W5 m ρ c (Proc.devRef .tc main_v224) = hostPre (joined m c 2) (aInc m c) (aAtom m c) (aRev m c)) :
    W6 m ρ c (Proc.devRef .tc main_v225) = joined m c 3 :=
  ((W6_arr m ρ c 5).trans (region2_value (V5 m ρ) c)).trans (update_joined m c hK 2 _ hpre)

/-- The stretch after update 2 leaves them in place too … -/
theorem kept7 (hK : Kept m c (W6 m ρ c)) : Kept m c (W7 m ρ c) where
  feat := (stretch3_main_v0 _).trans hK.feat
  inc := (stretch3_main_arg1 _).trans hK.inc
  atom := (stretch3_main_arg2 _).trans hK.atom
  rev := (stretch3_main_arg3 _).trans hK.rev
  wq := (stretch3_main_arg4 _).trans hK.wq
  wk := (stretch3_main_arg5 _).trans hK.wk
  wv := (stretch3_main_arg6 _).trans hK.wv

/-- … and builds the next pre-activation from the message after 3 rounds. -/
theorem pre7 (hK : Kept m c (W6 m ρ c)) (hmsg : W6 m ρ c (Proc.devRef .tc main_v225) = joined m c 3) :
    W7 m ρ c (Proc.devRef .tc main_v299) = hostPre (joined m c 3) (aInc m c) (aAtom m c) (aRev m c) := by
  rw [show W7 m ρ c (Proc.devRef .tc main_v299) = _ from stretch3_pre _, hmsg, hK.inc, hK.atom, hK.rev]

/-- Update 3 leaves the features and the arguments in place … -/
theorem kept8 (hK : Kept m c (W7 m ρ c)) : Kept m c (W8 m ρ c) where
  feat := ((W8_arr m ρ c 1).trans (((dat3 (V7 m ρ) c).arrAt_in 1 rfl _).trans (A_eq3 (V7 m ρ) c 1))).trans hK.feat
  inc := (W8_of_ne m ρ c main_arg1 (by decide)).trans hK.inc
  atom := (W8_of_ne m ρ c main_arg2 (by decide)).trans hK.atom
  rev := (W8_of_ne m ρ c main_arg3 (by decide)).trans hK.rev
  wq := ((W8_arr m ρ c 2).trans (((dat3 (V7 m ρ) c).arrAt_in 2 rfl _).trans (A_eq3 (V7 m ρ) c 2))).trans hK.wq
  wk := ((W8_arr m ρ c 3).trans (((dat3 (V7 m ρ) c).arrAt_in 3 rfl _).trans (A_eq3 (V7 m ρ) c 3))).trans hK.wk
  wv := ((W8_arr m ρ c 4).trans (((dat3 (V7 m ρ) c).arrAt_in 4 rfl _).trans (A_eq3 (V7 m ρ) c 4))).trans hK.wv

/-- … and its result is the message after 4 rounds. -/
theorem msg8 (hK : Kept m c (W7 m ρ c))
    (hpre : W7 m ρ c (Proc.devRef .tc main_v299) = hostPre (joined m c 3) (aInc m c) (aAtom m c) (aRev m c)) :
    W8 m ρ c (Proc.devRef .tc main_v300) = joined m c 4 :=
  ((W8_arr m ρ c 5).trans (region3_value (V7 m ρ) c)).trans (update_joined m c hK 3 _ hpre)

/-- The stretch after update 3 leaves them in place too … -/
theorem kept9 (hK : Kept m c (W8 m ρ c)) : Kept m c (W9 m ρ c) where
  feat := (stretch4_main_v0 _).trans hK.feat
  inc := (stretch4_main_arg1 _).trans hK.inc
  atom := (stretch4_main_arg2 _).trans hK.atom
  rev := (stretch4_main_arg3 _).trans hK.rev
  wq := (stretch4_main_arg4 _).trans hK.wq
  wk := (stretch4_main_arg5 _).trans hK.wk
  wv := (stretch4_main_arg6 _).trans hK.wv

/-- … and builds the next pre-activation from the message after 4 rounds. -/
theorem pre9 (hK : Kept m c (W8 m ρ c)) (hmsg : W8 m ρ c (Proc.devRef .tc main_v300) = joined m c 4) :
    W9 m ρ c (Proc.devRef .tc main_v374) = hostPre (joined m c 4) (aInc m c) (aAtom m c) (aRev m c) := by
  rw [show W9 m ρ c (Proc.devRef .tc main_v374) = _ from stretch4_pre _, hmsg, hK.inc, hK.atom, hK.rev]

/-- Update 4 leaves the features and the arguments in place … -/
theorem kept10 (hK : Kept m c (W9 m ρ c)) : Kept m c (W10 m ρ c) where
  feat := ((W10_arr m ρ c 1).trans (((dat4 (V9 m ρ) c).arrAt_in 1 rfl _).trans (A_eq4 (V9 m ρ) c 1))).trans hK.feat
  inc := (W10_of_ne m ρ c main_arg1 (by decide)).trans hK.inc
  atom := (W10_of_ne m ρ c main_arg2 (by decide)).trans hK.atom
  rev := (W10_of_ne m ρ c main_arg3 (by decide)).trans hK.rev
  wq := ((W10_arr m ρ c 2).trans (((dat4 (V9 m ρ) c).arrAt_in 2 rfl _).trans (A_eq4 (V9 m ρ) c 2))).trans hK.wq
  wk := ((W10_arr m ρ c 3).trans (((dat4 (V9 m ρ) c).arrAt_in 3 rfl _).trans (A_eq4 (V9 m ρ) c 3))).trans hK.wk
  wv := ((W10_arr m ρ c 4).trans (((dat4 (V9 m ρ) c).arrAt_in 4 rfl _).trans (A_eq4 (V9 m ρ) c 4))).trans hK.wv

/-- … and its result is the message after 5 rounds. -/
theorem msg10 (hK : Kept m c (W9 m ρ c))
    (hpre : W9 m ρ c (Proc.devRef .tc main_v374) = hostPre (joined m c 4) (aInc m c) (aAtom m c) (aRev m c)) :
    W10 m ρ c (Proc.devRef .tc main_v375) = joined m c 5 :=
  ((W10_arr m ρ c 5).trans (region4_value (V9 m ρ) c)).trans (update_joined m c hK 4 _ hpre)

/-- The message after the fifth update. -/
theorem msg_last : W10 m ρ c (Proc.devRef .tc main_v375) = joined m c 5 := by
  have k1 := kept1 m ρ c
  have k2 := kept2 m ρ c k1
  have m2 := msg2 m ρ c k1 (pre1 m ρ c)
  have k3 := kept3 m ρ c k2
  have k4 := kept4 m ρ c k3
  have m4 := msg4 m ρ c k3 (pre3 m ρ c k2 m2)
  have k5 := kept5 m ρ c k4
  have k6 := kept6 m ρ c k5
  have m6 := msg6 m ρ c k5 (pre5 m ρ c k4 m4)
  have k7 := kept7 m ρ c k6
  have k8 := kept8 m ρ c k7
  have m8 := msg8 m ρ c k7 (pre7 m ρ c k6 m6)
  have k9 := kept9 m ρ c k8
  exact msg10 m ρ c k9 (pre9 m ρ c k8 m8)

/-- The three cuts are the three chains' results. -/
theorem out_q : W11 m ρ c (Proc.devRef .tc main_v376)
    = Mpn.result (aF m c) (aInc m c) (aAtom m c) (aRev m c) (aWq m c) := by
  rw [show W11 m ρ c (Proc.devRef .tc main_v376) = _ from stretch5_q _, msg_last]
  exact cut_join3 _ _ _ 0 (by decide) _

theorem out_k : W11 m ρ c (Proc.devRef .tc main_v377)
    = Mpn.result (aF m c) (aInc m c) (aAtom m c) (aRev m c) (aWk m c) := by
  rw [show W11 m ρ c (Proc.devRef .tc main_v377) = _ from stretch5_k _, msg_last]
  exact cut_join3 _ _ _ 1 (by decide) _

theorem out_v : W11 m ρ c (Proc.devRef .tc main_v378)
    = Mpn.result (aF m c) (aInc m c) (aAtom m c) (aRev m c) (aWv m c) := by
  rw [show W11 m ρ c (Proc.devRef .tc main_v378) = _ from stretch5_v _, msg_last]
  exact cut_join3 _ _ _ 2 (by decide) _

/-- THE KERNEL'S RUN, READ: every weakly fair execution ends with the three results at the three chains' five rounds and
    the arguments as launched. -/
theorem run_value : θ_run defs (onTc (τ := τ) (main (F := Ideal))) ⟨m, fun _ => 0, ρ⟩ (fun r => ∀ c : Dev nD,
      r.2.mem ((c.tc : Thread nD τ).loc main_v376) = Mpn.result (aF m c) (aInc m c) (aAtom m c) (aRev m c) (aWq m c)
      ∧ r.2.mem ((c.tc : Thread nD τ).loc main_v377) = Mpn.result (aF m c) (aInc m c) (aAtom m c) (aRev m c) (aWk m c)
      ∧ r.2.mem ((c.tc : Thread nD τ).loc main_v378) = Mpn.result (aF m c) (aInc m c) (aAtom m c) (aRev m c) (aWv m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v376 (by decide))).trans (out_q m ρ c),
     (h c _ (mem_uc main_v377 (by decide))).trans (out_k m ρ c),
     (h c _ (mem_uc main_v378 (by decide))).trans (out_v m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c)⟩)
    (run_main m ρ)

end Cert.KernelIdeal.HandV

end
-- ==== Proof.LibGather3.lean ====
/-
  A lookup of whole rows at a two-dimensional array of row numbers, read at one entry.

  A table of N rows of W entries is looked up at an E-by-J array of signed row numbers (given as an E-by-J-by-1
  array): entry (e, j, k) of the result is entry k of the table's row whose number is row number (e, j), read as a
  signed integer and clamped into [0, N − 1].
-/
import Idealize.ShloMosaic.PureOps.Ideal.Laws
import Idealize.ShloMosaic.Lib.ValueIdx
import proofs.«177690_j24824910971087_2_alg».proof.Proof.LibGatherScatter

noncomputable section

namespace LibGather3

open Idealize.ShloMosaic Idealize.ShloMosaic.ValueIdx LibGatherScatter

/-- The one entry of the one-entry list of axes `[2]`, whatever number it is asked for under. -/
theorem getElem_single_two (n : Nat) (hn : n < ([2] : List (Fin 3)).length) : (([2] : List (Fin 3))[n]'hn) = 2 := by
  have h0 : n = 0 := by simpa using hn
  subst h0
  rfl

variable {α : Type}

/-- The lookup of whole rows of an N-by-W table at an E-by-J-by-1 array of row numbers. -/
abbrev rows3Dims (N E J W : Nat)
    (wf : GatherDims.WF ⟨2, ![N, W]⟩ ⟨3, ![E, J, 1]⟩ ⟨3, ![E, J, W]⟩ [2] [0] [] [0] [] 2 ![1, W]) :
    GatherDims ⟨2, ![N, W]⟩ ⟨3, ![E, J, 1]⟩ ⟨3, ![E, J, W]⟩ where
  offsetDims := [2]
  collapsedSliceDims := [0]
  operandBatchingDims := []
  startIndicesBatchingDims := []
  startIndexMap := [0]
  indexVectorDim := 2
  sliceSizes := ![1, W]
  wf := wf

/-- Entry (e, j, k) of the looked-up rows is entry k of the table's row named by row number (e, j), clamped. -/
theorem gather_rows3_apply {N E J W w : Nat} (hN : 0 < N)
    (wf : GatherDims.WF ⟨2, ![N, W]⟩ ⟨3, ![E, J, 1]⟩ ⟨3, ![E, J, W]⟩ [2] [0] [] [0] [] 2 ![1, W])
    (x : (⟨2, ![N, W]⟩ : Shape).Idx → α) (idx : IVec ⟨3, ![E, J, 1]⟩ w) (e : Fin E) (j : Fin J) (k : Fin W) :
    Host.gather (rows3Dims N E J W wf) x idx (ix3 e j k)
      = x (ix2 (clampRow N hN (idx (ix3 e j (0 : Fin 1)))) k) := by
  unfold Host.gather
  refine congrArg x (funext fun a => Fin.ext ?_)
  match a with
  | ⟨0, _⟩ =>
    show (rows3Dims N E J W wf).start (ix3 e j k) idx 0 + (rows3Dims N E J W wf).batchCoord (ix3 e j k) 0
      + (rows3Dims N E J W wf).offCoord (ix3 e j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N E J W wf).startIndexMap from List.mem_singleton.mpr rfl)]
    have hsi : (rows3Dims N E J W wf).siIdx (ix3 e j k) ⟨List.idxOf (0 : Fin 2) (rows3Dims N E J W wf).startIndexMap,
        List.idxOf_lt_length_iff.2 (List.mem_singleton.mpr rfl)⟩ = ix3 e j (0 : Fin 1) := by
      funext b; refine Fin.ext ?_
      match b with
      | ⟨0, _⟩ => rfl
      | ⟨1, _⟩ => rfl
      | ⟨2, _⟩ => rfl
    rw [hsi]
    rfl
  | ⟨1, _⟩ =>
    show (rows3Dims N E J W wf).start (ix3 e j k) idx 1 + (rows3Dims N E J W wf).batchCoord (ix3 e j k) 1
      + (rows3Dims N E J W wf).offCoord (ix3 e j k) 1 = k.val
    rw [GatherDims.batchCoord_eq_zero _ _ _ List.not_mem_nil]
    unfold GatherDims.start
    have h10 : ¬ (1 : Fin 2) ∈ ([0] : List (Fin 2)) := by decide
    rw [dif_neg (show ¬ (1 : Fin 2) ∈ (rows3Dims N E J W wf).startIndexMap from h10)]
    unfold GatherDims.offCoord
    rw [dif_pos (show (1 : Fin 2) ∈ (rows3Dims N E J W wf).sKept from
      (GatherDims.mem_sKept _ _).mpr ⟨h10, List.not_mem_nil⟩)]
    rw [Nat.zero_add]
    exact congrArg (fun z : Fin 3 => ((ix3 e j k z).val : ℕ)) (getElem_single_two _ _)

end LibGather3

end
-- ==== Proof.RefValue.lean ====
/-
  One round of the reference program, read as the message-passing recurrence.

  The reference computes a round in eleven steps: it normalises the three arrays of row numbers (a negative number has
  the table's length added), looks the message's rows up at the 50000-by-6 table of incoming bonds, adds the six rows
  of each atom up from zero, looks the sums up at each bond's source atom, looks the message up at each bond's
  reverse bond, subtracts, multiplies by the weight, adds the features and cuts off below at zero.  Read at one entry
  (b, c), over the extended reals, every step is exact, and the composition is the round of the specification.
-/
import Idealize.ShloMosaic.PureOps.Ideal.Laws
import Idealize.ShloMosaic.Lib.ValueIdx
import Idealize.ShloMosaic.Lib.Pipeline.Value
import proofs.«177690_j24824910971087_2_alg».proof.ReferenceIdeal
import proofs.«177690_j24824910971087_2_alg».proof.Proof.Spec
import proofs.«177690_j24824910971087_2_alg».proof.Proof.LibGatherScatter
import proofs.«177690_j24824910971087_2_alg».proof.Proof.LibGather3
import proofs.«177690_j24824910971087_2_alg».proof.Proof.LibDense

noncomputable section

open scoped BigOperators

namespace Cert.Hand.Ref

open Idealize.ShloMosaic Idealize.ShloMosaic.ValueIdx Cert.ReferenceIdeal Cert.Hand

variable [Facts₀]
open Facts₀

/-! ## The row numbers, normalised, read at one entry -/

/-- The normalised 50000-by-6 table of row numbers, as a 50000-by-6-by-1 array, at (e, j, 0): the word at (e, j),
    with the table's length 100000 added when it is negative. -/
theorem norm2_apply (a2b : IVec S50000x6 32) (e : Fin 50000) (j : Fin 6) :
    broadcastInDim S50000x6x1 ![0, 1] bcast_S50000x6_S50000x6x1_0_1
        (select (cmpi .slt a2b (broadcastInDim S50000x6 ![] bcast_S_S50000x6 (constantI S_ 32 0#32)))
          (addi a2b (broadcastInDim S50000x6 ![] bcast_S_S50000x6 (constantI S_ 32 100000#32))) a2b)
        (ix3 e j (0 : Fin 1))
      = Scalar.select (IntOp.cmpi .slt (a2b (ix2 e j)) 0#32) (IntOp.addi (a2b (ix2 e j)) 100000#32) (a2b (ix2 e j)) := by
  refine (broadcastInDim_apply _ bcast_S50000x6_S50000x6x1_0_1 _ (ix3 e j (0 : Fin 1)) (ix2 e j) fun a => ?_).trans rfl
  match a with
  | ⟨0, _⟩ =>
    show e.val = if (50000 : ℕ) = 1 then 0 else e.val
    rw [if_neg (by decide)]
  | ⟨1, _⟩ =>
    show j.val = if (6 : ℕ) = 1 then 0 else j.val
    rw [if_neg (by decide)]

/-- A normalised list of 100000 row numbers, as a 100000-by-1 array, at (b, 0): the word at b, with the table's
    length n added when it is negative. -/
theorem norm1_apply (n : BitVec 32) (v : IVec S100000 32) (b : Fin 100000) :
    broadcastInDim S100000x1 ![0] bcast_S100000_S100000x1_0
        (select (cmpi .slt v (broadcastInDim S100000 ![] bcast_S_S100000 (constantI S_ 32 0#32)))
          (addi v (broadcastInDim S100000 ![] bcast_S_S100000 (constantI S_ 32 n))) v)
        (ix2 b (0 : Fin 1))
      = Scalar.select (IntOp.cmpi .slt (v (ix1 b)) 0#32) (IntOp.addi (v (ix1 b)) n) (v (ix1 b)) := by
  refine (broadcastInDim_apply _ bcast_S100000_S100000x1_0 _ (ix2 b (0 : Fin 1)) (ix1 b) fun a => ?_).trans rfl
  match a with
  | ⟨0, _⟩ =>
    show b.val = if (100000 : ℕ) = 1 then 0 else b.val
    rw [if_neg (by decide)]

/-! ## The three lookups and the sum over the six incoming bonds -/

/-- The lookup at the table of incoming bonds, at (e, j, k). -/
theorem gather3_apply (x : FVec Ideal S100000x256 .f32) (idx : IVec S50000x6x1 32) (e : Fin 50000) (j : Fin 6)
    (k : Fin 256) :
    Host.gather gather_S100000x256_S50000x6x1_S50000x6x256_2_0_n_n_0_2_1256 x idx (ix3 e j k)
      = x (ix2 (LibGatherScatter.clampRow 100000 (by decide) (idx (ix3 e j (0 : Fin 1)))) k) :=
  LibGather3.gather_rows3_apply (N := 100000) (E := 50000) (J := 6) (W := 256) (by decide)
    gather_S100000x256_S50000x6x1_S50000x6x256_2_0_n_n_0_2_1256_wf x idx e j k

/-- The lookup of the atoms' sums at the bonds' source atoms, at (b, k). -/
theorem gatherAtom_apply (x : FVec Ideal S50000x256 .f32) (idx : IVec S100000x1 32) (b : Fin 100000) (k : Fin 256) :
    Host.gather gather_S50000x256_S100000x1_S100000x256_1_0_n_n_0_1_1256 x idx (ix2 b k)
      = x (ix2 (LibGatherScatter.clampRow 50000 (by decide) (idx (ix2 b (0 : Fin 1)))) k) :=
  LibGatherScatter.gather_rows_apply (N := 50000) (E := 100000) (W := 256) (by decide)
    gather_S50000x256_S100000x1_S100000x256_1_0_n_n_0_1_1256_wf x idx b k

/-- The lookup of the message at the bonds' reverse bonds, at (b, k). -/
theorem gatherRev_apply (x : FVec Ideal S100000x256 .f32) (idx : IVec S100000x1 32) (b : Fin 100000) (k : Fin 256) :
    Host.gather gather_S100000x256_S100000x1_S100000x256_1_0_n_n_0_1_1256 x idx (ix2 b k)
      = x (ix2 (LibGatherScatter.clampRow 100000 (by decide) (idx (ix2 b (0 : Fin 1)))) k) :=
  LibGatherScatter.gather_rows_apply (N := 100000) (E := 100000) (W := 256) (by decide)
    gather_S100000x256_S100000x1_S100000x256_1_0_n_n_0_1_1256_wf x idx b k

/-- The sum over the axis of six, from zero, at (e, k). -/
theorem sum6_apply (y : FVec Ideal S50000x6x256 .f32) (e : Fin 50000) (k : Fin 256) :
    Host.reduceAdd (F := Ideal) y (constant (F := Ideal) S_ .f32 0x00000000#32) reducesTo_S50000x6x256_S50000x256_d1 h_S_
        (ix2 e k)
      = ∑ j : Fin 6, y (ix3 e j k) := by
  simp only [Host.reduceAdd, Ideal.hostReduceAdd_def]
  rw [Ideal.hostReduceAdd_single reducesTo_S50000x6x256_S50000x256_d1 (by decide)]
  refine (congrArg (· + _) (show constant (F := Ideal) S_ .f32 0x00000000#32 (Shape.Idx.first h_S_) = 0 from
    Ideal.ofBits_zero_f32)).trans ((zero_add _).trans ?_)
  refine Finset.sum_congr rfl fun j _ => ?_
  exact congrArg y (funext fun a => Fin.ext (by match a with | ⟨0, _⟩ => rfl | ⟨1, _⟩ => rfl | ⟨2, _⟩ => rfl))

/-- The product with the weight, at (b, c): row b of the left operand against column c of the weight. -/
theorem dot_apply (l : FVec Ideal S100000x256 .f32) (w : FVec Ideal S256x256 .f32) (b : Fin 100000) (c : Fin 256) :
    Host.dotGeneral (F := Ideal) dot_S100000x256_S256x256_S100000x256_1_0_0_1_n_n none l w (ix2 b c)
      = ∑ d : Fin 256, l (ix2 b d) * w (ix2 d c) :=
  Dense.dot_entry (M := 100000) (K := 256) (N := 256) none .single l w b c

/-! ## The lookups at the normalised row numbers -/

/-- The message's rows looked up at the table of incoming bonds, at (e, j, k): the message at bond in(e, j). -/
theorem incLookup_apply (x : FVec Ideal S100000x256 .f32) (a2b : IVec S50000x6 32) (e : Fin 50000) (j : Fin 6)
    (k : Fin 256) :
    Host.gather gather_S100000x256_S50000x6x1_S50000x6x256_2_0_n_n_0_2_1256 x
        (broadcastInDim S50000x6x1 ![0, 1] bcast_S50000x6_S50000x6x1_0_1
          (select (cmpi .slt a2b (broadcastInDim S50000x6 ![] bcast_S_S50000x6 (constantI S_ 32 0#32)))
            (addi a2b (broadcastInDim S50000x6 ![] bcast_S_S50000x6 (constantI S_ 32 100000#32))) a2b))
        (ix3 e j k)
      = x (ix2 (Mpn.rowNo 100000 (by decide) 100000#32 (a2b (ix2 e j))) k) :=
  (gather3_apply x _ e j k).trans
    (congrArg (fun r => x (ix2 r k))
      (congrArg (LibGatherScatter.clampRow 100000 (by decide)) (norm2_apply a2b e j)))

/-- The atoms' sums looked up at the bonds' source atoms, at (b, k): the sum of atom(b). -/
theorem atomLookup_apply (x : FVec Ideal S50000x256 .f32) (b2a : IVec S100000 32) (b : Fin 100000) (k : Fin 256) :
    Host.gather gather_S50000x256_S100000x1_S100000x256_1_0_n_n_0_1_1256 x
        (broadcastInDim S100000x1 ![0] bcast_S100000_S100000x1_0
          (select (cmpi .slt b2a (broadcastInDim S100000 ![] bcast_S_S100000 (constantI S_ 32 0#32)))
            (addi b2a (broadcastInDim S100000 ![] bcast_S_S100000 (constantI S_ 32 50000#32))) b2a))
        (ix2 b k)
      = x (ix2 (Mpn.rowNo 50000 (by decide) 50000#32 (b2a (ix1 b))) k) :=
  (gatherAtom_apply x _ b k).trans
    (congrArg (fun r => x (ix2 r k))
      (congrArg (LibGatherScatter.clampRow 50000 (by decide)) (norm1_apply 50000#32 b2a b)))

/-- The message looked up at the bonds' reverse bonds, at (b, k): the message at bond rev(b). -/
theorem revLookup_apply (x : FVec Ideal S100000x256 .f32) (b2revb : IVec S100000 32) (b : Fin 100000) (k : Fin 256) :
    Host.gather gather_S100000x256_S100000x1_S100000x256_1_0_n_n_0_1_1256 x
        (broadcastInDim S100000x1 ![0] bcast_S100000_S100000x1_0
          (select (cmpi .slt b2revb (broadcastInDim S100000 ![] bcast_S_S100000 (constantI S_ 32 0#32)))
            (addi b2revb (broadcastInDim S100000 ![] bcast_S_S100000 (constantI S_ 32 100000#32))) b2revb))
        (ix2 b k)
      = x (ix2 (Mpn.rowNo 100000 (by decide) 100000#32 (b2revb (ix1 b))) k) :=
  (gatherRev_apply x _ b k).trans
    (congrArg (fun r => x (ix2 r k))
      (congrArg (LibGatherScatter.clampRow 100000 (by decide)) (norm1_apply 100000#32 b2revb b)))

/-! ## One round -/

/-- One round of the reference program — the three lookups, the sum over the six incoming bonds, the difference,
    the product with the weight, the features added and the cut-off at zero — is one round of the recurrence. -/
theorem round_eq (f msg : FVec Ideal S100000x256 .f32) (a2b : IVec S50000x6 32) (b2a b2revb : IVec S100000 32)
    (w : FVec Ideal S256x256 .f32) :
    maximumf (F := Ideal)
        (addf (F := Ideal) f
          (Host.dotGeneral (F := Ideal) dot_S100000x256_S256x256_S100000x256_1_0_0_1_n_n none
            (subf (F := Ideal)
              (Host.gather gather_S50000x256_S100000x1_S100000x256_1_0_n_n_0_1_1256
                (Host.reduceAdd (F := Ideal)
                  (Host.gather gather_S100000x256_S50000x6x1_S50000x6x256_2_0_n_n_0_2_1256 msg
                    (broadcastInDim S50000x6x1 ![0, 1] bcast_S50000x6_S50000x6x1_0_1
                      (select (cmpi .slt a2b (broadcastInDim S50000x6 ![] bcast_S_S50000x6 (constantI S_ 32 0#32)))
                        (addi a2b (broadcastInDim S50000x6 ![] bcast_S_S50000x6 (constantI S_ 32 100000#32))) a2b)))
                  (constant (F := Ideal) S_ .f32 0x00000000#32) reducesTo_S50000x6x256_S50000x256_d1 h_S_)
                (broadcastInDim S100000x1 ![0] bcast_S100000_S100000x1_0
                  (select (cmpi .slt b2a (broadcastInDim S100000 ![] bcast_S_S100000 (constantI S_ 32 0#32)))
                    (addi b2a (broadcastInDim S100000 ![] bcast_S_S100000 (constantI S_ 32 50000#32))) b2a)))
              (Host.gather gather_S100000x256_S100000x1_S100000x256_1_0_n_n_0_1_1256 msg
                (broadcastInDim S100000x1 ![0] bcast_S100000_S100000x1_0
                  (select (cmpi .slt b2revb (broadcastInDim S100000 ![] bcast_S_S100000 (constantI S_ 32 0#32)))
                    (addi b2revb (broadcastInDim S100000 ![] bcast_S_S100000 (constantI S_ 32 100000#32))) b2revb))))
            w))
        (broadcastInDim S100000x256 ![] bcast_S_S100000x256 (constant (F := Ideal) S_ .f32 0x00000000#32))
      = Mpn.unmat (Mpn.round Mpn.zero (Mpn.rows a2b b2a b2revb) (Mpn.mat w) (Mpn.mat f) (Mpn.mat msg)) := by
  funext i
  obtain ⟨b, c, rfl⟩ : ∃ (b : Fin 100000) (c : Fin 256), i = ix2 b c := ⟨i 0, i 1, eq_ix2 i⟩
  rw [Mpn.unmat_ix2]
  show _ = max (Mpn.mat f b c
    + ∑ d : Fin 256, Mpn.pre (Mpn.rows a2b b2a b2revb) (Mpn.mat msg) b d * Mpn.mat w d c) Mpn.zero
  refine (maximumf_apply _ _ _).trans (congrArg₂ max ?_ ?_)
  · refine (addf_apply _ _ _).trans (congrArg (f (ix2 b c) + ·) ?_)
    refine (dot_apply _ w b c).trans (Finset.sum_congr rfl fun d _ => congrArg (· * w (ix2 d c)) ?_)
    refine (subf_apply _ _ _).trans (congrArg₂ (· - ·) ?_ ?_)
    · exact (atomLookup_apply _ b2a b d).trans
        ((sum6_apply _ _ d).trans (Finset.sum_congr rfl fun j _ => incLookup_apply msg a2b _ j d))
    · exact revLookup_apply msg b2revb b d
  · exact Dense.spread_scalar_apply _ _ _

end Cert.Hand.Ref

end
-- ==== Proof.RefRun.lean ====
/-
  The reference program's run, read round by round.

  The program is a straight line of 525 operations: fifteen stretches of 35, one per round — five rounds with the
  first weight, five with the second, five with the third.  A stretch reads the features, the three arrays of row
  numbers, its chain's weight and the previous round's message, writes 35 buffers of its own, and leaves at the last
  of them one round of the recurrence of what it read.  Composing the stretches, each chain's last buffer holds five
  rounds from the features, and the seven arguments are as they were.
-/
import proofs.«177690_j24824910971087_2_alg».proof.Proof.RefRunP
import proofs.«177690_j24824910971087_2_alg».proof.Proof.RefValue

noncomputable section

namespace Cert.Hand.Ref

open Cert.ReferenceIdeal Cert.ReferenceIdeal.Gen Cert.ReferenceIdeal.Value Idealize.ShloMosaic Idealize.ShloMosaic.TcCoe
  Idealize.SL.Sem Idealize.ShloMosaic.StableHlo Cert.Hand

/-- The contents after two lines of operations run one after the other. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by
    rw [List.cons_append, after_cons, after_cons, after_append l₁ l₂]

variable {F : FTy → Type} [FloatOps F]

/-! ### Stretch 1 -/

/-- The operations of stretch 1, in order. -/
abbrev s1 : List (HloOp τ sig (Elt F)) :=
  [ nullary main_c (constantI S_ 32 0#32),
    unary main_c main_v0 (broadcastInDim S50000x6 ![] bcast_S_S50000x6 : (⟨S_, .i32⟩ : BufTy).Contents (Elt F) → (⟨S50000x6, .i32⟩ : BufTy).Contents (Elt F)),
    binary main_arg1 main_v0 main_v1 (cmpi .slt : (⟨S50000x6, .i32⟩ : BufTy).Contents (Elt F) → (⟨S50000x6, .i32⟩ : BufTy).Contents (Elt F) → (⟨S50000x6, .i1⟩ : BufTy).Contents (Elt F)),
    nullary main_c_0 (constantI S_ 32 100000#32),
    unary main_c_0 main_v2 (broadcastInDim S50000x6 ![] bcast_S_S50000x6 : (⟨S_, .i32⟩ : BufTy).Contents (Elt F) → (⟨S50000x6, .i32⟩ : BufTy).Contents (Elt F)),
    binary main_arg1 main_v2 main_v3 (addi : (⟨S50000x6, .i32⟩ : BufTy).Contents (Elt F) → (⟨S50000x6, .i32⟩ : BufTy).Contents (Elt F) → (⟨S50000x6, .i32⟩ : BufTy).Contents (Elt F)),
    ternary main_v1 main_v3 main_arg1 main_v4 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v4 main_v5 (broadcastInDim S50000x6x1 ![0, 1] bcast_S50000x6_S50000x6x1_0_1 : (⟨S50000x6, .i32⟩ : BufTy).Contents (Elt F) → (⟨S50000x6x1, .i32⟩ : BufTy).Contents (Elt F)),
    binary main_arg0 main_v5 main_v6 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst (constant S_ .f32 0x00000000#32),
    binary main_v6 main_cst main_v7 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_1 (constantI S_ 32 0#32),
    unary main_c_1 main_v8 (broadcastInDim S100000 ![] bcast_S_S100000 : (⟨S_, .i32⟩ : BufTy).Contents (Elt F) → (⟨S100000, .i32⟩ : BufTy).Contents (Elt F)),
    binary main_arg2 main_v8 main_v9 (cmpi .slt : (⟨S100000, .i32⟩ : BufTy).Contents (Elt F) → (⟨S100000, .i32⟩ : BufTy).Contents (Elt F) → (⟨S100000, .i1⟩ : BufTy).Contents (Elt F)),
    nullary main_c_2 (constantI S_ 32 50000#32),
    unary main_c_2 main_v10 (broadcastInDim S100000 ![] bcast_S_S100000 : (⟨S_, .i32⟩ : BufTy).Contents (Elt F) → (⟨S100000, .i32⟩ : BufTy).Contents (Elt F)),
    binary main_arg2 main_v10 main_v11 (addi : (⟨S100000, .i32⟩ : BufTy).Contents (Elt F) → (⟨S100000, .i32⟩ : BufTy).Contents (Elt F) → (⟨S100000, .i32⟩ : BufTy).Contents (Elt F)),
    ternary main_v9 main_v11 main_arg2 main_v12 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v12 main_v13 (broadcastInDim S100000x1 ![0] bcast_S100000_S100000x1_0 : (⟨S100000, .i32⟩ : BufTy).Contents (Elt F) → (⟨S100000x1, .i32⟩ : BufTy).Contents (Elt F)),
    binary main_v7 main_v13 main_v14 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_3 (constantI S_ 32 0#32),
    unary main_c_3 main_v15 (broadcastInDim S100000 ![] bcast_S_S100000 : (⟨S_, .i32⟩ : BufTy).Contents (Elt F) → (⟨S100000, .i32⟩ : BufTy).Contents (Elt F)),
    binary main_arg3 main_v15 main_v16 (cmpi .slt : (⟨S100000, .i32⟩ : BufTy).Contents (Elt F) → (⟨S100000, .i32⟩ : BufTy).Contents (Elt F) → (⟨S100000, .i1⟩ : BufTy).Contents (Elt F)),
    nullary main_c_4 (constantI S_ 32 100000#32),
    unary main_c_4 main_v17 (broadcastInDim S100000 ![] bcast_S_S100000 : (⟨S_, .i32⟩ : BufTy).Contents (Elt F) → (⟨S100000, .i32⟩ : BufTy).Contents (Elt F)),
    binary main_arg3 main_v17 main_v18 (addi : (⟨S100000, .i32⟩ : BufTy).Contents (Elt F) → (⟨S100000, .i32⟩ : BufTy).Contents (Elt F) → (⟨S100000, .i32⟩ : BufTy).Contents (Elt F)),
    ternary main_v16 main_v18 main_arg3 main_v19 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v19 main_v20 (broadcastInDim S100000x1 ![0] bcast_S100000_S100000x1_0 : (⟨S100000, .i32⟩ : BufTy).Contents (Elt F) → (⟨S100000x1, .i32⟩ : BufTy).Contents (Elt F)),
    binary main_arg0 main_v20 main_v21 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v14 main_v21 main_v22 (subf : (⟨S100000x256, .f32⟩ : BufTy).Contents (Elt F) → (⟨S100000x256, .f32⟩ : BufTy).Contents (Elt F) → (⟨S100000x256, .f32⟩ : BufTy).Contents (Elt F)),
    binary main_v22 main_arg4 main_v23 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v23 main_v24 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v24) (TRef.of (T := ⟨S100000x256, .f32⟩) main_call0_v0) (TRef.of (T := ⟨S100000x256, .f32⟩) main_v25) maximumf ]

/-- The buffers stretch 1 writes. -/
abbrev s1_W : List (Ref sig .tc) := [main_c, main_v0, main_v1, main_c_0, main_v2, main_v3, main_v4, main_v5, main_v6, main_cst, main_v7, main_c_1, main_v8, main_v9, main_c_2, main_v10, main_v11, main_v12, main_v13, main_v14, main_c_3, main_v15, main_v16, main_c_4, main_v17, main_v18, main_v19, main_v20, main_v21, main_v22, main_v23, main_v24, main_call0_cst, main_call0_v0, main_v25]

theorem s1_writes : (s1 : List (HloOp τ sig (Elt F))).Forall fun op =>
    op.writes ⊆ (s1_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 1 does not write keeps its contents through it. -/
theorem s1_keep (W : Valuation τ sig (Elt F)) (r : Ref sig .tc) (h : r ∉ s1_W) :
    after s1 W (Proc.devRef .tc r) = W (Proc.devRef .tc r) :=
  after_of_writes_sub s1 _ s1_writes h

/-- Stretch 1 leaves one round of the recurrence of what it read at its last buffer. -/
theorem s1_res (W : Valuation τ sig (Elt Ideal)) :
    after (s1 (F := Ideal)) W (Proc.devRef .tc main_v25)
      = Mpn.unmat (Mpn.round Mpn.zero
          (Mpn.rows (W (Proc.devRef .tc main_arg1)) (W (Proc.devRef .tc main_arg2)) (W (Proc.devRef .tc main_arg3)))
          (Mpn.mat (W (Proc.devRef .tc main_arg4))) (Mpn.mat (W (Proc.devRef .tc main_arg0))) (Mpn.mat (W (Proc.devRef .tc main_arg0)))) := by
  simp only [s1]
  after_results_simp
  exact round_eq _ _ _ _ _ _

/-! ### Stretch 2 -/

/-- The operations of stretch 2, in order. -/
abbrev s2 : List (HloOp τ sig (Elt F)) :=
  [ nullary main_c_5 (constantI S_ 32 0#32),
    unary main_c_5 main_v26 (broadcastInDim S50000x6 ![] bcast_S_S50000x6 : (⟨S_, .i32⟩ : BufTy).Contents (Elt F) → (⟨S50000x6, .i32⟩ : BufTy).Contents (Elt F)),
    binary main_arg1 main_v26 main_v27 (cmpi .slt : (⟨S50000x6, .i32⟩ : BufTy).Contents (Elt F) → (⟨S50000x6, .i32⟩ : BufTy).Contents (Elt F) → (⟨S50000x6, .i1⟩ : BufTy).Contents (Elt F)),
    nullary main_c_6 (constantI S_ 32 100000#32),
    unary main_c_6 main_v28 (broadcastInDim S50000x6 ![] bcast_S_S50000x6 : (⟨S_, .i32⟩ : BufTy).Contents (Elt F) → (⟨S50000x6, .i32⟩ : BufTy).Contents (Elt F)),
    binary main_arg1 main_v28 main_v29 (addi : (⟨S50000x6, .i32⟩ : BufTy).Contents (Elt F) → (⟨S50000x6, .i32⟩ : BufTy).Contents (Elt F) → (⟨S50000x6, .i32⟩ : BufTy).Contents (Elt F)),
    ternary main_v27 main_v29 main_arg1 main_v30 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v30 main_v31 (broadcastInDim S50000x6x1 ![0, 1] bcast_S50000x6_S50000x6x1_0_1 : (⟨S50000x6, .i32⟩ : BufTy).Contents (Elt F) → (⟨S50000x6x1, .i32⟩ : BufTy).Contents (Elt F)),
    binary main_v25 main_v31 main_v32 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_7 (constant S_ .f32 0x00000000#32),
    binary main_v32 main_cst_7 main_v33 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_8 (constantI S_ 32 0#32),
    unary main_c_8 main_v34 (broadcastInDim S100000 ![] bcast_S_S100000 : (⟨S_, .i32⟩ : BufTy).Contents (Elt F) → (⟨S100000, .i32⟩ : BufTy).Contents (Elt F)),
    binary main_arg2 main_v34 main_v35 (cmpi .slt : (⟨S100000, .i32⟩ : BufTy).Contents (Elt F) → (⟨S100000, .i32⟩ : BufTy).Contents (Elt F) → (⟨S100000, .i1⟩ : BufTy).Contents (Elt F)),
    nullary main_c_9 (constantI S_ 32 50000#32),
    unary main_c_9 main_v36 (broadcastInDim S100000 ![] bcast_S_S100000 : (⟨S_, .i32⟩ : BufTy).Contents (Elt F) → (⟨S100000, .i32⟩ : BufTy).Contents (Elt F)),
    binary main_arg2 main_v36 main_v37 (addi : (⟨S100000, .i32⟩ : BufTy).Contents (Elt F) → (⟨S100000, .i32⟩ : BufTy).Contents (Elt F) → (⟨S100000, .i32⟩ : BufTy).Contents (Elt F)),
    ternary main_v35 main_v37 main_arg2 main_v38 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v38 main_v39 (broadcastInDim S100000x1 ![0] bcast_S100000_S100000x1_0 : (⟨S100000, .i32⟩ : BufTy).Contents (Elt F) → (⟨S100000x1, .i32⟩ : BufTy).Contents (Elt F)),
    binary main_v33 main_v39 main_v40 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_10 (constantI S_ 32 0#32),
    unary main_c_10 main_v41 (broadcastInDim S100000 ![] bcast_S_S100000 : (⟨S_, .i32⟩ : BufTy).Contents (Elt F) → (⟨S100000, .i32⟩ : BufTy).Contents (Elt F)),
    binary main_arg3 main_v41 main_v42 (cmpi .slt : (⟨S100000, .i32⟩ : BufTy).Contents (Elt F) → (⟨S100000, .i32⟩ : BufTy).Contents (Elt F) → (⟨S100000, .i1⟩ : BufTy).Contents (Elt F)),
    nullary main_c_11 (constantI S_ 32 100000#32),
    unary main_c_11 main_v43 (broadcastInDim S100000 ![] bcast_S_S100000 : (⟨S_, .i32⟩ : BufTy).Contents (Elt F) → (⟨S100000, .i32⟩ : BufTy).Contents (Elt F)),
    binary main_arg3 main_v43 main_v44 (addi : (⟨S100000, .i32⟩ : BufTy).Contents (Elt F) → (⟨S100000, .i32⟩ : BufTy).Contents (Elt F) → (⟨S100000, .i32⟩ : BufTy).Contents (Elt F)),
    ternary main_v42 main_v44 main_arg3 main_v45 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v45 main_v46 (broadcastInDim S100000x1 ![0] bcast_S100000_S100000x1_0 : (⟨S100000, .i32⟩ : BufTy).Contents (Elt F) → (⟨S100000x1, .i32⟩ : BufTy).Contents (Elt F)),
    binary main_v25 main_v46 main_v47 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v40 main_v47 main_v48 (subf : (⟨S100000x256, .f32⟩ : BufTy).Contents (Elt F) → (⟨S100000x256, .f32⟩ : BufTy).Contents (Elt F) → (⟨S100000x256, .f32⟩ : BufTy).Contents (Elt F)),
    binary main_v48 main_arg4 main_v49 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v49 main_v50 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v50) (TRef.of (T := ⟨S100000x256, .f32⟩) main_call1_v0) (TRef.of (T := ⟨S100000x256, .f32⟩) main_v51) maximumf ]

/-- The buffers stretch 2 writes. -/
abbrev s2_W : List (Ref sig .tc) := [main_c_5, main_v26, main_v27, main_c_6, main_v28, main_v29, main_v30, main_v31, main_v32, main_cst_7, main_v33, main_c_8, main_v34, main_v35, main_c_9, main_v36, main_v37, main_v38, main_v39, main_v40, main_c_10, main_v41, main_v42, main_c_11, main_v43, main_v44, main_v45, main_v46, main_v47, main_v48, main_v49, main_v50, main_call1_cst, main_call1_v0, main_v51]

theorem s2_writes : (s2 : List (HloOp τ sig (Elt F))).Forall fun op =>
    op.writes ⊆ (s2_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 2 does not write keeps its contents through it. -/
theorem s2_keep (W : Valuation τ sig (Elt F)) (r : Ref sig .tc) (h : r ∉ s2_W) :
    after s2 W (Proc.devRef .tc r) = W (Proc.devRef .tc r) :=
  after_of_writes_sub s2 _ s2_writes h

/-- Stretch 2 leaves one round of the recurrence of what it read at its last buffer. -/
theorem s2_res (W : Valuation τ sig (Elt Ideal)) :
    after (s2 (F := Ideal)) W (Proc.devRef .tc main_v51)
      = Mpn.unmat (Mpn.round Mpn.zero
          (Mpn.rows (W (Proc.devRef .tc main_arg1)) (W (Proc.devRef .tc main_arg2)) (W (Proc.devRef .tc main_arg3)))
          (Mpn.mat (W (Proc.devRef .tc main_arg4))) (Mpn.mat (W (Proc.devRef .tc main_arg0))) (Mpn.mat (W (Proc.devRef .tc main_v25)))) := by
  simp only [s2]
  after_results_simp
  exact round_eq _ _ _ _ _ _

/-! ### Stretch 3 -/

/-- The operations of stretch 3, in order. -/
abbrev s3 : List (HloOp τ sig (Elt F)) :=
  [ nullary main_c_12 (constantI S_ 32 0#32),
    unary main_c_12 main_v52 (broadcastInDim S50000x6 ![] bcast_S_S50000x6 : (⟨S_, .i32⟩ : BufTy).Contents (Elt F) → (⟨S50000x6, .i32⟩ : BufTy).Contents (Elt F)),
    binary main_arg1 main_v52 main_v53 (cmpi .slt : (⟨S50000x6, .i32⟩ : BufTy).Contents (Elt F) → (⟨S50000x6, .i32⟩ : BufTy).Contents (Elt F) → (⟨S50000x6, .i1⟩ : BufTy).Contents (Elt F)),
    nullary main_c_13 (constantI S_ 32 100000#32),
    unary main_c_13 main_v54 (broadcastInDim S50000x6 ![] bcast_S_S50000x6 : (⟨S_, .i32⟩ : BufTy).Contents (Elt F) → (⟨S50000x6, .i32⟩ : BufTy).Contents (Elt F)),
    binary main_arg1 main_v54 main_v55 (addi : (⟨S50000x6, .i32⟩ : BufTy).Contents (Elt F) → (⟨S50000x6, .i32⟩ : BufTy).Contents (Elt F) → (⟨S50000x6, .i32⟩ : BufTy).Contents (Elt F)),
    ternary main_v53 main_v55 main_arg1 main_v56 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v56 main_v57 (broadcastInDim S50000x6x1 ![0, 1] bcast_S50000x6_S50000x6x1_0_1 : (⟨S50000x6, .i32⟩ : BufTy).Contents (Elt F) → (⟨S50000x6x1, .i32⟩ : BufTy).Contents (Elt F)),
    binary main_v51 main_v57 main_v58 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_14 (constant S_ .f32 0x00000000#32),
    binary main_v58 main_cst_14 main_v59 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_15 (constantI S_ 32 0#32),
    unary main_c_15 main_v60 (broadcastInDim S100000 ![] bcast_S_S100000 : (⟨S_, .i32⟩ : BufTy).Contents (Elt F) → (⟨S100000, .i32⟩ : BufTy).Contents (Elt F)),
    binary main_arg2 main_v60 main_v61 (cmpi .slt : (⟨S100000, .i32⟩ : BufTy).Contents (Elt F) → (⟨S100000, .i32⟩ : BufTy).Contents (Elt F) → (⟨S100000, .i1⟩ : BufTy).Contents (Elt F)),
    nullary main_c_16 (constantI S_ 32 50000#32),
    unary main_c_16 main_v62 (broadcastInDim S100000 ![] bcast_S_S100000 : (⟨S_, .i32⟩ : BufTy).Contents (Elt F) → (⟨S100000, .i32⟩ : BufTy).Contents (Elt F)),
    binary main_arg2 main_v62 main_v63 (addi : (⟨S100000, .i32⟩ : BufTy).Contents (Elt F) → (⟨S100000, .i32⟩ : BufTy).Contents (Elt F) → (⟨S100000, .i32⟩ : BufTy).Contents (Elt F)),
    ternary main_v61 main_v63 main_arg2 main_v64 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v64 main_v65 (broadcastInDim S100000x1 ![0] bcast_S100000_S100000x1_0 : (⟨S100000, .i32⟩ : BufTy).Contents (Elt F) → (⟨S100000x1, .i32⟩ : BufTy).Contents (Elt F)),
    binary main_v59 main_v65 main_v66 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_17 (constantI S_ 32 0#32),
    unary main_c_17 main_v67 (broadcastInDim S100000 ![] bcast_S_S100000 : (⟨S_, .i32⟩ : BufTy).Contents (Elt F) → (⟨S100000, .i32⟩ : BufTy).Contents (Elt F)),
    binary main_arg3 main_v67 main_v68 (cmpi .slt : (⟨S100000, .i32⟩ : BufTy).Contents (Elt F) → (⟨S100000, .i32⟩ : BufTy).Contents (Elt F) → (⟨S100000, .i1⟩ : BufTy).Contents (Elt F)),
    nullary main_c_18 (constantI S_ 32 100000#32),
    unary main_c_18 main_v69 (broadcastInDim S100000 ![] bcast_S_S100000 : (⟨S_, .i32⟩ : BufTy).Contents (Elt F) → (⟨S100000, .i32⟩ : BufTy).Contents (Elt F)),
    binary main_arg3 main_v69 main_v70 (addi : (⟨S100000, .i32⟩ : BufTy).Contents (Elt F) → (⟨S100000, .i32⟩ : BufTy).Contents (Elt F) → (⟨S100000, .i32⟩ : BufTy).Contents (Elt F)),
    ternary main_v68 main_v70 main_arg3 main_v71 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v71 main_v72 (broadcastInDim S100000x1 ![0] bcast_S100000_S100000x1_0 : (⟨S100000, .i32⟩ : BufTy).Contents (Elt F) → (⟨S100000x1, .i32⟩ : BufTy).Contents (Elt F)),
    binary main_v51 main_v72 main_v73 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v66 main_v73 main_v74 (subf : (⟨S100000x256, .f32⟩ : BufTy).Contents (Elt F) → (⟨S100000x256, .f32⟩ : BufTy).Contents (Elt F) → (⟨S100000x256, .f32⟩ : BufTy).Contents (Elt F)),
    binary main_v74 main_arg4 main_v75 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v75 main_v76 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x256, .f32⟩) main_call2_v0) (broadcastInDim S100000x256 ![] bcast_S_S100000x256),
    TRef.binary (TRef.of (T := ⟨S100000x256, .f32⟩) main_v76) (TRef.of (T := ⟨S100000x256, .f32⟩) main_call2_v0) (TRef.of (T := ⟨S100000x256, .f32⟩) main_v77) maximumf ]

/-- The buffers stretch 3 writes. -/
abbrev s3_W : List (Ref sig .tc) := [main_c_12, main_v52, main_v53, main_c_13, main_v54, main_v55, main_v56, main_v57, main_v58, main_cst_14, main_v59, main_c_15, main_v60, main_v61, main_c_16, main_v62, main_v63, main_v64, main_v65, main_v66, main_c_17, main_v67, main_v68, main_c_18, main_v69, main_v70, main_v71, main_v72, main_v73, main_v74, main_v75, main_v76, main_call2_cst, main_call2_v0, main_v77]

theorem s3_writes : (s3 : List (HloOp τ sig (Elt F))).Forall fun op =>
    op.writes ⊆ (s3_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 3 does not write keeps its contents through it. -/
theorem s3_keep (W : Valuation τ sig (Elt F)) (r : Ref sig .tc) (h : r ∉ s3_W) :
    after s3 W (Proc.devRef .tc r) = W (Proc.devRef .tc r) :=
  after_of_writes_sub s3 _ s3_writes h

/-- Stretch 3 leaves one round of the recurrence of what it read at its last buffer. -/
theorem s3_res (W : Valuation τ sig (Elt Ideal)) :
    after (s3 (F := Ideal)) W (Proc.devRef .tc main_v77)
      = Mpn.unmat (Mpn.round Mpn.zero
          (Mpn.rows (W (Proc.devRef .tc main_arg1)) (W (Proc.devRef .tc main_arg2)) (W (Proc.devRef .tc main_arg3)))
          (Mpn.mat (W (Proc.devRef .tc main_arg4))) (Mpn.mat (W (Proc.devRef .tc main_arg0))) (Mpn.mat (W (Proc.devRef .tc main_v51)))) := by
  simp only [s3]
  after_results_simp
  exact round_eq _ _ _ _ _ _

/-! ### Stretch 4 -/

/-- The operations of stretch 4, in order. -/
abbrev s4 : List (HloOp τ sig (Elt F)) :=
  [ nullary main_c_19 (constantI S_ 32 0#32),
    unary main_c_19 main_v78 (broadcastInDim S50000x6 ![] bcast_S_S50000x6 : (⟨S_, .i32⟩ : BufTy).Contents (Elt F) → (⟨S50000x6, .i32⟩ : BufTy).Contents (Elt F)),
    binary main_arg1 main_v78 main_v79 (cmpi .slt : (⟨S50000x6, .i32⟩ : BufTy).Contents (Elt F) → (⟨S50000x6, .i32⟩ : BufTy).Contents (Elt F) → (⟨S50000x6, .i1⟩ : BufTy).Contents (Elt F)),
    nullary main_c_20 (constantI S_ 32 100000#32),
    unary main_c_20 main_v80 (broadcastInDim S50000x6 ![] bcast_S_S50000x6 : (⟨S_, .i32⟩ : BufTy).Contents (Elt F) → (⟨S50000x6, .i32⟩ : BufTy).Contents (Elt F)),
    binary main_arg1 main_v80 main_v81 (addi : (⟨S50000x6, .i32⟩ : BufTy).Contents (Elt F) → (⟨S50000x6, .i32⟩ : BufTy).Contents (Elt F) → (⟨S50000x6, .i32⟩ : BufTy).Contents (Elt F)),
    ternary main_v79 main_v81 main_arg1 main_v82 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v82 main_v83 (broadcastInDim S50000x6x1 ![0, 1] bcast_S50000x6_S50000x6x1_0_1 : (⟨S50000x6, .i32⟩ : BufTy).Contents (Elt F) → (⟨S50000x6x1, .i32⟩ : BufTy).Contents (Elt F)),
    binary main_v77 main_v83 main_v84 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_21 (constant S_ .f32 0x00000000#32),
    binary main_v84 main_cst_21 main_v85 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_22 (constantI S_ 32 0#32),
    unary main_c_22 main_v86 (broadcastInDim S100000 ![] bcast_S_S100000 : (⟨S_, .i32⟩ : BufTy).Contents (Elt F) → (⟨S100000, .i32⟩ : BufTy).Contents (Elt F)),
    binary main_arg2 main_v86 main_v87 (cmpi .slt : (⟨S100000, .i32⟩ : BufTy).Contents (Elt F) → (⟨S100000, .i32⟩ : BufTy).Contents (Elt F) → (⟨S100000, .i1⟩ : BufTy).Contents (Elt F)),
    nullary main_c_23 (constantI S_ 32 50000#32),
    unary main_c_23 main_v88 (broadcastInDim S100000 ![] bcast_S_S100000 : (⟨S_, .i32⟩ : BufTy).Contents (Elt F) → (⟨S100000, .i32⟩ : BufTy).Contents (Elt F)),
    binary main_arg2 main_v88 main_v89 (addi : (⟨S100000, .i32⟩ : BufTy).Contents (Elt F) → (⟨S100000, .i32⟩ : BufTy).Contents (Elt F) → (⟨S100000, .i32⟩ : BufTy).Contents (Elt F)),
    ternary main_v87 main_v89 main_arg2 main_v90 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v90 main_v91 (broadcastInDim S100000x1 ![0] bcast_S100000_S100000x1_0 : (⟨S100000, .i32⟩ : BufTy).Contents (Elt F) → (⟨S100000x1, .i32⟩ : BufTy).Contents (Elt F)),
    binary main_v85 main_v91 main_v92 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_24 (constantI S_ 32 0#32),
    unary main_c_24 main_v93 (broadcastInDim S100000 ![] bcast_S_S100000 : (⟨S_, .i32⟩ : BufTy).Contents (Elt F) → (⟨S100000, .i32⟩ : BufTy).Contents (Elt F)),
    binary main_arg3 main_v93 main_v94 (cmpi .slt : (⟨S100000, .i32⟩ : BufTy).Contents (Elt F) → (⟨S100000, .i32⟩ : BufTy).Contents (Elt F) → (⟨S100000, .i1⟩ : BufTy).Contents (Elt F)),
    nullary main_c_25 (constantI S_ 32 100000#32),
    unary main_c_25 main_v95 (broadcastInDim S100000 ![] bcast_S_S100000 : (⟨S_, .i32⟩ : BufTy).Contents (Elt F) → (⟨S100000, .i32⟩ : BufTy).Contents (Elt F)),
    binary main_arg3 main_v95 main_v96 (addi : (⟨S100000, .i32⟩ : BufTy).Contents (Elt F) → (⟨S100000, .i32⟩ : BufTy).Contents (Elt F) → (⟨S100000, .i32⟩ : BufTy).Contents (Elt F)),
    ternary main_v94 main_v96 main_arg3 main_v97 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v97 main_v98 (broadcastInDim S100000x1 ![0] bcast_S100000_S100000x1_0 : (⟨S100000, .i32⟩ : BufTy).Contents (Elt F) → (⟨S100000x1, .i32⟩ : BufTy).Contents (Elt F)),
    binary main_v77 main_v98 main_v99 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v92 main_v99 main_v100 (subf : (⟨S100000x256, .f32⟩ : BufTy).Contents (Elt F) → (⟨S100000x256, .f32⟩ : BufTy).Contents (Elt F) → (⟨S100000x256, .f32⟩ : BufTy).Contents (Elt F)),
    binary main_v100 main_arg4 main_v101 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v101 main_v102 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x256, .f32⟩) main_call3_v0) (broadcastInDim S100000x256 ![] bcast_S_S100000x256),
    TRef.binary (TRef.of (T := ⟨S100000x256, .f32⟩) main_v102) (TRef.of (T := ⟨S100000x256, .f32⟩) main_call3_v0) (TRef.of (T := ⟨S100000x256, .f32⟩) main_v103) maximumf ]

/-- The buffers stretch 4 writes. -/
abbrev s4_W : List (Ref sig .tc) := [main_c_19, main_v78, main_v79, main_c_20, main_v80, main_v81, main_v82, main_v83, main_v84, main_cst_21, main_v85, main_c_22, main_v86, main_v87, main_c_23, main_v88, main_v89, main_v90, main_v91, main_v92, main_c_24, main_v93, main_v94, main_c_25, main_v95, main_v96, main_v97, main_v98, main_v99, main_v100, main_v101, main_v102, main_call3_cst, main_call3_v0, main_v103]

theorem s4_writes : (s4 : List (HloOp τ sig (Elt F))).Forall fun op =>
    op.writes ⊆ (s4_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 4 does not write keeps its contents through it. -/
theorem s4_keep (W : Valuation τ sig (Elt F)) (r : Ref sig .tc) (h : r ∉ s4_W) :
    after s4 W (Proc.devRef .tc r) = W (Proc.devRef .tc r) :=
  after_of_writes_sub s4 _ s4_writes h

/-- Stretch 4 leaves one round of the recurrence of what it read at its last buffer. -/
theorem s4_res (W : Valuation τ sig (Elt Ideal)) :
    after (s4 (F := Ideal)) W (Proc.devRef .tc main_v103)
      = Mpn.unmat (Mpn.round Mpn.zero
          (Mpn.rows (W (Proc.devRef .tc main_arg1)) (W (Proc.devRef .tc main_arg2)) (W (Proc.devRef .tc main_arg3)))
          (Mpn.mat (W (Proc.devRef .tc main_arg4))) (Mpn.mat (W (Proc.devRef .tc main_arg0))) (Mpn.mat (W (Proc.devRef .tc main_v77)))) := by
  simp only [s4]
  after_results_simp
  exact round_eq _ _ _ _ _ _

/-! ### Stretch 5 -/

/-- The operations of stretch 5, in order. -/
abbrev s5 : List (HloOp τ sig (Elt F)) :=
  [ nullary main_c_26 (constantI S_ 32 0#32),
    unary main_c_26 main_v104 (broadcastInDim S50000x6 ![] bcast_S_S50000x6 : (⟨S_, .i32⟩ : BufTy).Contents (Elt F) → (⟨S50000x6, .i32⟩ : BufTy).Contents (Elt F)),
    binary main_arg1 main_v104 main_v105 (cmpi .slt : (⟨S50000x6, .i32⟩ : BufTy).Contents (Elt F) → (⟨S50000x6, .i32⟩ : BufTy).Contents (Elt F) → (⟨S50000x6, .i1⟩ : BufTy).Contents (Elt F)),
    nullary main_c_27 (constantI S_ 32 100000#32),
    unary main_c_27 main_v106 (broadcastInDim S50000x6 ![] bcast_S_S50000x6 : (⟨S_, .i32⟩ : BufTy).Contents (Elt F) → (⟨S50000x6, .i32⟩ : BufTy).Contents (Elt F)),
    binary main_arg1 main_v106 main_v107 (addi : (⟨S50000x6, .i32⟩ : BufTy).Contents (Elt F) → (⟨S50000x6, .i32⟩ : BufTy).Contents (Elt F) → (⟨S50000x6, .i32⟩ : BufTy).Contents (Elt F)),
    ternary main_v105 main_v107 main_arg1 main_v108 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v108 main_v109 (broadcastInDim S50000x6x1 ![0, 1] bcast_S50000x6_S50000x6x1_0_1 : (⟨S50000x6, .i32⟩ : BufTy).Contents (Elt F) → (⟨S50000x6x1, .i32⟩ : BufTy).Contents (Elt F)),
    binary main_v103 main_v109 main_v110 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_28 (constant S_ .f32 0x00000000#32),
    binary main_v110 main_cst_28 main_v111 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_29 (constantI S_ 32 0#32),
    unary main_c_29 main_v112 (broadcastInDim S100000 ![] bcast_S_S100000 : (⟨S_, .i32⟩ : BufTy).Contents (Elt F) → (⟨S100000, .i32⟩ : BufTy).Contents (Elt F)),
    binary main_arg2 main_v112 main_v113 (cmpi .slt : (⟨S100000, .i32⟩ : BufTy).Contents (Elt F) → (⟨S100000, .i32⟩ : BufTy).Contents (Elt F) → (⟨S100000, .i1⟩ : BufTy).Contents (Elt F)),
    nullary main_c_30 (constantI S_ 32 50000#32),
    unary main_c_30 main_v114 (broadcastInDim S100000 ![] bcast_S_S100000 : (⟨S_, .i32⟩ : BufTy).Contents (Elt F) → (⟨S100000, .i32⟩ : BufTy).Contents (Elt F)),
    binary main_arg2 main_v114 main_v115 (addi : (⟨S100000, .i32⟩ : BufTy).Contents (Elt F) → (⟨S100000, .i32⟩ : BufTy).Contents (Elt F) → (⟨S100000, .i32⟩ : BufTy).Contents (Elt F)),
    ternary main_v113 main_v115 main_arg2 main_v116 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v116 main_v117 (broadcastInDim S100000x1 ![0] bcast_S100000_S100000x1_0 : (⟨S100000, .i32⟩ : BufTy).Contents (Elt F) → (⟨S100000x1, .i32⟩ : BufTy).Contents (Elt F)),
    binary main_v111 main_v117 main_v118 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_31 (constantI S_ 32 0#32),
    unary main_c_31 main_v119 (broadcastInDim S100000 ![] bcast_S_S100000 : (⟨S_, .i32⟩ : BufTy).Contents (Elt F) → (⟨S100000, .i32⟩ : BufTy).Contents (Elt F)),
    binary main_arg3 main_v119 main_v120 (cmpi .slt : (⟨S100000, .i32⟩ : BufTy).Contents (Elt F) → (⟨S100000, .i32⟩ : BufTy).Contents (Elt F) → (⟨S100000, .i1⟩ : BufTy).Contents (Elt F)),
    nullary main_c_32 (constantI S_ 32 100000#32),
    unary main_c_32 main_v121 (broadcastInDim S100000 ![] bcast_S_S100000 : (⟨S_, .i32⟩ : BufTy).Contents (Elt F) → (⟨S100000, .i32⟩ : BufTy).Contents (Elt F)),
    binary main_arg3 main_v121 main_v122 (addi : (⟨S100000, .i32⟩ : BufTy).Contents (Elt F) → (⟨S100000, .i32⟩ : BufTy).Contents (Elt F) → (⟨S100000, .i32⟩ : BufTy).Contents (Elt F)),
    ternary main_v120 main_v122 main_arg3 main_v123 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v123 main_v124 (broadcastInDim S100000x1 ![0] bcast_S100000_S100000x1_0 : (⟨S100000, .i32⟩ : BufTy).Contents (Elt F) → (⟨S100000x1, .i32⟩ : BufTy).Contents (Elt F)),
    binary main_v103 main_v124 main_v125 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v118 main_v125 main_v126 (subf : (⟨S100000x256, .f32⟩ : BufTy).Contents (Elt F) → (⟨S100000x256, .f32⟩ : BufTy).Contents (Elt F) → (⟨S100000x256, .f32⟩ : BufTy).Contents (Elt F)),
    binary main_v126 main_arg4 main_v127 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v127 main_v128 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v128) (TRef.of (T := ⟨S100000x256, .f32⟩) main_call4_v0) (TRef.of (T := ⟨S100000x256, .f32⟩) main_v129) maximumf ]

/-- The buffers stretch 5 writes. -/
abbrev s5_W : List (Ref sig .tc) := [main_c_26, main_v104, main_v105, main_c_27, main_v106, main_v107, main_v108, main_v109, main_v110, main_cst_28, main_v111, main_c_29, main_v112, main_v113, main_c_30, main_v114, main_v115, main_v116, main_v117, main_v118, main_c_31, main_v119, main_v120, main_c_32, main_v121, main_v122, main_v123, main_v124, main_v125, main_v126, main_v127, main_v128, main_call4_cst, main_call4_v0, main_v129]

theorem s5_writes : (s5 : List (HloOp τ sig (Elt F))).Forall fun op =>
    op.writes ⊆ (s5_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 5 does not write keeps its contents through it. -/
theorem s5_keep (W : Valuation τ sig (Elt F)) (r : Ref sig .tc) (h : r ∉ s5_W) :
    after s5 W (Proc.devRef .tc r) = W (Proc.devRef .tc r) :=
  after_of_writes_sub s5 _ s5_writes h

/-- Stretch 5 leaves one round of the recurrence of what it read at its last buffer. -/
theorem s5_res (W : Valuation τ sig (Elt Ideal)) :
    after (s5 (F := Ideal)) W (Proc.devRef .tc main_v129)
      = Mpn.unmat (Mpn.round Mpn.zero
          (Mpn.rows (W (Proc.devRef .tc main_arg1)) (W (Proc.devRef .tc main_arg2)) (W (Proc.devRef .tc main_arg3)))
          (Mpn.mat (W (Proc.devRef .tc main_arg4))) (Mpn.mat (W (Proc.devRef .tc main_arg0))) (Mpn.mat (W (Proc.devRef .tc main_v103)))) := by
  simp only [s5]
  after_results_simp
  exact round_eq _ _ _ _ _ _

/-! ### Stretch 6 -/

/-- The operations of stretch 6, in order. -/
abbrev s6 : List (HloOp τ sig (Elt F)) :=
  [ nullary main_c_33 (constantI S_ 32 0#32),
    unary main_c_33 main_v130 (broadcastInDim S50000x6 ![] bcast_S_S50000x6 : (⟨S_, .i32⟩ : BufTy).Contents (Elt F) → (⟨S50000x6, .i32⟩ : BufTy).Contents (Elt F)),
    binary main_arg1 main_v130 main_v131 (cmpi .slt : (⟨S50000x6, .i32⟩ : BufTy).Contents (Elt F) → (⟨S50000x6, .i32⟩ : BufTy).Contents (Elt F) → (⟨S50000x6, .i1⟩ : BufTy).Contents (Elt F)),
    nullary main_c_34 (constantI S_ 32 100000#32),
    unary main_c_34 main_v132 (broadcastInDim S50000x6 ![] bcast_S_S50000x6 : (⟨S_, .i32⟩ : BufTy).Contents (Elt F) → (⟨S50000x6, .i32⟩ : BufTy).Contents (Elt F)),
    binary main_arg1 main_v132 main_v133 (addi : (⟨S50000x6, .i32⟩ : BufTy).Contents (Elt F) → (⟨S50000x6, .i32⟩ : BufTy).Contents (Elt F) → (⟨S50000x6, .i32⟩ : BufTy).Contents (Elt F)),
    ternary main_v131 main_v133 main_arg1 main_v134 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v134 main_v135 (broadcastInDim S50000x6x1 ![0, 1] bcast_S50000x6_S50000x6x1_0_1 : (⟨S50000x6, .i32⟩ : BufTy).Contents (Elt F) → (⟨S50000x6x1, .i32⟩ : BufTy).Contents (Elt F)),
    binary main_arg0 main_v135 main_v136 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_35 (constant S_ .f32 0x00000000#32),
    binary main_v136 main_cst_35 main_v137 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_36 (constantI S_ 32 0#32),
    unary main_c_36 main_v138 (broadcastInDim S100000 ![] bcast_S_S100000 : (⟨S_, .i32⟩ : BufTy).Contents (Elt F) → (⟨S100000, .i32⟩ : BufTy).Contents (Elt F)),
    binary main_arg2 main_v138 main_v139 (cmpi .slt : (⟨S100000, .i32⟩ : BufTy).Contents (Elt F) → (⟨S100000, .i32⟩ : BufTy).Contents (Elt F) → (⟨S100000, .i1⟩ : BufTy).Contents (Elt F)),
    nullary main_c_37 (constantI S_ 32 50000#32),
    unary main_c_37 main_v140 (broadcastInDim S100000 ![] bcast_S_S100000 : (⟨S_, .i32⟩ : BufTy).Contents (Elt F) → (⟨S100000, .i32⟩ : BufTy).Contents (Elt F)),
    binary main_arg2 main_v140 main_v141 (addi : (⟨S100000, .i32⟩ : BufTy).Contents (Elt F) → (⟨S100000, .i32⟩ : BufTy).Contents (Elt F) → (⟨S100000, .i32⟩ : BufTy).Contents (Elt F)),
    ternary main_v139 main_v141 main_arg2 main_v142 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v142 main_v143 (broadcastInDim S100000x1 ![0] bcast_S100000_S100000x1_0 : (⟨S100000, .i32⟩ : BufTy).Contents (Elt F) → (⟨S100000x1, .i32⟩ : BufTy).Contents (Elt F)),
    binary main_v137 main_v143 main_v144 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_38 (constantI S_ 32 0#32),
    unary main_c_38 main_v145 (broadcastInDim S100000 ![] bcast_S_S100000 : (⟨S_, .i32⟩ : BufTy).Contents (Elt F) → (⟨S100000, .i32⟩ : BufTy).Contents (Elt F)),
    binary main_arg3 main_v145 main_v146 (cmpi .slt : (⟨S100000, .i32⟩ : BufTy).Contents (Elt F) → (⟨S100000, .i32⟩ : BufTy).Contents (Elt F) → (⟨S100000, .i1⟩ : BufTy).Contents (Elt F)),
    nullary main_c_39 (constantI S_ 32 100000#32),
    unary main_c_39 main_v147 (broadcastInDim S100000 ![] bcast_S_S100000 : (⟨S_, .i32⟩ : BufTy).Contents (Elt F) → (⟨S100000, .i32⟩ : BufTy).Contents (Elt F)),
    binary main_arg3 main_v147 main_v148 (addi : (⟨S100000, .i32⟩ : BufTy).Contents (Elt F) → (⟨S100000, .i32⟩ : BufTy).Contents (Elt F) → (⟨S100000, .i32⟩ : BufTy).Contents (Elt F)),
    ternary main_v146 main_v148 main_arg3 main_v149 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v149 main_v150 (broadcastInDim S100000x1 ![0] bcast_S100000_S100000x1_0 : (⟨S100000, .i32⟩ : BufTy).Contents (Elt F) → (⟨S100000x1, .i32⟩ : BufTy).Contents (Elt F)),
    binary main_arg0 main_v150 main_v151 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v144 main_v151 main_v152 (subf : (⟨S100000x256, .f32⟩ : BufTy).Contents (Elt F) → (⟨S100000x256, .f32⟩ : BufTy).Contents (Elt F) → (⟨S100000x256, .f32⟩ : BufTy).Contents (Elt F)),
    binary main_v152 main_arg5 main_v153 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v153 main_v154 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x256, .f32⟩) main_call5_v0) (broadcastInDim S100000x256 ![] bcast_S_S100000x256),
    TRef.binary (TRef.of (T := ⟨S100000x256, .f32⟩) main_v154) (TRef.of (T := ⟨S100000x256, .f32⟩) main_call5_v0) (TRef.of (T := ⟨S100000x256, .f32⟩) main_v155) maximumf ]

/-- The buffers stretch 6 writes. -/
abbrev s6_W : List (Ref sig .tc) := [main_c_33, main_v130, main_v131, main_c_34, main_v132, main_v133, main_v134, main_v135, main_v136, main_cst_35, main_v137, main_c_36, main_v138, main_v139, main_c_37, main_v140, main_v141, main_v142, main_v143, main_v144, main_c_38, main_v145, main_v146, main_c_39, main_v147, main_v148, main_v149, main_v150, main_v151, main_v152, main_v153, main_v154, main_call5_cst, main_call5_v0, main_v155]

theorem s6_writes : (s6 : List (HloOp τ sig (Elt F))).Forall fun op =>
    op.writes ⊆ (s6_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 6 does not write keeps its contents through it. -/
theorem s6_keep (W : Valuation τ sig (Elt F)) (r : Ref sig .tc) (h : r ∉ s6_W) :
    after s6 W (Proc.devRef .tc r) = W (Proc.devRef .tc r) :=
  after_of_writes_sub s6 _ s6_writes h

/-- Stretch 6 leaves one round of the recurrence of what it read at its last buffer. -/
theorem s6_res (W : Valuation τ sig (Elt Ideal)) :
    after (s6 (F := Ideal)) W (Proc.devRef .tc main_v155)
      = Mpn.unmat (Mpn.round Mpn.zero
          (Mpn.rows (W (Proc.devRef .tc main_arg1)) (W (Proc.devRef .tc main_arg2)) (W (Proc.devRef .tc main_arg3)))
          (Mpn.mat (W (Proc.devRef .tc main_arg5))) (Mpn.mat (W (Proc.devRef .tc main_arg0))) (Mpn.mat (W (Proc.devRef .tc main_arg0)))) := by
  simp only [s6]
  after_results_simp
  exact round_eq _ _ _ _ _ _

/-! ### Stretch 7 -/

/-- The operations of stretch 7, in order. -/
abbrev s7 : List (HloOp τ sig (Elt F)) :=
  [ nullary main_c_40 (constantI S_ 32 0#32),
    unary main_c_40 main_v156 (broadcastInDim S50000x6 ![] bcast_S_S50000x6 : (⟨S_, .i32⟩ : BufTy).Contents (Elt F) → (⟨S50000x6, .i32⟩ : BufTy).Contents (Elt F)),
    binary main_arg1 main_v156 main_v157 (cmpi .slt : (⟨S50000x6, .i32⟩ : BufTy).Contents (Elt F) → (⟨S50000x6, .i32⟩ : BufTy).Contents (Elt F) → (⟨S50000x6, .i1⟩ : BufTy).Contents (Elt F)),
    nullary main_c_41 (constantI S_ 32 100000#32),
    unary main_c_41 main_v158 (broadcastInDim S50000x6 ![] bcast_S_S50000x6 : (⟨S_, .i32⟩ : BufTy).Contents (Elt F) → (⟨S50000x6, .i32⟩ : BufTy).Contents (Elt F)),
    binary main_arg1 main_v158 main_v159 (addi : (⟨S50000x6, .i32⟩ : BufTy).Contents (Elt F) → (⟨S50000x6, .i32⟩ : BufTy).Contents (Elt F) → (⟨S50000x6, .i32⟩ : BufTy).Contents (Elt F)),
    ternary main_v157 main_v159 main_arg1 main_v160 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v160 main_v161 (broadcastInDim S50000x6x1 ![0, 1] bcast_S50000x6_S50000x6x1_0_1 : (⟨S50000x6, .i32⟩ : BufTy).Contents (Elt F) → (⟨S50000x6x1, .i32⟩ : BufTy).Contents (Elt F)),
    binary main_v155 main_v161 main_v162 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_42 (constant S_ .f32 0x00000000#32),
    binary main_v162 main_cst_42 main_v163 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_43 (constantI S_ 32 0#32),
    unary main_c_43 main_v164 (broadcastInDim S100000 ![] bcast_S_S100000 : (⟨S_, .i32⟩ : BufTy).Contents (Elt F) → (⟨S100000, .i32⟩ : BufTy).Contents (Elt F)),
    binary main_arg2 main_v164 main_v165 (cmpi .slt : (⟨S100000, .i32⟩ : BufTy).Contents (Elt F) → (⟨S100000, .i32⟩ : BufTy).Contents (Elt F) → (⟨S100000, .i1⟩ : BufTy).Contents (Elt F)),
    nullary main_c_44 (constantI S_ 32 50000#32),
    unary main_c_44 main_v166 (broadcastInDim S100000 ![] bcast_S_S100000 : (⟨S_, .i32⟩ : BufTy).Contents (Elt F) → (⟨S100000, .i32⟩ : BufTy).Contents (Elt F)),
    binary main_arg2 main_v166 main_v167 (addi : (⟨S100000, .i32⟩ : BufTy).Contents (Elt F) → (⟨S100000, .i32⟩ : BufTy).Contents (Elt F) → (⟨S100000, .i32⟩ : BufTy).Contents (Elt F)),
    ternary main_v165 main_v167 main_arg2 main_v168 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v168 main_v169 (broadcastInDim S100000x1 ![0] bcast_S100000_S100000x1_0 : (⟨S100000, .i32⟩ : BufTy).Contents (Elt F) → (⟨S100000x1, .i32⟩ : BufTy).Contents (Elt F)),
    binary main_v163 main_v169 main_v170 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_45 (constantI S_ 32 0#32),
    unary main_c_45 main_v171 (broadcastInDim S100000 ![] bcast_S_S100000 : (⟨S_, .i32⟩ : BufTy).Contents (Elt F) → (⟨S100000, .i32⟩ : BufTy).Contents (Elt F)),
    binary main_arg3 main_v171 main_v172 (cmpi .slt : (⟨S100000, .i32⟩ : BufTy).Contents (Elt F) → (⟨S100000, .i32⟩ : BufTy).Contents (Elt F) → (⟨S100000, .i1⟩ : BufTy).Contents (Elt F)),
    nullary main_c_46 (constantI S_ 32 100000#32),
    unary main_c_46 main_v173 (broadcastInDim S100000 ![] bcast_S_S100000 : (⟨S_, .i32⟩ : BufTy).Contents (Elt F) → (⟨S100000, .i32⟩ : BufTy).Contents (Elt F)),
    binary main_arg3 main_v173 main_v174 (addi : (⟨S100000, .i32⟩ : BufTy).Contents (Elt F) → (⟨S100000, .i32⟩ : BufTy).Contents (Elt F) → (⟨S100000, .i32⟩ : BufTy).Contents (Elt F)),
    ternary main_v172 main_v174 main_arg3 main_v175 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v175 main_v176 (broadcastInDim S100000x1 ![0] bcast_S100000_S100000x1_0 : (⟨S100000, .i32⟩ : BufTy).Contents (Elt F) → (⟨S100000x1, .i32⟩ : BufTy).Contents (Elt F)),
    binary main_v155 main_v176 main_v177 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v170 main_v177 main_v178 (subf : (⟨S100000x256, .f32⟩ : BufTy).Contents (Elt F) → (⟨S100000x256, .f32⟩ : BufTy).Contents (Elt F) → (⟨S100000x256, .f32⟩ : BufTy).Contents (Elt F)),
    binary main_v178 main_arg5 main_v179 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v179 main_v180 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x256, .f32⟩) main_call6_v0) (broadcastInDim S100000x256 ![] bcast_S_S100000x256),
    TRef.binary (TRef.of (T := ⟨S100000x256, .f32⟩) main_v180) (TRef.of (T := ⟨S100000x256, .f32⟩) main_call6_v0) (TRef.of (T := ⟨S100000x256, .f32⟩) main_v181) maximumf ]

/-- The buffers stretch 7 writes. -/
abbrev s7_W : List (Ref sig .tc) := [main_c_40, main_v156, main_v157, main_c_41, main_v158, main_v159, main_v160, main_v161, main_v162, main_cst_42, main_v163, main_c_43, main_v164, main_v165, main_c_44, main_v166, main_v167, main_v168, main_v169, main_v170, main_c_45, main_v171, main_v172, main_c_46, main_v173, main_v174, main_v175, main_v176, main_v177, main_v178, main_v179, main_v180, main_call6_cst, main_call6_v0, main_v181]

theorem s7_writes : (s7 : List (HloOp τ sig (Elt F))).Forall fun op =>
    op.writes ⊆ (s7_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 7 does not write keeps its contents through it. -/
theorem s7_keep (W : Valuation τ sig (Elt F)) (r : Ref sig .tc) (h : r ∉ s7_W) :
    after s7 W (Proc.devRef .tc r) = W (Proc.devRef .tc r) :=
  after_of_writes_sub s7 _ s7_writes h

/-- Stretch 7 leaves one round of the recurrence of what it read at its last buffer. -/
theorem s7_res (W : Valuation τ sig (Elt Ideal)) :
    after (s7 (F := Ideal)) W (Proc.devRef .tc main_v181)
      = Mpn.unmat (Mpn.round Mpn.zero
          (Mpn.rows (W (Proc.devRef .tc main_arg1)) (W (Proc.devRef .tc main_arg2)) (W (Proc.devRef .tc main_arg3)))
          (Mpn.mat (W (Proc.devRef .tc main_arg5))) (Mpn.mat (W (Proc.devRef .tc main_arg0))) (Mpn.mat (W (Proc.devRef .tc main_v155)))) := by
  simp only [s7]
  after_results_simp
  exact round_eq _ _ _ _ _ _

/-! ### Stretch 8 -/

/-- The operations of stretch 8, in order. -/
abbrev s8 : List (HloOp τ sig (Elt F)) :=
  [ nullary main_c_47 (constantI S_ 32 0#32),
    unary main_c_47 main_v182 (broadcastInDim S50000x6 ![] bcast_S_S50000x6 : (⟨S_, .i32⟩ : BufTy).Contents (Elt F) → (⟨S50000x6, .i32⟩ : BufTy).Contents (Elt F)),
    binary main_arg1 main_v182 main_v183 (cmpi .slt : (⟨S50000x6, .i32⟩ : BufTy).Contents (Elt F) → (⟨S50000x6, .i32⟩ : BufTy).Contents (Elt F) → (⟨S50000x6, .i1⟩ : BufTy).Contents (Elt F)),
    nullary main_c_48 (constantI S_ 32 100000#32),
    unary main_c_48 main_v184 (broadcastInDim S50000x6 ![] bcast_S_S50000x6 : (⟨S_, .i32⟩ : BufTy).Contents (Elt F) → (⟨S50000x6, .i32⟩ : BufTy).Contents (Elt F)),
    binary main_arg1 main_v184 main_v185 (addi : (⟨S50000x6, .i32⟩ : BufTy).Contents (Elt F) → (⟨S50000x6, .i32⟩ : BufTy).Contents (Elt F) → (⟨S50000x6, .i32⟩ : BufTy).Contents (Elt F)),
    ternary main_v183 main_v185 main_arg1 main_v186 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v186 main_v187 (broadcastInDim S50000x6x1 ![0, 1] bcast_S50000x6_S50000x6x1_0_1 : (⟨S50000x6, .i32⟩ : BufTy).Contents (Elt F) → (⟨S50000x6x1, .i32⟩ : BufTy).Contents (Elt F)),
    binary main_v181 main_v187 main_v188 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_49 (constant S_ .f32 0x00000000#32),
    binary main_v188 main_cst_49 main_v189 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_50 (constantI S_ 32 0#32),
    unary main_c_50 main_v190 (broadcastInDim S100000 ![] bcast_S_S100000 : (⟨S_, .i32⟩ : BufTy).Contents (Elt F) → (⟨S100000, .i32⟩ : BufTy).Contents (Elt F)),
    binary main_arg2 main_v190 main_v191 (cmpi .slt : (⟨S100000, .i32⟩ : BufTy).Contents (Elt F) → (⟨S100000, .i32⟩ : BufTy).Contents (Elt F) → (⟨S100000, .i1⟩ : BufTy).Contents (Elt F)),
    nullary main_c_51 (constantI S_ 32 50000#32),
    unary main_c_51 main_v192 (broadcastInDim S100000 ![] bcast_S_S100000 : (⟨S_, .i32⟩ : BufTy).Contents (Elt F) → (⟨S100000, .i32⟩ : BufTy).Contents (Elt F)),
    binary main_arg2 main_v192 main_v193 (addi : (⟨S100000, .i32⟩ : BufTy).Contents (Elt F) → (⟨S100000, .i32⟩ : BufTy).Contents (Elt F) → (⟨S100000, .i32⟩ : BufTy).Contents (Elt F)),
    ternary main_v191 main_v193 main_arg2 main_v194 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v194 main_v195 (broadcastInDim S100000x1 ![0] bcast_S100000_S100000x1_0 : (⟨S100000, .i32⟩ : BufTy).Contents (Elt F) → (⟨S100000x1, .i32⟩ : BufTy).Contents (Elt F)),
    binary main_v189 main_v195 main_v196 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_52 (constantI S_ 32 0#32),
    unary main_c_52 main_v197 (broadcastInDim S100000 ![] bcast_S_S100000 : (⟨S_, .i32⟩ : BufTy).Contents (Elt F) → (⟨S100000, .i32⟩ : BufTy).Contents (Elt F)),
    binary main_arg3 main_v197 main_v198 (cmpi .slt : (⟨S100000, .i32⟩ : BufTy).Contents (Elt F) → (⟨S100000, .i32⟩ : BufTy).Contents (Elt F) → (⟨S100000, .i1⟩ : BufTy).Contents (Elt F)),
    nullary main_c_53 (constantI S_ 32 100000#32),
    unary main_c_53 main_v199 (broadcastInDim S100000 ![] bcast_S_S100000 : (⟨S_, .i32⟩ : BufTy).Contents (Elt F) → (⟨S100000, .i32⟩ : BufTy).Contents (Elt F)),
    binary main_arg3 main_v199 main_v200 (addi : (⟨S100000, .i32⟩ : BufTy).Contents (Elt F) → (⟨S100000, .i32⟩ : BufTy).Contents (Elt F) → (⟨S100000, .i32⟩ : BufTy).Contents (Elt F)),
    ternary main_v198 main_v200 main_arg3 main_v201 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v201 main_v202 (broadcastInDim S100000x1 ![0] bcast_S100000_S100000x1_0 : (⟨S100000, .i32⟩ : BufTy).Contents (Elt F) → (⟨S100000x1, .i32⟩ : BufTy).Contents (Elt F)),
    binary main_v181 main_v202 main_v203 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v196 main_v203 main_v204 (subf : (⟨S100000x256, .f32⟩ : BufTy).Contents (Elt F) → (⟨S100000x256, .f32⟩ : BufTy).Contents (Elt F) → (⟨S100000x256, .f32⟩ : BufTy).Contents (Elt F)),
    binary main_v204 main_arg5 main_v205 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v205 main_v206 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x256, .f32⟩) main_call7_v0) (broadcastInDim S100000x256 ![] bcast_S_S100000x256),
    TRef.binary (TRef.of (T := ⟨S100000x256, .f32⟩) main_v206) (TRef.of (T := ⟨S100000x256, .f32⟩) main_call7_v0) (TRef.of (T := ⟨S100000x256, .f32⟩) main_v207) maximumf ]

/-- The buffers stretch 8 writes. -/
abbrev s8_W : List (Ref sig .tc) := [main_c_47, main_v182, main_v183, main_c_48, main_v184, main_v185, main_v186, main_v187, main_v188, main_cst_49, main_v189, main_c_50, main_v190, main_v191, main_c_51, main_v192, main_v193, main_v194, main_v195, main_v196, main_c_52, main_v197, main_v198, main_c_53, main_v199, main_v200, main_v201, main_v202, main_v203, main_v204, main_v205, main_v206, main_call7_cst, main_call7_v0, main_v207]

theorem s8_writes : (s8 : List (HloOp τ sig (Elt F))).Forall fun op =>
    op.writes ⊆ (s8_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 8 does not write keeps its contents through it. -/
theorem s8_keep (W : Valuation τ sig (Elt F)) (r : Ref sig .tc) (h : r ∉ s8_W) :
    after s8 W (Proc.devRef .tc r) = W (Proc.devRef .tc r) :=
  after_of_writes_sub s8 _ s8_writes h

/-- Stretch 8 leaves one round of the recurrence of what it read at its last buffer. -/
theorem s8_res (W : Valuation τ sig (Elt Ideal)) :
    after (s8 (F := Ideal)) W (Proc.devRef .tc main_v207)
      = Mpn.unmat (Mpn.round Mpn.zero
          (Mpn.rows (W (Proc.devRef .tc main_arg1)) (W (Proc.devRef .tc main_arg2)) (W (Proc.devRef .tc main_arg3)))
          (Mpn.mat (W (Proc.devRef .tc main_arg5))) (Mpn.mat (W (Proc.devRef .tc main_arg0))) (Mpn.mat (W (Proc.devRef .tc main_v181)))) := by
  simp only [s8]
  after_results_simp
  exact round_eq _ _ _ _ _ _

/-! ### Stretch 9 -/

/-- The operations of stretch 9, in order. -/
abbrev s9 : List (HloOp τ sig (Elt F)) :=
  [ nullary main_c_54 (constantI S_ 32 0#32),
    unary main_c_54 main_v208 (broadcastInDim S50000x6 ![] bcast_S_S50000x6 : (⟨S_, .i32⟩ : BufTy).Contents (Elt F) → (⟨S50000x6, .i32⟩ : BufTy).Contents (Elt F)),
    binary main_arg1 main_v208 main_v209 (cmpi .slt : (⟨S50000x6, .i32⟩ : BufTy).Contents (Elt F) → (⟨S50000x6, .i32⟩ : BufTy).Contents (Elt F) → (⟨S50000x6, .i1⟩ : BufTy).Contents (Elt F)),
    nullary main_c_55 (constantI S_ 32 100000#32),
    unary main_c_55 main_v210 (broadcastInDim S50000x6 ![] bcast_S_S50000x6 : (⟨S_, .i32⟩ : BufTy).Contents (Elt F) → (⟨S50000x6, .i32⟩ : BufTy).Contents (Elt F)),
    binary main_arg1 main_v210 main_v211 (addi : (⟨S50000x6, .i32⟩ : BufTy).Contents (Elt F) → (⟨S50000x6, .i32⟩ : BufTy).Contents (Elt F) → (⟨S50000x6, .i32⟩ : BufTy).Contents (Elt F)),
    ternary main_v209 main_v211 main_arg1 main_v212 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v212 main_v213 (broadcastInDim S50000x6x1 ![0, 1] bcast_S50000x6_S50000x6x1_0_1 : (⟨S50000x6, .i32⟩ : BufTy).Contents (Elt F) → (⟨S50000x6x1, .i32⟩ : BufTy).Contents (Elt F)),
    binary main_v207 main_v213 main_v214 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_56 (constant S_ .f32 0x00000000#32),
    binary main_v214 main_cst_56 main_v215 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_57 (constantI S_ 32 0#32),
    unary main_c_57 main_v216 (broadcastInDim S100000 ![] bcast_S_S100000 : (⟨S_, .i32⟩ : BufTy).Contents (Elt F) → (⟨S100000, .i32⟩ : BufTy).Contents (Elt F)),
    binary main_arg2 main_v216 main_v217 (cmpi .slt : (⟨S100000, .i32⟩ : BufTy).Contents (Elt F) → (⟨S100000, .i32⟩ : BufTy).Contents (Elt F) → (⟨S100000, .i1⟩ : BufTy).Contents (Elt F)),
    nullary main_c_58 (constantI S_ 32 50000#32),
    unary main_c_58 main_v218 (broadcastInDim S100000 ![] bcast_S_S100000 : (⟨S_, .i32⟩ : BufTy).Contents (Elt F) → (⟨S100000, .i32⟩ : BufTy).Contents (Elt F)),
    binary main_arg2 main_v218 main_v219 (addi : (⟨S100000, .i32⟩ : BufTy).Contents (Elt F) → (⟨S100000, .i32⟩ : BufTy).Contents (Elt F) → (⟨S100000, .i32⟩ : BufTy).Contents (Elt F)),
    ternary main_v217 main_v219 main_arg2 main_v220 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v220 main_v221 (broadcastInDim S100000x1 ![0] bcast_S100000_S100000x1_0 : (⟨S100000, .i32⟩ : BufTy).Contents (Elt F) → (⟨S100000x1, .i32⟩ : BufTy).Contents (Elt F)),
    binary main_v215 main_v221 main_v222 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_59 (constantI S_ 32 0#32),
    unary main_c_59 main_v223 (broadcastInDim S100000 ![] bcast_S_S100000 : (⟨S_, .i32⟩ : BufTy).Contents (Elt F) → (⟨S100000, .i32⟩ : BufTy).Contents (Elt F)),
    binary main_arg3 main_v223 main_v224 (cmpi .slt : (⟨S100000, .i32⟩ : BufTy).Contents (Elt F) → (⟨S100000, .i32⟩ : BufTy).Contents (Elt F) → (⟨S100000, .i1⟩ : BufTy).Contents (Elt F)),
    nullary main_c_60 (constantI S_ 32 100000#32),
    unary main_c_60 main_v225 (broadcastInDim S100000 ![] bcast_S_S100000 : (⟨S_, .i32⟩ : BufTy).Contents (Elt F) → (⟨S100000, .i32⟩ : BufTy).Contents (Elt F)),
    binary main_arg3 main_v225 main_v226 (addi : (⟨S100000, .i32⟩ : BufTy).Contents (Elt F) → (⟨S100000, .i32⟩ : BufTy).Contents (Elt F) → (⟨S100000, .i32⟩ : BufTy).Contents (Elt F)),
    ternary main_v224 main_v226 main_arg3 main_v227 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v227 main_v228 (broadcastInDim S100000x1 ![0] bcast_S100000_S100000x1_0 : (⟨S100000, .i32⟩ : BufTy).Contents (Elt F) → (⟨S100000x1, .i32⟩ : BufTy).Contents (Elt F)),
    binary main_v207 main_v228 main_v229 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v222 main_v229 main_v230 (subf : (⟨S100000x256, .f32⟩ : BufTy).Contents (Elt F) → (⟨S100000x256, .f32⟩ : BufTy).Contents (Elt F) → (⟨S100000x256, .f32⟩ : BufTy).Contents (Elt F)),
    binary main_v230 main_arg5 main_v231 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v231 main_v232 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x256, .f32⟩) main_call8_v0) (broadcastInDim S100000x256 ![] bcast_S_S100000x256),
    TRef.binary (TRef.of (T := ⟨S100000x256, .f32⟩) main_v232) (TRef.of (T := ⟨S100000x256, .f32⟩) main_call8_v0) (TRef.of (T := ⟨S100000x256, .f32⟩) main_v233) maximumf ]

/-- The buffers stretch 9 writes. -/
abbrev s9_W : List (Ref sig .tc) := [main_c_54, main_v208, main_v209, main_c_55, main_v210, main_v211, main_v212, main_v213, main_v214, main_cst_56, main_v215, main_c_57, main_v216, main_v217, main_c_58, main_v218, main_v219, main_v220, main_v221, main_v222, main_c_59, main_v223, main_v224, main_c_60, main_v225, main_v226, main_v227, main_v228, main_v229, main_v230, main_v231, main_v232, main_call8_cst, main_call8_v0, main_v233]

theorem s9_writes : (s9 : List (HloOp τ sig (Elt F))).Forall fun op =>
    op.writes ⊆ (s9_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 9 does not write keeps its contents through it. -/
theorem s9_keep (W : Valuation τ sig (Elt F)) (r : Ref sig .tc) (h : r ∉ s9_W) :
    after s9 W (Proc.devRef .tc r) = W (Proc.devRef .tc r) :=
  after_of_writes_sub s9 _ s9_writes h

/-- Stretch 9 leaves one round of the recurrence of what it read at its last buffer. -/
theorem s9_res (W : Valuation τ sig (Elt Ideal)) :
    after (s9 (F := Ideal)) W (Proc.devRef .tc main_v233)
      = Mpn.unmat (Mpn.round Mpn.zero
          (Mpn.rows (W (Proc.devRef .tc main_arg1)) (W (Proc.devRef .tc main_arg2)) (W (Proc.devRef .tc main_arg3)))
          (Mpn.mat (W (Proc.devRef .tc main_arg5))) (Mpn.mat (W (Proc.devRef .tc main_arg0))) (Mpn.mat (W (Proc.devRef .tc main_v207)))) := by
  simp only [s9]
  after_results_simp
  exact round_eq _ _ _ _ _ _

/-! ### Stretch 10 -/

/-- The operations of stretch 10, in order. -/
abbrev s10 : List (HloOp τ sig (Elt F)) :=
  [ nullary main_c_61 (constantI S_ 32 0#32),
    unary main_c_61 main_v234 (broadcastInDim S50000x6 ![] bcast_S_S50000x6 : (⟨S_, .i32⟩ : BufTy).Contents (Elt F) → (⟨S50000x6, .i32⟩ : BufTy).Contents (Elt F)),
    binary main_arg1 main_v234 main_v235 (cmpi .slt : (⟨S50000x6, .i32⟩ : BufTy).Contents (Elt F) → (⟨S50000x6, .i32⟩ : BufTy).Contents (Elt F) → (⟨S50000x6, .i1⟩ : BufTy).Contents (Elt F)),
    nullary main_c_62 (constantI S_ 32 100000#32),
    unary main_c_62 main_v236 (broadcastInDim S50000x6 ![] bcast_S_S50000x6 : (⟨S_, .i32⟩ : BufTy).Contents (Elt F) → (⟨S50000x6, .i32⟩ : BufTy).Contents (Elt F)),
    binary main_arg1 main_v236 main_v237 (addi : (⟨S50000x6, .i32⟩ : BufTy).Contents (Elt F) → (⟨S50000x6, .i32⟩ : BufTy).Contents (Elt F) → (⟨S50000x6, .i32⟩ : BufTy).Contents (Elt F)),
    ternary main_v235 main_v237 main_arg1 main_v238 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v238 main_v239 (broadcastInDim S50000x6x1 ![0, 1] bcast_S50000x6_S50000x6x1_0_1 : (⟨S50000x6, .i32⟩ : BufTy).Contents (Elt F) → (⟨S50000x6x1, .i32⟩ : BufTy).Contents (Elt F)),
    binary main_v233 main_v239 main_v240 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_63 (constant S_ .f32 0x00000000#32),
    binary main_v240 main_cst_63 main_v241 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_64 (constantI S_ 32 0#32),
    unary main_c_64 main_v242 (broadcastInDim S100000 ![] bcast_S_S100000 : (⟨S_, .i32⟩ : BufTy).Contents (Elt F) → (⟨S100000, .i32⟩ : BufTy).Contents (Elt F)),
    binary main_arg2 main_v242 main_v243 (cmpi .slt : (⟨S100000, .i32⟩ : BufTy).Contents (Elt F) → (⟨S100000, .i32⟩ : BufTy).Contents (Elt F) → (⟨S100000, .i1⟩ : BufTy).Contents (Elt F)),
    nullary main_c_65 (constantI S_ 32 50000#32),
    unary main_c_65 main_v244 (broadcastInDim S100000 ![] bcast_S_S100000 : (⟨S_, .i32⟩ : BufTy).Contents (Elt F) → (⟨S100000, .i32⟩ : BufTy).Contents (Elt F)),
    binary main_arg2 main_v244 main_v245 (addi : (⟨S100000, .i32⟩ : BufTy).Contents (Elt F) → (⟨S100000, .i32⟩ : BufTy).Contents (Elt F) → (⟨S100000, .i32⟩ : BufTy).Contents (Elt F)),
    ternary main_v243 main_v245 main_arg2 main_v246 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v246 main_v247 (broadcastInDim S100000x1 ![0] bcast_S100000_S100000x1_0 : (⟨S100000, .i32⟩ : BufTy).Contents (Elt F) → (⟨S100000x1, .i32⟩ : BufTy).Contents (Elt F)),
    binary main_v241 main_v247 main_v248 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_66 (constantI S_ 32 0#32),
    unary main_c_66 main_v249 (broadcastInDim S100000 ![] bcast_S_S100000 : (⟨S_, .i32⟩ : BufTy).Contents (Elt F) → (⟨S100000, .i32⟩ : BufTy).Contents (Elt F)),
    binary main_arg3 main_v249 main_v250 (cmpi .slt : (⟨S100000, .i32⟩ : BufTy).Contents (Elt F) → (⟨S100000, .i32⟩ : BufTy).Contents (Elt F) → (⟨S100000, .i1⟩ : BufTy).Contents (Elt F)),
    nullary main_c_67 (constantI S_ 32 100000#32),
    unary main_c_67 main_v251 (broadcastInDim S100000 ![] bcast_S_S100000 : (⟨S_, .i32⟩ : BufTy).Contents (Elt F) → (⟨S100000, .i32⟩ : BufTy).Contents (Elt F)),
    binary main_arg3 main_v251 main_v252 (addi : (⟨S100000, .i32⟩ : BufTy).Contents (Elt F) → (⟨S100000, .i32⟩ : BufTy).Contents (Elt F) → (⟨S100000, .i32⟩ : BufTy).Contents (Elt F)),
    ternary main_v250 main_v252 main_arg3 main_v253 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v253 main_v254 (broadcastInDim S100000x1 ![0] bcast_S100000_S100000x1_0 : (⟨S100000, .i32⟩ : BufTy).Contents (Elt F) → (⟨S100000x1, .i32⟩ : BufTy).Contents (Elt F)),
    binary main_v233 main_v254 main_v255 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v248 main_v255 main_v256 (subf : (⟨S100000x256, .f32⟩ : BufTy).Contents (Elt F) → (⟨S100000x256, .f32⟩ : BufTy).Contents (Elt F) → (⟨S100000x256, .f32⟩ : BufTy).Contents (Elt F)),
    binary main_v256 main_arg5 main_v257 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v257 main_v258 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S100000x256, .f32⟩) main_call9_v0) (broadcastInDim S100000x256 ![] bcast_S_S100000x256),
    TRef.binary (TRef.of (T := ⟨S100000x256, .f32⟩) main_v258) (TRef.of (T := ⟨S100000x256, .f32⟩) main_call9_v0) (TRef.of (T := ⟨S100000x256, .f32⟩) main_v259) maximumf ]

/-- The buffers stretch 10 writes. -/
abbrev s10_W : List (Ref sig .tc) := [main_c_61, main_v234, main_v235, main_c_62, main_v236, main_v237, main_v238, main_v239, main_v240, main_cst_63, main_v241, main_c_64, main_v242, main_v243, main_c_65, main_v244, main_v245, main_v246, main_v247, main_v248, main_c_66, main_v249, main_v250, main_c_67, main_v251, main_v252, main_v253, main_v254, main_v255, main_v256, main_v257, main_v258, main_call9_cst, main_call9_v0, main_v259]

theorem s10_writes : (s10 : List (HloOp τ sig (Elt F))).Forall fun op =>
    op.writes ⊆ (s10_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 10 does not write keeps its contents through it. -/
theorem s10_keep (W : Valuation τ sig (Elt F)) (r : Ref sig .tc) (h : r ∉ s10_W) :
    after s10 W (Proc.devRef .tc r) = W (Proc.devRef .tc r) :=
  after_of_writes_sub s10 _ s10_writes h

/-- Stretch 10 leaves one round of the recurrence of what it read at its last buffer. -/
theorem s10_res (W : Valuation τ sig (Elt Ideal)) :
    after (s10 (F := Ideal)) W (Proc.devRef .tc main_v259)
      = Mpn.unmat (Mpn.round Mpn.zero
          (Mpn.rows (W (Proc.devRef .tc main_arg1)) (W (Proc.devRef .tc main_arg2)) (W (Proc.devRef .tc main_arg3)))
          (Mpn.mat (W (Proc.devRef .tc main_arg5))) (Mpn.mat (W (Proc.devRef .tc main_arg0))) (Mpn.mat (W (Proc.devRef .tc main_v233)))) := by
  simp only [s10]
  after_results_simp
  exact round_eq _ _ _ _ _ _

/-! ### Stretch 11 -/

/-- The operations of stretch 11, in order. -/
abbrev s11 : List (HloOp τ sig (Elt F)) :=
  [ nullary main_c_68 (constantI S_ 32 0#32),
    unary main_c_68 main_v260 (broadcastInDim S50000x6 ![] bcast_S_S50000x6 : (⟨S_, .i32⟩ : BufTy).Contents (Elt F) → (⟨S50000x6, .i32⟩ : BufTy).Contents (Elt F)),
    binary main_arg1 main_v260 main_v261 (cmpi .slt : (⟨S50000x6, .i32⟩ : BufTy).Contents (Elt F) → (⟨S50000x6, .i32⟩ : BufTy).Contents (Elt F) → (⟨S50000x6, .i1⟩ : BufTy).Contents (Elt F)),
    nullary main_c_69 (constantI S_ 32 100000#32),
    unary main_c_69 main_v262 (broadcastInDim S50000x6 ![] bcast_S_S50000x6 : (⟨S_, .i32⟩ : BufTy).Contents (Elt F) → (⟨S50000x6, .i32⟩ : BufTy).Contents (Elt F)),
    binary main_arg1 main_v262 main_v263 (addi : (⟨S50000x6, .i32⟩ : BufTy).Contents (Elt F) → (⟨S50000x6, .i32⟩ : BufTy).Contents (Elt F) → (⟨S50000x6, .i32⟩ : BufTy).Contents (Elt F)),
    ternary main_v261 main_v263 main_arg1 main_v264 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v264 main_v265 (broadcastInDim S50000x6x1 ![0, 1] bcast_S50000x6_S50000x6x1_0_1 : (⟨S50000x6, .i32⟩ : BufTy).Contents (Elt F) → (⟨S50000x6x1, .i32⟩ : BufTy).Contents (Elt F)),
    binary main_arg0 main_v265 main_v266 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_70 (constant S_ .f32 0x00000000#32),
    binary main_v266 main_cst_70 main_v267 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_71 (constantI S_ 32 0#32),
    unary main_c_71 main_v268 (broadcastInDim S100000 ![] bcast_S_S100000 : (⟨S_, .i32⟩ : BufTy).Contents (Elt F) → (⟨S100000, .i32⟩ : BufTy).Contents (Elt F)),
    binary main_arg2 main_v268 main_v269 (cmpi .slt : (⟨S100000, .i32⟩ : BufTy).Contents (Elt F) → (⟨S100000, .i32⟩ : BufTy).Contents (Elt F) → (⟨S100000, .i1⟩ : BufTy).Contents (Elt F)),
    nullary main_c_72 (constantI S_ 32 50000#32),
    unary main_c_72 main_v270 (broadcastInDim S100000 ![] bcast_S_S100000 : (⟨S_, .i32⟩ : BufTy).Contents (Elt F) → (⟨S100000, .i32⟩ : BufTy).Contents (Elt F)),
    binary main_arg2 main_v270 main_v271 (addi : (⟨S100000, .i32⟩ : BufTy).Contents (Elt F) → (⟨S100000, .i32⟩ : BufTy).Contents (Elt F) → (⟨S100000, .i32⟩ : BufTy).Contents (Elt F)),
    ternary main_v269 main_v271 main_arg2 main_v272 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v272 main_v273 (broadcastInDim S100000x1 ![0] bcast_S100000_S100000x1_0 : (⟨S100000, .i32⟩ : BufTy).Contents (Elt F) → (⟨S100000x1, .i32⟩ : BufTy).Contents (Elt F)),
    binary main_v267 main_v273 main_v274 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_73 (constantI S_ 32 0#32),
    unary main_c_73 main_v275 (broadcastInDim S100000 ![] bcast_S_S100000 : (⟨S_, .i32⟩ : BufTy).Contents (Elt F) → (⟨S100000, .i32⟩ : BufTy).Contents (Elt F)),
    binary main_arg3 main_v275 main_v276 (cmpi .slt : (⟨S100000, .i32⟩ : BufTy).Contents (Elt F) → (⟨S100000, .i32⟩ : BufTy).Contents (Elt F) → (⟨S100000, .i1⟩ : BufTy).Contents (Elt F)),
    nullary main_c_74 (constantI S_ 32 100000#32),
    unary main_c_74 main_v277 (broadcastInDim S100000 ![] bcast_S_S100000 : (⟨S_, .i32⟩ : BufTy).Contents (Elt F) → (⟨S100000, .i32⟩ : BufTy).Contents (Elt F)),
    binary main_arg3 main_v277 main_v278 (addi : (⟨S100000, .i32⟩ : BufTy).Contents (Elt F) → (⟨S100000, .i32⟩ : BufTy).Contents (Elt F) → (⟨S100000, .i32⟩ : BufTy).Contents (Elt F)),
    ternary main_v276 main_v278 main_arg3 main_v279 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v279 main_v280 (broadcastInDim S100000x1 ![0] bcast_S100000_S100000x1_0 : (⟨S100000, .i32⟩ : BufTy).Contents (Elt F) → (⟨S100000x1, .i32⟩ : BufTy).Contents (Elt F)),
    binary main_arg0 main_v280 main_v281 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v274 main_v281 main_v282 (subf : (⟨S100000x256, .f32⟩ : BufTy).Contents (Elt F) → (⟨S100000x256, .f32⟩ : BufTy).Contents (Elt F) → (⟨S100000x256, .f32⟩ : BufTy).Contents (Elt F)),
    binary main_v282 main_arg6 main_v283 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v283 main_v284 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x256, .f32⟩) main_call10_v0) (broadcastInDim S100000x256 ![] bcast_S_S100000x256),
    TRef.binary (TRef.of (T := ⟨S100000x256, .f32⟩) main_v284) (TRef.of (T := ⟨S100000x256, .f32⟩) main_call10_v0) (TRef.of (T := ⟨S100000x256, .f32⟩) main_v285) maximumf ]

/-- The buffers stretch 11 writes. -/
abbrev s11_W : List (Ref sig .tc) := [main_c_68, main_v260, main_v261, main_c_69, main_v262, main_v263, main_v264, main_v265, main_v266, main_cst_70, main_v267, main_c_71, main_v268, main_v269, main_c_72, main_v270, main_v271, main_v272, main_v273, main_v274, main_c_73, main_v275, main_v276, main_c_74, main_v277, main_v278, main_v279, main_v280, main_v281, main_v282, main_v283, main_v284, main_call10_cst, main_call10_v0, main_v285]

theorem s11_writes : (s11 : List (HloOp τ sig (Elt F))).Forall fun op =>
    op.writes ⊆ (s11_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 11 does not write keeps its contents through it. -/
theorem s11_keep (W : Valuation τ sig (Elt F)) (r : Ref sig .tc) (h : r ∉ s11_W) :
    after s11 W (Proc.devRef .tc r) = W (Proc.devRef .tc r) :=
  after_of_writes_sub s11 _ s11_writes h

/-- Stretch 11 leaves one round of the recurrence of what it read at its last buffer. -/
theorem s11_res (W : Valuation τ sig (Elt Ideal)) :
    after (s11 (F := Ideal)) W (Proc.devRef .tc main_v285)
      = Mpn.unmat (Mpn.round Mpn.zero
          (Mpn.rows (W (Proc.devRef .tc main_arg1)) (W (Proc.devRef .tc main_arg2)) (W (Proc.devRef .tc main_arg3)))
          (Mpn.mat (W (Proc.devRef .tc main_arg6))) (Mpn.mat (W (Proc.devRef .tc main_arg0))) (Mpn.mat (W (Proc.devRef .tc main_arg0)))) := by
  simp only [s11]
  after_results_simp
  exact round_eq _ _ _ _ _ _

/-! ### Stretch 12 -/

/-- The operations of stretch 12, in order. -/
abbrev s12 : List (HloOp τ sig (Elt F)) :=
  [ nullary main_c_75 (constantI S_ 32 0#32),
    unary main_c_75 main_v286 (broadcastInDim S50000x6 ![] bcast_S_S50000x6 : (⟨S_, .i32⟩ : BufTy).Contents (Elt F) → (⟨S50000x6, .i32⟩ : BufTy).Contents (Elt F)),
    binary main_arg1 main_v286 main_v287 (cmpi .slt : (⟨S50000x6, .i32⟩ : BufTy).Contents (Elt F) → (⟨S50000x6, .i32⟩ : BufTy).Contents (Elt F) → (⟨S50000x6, .i1⟩ : BufTy).Contents (Elt F)),
    nullary main_c_76 (constantI S_ 32 100000#32),
    unary main_c_76 main_v288 (broadcastInDim S50000x6 ![] bcast_S_S50000x6 : (⟨S_, .i32⟩ : BufTy).Contents (Elt F) → (⟨S50000x6, .i32⟩ : BufTy).Contents (Elt F)),
    binary main_arg1 main_v288 main_v289 (addi : (⟨S50000x6, .i32⟩ : BufTy).Contents (Elt F) → (⟨S50000x6, .i32⟩ : BufTy).Contents (Elt F) → (⟨S50000x6, .i32⟩ : BufTy).Contents (Elt F)),
    ternary main_v287 main_v289 main_arg1 main_v290 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v290 main_v291 (broadcastInDim S50000x6x1 ![0, 1] bcast_S50000x6_S50000x6x1_0_1 : (⟨S50000x6, .i32⟩ : BufTy).Contents (Elt F) → (⟨S50000x6x1, .i32⟩ : BufTy).Contents (Elt F)),
    binary main_v285 main_v291 main_v292 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_77 (constant S_ .f32 0x00000000#32),
    binary main_v292 main_cst_77 main_v293 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_78 (constantI S_ 32 0#32),
    unary main_c_78 main_v294 (broadcastInDim S100000 ![] bcast_S_S100000 : (⟨S_, .i32⟩ : BufTy).Contents (Elt F) → (⟨S100000, .i32⟩ : BufTy).Contents (Elt F)),
    binary main_arg2 main_v294 main_v295 (cmpi .slt : (⟨S100000, .i32⟩ : BufTy).Contents (Elt F) → (⟨S100000, .i32⟩ : BufTy).Contents (Elt F) → (⟨S100000, .i1⟩ : BufTy).Contents (Elt F)),
    nullary main_c_79 (constantI S_ 32 50000#32),
    unary main_c_79 main_v296 (broadcastInDim S100000 ![] bcast_S_S100000 : (⟨S_, .i32⟩ : BufTy).Contents (Elt F) → (⟨S100000, .i32⟩ : BufTy).Contents (Elt F)),
    binary main_arg2 main_v296 main_v297 (addi : (⟨S100000, .i32⟩ : BufTy).Contents (Elt F) → (⟨S100000, .i32⟩ : BufTy).Contents (Elt F) → (⟨S100000, .i32⟩ : BufTy).Contents (Elt F)),
    ternary main_v295 main_v297 main_arg2 main_v298 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v298 main_v299 (broadcastInDim S100000x1 ![0] bcast_S100000_S100000x1_0 : (⟨S100000, .i32⟩ : BufTy).Contents (Elt F) → (⟨S100000x1, .i32⟩ : BufTy).Contents (Elt F)),
    binary main_v293 main_v299 main_v300 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_80 (constantI S_ 32 0#32),
    unary main_c_80 main_v301 (broadcastInDim S100000 ![] bcast_S_S100000 : (⟨S_, .i32⟩ : BufTy).Contents (Elt F) → (⟨S100000, .i32⟩ : BufTy).Contents (Elt F)),
    binary main_arg3 main_v301 main_v302 (cmpi .slt : (⟨S100000, .i32⟩ : BufTy).Contents (Elt F) → (⟨S100000, .i32⟩ : BufTy).Contents (Elt F) → (⟨S100000, .i1⟩ : BufTy).Contents (Elt F)),
    nullary main_c_81 (constantI S_ 32 100000#32),
    unary main_c_81 main_v303 (broadcastInDim S100000 ![] bcast_S_S100000 : (⟨S_, .i32⟩ : BufTy).Contents (Elt F) → (⟨S100000, .i32⟩ : BufTy).Contents (Elt F)),
    binary main_arg3 main_v303 main_v304 (addi : (⟨S100000, .i32⟩ : BufTy).Contents (Elt F) → (⟨S100000, .i32⟩ : BufTy).Contents (Elt F) → (⟨S100000, .i32⟩ : BufTy).Contents (Elt F)),
    ternary main_v302 main_v304 main_arg3 main_v305 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v305 main_v306 (broadcastInDim S100000x1 ![0] bcast_S100000_S100000x1_0 : (⟨S100000, .i32⟩ : BufTy).Contents (Elt F) → (⟨S100000x1, .i32⟩ : BufTy).Contents (Elt F)),
    binary main_v285 main_v306 main_v307 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v300 main_v307 main_v308 (subf : (⟨S100000x256, .f32⟩ : BufTy).Contents (Elt F) → (⟨S100000x256, .f32⟩ : BufTy).Contents (Elt F) → (⟨S100000x256, .f32⟩ : BufTy).Contents (Elt F)),
    binary main_v308 main_arg6 main_v309 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v309 main_v310 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x256, .f32⟩) main_call11_v0) (broadcastInDim S100000x256 ![] bcast_S_S100000x256),
    TRef.binary (TRef.of (T := ⟨S100000x256, .f32⟩) main_v310) (TRef.of (T := ⟨S100000x256, .f32⟩) main_call11_v0) (TRef.of (T := ⟨S100000x256, .f32⟩) main_v311) maximumf ]

/-- The buffers stretch 12 writes. -/
abbrev s12_W : List (Ref sig .tc) := [main_c_75, main_v286, main_v287, main_c_76, main_v288, main_v289, main_v290, main_v291, main_v292, main_cst_77, main_v293, main_c_78, main_v294, main_v295, main_c_79, main_v296, main_v297, main_v298, main_v299, main_v300, main_c_80, main_v301, main_v302, main_c_81, main_v303, main_v304, main_v305, main_v306, main_v307, main_v308, main_v309, main_v310, main_call11_cst, main_call11_v0, main_v311]

theorem s12_writes : (s12 : List (HloOp τ sig (Elt F))).Forall fun op =>
    op.writes ⊆ (s12_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 12 does not write keeps its contents through it. -/
theorem s12_keep (W : Valuation τ sig (Elt F)) (r : Ref sig .tc) (h : r ∉ s12_W) :
    after s12 W (Proc.devRef .tc r) = W (Proc.devRef .tc r) :=
  after_of_writes_sub s12 _ s12_writes h

/-- Stretch 12 leaves one round of the recurrence of what it read at its last buffer. -/
theorem s12_res (W : Valuation τ sig (Elt Ideal)) :
    after (s12 (F := Ideal)) W (Proc.devRef .tc main_v311)
      = Mpn.unmat (Mpn.round Mpn.zero
          (Mpn.rows (W (Proc.devRef .tc main_arg1)) (W (Proc.devRef .tc main_arg2)) (W (Proc.devRef .tc main_arg3)))
          (Mpn.mat (W (Proc.devRef .tc main_arg6))) (Mpn.mat (W (Proc.devRef .tc main_arg0))) (Mpn.mat (W (Proc.devRef .tc main_v285)))) := by
  simp only [s12]
  after_results_simp
  exact round_eq _ _ _ _ _ _

/-! ### Stretch 13 -/

/-- The operations of stretch 13, in order. -/
abbrev s13 : List (HloOp τ sig (Elt F)) :=
  [ nullary main_c_82 (constantI S_ 32 0#32),
    unary main_c_82 main_v312 (broadcastInDim S50000x6 ![] bcast_S_S50000x6 : (⟨S_, .i32⟩ : BufTy).Contents (Elt F) → (⟨S50000x6, .i32⟩ : BufTy).Contents (Elt F)),
    binary main_arg1 main_v312 main_v313 (cmpi .slt : (⟨S50000x6, .i32⟩ : BufTy).Contents (Elt F) → (⟨S50000x6, .i32⟩ : BufTy).Contents (Elt F) → (⟨S50000x6, .i1⟩ : BufTy).Contents (Elt F)),
    nullary main_c_83 (constantI S_ 32 100000#32),
    unary main_c_83 main_v314 (broadcastInDim S50000x6 ![] bcast_S_S50000x6 : (⟨S_, .i32⟩ : BufTy).Contents (Elt F) → (⟨S50000x6, .i32⟩ : BufTy).Contents (Elt F)),
    binary main_arg1 main_v314 main_v315 (addi : (⟨S50000x6, .i32⟩ : BufTy).Contents (Elt F) → (⟨S50000x6, .i32⟩ : BufTy).Contents (Elt F) → (⟨S50000x6, .i32⟩ : BufTy).Contents (Elt F)),
    ternary main_v313 main_v315 main_arg1 main_v316 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v316 main_v317 (broadcastInDim S50000x6x1 ![0, 1] bcast_S50000x6_S50000x6x1_0_1 : (⟨S50000x6, .i32⟩ : BufTy).Contents (Elt F) → (⟨S50000x6x1, .i32⟩ : BufTy).Contents (Elt F)),
    binary main_v311 main_v317 main_v318 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_84 (constant S_ .f32 0x00000000#32),
    binary main_v318 main_cst_84 main_v319 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_85 (constantI S_ 32 0#32),
    unary main_c_85 main_v320 (broadcastInDim S100000 ![] bcast_S_S100000 : (⟨S_, .i32⟩ : BufTy).Contents (Elt F) → (⟨S100000, .i32⟩ : BufTy).Contents (Elt F)),
    binary main_arg2 main_v320 main_v321 (cmpi .slt : (⟨S100000, .i32⟩ : BufTy).Contents (Elt F) → (⟨S100000, .i32⟩ : BufTy).Contents (Elt F) → (⟨S100000, .i1⟩ : BufTy).Contents (Elt F)),
    nullary main_c_86 (constantI S_ 32 50000#32),
    unary main_c_86 main_v322 (broadcastInDim S100000 ![] bcast_S_S100000 : (⟨S_, .i32⟩ : BufTy).Contents (Elt F) → (⟨S100000, .i32⟩ : BufTy).Contents (Elt F)),
    binary main_arg2 main_v322 main_v323 (addi : (⟨S100000, .i32⟩ : BufTy).Contents (Elt F) → (⟨S100000, .i32⟩ : BufTy).Contents (Elt F) → (⟨S100000, .i32⟩ : BufTy).Contents (Elt F)),
    ternary main_v321 main_v323 main_arg2 main_v324 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v324 main_v325 (broadcastInDim S100000x1 ![0] bcast_S100000_S100000x1_0 : (⟨S100000, .i32⟩ : BufTy).Contents (Elt F) → (⟨S100000x1, .i32⟩ : BufTy).Contents (Elt F)),
    binary main_v319 main_v325 main_v326 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_87 (constantI S_ 32 0#32),
    unary main_c_87 main_v327 (broadcastInDim S100000 ![] bcast_S_S100000 : (⟨S_, .i32⟩ : BufTy).Contents (Elt F) → (⟨S100000, .i32⟩ : BufTy).Contents (Elt F)),
    binary main_arg3 main_v327 main_v328 (cmpi .slt : (⟨S100000, .i32⟩ : BufTy).Contents (Elt F) → (⟨S100000, .i32⟩ : BufTy).Contents (Elt F) → (⟨S100000, .i1⟩ : BufTy).Contents (Elt F)),
    nullary main_c_88 (constantI S_ 32 100000#32),
    unary main_c_88 main_v329 (broadcastInDim S100000 ![] bcast_S_S100000 : (⟨S_, .i32⟩ : BufTy).Contents (Elt F) → (⟨S100000, .i32⟩ : BufTy).Contents (Elt F)),
    binary main_arg3 main_v329 main_v330 (addi : (⟨S100000, .i32⟩ : BufTy).Contents (Elt F) → (⟨S100000, .i32⟩ : BufTy).Contents (Elt F) → (⟨S100000, .i32⟩ : BufTy).Contents (Elt F)),
    ternary main_v328 main_v330 main_arg3 main_v331 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v331 main_v332 (broadcastInDim S100000x1 ![0] bcast_S100000_S100000x1_0 : (⟨S100000, .i32⟩ : BufTy).Contents (Elt F) → (⟨S100000x1, .i32⟩ : BufTy).Contents (Elt F)),
    binary main_v311 main_v332 main_v333 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v326 main_v333 main_v334 (subf : (⟨S100000x256, .f32⟩ : BufTy).Contents (Elt F) → (⟨S100000x256, .f32⟩ : BufTy).Contents (Elt F) → (⟨S100000x256, .f32⟩ : BufTy).Contents (Elt F)),
    binary main_v334 main_arg6 main_v335 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v335 main_v336 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S100000x256, .f32⟩) main_call12_v0) (broadcastInDim S100000x256 ![] bcast_S_S100000x256),
    TRef.binary (TRef.of (T := ⟨S100000x256, .f32⟩) main_v336) (TRef.of (T := ⟨S100000x256, .f32⟩) main_call12_v0) (TRef.of (T := ⟨S100000x256, .f32⟩) main_v337) maximumf ]

/-- The buffers stretch 13 writes. -/
abbrev s13_W : List (Ref sig .tc) := [main_c_82, main_v312, main_v313, main_c_83, main_v314, main_v315, main_v316, main_v317, main_v318, main_cst_84, main_v319, main_c_85, main_v320, main_v321, main_c_86, main_v322, main_v323, main_v324, main_v325, main_v326, main_c_87, main_v327, main_v328, main_c_88, main_v329, main_v330, main_v331, main_v332, main_v333, main_v334, main_v335, main_v336, main_call12_cst, main_call12_v0, main_v337]

theorem s13_writes : (s13 : List (HloOp τ sig (Elt F))).Forall fun op =>
    op.writes ⊆ (s13_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 13 does not write keeps its contents through it. -/
theorem s13_keep (W : Valuation τ sig (Elt F)) (r : Ref sig .tc) (h : r ∉ s13_W) :
    after s13 W (Proc.devRef .tc r) = W (Proc.devRef .tc r) :=
  after_of_writes_sub s13 _ s13_writes h

/-- Stretch 13 leaves one round of the recurrence of what it read at its last buffer. -/
theorem s13_res (W : Valuation τ sig (Elt Ideal)) :
    after (s13 (F := Ideal)) W (Proc.devRef .tc main_v337)
      = Mpn.unmat (Mpn.round Mpn.zero
          (Mpn.rows (W (Proc.devRef .tc main_arg1)) (W (Proc.devRef .tc main_arg2)) (W (Proc.devRef .tc main_arg3)))
          (Mpn.mat (W (Proc.devRef .tc main_arg6))) (Mpn.mat (W (Proc.devRef .tc main_arg0))) (Mpn.mat (W (Proc.devRef .tc main_v311)))) := by
  simp only [s13]
  after_results_simp
  exact round_eq _ _ _ _ _ _

/-! ### Stretch 14 -/

/-- The operations of stretch 14, in order. -/
abbrev s14 : List (HloOp τ sig (Elt F)) :=
  [ nullary main_c_89 (constantI S_ 32 0#32),
    unary main_c_89 main_v338 (broadcastInDim S50000x6 ![] bcast_S_S50000x6 : (⟨S_, .i32⟩ : BufTy).Contents (Elt F) → (⟨S50000x6, .i32⟩ : BufTy).Contents (Elt F)),
    binary main_arg1 main_v338 main_v339 (cmpi .slt : (⟨S50000x6, .i32⟩ : BufTy).Contents (Elt F) → (⟨S50000x6, .i32⟩ : BufTy).Contents (Elt F) → (⟨S50000x6, .i1⟩ : BufTy).Contents (Elt F)),
    nullary main_c_90 (constantI S_ 32 100000#32),
    unary main_c_90 main_v340 (broadcastInDim S50000x6 ![] bcast_S_S50000x6 : (⟨S_, .i32⟩ : BufTy).Contents (Elt F) → (⟨S50000x6, .i32⟩ : BufTy).Contents (Elt F)),
    binary main_arg1 main_v340 main_v341 (addi : (⟨S50000x6, .i32⟩ : BufTy).Contents (Elt F) → (⟨S50000x6, .i32⟩ : BufTy).Contents (Elt F) → (⟨S50000x6, .i32⟩ : BufTy).Contents (Elt F)),
    ternary main_v339 main_v341 main_arg1 main_v342 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v342 main_v343 (broadcastInDim S50000x6x1 ![0, 1] bcast_S50000x6_S50000x6x1_0_1 : (⟨S50000x6, .i32⟩ : BufTy).Contents (Elt F) → (⟨S50000x6x1, .i32⟩ : BufTy).Contents (Elt F)),
    binary main_v337 main_v343 main_v344 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_91 (constant S_ .f32 0x00000000#32),
    binary main_v344 main_cst_91 main_v345 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_92 (constantI S_ 32 0#32),
    unary main_c_92 main_v346 (broadcastInDim S100000 ![] bcast_S_S100000 : (⟨S_, .i32⟩ : BufTy).Contents (Elt F) → (⟨S100000, .i32⟩ : BufTy).Contents (Elt F)),
    binary main_arg2 main_v346 main_v347 (cmpi .slt : (⟨S100000, .i32⟩ : BufTy).Contents (Elt F) → (⟨S100000, .i32⟩ : BufTy).Contents (Elt F) → (⟨S100000, .i1⟩ : BufTy).Contents (Elt F)),
    nullary main_c_93 (constantI S_ 32 50000#32),
    unary main_c_93 main_v348 (broadcastInDim S100000 ![] bcast_S_S100000 : (⟨S_, .i32⟩ : BufTy).Contents (Elt F) → (⟨S100000, .i32⟩ : BufTy).Contents (Elt F)),
    binary main_arg2 main_v348 main_v349 (addi : (⟨S100000, .i32⟩ : BufTy).Contents (Elt F) → (⟨S100000, .i32⟩ : BufTy).Contents (Elt F) → (⟨S100000, .i32⟩ : BufTy).Contents (Elt F)),
    ternary main_v347 main_v349 main_arg2 main_v350 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v350 main_v351 (broadcastInDim S100000x1 ![0] bcast_S100000_S100000x1_0 : (⟨S100000, .i32⟩ : BufTy).Contents (Elt F) → (⟨S100000x1, .i32⟩ : BufTy).Contents (Elt F)),
    binary main_v345 main_v351 main_v352 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_94 (constantI S_ 32 0#32),
    unary main_c_94 main_v353 (broadcastInDim S100000 ![] bcast_S_S100000 : (⟨S_, .i32⟩ : BufTy).Contents (Elt F) → (⟨S100000, .i32⟩ : BufTy).Contents (Elt F)),
    binary main_arg3 main_v353 main_v354 (cmpi .slt : (⟨S100000, .i32⟩ : BufTy).Contents (Elt F) → (⟨S100000, .i32⟩ : BufTy).Contents (Elt F) → (⟨S100000, .i1⟩ : BufTy).Contents (Elt F)),
    nullary main_c_95 (constantI S_ 32 100000#32),
    unary main_c_95 main_v355 (broadcastInDim S100000 ![] bcast_S_S100000 : (⟨S_, .i32⟩ : BufTy).Contents (Elt F) → (⟨S100000, .i32⟩ : BufTy).Contents (Elt F)),
    binary main_arg3 main_v355 main_v356 (addi : (⟨S100000, .i32⟩ : BufTy).Contents (Elt F) → (⟨S100000, .i32⟩ : BufTy).Contents (Elt F) → (⟨S100000, .i32⟩ : BufTy).Contents (Elt F)),
    ternary main_v354 main_v356 main_arg3 main_v357 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v357 main_v358 (broadcastInDim S100000x1 ![0] bcast_S100000_S100000x1_0 : (⟨S100000, .i32⟩ : BufTy).Contents (Elt F) → (⟨S100000x1, .i32⟩ : BufTy).Contents (Elt F)),
    binary main_v337 main_v358 main_v359 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v352 main_v359 main_v360 (subf : (⟨S100000x256, .f32⟩ : BufTy).Contents (Elt F) → (⟨S100000x256, .f32⟩ : BufTy).Contents (Elt F) → (⟨S100000x256, .f32⟩ : BufTy).Contents (Elt F)),
    binary main_v360 main_arg6 main_v361 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v361 main_v362 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x256, .f32⟩) main_call13_v0) (broadcastInDim S100000x256 ![] bcast_S_S100000x256),
    TRef.binary (TRef.of (T := ⟨S100000x256, .f32⟩) main_v362) (TRef.of (T := ⟨S100000x256, .f32⟩) main_call13_v0) (TRef.of (T := ⟨S100000x256, .f32⟩) main_v363) maximumf ]

/-- The buffers stretch 14 writes. -/
abbrev s14_W : List (Ref sig .tc) := [main_c_89, main_v338, main_v339, main_c_90, main_v340, main_v341, main_v342, main_v343, main_v344, main_cst_91, main_v345, main_c_92, main_v346, main_v347, main_c_93, main_v348, main_v349, main_v350, main_v351, main_v352, main_c_94, main_v353, main_v354, main_c_95, main_v355, main_v356, main_v357, main_v358, main_v359, main_v360, main_v361, main_v362, main_call13_cst, main_call13_v0, main_v363]

theorem s14_writes : (s14 : List (HloOp τ sig (Elt F))).Forall fun op =>
    op.writes ⊆ (s14_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 14 does not write keeps its contents through it. -/
theorem s14_keep (W : Valuation τ sig (Elt F)) (r : Ref sig .tc) (h : r ∉ s14_W) :
    after s14 W (Proc.devRef .tc r) = W (Proc.devRef .tc r) :=
  after_of_writes_sub s14 _ s14_writes h

/-- Stretch 14 leaves one round of the recurrence of what it read at its last buffer. -/
theorem s14_res (W : Valuation τ sig (Elt Ideal)) :
    after (s14 (F := Ideal)) W (Proc.devRef .tc main_v363)
      = Mpn.unmat (Mpn.round Mpn.zero
          (Mpn.rows (W (Proc.devRef .tc main_arg1)) (W (Proc.devRef .tc main_arg2)) (W (Proc.devRef .tc main_arg3)))
          (Mpn.mat (W (Proc.devRef .tc main_arg6))) (Mpn.mat (W (Proc.devRef .tc main_arg0))) (Mpn.mat (W (Proc.devRef .tc main_v337)))) := by
  simp only [s14]
  after_results_simp
  exact round_eq _ _ _ _ _ _

/-! ### Stretch 15 -/

/-- The operations of stretch 15, in order. -/
abbrev s15 : List (HloOp τ sig (Elt F)) :=
  [ nullary main_c_96 (constantI S_ 32 0#32),
    unary main_c_96 main_v364 (broadcastInDim S50000x6 ![] bcast_S_S50000x6 : (⟨S_, .i32⟩ : BufTy).Contents (Elt F) → (⟨S50000x6, .i32⟩ : BufTy).Contents (Elt F)),
    binary main_arg1 main_v364 main_v365 (cmpi .slt : (⟨S50000x6, .i32⟩ : BufTy).Contents (Elt F) → (⟨S50000x6, .i32⟩ : BufTy).Contents (Elt F) → (⟨S50000x6, .i1⟩ : BufTy).Contents (Elt F)),
    nullary main_c_97 (constantI S_ 32 100000#32),
    unary main_c_97 main_v366 (broadcastInDim S50000x6 ![] bcast_S_S50000x6 : (⟨S_, .i32⟩ : BufTy).Contents (Elt F) → (⟨S50000x6, .i32⟩ : BufTy).Contents (Elt F)),
    binary main_arg1 main_v366 main_v367 (addi : (⟨S50000x6, .i32⟩ : BufTy).Contents (Elt F) → (⟨S50000x6, .i32⟩ : BufTy).Contents (Elt F) → (⟨S50000x6, .i32⟩ : BufTy).Contents (Elt F)),
    ternary main_v365 main_v367 main_arg1 main_v368 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)),
    unary main_v368 main_v369 (broadcastInDim S50000x6x1 ![0, 1] bcast_S50000x6_S50000x6x1_0_1 : (⟨S50000x6, .i32⟩ : BufTy).Contents (Elt F) → (⟨S50000x6x1, .i32⟩ : BufTy).Contents (Elt F)),
    binary main_v363 main_v369 main_v370 ((fun x i => Host.gather gather_S100000x256_S50000x6x1_S50000x6x256_2_0_n_n_0_2_1256 x i) : (⟨S100000x256, .f32⟩ : BufTy).Contents (Elt F) → (⟨S50000x6x1, .i32⟩ : BufTy).Contents (Elt F) → (⟨S50000x6x256, .f32⟩ : BufTy).Contents (Elt F)),
    nullary main_cst_98 (constant S_ .f32 0x00000000#32),
    binary main_v370 main_cst_98 main_v371 ((fun x v => Host.reduceAdd x v reducesTo_S50000x6x256_S50000x256_d1 h_S_) : (⟨S50000x6x256, .f32⟩ : BufTy).Contents (Elt F) → (⟨S_, .f32⟩ : BufTy).Contents (Elt F) → (⟨S50000x256, .f32⟩ : BufTy).Contents (Elt F)),
    nullary main_c_99 (constantI S_ 32 0#32),
    unary main_c_99 main_v372 (broadcastInDim S100000 ![] bcast_S_S100000 : (⟨S_, .i32⟩ : BufTy).Contents (Elt F) → (⟨S100000, .i32⟩ : BufTy).Contents (Elt F)),
    binary main_arg2 main_v372 main_v373 (cmpi .slt : (⟨S100000, .i32⟩ : BufTy).Contents (Elt F) → (⟨S100000, .i32⟩ : BufTy).Contents (Elt F) → (⟨S100000, .i1⟩ : BufTy).Contents (Elt F)),
    nullary main_c_100 (constantI S_ 32 50000#32),
    unary main_c_100 main_v374 (broadcastInDim S100000 ![] bcast_S_S100000 : (⟨S_, .i32⟩ : BufTy).Contents (Elt F) → (⟨S100000, .i32⟩ : BufTy).Contents (Elt F)),
    binary main_arg2 main_v374 main_v375 (addi : (⟨S100000, .i32⟩ : BufTy).Contents (Elt F) → (⟨S100000, .i32⟩ : BufTy).Contents (Elt F) → (⟨S100000, .i32⟩ : BufTy).Contents (Elt F)),
    ternary main_v373 main_v375 main_arg2 main_v376 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v376 main_v377 (broadcastInDim S100000x1 ![0] bcast_S100000_S100000x1_0 : (⟨S100000, .i32⟩ : BufTy).Contents (Elt F) → (⟨S100000x1, .i32⟩ : BufTy).Contents (Elt F)),
    binary main_v371 main_v377 main_v378 ((fun x i => Host.gather gather_S50000x256_S100000x1_S100000x256_1_0_n_n_0_1_1256 x i) : (⟨S50000x256, .f32⟩ : BufTy).Contents (Elt F) → (⟨S100000x1, .i32⟩ : BufTy).Contents (Elt F) → (⟨S100000x256, .f32⟩ : BufTy).Contents (Elt F)),
    nullary main_c_101 (constantI S_ 32 0#32),
    unary main_c_101 main_v379 (broadcastInDim S100000 ![] bcast_S_S100000 : (⟨S_, .i32⟩ : BufTy).Contents (Elt F) → (⟨S100000, .i32⟩ : BufTy).Contents (Elt F)),
    binary main_arg3 main_v379 main_v380 (cmpi .slt : (⟨S100000, .i32⟩ : BufTy).Contents (Elt F) → (⟨S100000, .i32⟩ : BufTy).Contents (Elt F) → (⟨S100000, .i1⟩ : BufTy).Contents (Elt F)),
    nullary main_c_102 (constantI S_ 32 100000#32),
    unary main_c_102 main_v381 (broadcastInDim S100000 ![] bcast_S_S100000 : (⟨S_, .i32⟩ : BufTy).Contents (Elt F) → (⟨S100000, .i32⟩ : BufTy).Contents (Elt F)),
    binary main_arg3 main_v381 main_v382 (addi : (⟨S100000, .i32⟩ : BufTy).Contents (Elt F) → (⟨S100000, .i32⟩ : BufTy).Contents (Elt F) → (⟨S100000, .i32⟩ : BufTy).Contents (Elt F)),
    ternary main_v380 main_v382 main_arg3 main_v383 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v383 main_v384 (broadcastInDim S100000x1 ![0] bcast_S100000_S100000x1_0 : (⟨S100000, .i32⟩ : BufTy).Contents (Elt F) → (⟨S100000x1, .i32⟩ : BufTy).Contents (Elt F)),
    binary main_v363 main_v384 main_v385 ((fun x i => Host.gather gather_S100000x256_S100000x1_S100000x256_1_0_n_n_0_1_1256 x i) : (⟨S100000x256, .f32⟩ : BufTy).Contents (Elt F) → (⟨S100000x1, .i32⟩ : BufTy).Contents (Elt F) → (⟨S100000x256, .f32⟩ : BufTy).Contents (Elt F)),
    binary main_v378 main_v385 main_v386 (subf : (⟨S100000x256, .f32⟩ : BufTy).Contents (Elt F) → (⟨S100000x256, .f32⟩ : BufTy).Contents (Elt F) → (⟨S100000x256, .f32⟩ : BufTy).Contents (Elt F)),
    binary main_v386 main_arg6 main_v387 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    binary main_arg0 main_v387 main_v388 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call14_cst) (constant S_ .f32 0x00000000#32),
    TRef.unary (TRef.of (T := ⟨S_, .f32⟩) main_call14_cst) (TRef.of (T := ⟨S100000x256, .f32⟩) main_call14_v0) (broadcastInDim S100000x256 ![] bcast_S_S100000x256),
    TRef.binary (TRef.of (T := ⟨S100000x256, .f32⟩) main_v388) (TRef.of (T := ⟨S100000x256, .f32⟩) main_call14_v0) (TRef.of (T := ⟨S100000x256, .f32⟩) main_v389) maximumf ]

/-- The buffers stretch 15 writes. -/
abbrev s15_W : List (Ref sig .tc) := [main_c_96, main_v364, main_v365, main_c_97, main_v366, main_v367, main_v368, main_v369, main_v370, main_cst_98, main_v371, main_c_99, main_v372, main_v373, main_c_100, main_v374, main_v375, main_v376, main_v377, main_v378, main_c_101, main_v379, main_v380, main_c_102, main_v381, main_v382, main_v383, main_v384, main_v385, main_v386, main_v387, main_v388, main_call14_cst, main_call14_v0, main_v389]

theorem s15_writes : (s15 : List (HloOp τ sig (Elt F))).Forall fun op =>
    op.writes ⊆ (s15_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩

/-- A buffer stretch 15 does not write keeps its contents through it. -/
theorem s15_keep (W : Valuation τ sig (Elt F)) (r : Ref sig .tc) (h : r ∉ s15_W) :
    after s15 W (Proc.devRef .tc r) = W (Proc.devRef .tc r) :=
  after_of_writes_sub s15 _ s15_writes h

/-- Stretch 15 leaves one round of the recurrence of what it read at its last buffer. -/
theorem s15_res (W : Valuation τ sig (Elt Ideal)) :
    after (s15 (F := Ideal)) W (Proc.devRef .tc main_v389)
      = Mpn.unmat (Mpn.round Mpn.zero
          (Mpn.rows (W (Proc.devRef .tc main_arg1)) (W (Proc.devRef .tc main_arg2)) (W (Proc.devRef .tc main_arg3)))
          (Mpn.mat (W (Proc.devRef .tc main_arg6))) (Mpn.mat (W (Proc.devRef .tc main_arg0))) (Mpn.mat (W (Proc.devRef .tc main_v363)))) := by
  simp only [s15]
  after_results_simp
  exact round_eq _ _ _ _ _ _

/-! ## The fifteen stretches composed -/

set_option maxRecDepth 200000 in
/-- The program's operations are the fifteen stretches, in order. -/
theorem ops_eq : (ops : List (HloOp τ sig (Elt F))) = s1 ++ (s2 ++ (s3 ++ (s4 ++ (s5 ++ (s6 ++ (s7 ++ (s8 ++ (s9 ++ (s10 ++ (s11 ++ (s12 ++ (s13 ++ (s14 ++ (s15)))))))))))))) := rfl

/-- The contents after the whole program: the stretches' folds, one inside the other. -/
theorem after_ops (V : Valuation τ sig (Elt F)) :
    after ops V = after s15 (after s14 (after s13 (after s12 (after s11 (after s10 (after s9 (after s8 (after s7 (after s6 (after s5 (after s4 (after s3 (after s2 (after s1 V)))))))))))))) := by
  rw [ops_eq]
  simp only [after_append]

/-- After the whole program each chain's last buffer holds five rounds from the features through its weight, and the
    seven arguments are as they were. -/
theorem vals (V0 : Valuation τ sig (Elt Ideal)) :
    after (ops (F := Ideal)) V0 (Proc.devRef .tc main_v129) = Mpn.result (V0 (Proc.devRef .tc main_arg0)) (V0 (Proc.devRef .tc main_arg1)) (V0 (Proc.devRef .tc main_arg2)) (V0 (Proc.devRef .tc main_arg3)) (V0 (Proc.devRef .tc main_arg4))
    ∧ after (ops (F := Ideal)) V0 (Proc.devRef .tc main_v259) = Mpn.result (V0 (Proc.devRef .tc main_arg0)) (V0 (Proc.devRef .tc main_arg1)) (V0 (Proc.devRef .tc main_arg2)) (V0 (Proc.devRef .tc main_arg3)) (V0 (Proc.devRef .tc main_arg5))
    ∧ after (ops (F := Ideal)) V0 (Proc.devRef .tc main_v389) = Mpn.result (V0 (Proc.devRef .tc main_arg0)) (V0 (Proc.devRef .tc main_arg1)) (V0 (Proc.devRef .tc main_arg2)) (V0 (Proc.devRef .tc main_arg3)) (V0 (Proc.devRef .tc main_arg6))
    ∧ after (ops (F := Ideal)) V0 (Proc.devRef .tc main_arg0) = V0 (Proc.devRef .tc main_arg0)
    ∧ after (ops (F := Ideal)) V0 (Proc.devRef .tc main_arg1) = V0 (Proc.devRef .tc main_arg1)
    ∧ after (ops (F := Ideal)) V0 (Proc.devRef .tc main_arg2) = V0 (Proc.devRef .tc main_arg2)
    ∧ after (ops (F := Ideal)) V0 (Proc.devRef .tc main_arg3) = V0 (Proc.devRef .tc main_arg3)
    ∧ after (ops (F := Ideal)) V0 (Proc.devRef .tc main_arg4) = V0 (Proc.devRef .tc main_arg4)
    ∧ after (ops (F := Ideal)) V0 (Proc.devRef .tc main_arg5) = V0 (Proc.devRef .tc main_arg5)
    ∧ after (ops (F := Ideal)) V0 (Proc.devRef .tc main_arg6) = V0 (Proc.devRef .tc main_arg6) := by
  rw [after_ops]
  -- stretch 1
  have a1_0 := s1_keep V0 main_arg0 (by decide)
  have a1_1 := s1_keep V0 main_arg1 (by decide)
  have a1_2 := s1_keep V0 main_arg2 (by decide)
  have a1_3 := s1_keep V0 main_arg3 (by decide)
  have a1_4 := s1_keep V0 main_arg4 (by decide)
  have a1_5 := s1_keep V0 main_arg5 (by decide)
  have a1_6 := s1_keep V0 main_arg6 (by decide)
  have r1 : after (s1 (F := Ideal)) V0 (Proc.devRef .tc main_v25) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg4))) (Mpn.mat (V0 (Proc.devRef .tc main_arg0))) 1) := by
    exact s1_res V0
  generalize after (s1 (F := Ideal)) V0 = V1 at *
  -- stretch 2
  have a2_0 := (s2_keep V1 main_arg0 (by decide)).trans a1_0
  have a2_1 := (s2_keep V1 main_arg1 (by decide)).trans a1_1
  have a2_2 := (s2_keep V1 main_arg2 (by decide)).trans a1_2
  have a2_3 := (s2_keep V1 main_arg3 (by decide)).trans a1_3
  have a2_4 := (s2_keep V1 main_arg4 (by decide)).trans a1_4
  have a2_5 := (s2_keep V1 main_arg5 (by decide)).trans a1_5
  have a2_6 := (s2_keep V1 main_arg6 (by decide)).trans a1_6
  have r2 : after (s2 (F := Ideal)) V1 (Proc.devRef .tc main_v51) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg4))) (Mpn.mat (V0 (Proc.devRef .tc main_arg0))) 2) := by
    have h := s2_res V1
    rw [a1_0, a1_1, a1_2, a1_3, a1_4, r1] at h
    exact h
  clear a1_0 a1_1 a1_2 a1_3 a1_4 a1_5 a1_6 r1
  generalize after (s2 (F := Ideal)) V1 = V2 at *
  -- stretch 3
  have a3_0 := (s3_keep V2 main_arg0 (by decide)).trans a2_0
  have a3_1 := (s3_keep V2 main_arg1 (by decide)).trans a2_1
  have a3_2 := (s3_keep V2 main_arg2 (by decide)).trans a2_2
  have a3_3 := (s3_keep V2 main_arg3 (by decide)).trans a2_3
  have a3_4 := (s3_keep V2 main_arg4 (by decide)).trans a2_4
  have a3_5 := (s3_keep V2 main_arg5 (by decide)).trans a2_5
  have a3_6 := (s3_keep V2 main_arg6 (by decide)).trans a2_6
  have r3 : after (s3 (F := Ideal)) V2 (Proc.devRef .tc main_v77) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg4))) (Mpn.mat (V0 (Proc.devRef .tc main_arg0))) 3) := by
    have h := s3_res V2
    rw [a2_0, a2_1, a2_2, a2_3, a2_4, r2] at h
    exact h
  clear a2_0 a2_1 a2_2 a2_3 a2_4 a2_5 a2_6 r2
  generalize after (s3 (F := Ideal)) V2 = V3 at *
  -- stretch 4
  have a4_0 := (s4_keep V3 main_arg0 (by decide)).trans a3_0
  have a4_1 := (s4_keep V3 main_arg1 (by decide)).trans a3_1
  have a4_2 := (s4_keep V3 main_arg2 (by decide)).trans a3_2
  have a4_3 := (s4_keep V3 main_arg3 (by decide)).trans a3_3
  have a4_4 := (s4_keep V3 main_arg4 (by decide)).trans a3_4
  have a4_5 := (s4_keep V3 main_arg5 (by decide)).trans a3_5
  have a4_6 := (s4_keep V3 main_arg6 (by decide)).trans a3_6
  have r4 : after (s4 (F := Ideal)) V3 (Proc.devRef .tc main_v103) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg4))) (Mpn.mat (V0 (Proc.devRef .tc main_arg0))) 4) := by
    have h := s4_res V3
    rw [a3_0, a3_1, a3_2, a3_3, a3_4, r3] at h
    exact h
  clear a3_0 a3_1 a3_2 a3_3 a3_4 a3_5 a3_6 r3
  generalize after (s4 (F := Ideal)) V3 = V4 at *
  -- stretch 5
  have a5_0 := (s5_keep V4 main_arg0 (by decide)).trans a4_0
  have a5_1 := (s5_keep V4 main_arg1 (by decide)).trans a4_1
  have a5_2 := (s5_keep V4 main_arg2 (by decide)).trans a4_2
  have a5_3 := (s5_keep V4 main_arg3 (by decide)).trans a4_3
  have a5_4 := (s5_keep V4 main_arg4 (by decide)).trans a4_4
  have a5_5 := (s5_keep V4 main_arg5 (by decide)).trans a4_5
  have a5_6 := (s5_keep V4 main_arg6 (by decide)).trans a4_6
  have r5 : after (s5 (F := Ideal)) V4 (Proc.devRef .tc main_v129) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg4))) (Mpn.mat (V0 (Proc.devRef .tc main_arg0))) 5) := by
    have h := s5_res V4
    rw [a4_0, a4_1, a4_2, a4_3, a4_4, r4] at h
    exact h
  clear a4_0 a4_1 a4_2 a4_3 a4_4 a4_5 a4_6 r4
  generalize after (s5 (F := Ideal)) V4 = V5 at *
  -- stretch 6
  have a6_0 := (s6_keep V5 main_arg0 (by decide)).trans a5_0
  have a6_1 := (s6_keep V5 main_arg1 (by decide)).trans a5_1
  have a6_2 := (s6_keep V5 main_arg2 (by decide)).trans a5_2
  have a6_3 := (s6_keep V5 main_arg3 (by decide)).trans a5_3
  have a6_4 := (s6_keep V5 main_arg4 (by decide)).trans a5_4
  have a6_5 := (s6_keep V5 main_arg5 (by decide)).trans a5_5
  have a6_6 := (s6_keep V5 main_arg6 (by decide)).trans a5_6
  have q1_6 := (s6_keep V5 main_v129 (by decide)).trans r5
  have r6 : after (s6 (F := Ideal)) V5 (Proc.devRef .tc main_v155) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg5))) (Mpn.mat (V0 (Proc.devRef .tc main_arg0))) 1) := by
    have h := s6_res V5
    rw [a5_0, a5_1, a5_2, a5_3, a5_5] at h
    exact h
  clear a5_0 a5_1 a5_2 a5_3 a5_4 a5_5 a5_6
  generalize after (s6 (F := Ideal)) V5 = V6 at *
  -- stretch 7
  have a7_0 := (s7_keep V6 main_arg0 (by decide)).trans a6_0
  have a7_1 := (s7_keep V6 main_arg1 (by decide)).trans a6_1
  have a7_2 := (s7_keep V6 main_arg2 (by decide)).trans a6_2
  have a7_3 := (s7_keep V6 main_arg3 (by decide)).trans a6_3
  have a7_4 := (s7_keep V6 main_arg4 (by decide)).trans a6_4
  have a7_5 := (s7_keep V6 main_arg5 (by decide)).trans a6_5
  have a7_6 := (s7_keep V6 main_arg6 (by decide)).trans a6_6
  have q1_7 := (s7_keep V6 main_v129 (by decide)).trans q1_6
  have r7 : after (s7 (F := Ideal)) V6 (Proc.devRef .tc main_v181) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg5))) (Mpn.mat (V0 (Proc.devRef .tc main_arg0))) 2) := by
    have h := s7_res V6
    rw [a6_0, a6_1, a6_2, a6_3, a6_5, r6] at h
    exact h
  clear a6_0 a6_1 a6_2 a6_3 a6_4 a6_5 a6_6 q1_6 r6
  generalize after (s7 (F := Ideal)) V6 = V7 at *
  -- stretch 8
  have a8_0 := (s8_keep V7 main_arg0 (by decide)).trans a7_0
  have a8_1 := (s8_keep V7 main_arg1 (by decide)).trans a7_1
  have a8_2 := (s8_keep V7 main_arg2 (by decide)).trans a7_2
  have a8_3 := (s8_keep V7 main_arg3 (by decide)).trans a7_3
  have a8_4 := (s8_keep V7 main_arg4 (by decide)).trans a7_4
  have a8_5 := (s8_keep V7 main_arg5 (by decide)).trans a7_5
  have a8_6 := (s8_keep V7 main_arg6 (by decide)).trans a7_6
  have q1_8 := (s8_keep V7 main_v129 (by decide)).trans q1_7
  have r8 : after (s8 (F := Ideal)) V7 (Proc.devRef .tc main_v207) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg5))) (Mpn.mat (V0 (Proc.devRef .tc main_arg0))) 3) := by
    have h := s8_res V7
    rw [a7_0, a7_1, a7_2, a7_3, a7_5, r7] at h
    exact h
  clear a7_0 a7_1 a7_2 a7_3 a7_4 a7_5 a7_6 q1_7 r7
  generalize after (s8 (F := Ideal)) V7 = V8 at *
  -- stretch 9
  have a9_0 := (s9_keep V8 main_arg0 (by decide)).trans a8_0
  have a9_1 := (s9_keep V8 main_arg1 (by decide)).trans a8_1
  have a9_2 := (s9_keep V8 main_arg2 (by decide)).trans a8_2
  have a9_3 := (s9_keep V8 main_arg3 (by decide)).trans a8_3
  have a9_4 := (s9_keep V8 main_arg4 (by decide)).trans a8_4
  have a9_5 := (s9_keep V8 main_arg5 (by decide)).trans a8_5
  have a9_6 := (s9_keep V8 main_arg6 (by decide)).trans a8_6
  have q1_9 := (s9_keep V8 main_v129 (by decide)).trans q1_8
  have r9 : after (s9 (F := Ideal)) V8 (Proc.devRef .tc main_v233) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg5))) (Mpn.mat (V0 (Proc.devRef .tc main_arg0))) 4) := by
    have h := s9_res V8
    rw [a8_0, a8_1, a8_2, a8_3, a8_5, r8] at h
    exact h
  clear a8_0 a8_1 a8_2 a8_3 a8_4 a8_5 a8_6 q1_8 r8
  generalize after (s9 (F := Ideal)) V8 = V9 at *
  -- stretch 10
  have a10_0 := (s10_keep V9 main_arg0 (by decide)).trans a9_0
  have a10_1 := (s10_keep V9 main_arg1 (by decide)).trans a9_1
  have a10_2 := (s10_keep V9 main_arg2 (by decide)).trans a9_2
  have a10_3 := (s10_keep V9 main_arg3 (by decide)).trans a9_3
  have a10_4 := (s10_keep V9 main_arg4 (by decide)).trans a9_4
  have a10_5 := (s10_keep V9 main_arg5 (by decide)).trans a9_5
  have a10_6 := (s10_keep V9 main_arg6 (by decide)).trans a9_6
  have q1_10 := (s10_keep V9 main_v129 (by decide)).trans q1_9
  have r10 : after (s10 (F := Ideal)) V9 (Proc.devRef .tc main_v259) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg5))) (Mpn.mat (V0 (Proc.devRef .tc main_arg0))) 5) := by
    have h := s10_res V9
    rw [a9_0, a9_1, a9_2, a9_3, a9_5, r9] at h
    exact h
  clear a9_0 a9_1 a9_2 a9_3 a9_4 a9_5 a9_6 q1_9 r9
  generalize after (s10 (F := Ideal)) V9 = V10 at *
  -- stretch 11
  have a11_0 := (s11_keep V10 main_arg0 (by decide)).trans a10_0
  have a11_1 := (s11_keep V10 main_arg1 (by decide)).trans a10_1
  have a11_2 := (s11_keep V10 main_arg2 (by decide)).trans a10_2
  have a11_3 := (s11_keep V10 main_arg3 (by decide)).trans a10_3
  have a11_4 := (s11_keep V10 main_arg4 (by decide)).trans a10_4
  have a11_5 := (s11_keep V10 main_arg5 (by decide)).trans a10_5
  have a11_6 := (s11_keep V10 main_arg6 (by decide)).trans a10_6
  have q1_11 := (s11_keep V10 main_v129 (by decide)).trans q1_10
  have q2_11 := (s11_keep V10 main_v259 (by decide)).trans r10
  have r11 : after (s11 (F := Ideal)) V10 (Proc.devRef .tc main_v285) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg6))) (Mpn.mat (V0 (Proc.devRef .tc main_arg0))) 1) := by
    have h := s11_res V10
    rw [a10_0, a10_1, a10_2, a10_3, a10_6] at h
    exact h
  clear a10_0 a10_1 a10_2 a10_3 a10_4 a10_5 a10_6 q1_10
  generalize after (s11 (F := Ideal)) V10 = V11 at *
  -- stretch 12
  have a12_0 := (s12_keep V11 main_arg0 (by decide)).trans a11_0
  have a12_1 := (s12_keep V11 main_arg1 (by decide)).trans a11_1
  have a12_2 := (s12_keep V11 main_arg2 (by decide)).trans a11_2
  have a12_3 := (s12_keep V11 main_arg3 (by decide)).trans a11_3
  have a12_4 := (s12_keep V11 main_arg4 (by decide)).trans a11_4
  have a12_5 := (s12_keep V11 main_arg5 (by decide)).trans a11_5
  have a12_6 := (s12_keep V11 main_arg6 (by decide)).trans a11_6
  have q1_12 := (s12_keep V11 main_v129 (by decide)).trans q1_11
  have q2_12 := (s12_keep V11 main_v259 (by decide)).trans q2_11
  have r12 : after (s12 (F := Ideal)) V11 (Proc.devRef .tc main_v311) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg6))) (Mpn.mat (V0 (Proc.devRef .tc main_arg0))) 2) := by
    have h := s12_res V11
    rw [a11_0, a11_1, a11_2, a11_3, a11_6, r11] at h
    exact h
  clear a11_0 a11_1 a11_2 a11_3 a11_4 a11_5 a11_6 q1_11 q2_11 r11
  generalize after (s12 (F := Ideal)) V11 = V12 at *
  -- stretch 13
  have a13_0 := (s13_keep V12 main_arg0 (by decide)).trans a12_0
  have a13_1 := (s13_keep V12 main_arg1 (by decide)).trans a12_1
  have a13_2 := (s13_keep V12 main_arg2 (by decide)).trans a12_2
  have a13_3 := (s13_keep V12 main_arg3 (by decide)).trans a12_3
  have a13_4 := (s13_keep V12 main_arg4 (by decide)).trans a12_4
  have a13_5 := (s13_keep V12 main_arg5 (by decide)).trans a12_5
  have a13_6 := (s13_keep V12 main_arg6 (by decide)).trans a12_6
  have q1_13 := (s13_keep V12 main_v129 (by decide)).trans q1_12
  have q2_13 := (s13_keep V12 main_v259 (by decide)).trans q2_12
  have r13 : after (s13 (F := Ideal)) V12 (Proc.devRef .tc main_v337) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg6))) (Mpn.mat (V0 (Proc.devRef .tc main_arg0))) 3) := by
    have h := s13_res V12
    rw [a12_0, a12_1, a12_2, a12_3, a12_6, r12] at h
    exact h
  clear a12_0 a12_1 a12_2 a12_3 a12_4 a12_5 a12_6 q1_12 q2_12 r12
  generalize after (s13 (F := Ideal)) V12 = V13 at *
  -- stretch 14
  have a14_0 := (s14_keep V13 main_arg0 (by decide)).trans a13_0
  have a14_1 := (s14_keep V13 main_arg1 (by decide)).trans a13_1
  have a14_2 := (s14_keep V13 main_arg2 (by decide)).trans a13_2
  have a14_3 := (s14_keep V13 main_arg3 (by decide)).trans a13_3
  have a14_4 := (s14_keep V13 main_arg4 (by decide)).trans a13_4
  have a14_5 := (s14_keep V13 main_arg5 (by decide)).trans a13_5
  have a14_6 := (s14_keep V13 main_arg6 (by decide)).trans a13_6
  have q1_14 := (s14_keep V13 main_v129 (by decide)).trans q1_13
  have q2_14 := (s14_keep V13 main_v259 (by decide)).trans q2_13
  have r14 : after (s14 (F := Ideal)) V13 (Proc.devRef .tc main_v363) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg6))) (Mpn.mat (V0 (Proc.devRef .tc main_arg0))) 4) := by
    have h := s14_res V13
    rw [a13_0, a13_1, a13_2, a13_3, a13_6, r13] at h
    exact h
  clear a13_0 a13_1 a13_2 a13_3 a13_4 a13_5 a13_6 q1_13 q2_13 r13
  generalize after (s14 (F := Ideal)) V13 = V14 at *
  -- stretch 15
  have a15_0 := (s15_keep V14 main_arg0 (by decide)).trans a14_0
  have a15_1 := (s15_keep V14 main_arg1 (by decide)).trans a14_1
  have a15_2 := (s15_keep V14 main_arg2 (by decide)).trans a14_2
  have a15_3 := (s15_keep V14 main_arg3 (by decide)).trans a14_3
  have a15_4 := (s15_keep V14 main_arg4 (by decide)).trans a14_4
  have a15_5 := (s15_keep V14 main_arg5 (by decide)).trans a14_5
  have a15_6 := (s15_keep V14 main_arg6 (by decide)).trans a14_6
  have q1_15 := (s15_keep V14 main_v129 (by decide)).trans q1_14
  have q2_15 := (s15_keep V14 main_v259 (by decide)).trans q2_14
  have r15 : after (s15 (F := Ideal)) V14 (Proc.devRef .tc main_v389) = Mpn.unmat (Mpn.chain Mpn.zero (Mpn.rows (V0 (Proc.devRef .tc main_arg1)) (V0 (Proc.devRef .tc main_arg2)) (V0 (Proc.devRef .tc main_arg3))) (Mpn.mat (V0 (Proc.devRef .tc main_arg6))) (Mpn.mat (V0 (Proc.devRef .tc main_arg0))) 5) := by
    have h := s15_res V14
    rw [a14_0, a14_1, a14_2, a14_3, a14_6, r14] at h
    exact h
  clear a14_0 a14_1 a14_2 a14_3 a14_4 a14_5 a14_6 q1_14 q2_14 r14
  generalize after (s15 (F := Ideal)) V14 = V15 at *
  exact ⟨q1_15, q2_15, r15, a15_0, a15_1, a15_2, a15_3, a15_4, a15_5, a15_6⟩

/-! ## The run -/

/-- On every device, from any memory with zero counters: every weakly fair execution of the reference program
    terminates with each of its three results five rounds of the recurrence from the features, through the first, the
    second and the third weight, and with its seven arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v129) = Mpn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v259) = Mpn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_v389) = Mpn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c =>
      have hv := vals (launchContents m c)
      ⟨(h c main_v129).trans hv.1, (h c main_v259).trans hv.2.1, (h c main_v389).trans hv.2.2.1,
        (h c main_arg0).trans hv.2.2.2.1, (h c main_arg1).trans hv.2.2.2.2.1, (h c main_arg2).trans hv.2.2.2.2.2.1,
        (h c main_arg3).trans hv.2.2.2.2.2.2.1, (h c main_arg4).trans hv.2.2.2.2.2.2.2.1,
        (h c main_arg5).trans hv.2.2.2.2.2.2.2.2.1, (h c main_arg6).trans hv.2.2.2.2.2.2.2.2.2⟩)
    (run_seq scopedRefs_eq scopedSems_eq (defs (F := Ideal)) main (fun _ => ops) main_eq (fun _ => ops_sub) m ρ)

end Cert.Hand.Ref

end
-- ==== Proof.lean ====
/-
  The certificate: the kernel program and its idealization run to the end, fault nowhere and leave their arguments
  unchanged; so does the reference; and at the ideal instance — floats the extended reals, every operation exact — the
  kernel's three results and the reference's three results are the same arrays.

  Both programs compute, for each of three weights, five rounds of one message-passing recurrence over 100000 bonds
  (Proof/Spec.lean): a bond's new message is its own features plus, pushed through the weight, the summed messages of
  the six bonds coming into its source atom less its reverse bond's message, cut off below at zero.  The reference runs
  the three chains one after the other, each on rows 256 wide (Proof/RefValue.lean, Proof/RefRun.lean).  The kernel runs
  them side by side on rows 768 wide: the host's row lookups, additions and subtraction act on every column alike
  (Proof/HostPre.lean), the fused update multiplies each chain's 256 columns by that chain's own weight
  (Proof/ColBlock.lean, Proof/KI/Value*.lean), so one joint round is the three chains' rounds side by side
  (Proof/Joint.lean), and after five joint rounds the three cuts are the three chains' results
  (Proof/KernelValue.lean).  The two sides add the six incoming messages in different groupings and contract the
  weight as the same finite sum; on the extended reals addition is commutative and associative, so nothing here needs
  the inputs to be finite.  The ideal pass rewrote nothing, so the idealization is the kernel's own text read at the
  ideal instance.
-/
import proofs.«177690_j24824910971087_2_alg».proof.Defs
import proofs.«177690_j24824910971087_2_alg».proof.Proof.Gen.Kernel
import proofs.«177690_j24824910971087_2_alg».proof.Proof.Gen.KernelIdeal
import proofs.«177690_j24824910971087_2_alg».proof.Proof.Gen.ReferenceIdeal
import proofs.«177690_j24824910971087_2_alg».proof.Proof.Gen.Pre_finite_inputs
import proofs.«177690_j24824910971087_2_alg».proof.Proof.K.Run
import proofs.«177690_j24824910971087_2_alg».proof.Proof.KI.Run
import proofs.«177690_j24824910971087_2_alg».proof.Proof.KernelValue
import proofs.«177690_j24824910971087_2_alg».proof.Proof.RefRun
import Idealize.ShloMosaic.Adequacy
import Idealize.ShloMosaic.Init

noncomputable section

namespace Cert.Proof

open Idealize.ShloMosaic Idealize.SL.Sem Cert.Hand

/-- The word-level kernel program runs and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- So does the reference: its run, the results dropped. -/
theorem frame_referenceIdeal : Cert.frame_ReferenceIdeal := fun m ρ _ =>
  (θ_run Cert.ReferenceIdeal.defs _ _).mono (fun _ h c => (h c).2.2.2) (Cert.Hand.Ref.run m ρ)

/-- The ideal pass rewrote nothing. -/
theorem preserves : Cert.preserves_Kernel_KernelIdeal := trivial

/-- From memories agreeing on the arguments both programs end with each chain's five rounds of the one recurrence. -/
theorem algebraic : Cert.algebraic_KernelIdeal_ReferenceIdeal := by
  intro m ρ m' ρ' _ hagree
  refine ⟨_, _, _, Cert.KernelIdeal.HandV.run_value m ρ, ?_⟩
  refine (θ_run Cert.ReferenceIdeal.defs _ _).mono (fun _ h c => ?_) (Cert.Hand.Ref.run m' ρ')
  obtain ⟨h0, h1, h2, hargs⟩ := h c
  obtain ⟨e0, e1, e2, e3, e4, e5, e6⟩ := hagree c
  refine ⟨h0.trans ?_, h1.trans ?_, h2.trans ?_, hargs⟩
  · rw [e0, e1, e2, e3, e4]
  · rw [e0, e1, e2, e3, e5]
  · rw [e0, e1, e2, e3, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
